-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 6144]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1536, 768]⟩ ⟨2, ![6144, 768]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S768x768 : Shape := ⟨2, ![768, 768]⟩
abbrev S768x1536 : Shape := ⟨2, ![768, 1536]⟩
abbrev S1536x768 : Shape := ⟨2, ![1536, 768]⟩
abbrev S_ : Shape := ⟨0, ![]⟩

class Facts : Prop where
  bcast_S_S768x768 : S_.BroadcastsInDim S768x768 (![] : Fin 0 → Fin S768x768.rank)
  reducesTo_S768x768_S_d0_1 : S768x768.ReducesTo [0, 1] S_
  h_S_ : 0 < S_.numel
  bcast_S_S768x1536 : S_.BroadcastsInDim S768x1536 (![] : Fin 0 → Fin S768x1536.rank)
  reducesTo_S768x1536_S_d0_1 : S768x1536.ReducesTo [0, 1] S_
  bcast_S_S1536x768 : S_.BroadcastsInDim S1536x768 (![] : Fin 0 → Fin S1536x768.rank)
  reducesTo_S1536x768_S_d0_1 : S1536x768.ReducesTo [0, 1] S_

variable [Facts]

def fn {F : FTy → Type} [FloatOps F] (main_arg0 : FVec F S768x768 .f32) (main_arg1 : FVec F S768x1536 .f32) (main_arg2 : FVec F S1536x768 .f32) : IVec S_ 1 :=
  let main_v0 : FVec F S768x768 .f32 := Host.absf main_arg0
  let main_cst : FVec F S_ .f32 := constant S_ .f32 0x7F800000#32
  let main_v1 : FVec F S768x768 .f32 := broadcastInDim S768x768 ![] bcast_S_S768x768 main_cst
  let main_v2 : IVec S768x768 1 := cmpf .olt main_v0 main_v1
  let main_c : IVec S_ 1 := constantI S_ 1 1#1
  let main_v3 : IVec S_ 1 := (fun x v => Host.reduce IntOp.andi x v reducesTo_S768x768_S_d0_1 h_S_) main_v2 main_c
  let main_v4 : FVec F S768x1536 .f32 := Host.absf main_arg1
  let main_cst_0 : FVec F S_ .f32 := constant S_ .f32 0x7F800000#32
  let main_v5 : FVec F S768x1536 .f32 := broadcastInDim S768x1536 ![] bcast_S_S768x1536 main_cst_0
  let main_v6 : IVec S768x1536 1 := cmpf .olt main_v4 main_v5
  let main_c_1 : IVec S_ 1 := constantI S_ 1 1#1
  let main_v7 : IVec S_ 1 := (fun x v => Host.reduce IntOp.andi x v reducesTo_S768x1536_S_d0_1 h_S_) main_v6 main_c_1
  let main_v8 : IVec S_ 1 := andi main_v3 main_v7
  let main_v9 : FVec F S1536x768 .f32 := Host.absf main_arg2
  let main_cst_2 : FVec F S_ .f32 := constant S_ .f32 0x7F800000#32
  let main_v10 : FVec F S1536x768 .f32 := broadcastInDim S1536x768 ![] bcast_S_S1536x768 main_cst_2
  let main_v11 : IVec S1536x768 1 := cmpf .olt main_v9 main_v10
  let main_c_3 : IVec S_ 1 := constantI S_ 1 1#1
  let main_v12 : IVec S_ 1 := (fun x v => Host.reduce IntOp.andi x v reducesTo_S1536x768_S_d0_1 h_S_) main_v11 main_c_3
  let main_v13 : IVec S_ 1 := andi main_v8 main_v12
  main_v13
-- ==== Pre_finite_inputs_ReferenceIdeal.lean ====
abbrev S768x768 : Shape := ⟨2, ![768, 768]⟩
abbrev S768x6144 : Shape := ⟨2, ![768, 6144]⟩
abbrev S6144x768 : Shape := ⟨2, ![6144, 768]⟩
abbrev S_ : Shape := ⟨0, ![]⟩

class Facts : Prop where
  bcast_S_S768x768 : S_.BroadcastsInDim S768x768 (![] : Fin 0 → Fin S768x768.rank)
  reducesTo_S768x768_S_d0_1 : S768x768.ReducesTo [0, 1] S_
  h_S_ : 0 < S_.numel
  bcast_S_S768x6144 : S_.BroadcastsInDim S768x6144 (![] : Fin 0 → Fin S768x6144.rank)
  reducesTo_S768x6144_S_d0_1 : S768x6144.ReducesTo [0, 1] S_
  bcast_S_S6144x768 : S_.BroadcastsInDim S6144x768 (![] : Fin 0 → Fin S6144x768.rank)
  reducesTo_S6144x768_S_d0_1 : S6144x768.ReducesTo [0, 1] S_

variable [Facts]

def fn {F : FTy → Type} [FloatOps F] (main_arg0 : FVec F S768x768 .f32) (main_arg1 : FVec F S768x6144 .f32) (main_arg2 : FVec F S6144x768 .f32) : IVec S_ 1 :=
  let main_v0 : FVec F S768x768 .f32 := Host.absf main_arg0
  let main_cst : FVec F S_ .f32 := constant S_ .f32 0x7F800000#32
  let main_v1 : FVec F S768x768 .f32 := broadcastInDim S768x768 ![] bcast_S_S768x768 main_cst
  let main_v2 : IVec S768x768 1 := cmpf .olt main_v0 main_v1
  let main_c : IVec S_ 1 := constantI S_ 1 1#1
  let main_v3 : IVec S_ 1 := (fun x v => Host.reduce IntOp.andi x v reducesTo_S768x768_S_d0_1 h_S_) main_v2 main_c
  let main_v4 : FVec F S768x6144 .f32 := Host.absf main_arg1
  let main_cst_0 : FVec F S_ .f32 := constant S_ .f32 0x7F800000#32
  let main_v5 : FVec F S768x6144 .f32 := broadcastInDim S768x6144 ![] bcast_S_S768x6144 main_cst_0
  let main_v6 : IVec S768x6144 1 := cmpf .olt main_v4 main_v5
  let main_c_1 : IVec S_ 1 := constantI S_ 1 1#1
  let main_v7 : IVec S_ 1 := (fun x v => Host.reduce IntOp.andi x v reducesTo_S768x6144_S_d0_1 h_S_) main_v6 main_c_1
  let main_v8 : IVec S_ 1 := andi main_v3 main_v7
  let main_v9 : FVec F S6144x768 .f32 := Host.absf main_arg2
  let main_cst_2 : FVec F S_ .f32 := constant S_ .f32 0x7F800000#32
  let main_v10 : FVec F S6144x768 .f32 := broadcastInDim S6144x768 ![] bcast_S_S6144x768 main_cst_2
  let main_v11 : IVec S6144x768 1 := cmpf .olt main_v9 main_v10
  let main_c_3 : IVec S_ 1 := constantI S_ 1 1#1
  let main_v12 : IVec S_ 1 := (fun x v => Host.reduce IntOp.andi x v reducesTo_S6144x768_S_d0_1 h_S_) main_v11 main_c_3
  let main_v13 : IVec S_ 1 := andi main_v8 main_v12
  main_v13
-- ==== Kernel.lean ====
abbrev S768x768 : Shape := ⟨2, ![768, 768]⟩
abbrev S768x1536 : Shape := ⟨2, ![768, 1536]⟩
abbrev S1536x768 : Shape := ⟨2, ![1536, 768]⟩
abbrev S3x192x768 : Shape := ⟨3, ![3, 192, 768]⟩
abbrev S4x96x768 : Shape := ⟨3, ![4, 96, 768]⟩
abbrev S2x96x768 : Shape := ⟨3, ![2, 96, 768]⟩
abbrev S6 : Shape := ⟨1, ![6]⟩
abbrev S_ : Shape := ⟨0, ![]⟩
abbrev S192x768 : Shape := ⟨2, ![192, 768]⟩
abbrev S192x1536 : Shape := ⟨2, ![192, 1536]⟩
abbrev S1x192x768 : Shape := ⟨3, ![1, 192, 768]⟩
abbrev S1 : Shape := ⟨1, ![1]⟩
abbrev S1x96x768 : Shape := ⟨3, ![1, 96, 768]⟩
abbrev S96x768 : Shape := ⟨2, ![96, 768]⟩

abbrev nBuf : Space → Nat
  | .hbm => 4
  | .vmem => 11
  | .smem => 0
  | _ => 0

abbrev bufTy : (tb : Table) → Fin (tcTables nBuf tb) → BufTy
  | .hbm, ⟨0, _⟩ => ⟨S768x768, .f32⟩
  | .hbm, ⟨1, _⟩ => ⟨S768x1536, .f32⟩
  | .hbm, ⟨2, _⟩ => ⟨S1536x768, .f32⟩
  | .hbm, ⟨3, _⟩ => ⟨S768x768, .bf16⟩
  | .local _ .vmem, ⟨0, _⟩ => ⟨S768x768, .f32⟩
  | .local _ .vmem, ⟨1, _⟩ => ⟨S768x1536, .f32⟩
  | .local _ .vmem, ⟨2, _⟩ => ⟨S1536x768, .f32⟩
  | .local _ .vmem, ⟨3, _⟩ => ⟨S768x768, .bf16⟩
  | .local _ .vmem, ⟨4, _⟩ => ⟨S3x192x768, .bf16⟩
  | .local _ .vmem, ⟨5, _⟩ => ⟨S4x96x768, .bf16⟩
  | .local _ .vmem, ⟨6, _⟩ => ⟨S2x96x768, .bf16⟩
  | .local _ .vmem, ⟨7, _⟩ => ⟨S2x96x768, .bf16⟩
  | .local _ .vmem, ⟨8, _⟩ => ⟨S768x768, .bf16⟩
  | .local _ .vmem, ⟨9, _⟩ => ⟨S768x1536, .bf16⟩
  | .local _ .vmem, ⟨10, _⟩ => ⟨S1536x768, .bf16⟩
  | _, _ => ⟨S768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  { ofTc nBuf bufTy 1 28 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k0_off1 (d0 : Dev nD) (c2_i32_26 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v42 : BitVec 32 := Scalar.addi v2 c2_i32_26
  let c4_i32_27 : BitVec 32 := 4#32
  let c0_i32_28 : BitVec 32 := 0#32
  let v43 : BitVec 1 := Scalar.cmpi .eq c4_i32_27 c0_i32_28
  let c1_i32_29 : BitVec 32 := 1#32
  let v44 : BitVec 32 := Scalar.select v43 c1_i32_29 c4_i32_27
  let v45 : BitVec 32 := Scalar.remsi v42 v44
  let c0_i32_31 : BitVec 32 := 0#32
  let v47 : BitVec 1 := Scalar.cmpi .slt v45 c0_i32_31
  let c0_i32_32 : BitVec 32 := 0#32
  let v48 : BitVec 1 := Scalar.cmpi .slt v44 c0_i32_32
  let v49 : BitVec 1 := Scalar.xori v47 v48
  let c0_i32_30 : BitVec 32 := 0#32
  let v46 : BitVec 1 := Scalar.cmpi .ne v45 c0_i32_30
  let v50 : BitVec 1 := Scalar.andi v49 v46
  let v51 : BitVec 32 := Scalar.addi v45 v44
  let v52 : BitVec 32 := Scalar.select v50 v51 v45
  let c192_i32 : BitVec 32 := 192#32
  let v53 : BitVec 32 := Scalar.muli v52 c192_i32
  let v54 : Index := Scalar.indexCast v53
  let c0_33 : Index := 0#32
  ![v54.toNat, 0]
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_51 : BitVec 32 := 1#32
  let v73 : BitVec 32 := Scalar.muli v24 c1_i32_51
  let v74 : BitVec 32 := Scalar.addi c0_i32_52 v73
  v74.toNat
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_60 : BitVec 32 := 1#32
  let v83 : BitVec 32 := Scalar.muli v13 c1_i32_60
  let v84 : BitVec 32 := Scalar.addi c0_i32_61 v83
  v84.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_80 : BitVec 32 := 1#32
  let v107 : BitVec 32 := Scalar.muli v13 c1_i32_80
  let v108 : BitVec 32 := Scalar.addi c0_i32_81 v107
  v108.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c192_i32_86 : BitVec 32 := 192#32
  let v117 : BitVec 32 := Scalar.muli v24 c192_i32_86
  let v118 : Index := Scalar.indexCast v117
  let c0_87 : Index := 0#32
  ![v118.toNat, 0]
def k0_dev6 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_101 : BitVec 32 := 1#32
  let v131 : BitVec 32 := Scalar.muli v24 c1_i32_101
  let v132 : BitVec 32 := Scalar.addi c0_i32_102 v131
  v132.toNat
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_128 : BitVec 32 := 1#32
  let v157 : BitVec 32 := Scalar.muli v13 c1_i32_128
  let v158 : BitVec 32 := Scalar.addi c0_i32_129 v157
  v158.toNat
def k0_dev8 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_157 : BitVec 32 := 1#32
  let v183 : BitVec 32 := Scalar.muli v24 c1_i32_157
  let v184 : BitVec 32 := Scalar.addi c0_i32_158 v183
  v184.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_163 : BitVec 32 := 192#32
  let v193 : BitVec 32 := Scalar.muli v2 c192_i32_163
  let v194 : Index := Scalar.indexCast v193
  let c0_164 : Index := 0#32
  ![v194.toNat, 0]
def k0_off4 (d0 : Dev nD) (c0_i32_199 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_198 : BitVec 32 := 192#32
  let v229 : BitVec 32 := Scalar.muli v2 c192_i32_198
  let v230 : BitVec 32 := Scalar.addi v229 c0_i32_199
  let v231 : Index := Scalar.indexCast v230
  let c0_200 : Index := 0#32
  ![v231.toNat, 0]
def k0_off5 (d0 : Dev nD) (c0_i32_204 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_203 : BitVec 32 := 192#32
  let v235 : BitVec 32 := Scalar.muli v2 c192_i32_203
  let v236 : BitVec 32 := Scalar.addi v235 c0_i32_204
  let c0_i32_209 : BitVec 32 := 0#32
  ![v236.toNat, 0]
def k0_dev9 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_207 : BitVec 32 := 1#32
  let v237 : BitVec 32 := Scalar.muli v13 c1_i32_207
  let v238 : BitVec 32 := Scalar.addi c0_i32_208 v237
  v238.toNat
def k0_dev10 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_217 : BitVec 32 := 1#32
  let v249 : BitVec 32 := Scalar.muli v24 c1_i32_217
  let v250 : BitVec 32 := Scalar.addi c0_i32_218 v249
  v250.toNat
def k0_dev11 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_255 : BitVec 32 := 1#32
  let v291 : BitVec 32 := Scalar.muli v13 c1_i32_255
  let v292 : BitVec 32 := Scalar.addi c0_i32_256 v291
  v292.toNat
def k0_dev12 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_265 : BitVec 32 := 1#32
  let v303 : BitVec 32 := Scalar.muli v24 c1_i32_265
  let v304 : BitVec 32 := Scalar.addi c0_i32_266 v303
  v304.toNat
def k0_off6 (d0 : Dev nD) (c1_i32_0 : BitVec 32) (c96_i32_270 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c192_i32_269 : BitVec 32 := 192#32
  let v311 : BitVec 32 := Scalar.muli v13 c192_i32_269
  let v312 : BitVec 32 := Scalar.addi v311 c96_i32_270
  let c0_i32_275 : BitVec 32 := 0#32
  ![v312.toNat, 0]
def k0_dev13 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_283 : BitVec 32 := 1#32
  let v323 : BitVec 32 := Scalar.muli v24 c1_i32_283
  let v324 : BitVec 32 := Scalar.addi c0_i32_284 v323
  v324.toNat
def k0_off7 (d0 : Dev nD) (c0_i32_288 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c192_i32_287 : BitVec 32 := 192#32
  let v331 : BitVec 32 := Scalar.muli v24 c192_i32_287
  let v332 : BitVec 32 := Scalar.addi v331 c0_i32_288
  let c0_i32_293 : BitVec 32 := 0#32
  ![v332.toNat, 0]
def k0_dev14 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_301 : BitVec 32 := 1#32
  let v343 : BitVec 32 := Scalar.muli v13 c1_i32_301
  let v344 : BitVec 32 := Scalar.addi c0_i32_302 v343
  v344.toNat
abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  hamt_2 : (2#32 : BitVec 32).msb = false
  inb_S768x768_S768x768_0_0 : ∀ a, (![0, 0] : Fin 2 → Nat) a + S768x768.size a ≤ S768x768.size a
  h_S768x768 : 0 < S768x768.numel
  shapeCasts_S768x768_S768x768 : S768x768.ShapeCasts S768x768
  bitsLt_bf16_f32 : FTy.bits .bf16 < FTy.bits .f32
  packedbf16_S768x768_S768x768_0_0 : (Rect.unit (s := S768x768) ![0, 0] S768x768.size inb_S768x768_S768x768_0_0).PackedRows (EltTy.packing .bf16)
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  packedbf16_S768x1536_S768x1536_0_0 : (Rect.unit (s := S768x1536) ![0, 0] S768x1536.size inb_S768x1536_S768x1536_0_0).PackedRows (EltTy.packing .bf16)
  h_S192x768 : 0 < S192x768.numel
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  packedbf16_S1536x768_S1536x768_0_0 : (Rect.unit (s := S1536x768) ![0, 0] S1536x768.size inb_S1536x768_S1536x768_0_0).PackedRows (EltTy.packing .bf16)
  inb_S3x192x768_S1x192x768_0_0_0 : ∀ a, (![0, 0, 0] : Fin 3 → Nat) a + S1x192x768.size a ≤ S3x192x768.size a
  h_S1x192x768 : 0 < S1x192x768.numel
  shapeCasts_S1x192x768_S192x768 : S1x192x768.ShapeCasts S192x768
  shapeCasts_S192x768_S1x192x768 : S192x768.ShapeCasts S1x192x768
  packedbf16_S3x192x768_S1x192x768_0_0_0 : (Rect.unit (s := S3x192x768) ![0, 0, 0] S1x192x768.size inb_S3x192x768_S1x192x768_0_0_0).PackedRows (EltTy.packing .bf16)
  inb_S6_S1_0 : ∀ a, (![0] : Fin 1 → Nat) a + S1.size a ≤ S6.size a
  squeezes_S1_S_ : S1.Squeezes S_
  inb_S6_S1_4 : ∀ a, (![4] : Fin 1 → Nat) a + S1.size a ≤ S6.size a
  inb_S2x96x768_S1x96x768_0_0_0 : ∀ a, (![0, 0, 0] : Fin 3 → Nat) a + S1x96x768.size a ≤ S2x96x768.size a
  squeezes_S1x96x768_S96x768 : S1x96x768.Squeezes S96x768
  inb_S3x192x768_S1x96x768_0_0_0 : ∀ a, (![0, 0, 0] : Fin 3 → Nat) a + S1x96x768.size a ≤ S3x192x768.size a
  wordsbf16_S3x192x768_S1x96x768_0_0_0 : (Rect.unit (s := S3x192x768) ![0, 0, 0] S1x96x768.size inb_S3x192x768_S1x96x768_0_0_0).WholeWords (EltTy.packing .bf16)
  wordsbf16_S2x96x768_S1x96x768_0_0_0 : (Rect.unit (s := S2x96x768) ![0, 0, 0] S1x96x768.size inb_S2x96x768_S1x96x768_0_0_0).WholeWords (EltTy.packing .bf16)
  inb_S6_S1_1 : ∀ a, (![1] : Fin 1 → Nat) a + S1.size a ≤ S6.size a
  inb_S6_S1_5 : ∀ a, (![5] : Fin 1 → Nat) a + S1.size a ≤ S6.size a
  inb_S2x96x768_S1x96x768_1_0_0 : ∀ a, (![1, 0, 0] : Fin 3 → Nat) a + S1x96x768.size a ≤ S2x96x768.size a
  inb_S3x192x768_S1x96x768_0_96_0 : ∀ a, (![0, 96, 0] : Fin 3 → Nat) a + S1x96x768.size a ≤ S3x192x768.size a
  wordsbf16_S3x192x768_S1x96x768_0_96_0 : (Rect.unit (s := S3x192x768) ![0, 96, 0] S1x96x768.size inb_S3x192x768_S1x96x768_0_96_0).WholeWords (EltTy.packing .bf16)
  wordsbf16_S2x96x768_S1x96x768_1_0_0 : (Rect.unit (s := S2x96x768) ![1, 0, 0] S1x96x768.size inb_S2x96x768_S1x96x768_1_0_0).WholeWords (EltTy.packing .bf16)
  inb_S3x192x768_S1x192x768_1_0_0 : ∀ a, (![1, 0, 0] : Fin 3 → Nat) a + S1x192x768.size a ≤ S3x192x768.size a
  packedbf16_S3x192x768_S1x192x768_1_0_0 : (Rect.unit (s := S3x192x768) ![1, 0, 0] S1x192x768.size inb_S3x192x768_S1x192x768_1_0_0).PackedRows (EltTy.packing .bf16)
  inb_S6_S1_2 : ∀ a, (![2] : Fin 1 → Nat) a + S1.size a ≤ S6.size a
  inb_S4x96x768_S1x96x768_0_0_0 : ∀ a, (![0, 0, 0] : Fin 3 → Nat) a + S1x96x768.size a ≤ S4x96x768.size a
  inb_S3x192x768_S1x96x768_1_0_0 : ∀ a, (![1, 0, 0] : Fin 3 → Nat) a + S1x96x768.size a ≤ S3x192x768.size a
  wordsbf16_S3x192x768_S1x96x768_1_0_0 : (Rect.unit (s := S3x192x768) ![1, 0, 0] S1x96x768.size inb_S3x192x768_S1x96x768_1_0_0).WholeWords (EltTy.packing .bf16)
  wordsbf16_S4x96x768_S1x96x768_0_0_0 : (Rect.unit (s := S4x96x768) ![0, 0, 0] S1x96x768.size inb_S4x96x768_S1x96x768_0_0_0).WholeWords (EltTy.packing .bf16)
  inb_S3x192x768_S1x192x768_2_0_0 : ∀ a, (![2, 0, 0] : Fin 3 → Nat) a + S1x192x768.size a ≤ S3x192x768.size a
  packedbf16_S3x192x768_S1x192x768_2_0_0 : (Rect.unit (s := S3x192x768) ![2, 0, 0] S1x192x768.size inb_S3x192x768_S1x192x768_2_0_0).PackedRows (EltTy.packing .bf16)
  inb_S4x96x768_S1x96x768_2_0_0 : ∀ a, (![2, 0, 0] : Fin 3 → Nat) a + S1x96x768.size a ≤ S4x96x768.size a
  inb_S3x192x768_S1x96x768_2_96_0 : ∀ a, (![2, 96, 0] : Fin 3 → Nat) a + S1x96x768.size a ≤ S3x192x768.size a
  wordsbf16_S3x192x768_S1x96x768_2_96_0 : (Rect.unit (s := S3x192x768) ![2, 96, 0] S1x96x768.size inb_S3x192x768_S1x96x768_2_96_0).WholeWords (EltTy.packing .bf16)
  wordsbf16_S4x96x768_S1x96x768_2_0_0 : (Rect.unit (s := S4x96x768) ![2, 0, 0] S1x96x768.size inb_S4x96x768_S1x96x768_2_0_0).WholeWords (EltTy.packing .bf16)
  inb_S3x192x768_S1x96x768_1_96_0 : ∀ a, (![1, 96, 0] : Fin 3 → Nat) a + S1x96x768.size a ≤ S3x192x768.size a
  h_S1x96x768 : 0 < S1x96x768.numel
  shapeCasts_S1x96x768_S96x768 : S1x96x768.ShapeCasts S96x768
  shapeCasts_S96x768_S1x96x768 : S96x768.ShapeCasts S1x96x768
  packedbf16_S2x96x768_S1x96x768_0_0_0 : (Rect.unit (s := S2x96x768) ![0, 0, 0] S1x96x768.size inb_S2x96x768_S1x96x768_0_0_0).PackedRows (EltTy.packing .bf16)
  inb_S6_S1_3 : ∀ a, (![3] : Fin 1 → Nat) a + S1.size a ≤ S6.size a
  inb_S4x96x768_S1x96x768_3_0_0 : ∀ a, (![3, 0, 0] : Fin 3 → Nat) a + S1x96x768.size a ≤ S4x96x768.size a
  wordsbf16_S4x96x768_S1x96x768_3_0_0 : (Rect.unit (s := S4x96x768) ![3, 0, 0] S1x96x768.size inb_S4x96x768_S1x96x768_3_0_0).WholeWords (EltTy.packing .bf16)
  inb_S3x192x768_S1x96x768_2_0_0 : ∀ a, (![2, 0, 0] : Fin 3 → Nat) a + S1x96x768.size a ≤ S3x192x768.size a
  packedbf16_S2x96x768_S1x96x768_1_0_0 : (Rect.unit (s := S2x96x768) ![1, 0, 0] S1x96x768.size inb_S2x96x768_S1x96x768_1_0_0).PackedRows (EltTy.packing .bf16)
  inb_S4x96x768_S1x96x768_1_0_0 : ∀ a, (![1, 0, 0] : Fin 3 → Nat) a + S1x96x768.size a ≤ S4x96x768.size a
  wordsbf16_S4x96x768_S1x96x768_1_0_0 : (Rect.unit (s := S4x96x768) ![1, 0, 0] S1x96x768.size inb_S4x96x768_S1x96x768_1_0_0).WholeWords (EltTy.packing .bf16)
  slices_S192x768_o0_0_S96x768 : S192x768.Slices ![0, 0] S96x768
  h_S96x768 : 0 < S96x768.numel
  slices_S192x768_o96_0_S96x768 : S192x768.Slices ![96, 0] S96x768
  dot_S192x768_S768x1536_S192x1536_1_0_0_1_n_n_wf : DotDims.WF S192x768 S768x1536 S192x1536 [1] [0] [0] [1] [] []
  dot_S192x1536_S1536x768_S192x768_1_0_0_1_n_n_wf : DotDims.WF S192x1536 S1536x768 S192x768 [1] [0] [0] [1] [] []
  hcc0_scratch7 : 4 + S6.numel ≤ 28
  hcc0_scratch8 : 10 + S6.numel ≤ 28
  hcc0_scratch9 : 16 + S6.numel ≤ 28
  hcc0_scratch10 : 22 + S6.numel ≤ 28
  k0_dev1_lt : ∀ d0 : Dev nD, (k0_dev1 d0) < nD
  k0_dev2_lt : ∀ d0 : Dev nD, (k0_dev2 d0) < nD
  k0_off1_inb : ∀ d0 : Dev nD, ∀ (r : Fin 2), ∀ a, (k0_off1 d0 (BitVec.ofNat 32 (1 + r.val))) a + S192x768.size a ≤ S768x768.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_off2_inb : ∀ d0 : Dev nD, ∀ a, (k0_off2 d0) a + S192x768.size a ≤ S768x768.size a
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_off3_inb : ∀ d0 : Dev nD, ∀ a, (k0_off3 d0) a + S192x768.size a ≤ S768x768.size a
  k0_off4_inb : ∀ d0 : Dev nD, ∀ (r : Fin 2), ∀ a, (k0_off4 d0 (BitVec.ofNat 32 (96 * r.val))) a + S96x768.size a ≤ S768x768.size a
  k0_off4_packedbf16 : ∀ d0 : Dev nD, ∀ (r : Fin 2), (Rect.unit (s := S768x768) (k0_off4 d0 (BitVec.ofNat 32 (96 * r.val))) S96x768.size (k0_off4_inb d0 r)).PackedRows (EltTy.packing .bf16)
  k0_off5_inb : ∀ d0 : Dev nD, ∀ (r : Fin 2), ∀ a, (k0_off5 d0 (BitVec.ofNat 32 (96 * r.val))) a + S96x768.size a ≤ S768x768.size a
  k0_off5_wordsbf16 : ∀ d0 : Dev nD, ∀ (r : Fin 2), (Rect.unit (s := S768x768) (k0_off5 d0 (BitVec.ofNat 32 (96 * r.val))) S96x768.size (k0_off5_inb d0 r)).WholeWords (EltTy.packing .bf16)
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off6_inb : ∀ d0 : Dev nD, ∀ (r₁ : Fin 2) (r₂ : Fin 2), ∀ a, (k0_off6 d0 (BitVec.ofNat 32 (1 + r₁.val)) (BitVec.ofNat 32 (96 * r₂.val))) a + S96x768.size a ≤ S768x768.size a
  k0_off6_wordsbf16 : ∀ d0 : Dev nD, ∀ (r₁ : Fin 2) (r₂ : Fin 2), (Rect.unit (s := S768x768) (k0_off6 d0 (BitVec.ofNat 32 (1 + r₁.val)) (BitVec.ofNat 32 (96 * r₂.val))) S96x768.size (k0_off6_inb d0 r₁ r₂)).WholeWords (EltTy.packing .bf16)
  k0_dev13_lt : ∀ d0 : Dev nD, (k0_dev13 d0) < nD
  k0_off7_inb : ∀ d0 : Dev nD, ∀ (r : Fin 2), ∀ a, (k0_off7 d0 (BitVec.ofNat 32 (96 * r.val))) a + S96x768.size a ≤ S768x768.size a
  k0_off7_wordsbf16 : ∀ d0 : Dev nD, ∀ (r : Fin 2), (Rect.unit (s := S768x768) (k0_off7 d0 (BitVec.ofNat 32 (96 * r.val))) S96x768.size (k0_off7_inb d0 r)).WholeWords (EltTy.packing .bf16)
  k0_dev14_lt : ∀ d0 : Dev nD, (k0_dev14 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch7 : DmaSems sig S6 := SemArray.consecutive 4 S6 hcc0_scratch7
abbrev cc0_scratch8 : DmaSems sig S6 := SemArray.consecutive 10 S6 hcc0_scratch8
abbrev cc0_scratch9 : DmaSems sig S6 := SemArray.consecutive 16 S6 hcc0_scratch9
abbrev cc0_scratch10 : DmaSems sig S6 := SemArray.consecutive 22 S6 hcc0_scratch10
def dot_S192x768_S768x1536_S192x1536_1_0_0_1_n_n : DotDims S192x768 S768x1536 S192x1536 where
  lhsContracting := [1]
  rhsContracting := [0]
  lhsNonContracting := [0]
  rhsNonContracting := [1]
  lhsBatch := []
  rhsBatch := []
  wf := dot_S192x768_S768x1536_S192x1536_1_0_0_1_n_n_wf
def dot_S192x1536_S1536x768_S192x768_1_0_0_1_n_n : DotDims S192x1536 S1536x768 S192x768 where
  lhsContracting := [1]
  rhsContracting := [0]
  lhsNonContracting := [0]
  rhsNonContracting := [1]
  lhsBatch := []
  rhsBatch := []
  wf := dot_S192x1536_S1536x768_S192x768_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S768x768 : Shape := ⟨2, ![768, 768]⟩
abbrev S768x6144 : Shape := ⟨2, ![768, 6144]⟩
abbrev S6144x768 : Shape := ⟨2, ![6144, 768]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S768x768, .f32⟩
  | .hbm, ⟨1, _⟩ => ⟨S768x6144, .f32⟩
  | .hbm, ⟨2, _⟩ => ⟨S6144x768, .f32⟩
  | .hbm, ⟨3, _⟩ => ⟨S768x6144, .f32⟩
  | .hbm, ⟨4, _⟩ => ⟨S_, .f32⟩
  | .hbm, ⟨5, _⟩ => ⟨S768x6144, .f32⟩
  | .hbm, ⟨6, _⟩ => ⟨S768x6144, .f32⟩
  | .hbm, ⟨7, _⟩ => ⟨S768x768, .f32⟩
  | .hbm, ⟨8, _⟩ => ⟨S768x768, .bf16⟩
  | _, _ => ⟨S768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S768x6144 : S_.BroadcastsInDim S768x6144 (![] : Fin 0 → Fin S768x6144.rank)
  bitsLt_bf16_f32 : FTy.bits .bf16 < FTy.bits .f32
  dot_S768x768_S768x6144_S768x6144_1_0_0_1_n_n_wf : DotDims.WF S768x768 S768x6144 S768x6144 [1] [0] [0] [1] [] []
  dot_S768x6144_S6144x768_S768x768_1_0_0_1_n_n_wf : DotDims.WF S768x6144 S6144x768 S768x768 [1] [0] [0] [1] [] []

variable [Facts₀]

def dot_S768x768_S768x6144_S768x6144_1_0_0_1_n_n : DotDims S768x768 S768x6144 S768x6144 where
  lhsContracting := [1]
  rhsContracting := [0]
  lhsNonContracting := [0]
  rhsNonContracting := [1]
  lhsBatch := []
  rhsBatch := []
  wf := dot_S768x768_S768x6144_S768x6144_1_0_0_1_n_n_wf
def dot_S768x6144_S6144x768_S768x768_1_0_0_1_n_n : DotDims S768x6144 S6144x768 S768x768 where
  lhsContracting := [1]
  rhsContracting := [0]
  lhsNonContracting := [0]
  rhsNonContracting := [1]
  lhsBatch := []
  rhsBatch := []
  wf := dot_S768x6144_S6144x768_S768x768_1_0_0_1_n_n_wf

class Facts : Prop extends Facts₀ where

variable [Facts]
-- ==== Proof.Spec.lean ====
/-
  The mathematics both programs compute, over the extended reals: a two-layer perceptron with a rectifier,
  rows `r`, output column `q`:  sum over the hidden axis of  max (x·w1) 0 · w2.
-/
import Idealize.ShloMosaic.PureOps.Ideal

noncomputable section

namespace Cert.Spec

/-- Entry `(r, q)` of `relu (x · w1) · w2` for `x : [R, K]`, `w1 : [K, H]`, `w2 : [H, O]`. -/
def mlpAt {R K H O : ℕ} (x : Fin R → Fin K → EReal) (w1 : Fin K → Fin H → EReal) (w2 : Fin H → Fin O → EReal)
    (r : Fin R) (q : Fin O) : EReal :=
  ∑ h : Fin H, max (∑ j : Fin K, x r j * w1 j h) 0 * w2 h q

end Cert.Spec

end
-- ==== Proof.RefValue.lean ====
/-
  The reference side of the value proof. The one-device reference computes, at the ideal values (every float an
  extended real, format changes the identity, `maximumf` the lattice `max`),
      out[r, q] = ∑ k < 6144, max (∑ j < 768, x[r, j] * w1[j, k]) 0 * w2[k, q],
  and the hidden axis `k` of 6144 is four consecutive blocks of 1536, `k = d * 1536 + h`. Block `d` of `w1`'s columns
  and block `d` of `w2`'s rows are what device `d` of the partitioned program holds, so the reference's entry is the
  sum over the four devices of the same perceptron over that device's blocks.
-/
import proofs.«900459_g7700000000000460_dist_mlp2_tp_i_m768_h1536_out768_v7x_i4_f32_1_alg».proof.Defs
import proofs.«900459_g7700000000000460_dist_mlp2_tp_i_m768_h1536_out768_v7x_i4_f32_1_alg».proof.Proof.Gen.ReferenceIdeal.Read
import proofs.«900459_g7700000000000460_dist_mlp2_tp_i_m768_h1536_out768_v7x_i4_f32_1_alg».proof.Proof.Gen.Pre_finite_inputs_ReferenceIdeal
import proofs.«900459_g7700000000000460_dist_mlp2_tp_i_m768_h1536_out768_v7x_i4_f32_1_alg».proof.Proof.Spec
import Idealize.ShloMosaic.Lib.ValueIdx
import Idealize.ShloMosaic.Lib.Pipeline.Value
import Idealize.ShloMosaic.Lib.Layout
import Idealize.ShloMosaic.PureOps.Ideal.Laws

noncomputable section

open Idealize.ShloMosaic Idealize.SL.Sem
open Idealize.ShloMosaic.ValueIdx (ix2)
open scoped BigOperators

namespace Cert.Proof.RefValue

open Cert.ReferenceIdeal

/-! ## The reference at an index -/

/-- The hidden layer at `(r, k)`: the rectified inner product of row `r` of `x` with column `k` of `w1`,
    `max (∑ j, x[r, j] * w1[j, k]) 0` (the zero is the broadcast f32 literal `0.0`). -/
theorem hidden_at (x : (⟨S768x768, .f32⟩ : BufTy).Contents (Elt Ideal)) (w1 : (⟨S768x6144, .f32⟩ : BufTy).Contents (Elt Ideal))
    (r : Fin 768) (k : Fin 6144) :
    Read.val_main_v2 (F := Ideal) x w1 (ix2 r k) = max (∑ j : Fin 768, x (ix2 r j) * w1 (ix2 j k)) 0 := by
  rw [Read.val_main_v2_apply, Read.val_main_v0_apply, Read.val_main_v1_apply, Read.val_main_cst_apply,
    Ideal.maximumf_def, Ideal.ofBits_def, Ideal.ofBits_zero_f32]
  refine congrArg (fun s => max s (0 : EReal)) (Finset.sum_congr rfl fun j _ => ?_)
  -- the contraction reads `x` at `(r, j)` and `w1` at `(j, k)`
  rw [show Read.lidx_main_v0 (ix2 r k) j = ix2 r j from
        funext fun a => Fin.ext (by match a with | ⟨0, _⟩ => rfl | ⟨1, _⟩ => rfl),
      show Read.ridx_main_v0 (ix2 r k) j = ix2 j k from
        funext fun a => Fin.ext (by match a with | ⟨0, _⟩ => rfl | ⟨1, _⟩ => rfl)]

/-- (1) The reference's result at `(r, q)` is the perceptron over the whole arrays:
    `∑ k < 6144, max (∑ j < 768, x[r, j] * w1[j, k]) 0 * w2[k, q]`; the final conversion to bf16 is the identity. -/
theorem ref_at (x : (⟨S768x768, .f32⟩ : BufTy).Contents (Elt Ideal)) (w1 : (⟨S768x6144, .f32⟩ : BufTy).Contents (Elt Ideal))
    (w2 : (⟨S6144x768, .f32⟩ : BufTy).Contents (Elt Ideal)) (r q : Fin 768) :
    Read.val_main_v4 (F := Ideal) x w1 w2 (ix2 r q)
      = Cert.Spec.mlpAt (fun r j => x (ix2 r j)) (fun j h => w1 (ix2 j h)) (fun h q => w2 (ix2 h q)) r q := by
  rw [Read.val_main_v4_apply, Ideal.truncf_def, Read.val_main_v3_apply]
  unfold Cert.Spec.mlpAt
  refine Finset.sum_congr rfl fun k _ => ?_
  -- the second contraction reads the hidden layer at `(r, k)` and `w2` at `(k, q)`
  rw [show Read.lidx_main_v3 (ix2 r q) k = ix2 r k from
        funext fun a => Fin.ext (by match a with | ⟨0, _⟩ => rfl | ⟨1, _⟩ => rfl),
      show Read.ridx_main_v3 (ix2 r q) k = ix2 k q from
        funext fun a => Fin.ext (by match a with | ⟨0, _⟩ => rfl | ⟨1, _⟩ => rfl),
      hidden_at]

/-! ## The hidden axis in four blocks -/

/-- A sum over `m * n` consecutive indices is the sum over `m` blocks of the sums over the `n` indices of each block:
    index `a * n + b` is the `b`-th of block `a`. -/
theorem sum_blocks_mul {M : Type*} [AddCommMonoid M] (m n : ℕ) (g : Fin (m * n) → M) :
    ∑ k : Fin (m * n), g k
      = ∑ a : Fin m, ∑ b : Fin n, g ⟨a.val * n + b.val, by
          calc a.val * n + b.val < a.val * n + n := Nat.add_lt_add_left b.isLt _
            _ = (a.val + 1) * n := (Nat.succ_mul _ _).symm
            _ ≤ m * n := Nat.mul_le_mul_right _ a.isLt⟩ := by
  rw [← Equiv.sum_comp finProdFinEquiv g, Fintype.sum_prod_type]
  refine Finset.sum_congr rfl fun a _ => Finset.sum_congr rfl fun b _ => congrArg g (Fin.ext ?_)
  show b.val + n * a.val = a.val * n + b.val
  rw [Nat.add_comm, Nat.mul_comm]

/-- (2) The hidden axis of 6144 is four blocks of 1536: `∑ k < 6144, g k = ∑ d < 4, ∑ h < 1536, g (d * 1536 + h)`. -/
theorem sum_blocks {M : Type*} [AddCommMonoid M] (g : Fin 6144 → M) :
    ∑ k : Fin 6144, g k = ∑ d : Fin 4, ∑ h : Fin 1536, g ⟨d.val * 1536 + h.val, by omega⟩ :=
  sum_blocks_mul 4 1536 g

/-- The same with the block's offset written `1536 * d`. -/
theorem sum_blocks' {M : Type*} [AddCommMonoid M] (g : Fin 6144 → M) :
    ∑ k : Fin 6144, g k = ∑ d : Fin 4, ∑ h : Fin 1536, g ⟨1536 * d.val + h.val, by omega⟩ := by
  rw [sum_blocks]
  refine Finset.sum_congr rfl fun d _ => Finset.sum_congr rfl fun h _ => congrArg g (Fin.ext ?_)
  show d.val * 1536 + h.val = 1536 * d.val + h.val
  omega

/-! ## Where a device's blocks lie in the whole arrays -/

/-- Block `d` of `w1` cut along its columns: its entry `(j, h)` is `w1[j, d * 1536 + h]`. -/
theorem block_w1_at (d : Fin 4) (w1 : (⟨S768x6144, .f32⟩ : BufTy).Contents (Elt Ideal)) (j : Fin 768) (h : Fin 1536) :
    (Layout.block ⟨2, ![768, 1536]⟩ ⟨2, ![768, 6144]⟩ 1 4 d w1) (ix2 j h)
      = w1 (ix2 j ⟨d.val * 1536 + h.val, by omega⟩) := by
  rw [Layout.block_apply]
  exact congrArg w1 (funext fun a => Fin.ext (by match a with | ⟨0, _⟩ => rfl | ⟨1, _⟩ => rfl))

/-- Block `d` of `w2` cut along its rows: its entry `(h, q)` is `w2[d * 1536 + h, q]`. -/
theorem block_w2_at (d : Fin 4) (w2 : (⟨S6144x768, .f32⟩ : BufTy).Contents (Elt Ideal)) (h : Fin 1536) (q : Fin 768) :
    (Layout.block ⟨2, ![1536, 768]⟩ ⟨2, ![6144, 768]⟩ 0 4 d w2) (ix2 h q)
      = w2 (ix2 ⟨d.val * 1536 + h.val, by omega⟩ q) := by
  rw [Layout.block_apply]
  exact congrArg w2 (funext fun a => Fin.ext (by match a with | ⟨0, _⟩ => rfl | ⟨1, _⟩ => rfl))

/-! ## The reference as the sum of the four devices' perceptrons -/

/-- (3) The reference's entry `(r, q)` is the sum over the four devices `d` of the perceptron over `x`, block `d` of
    `w1`'s columns and block `d` of `w2`'s rows: the sum over the hidden axis `k < 6144` is split as
    `k = d * 1536 + h`, and the term at `(d, h)` reads `w1[j, d * 1536 + h]` and `w2[d * 1536 + h, q]`, which are the
    blocks' entries `(j, h)` and `(h, q)`. -/
theorem ref_split (x : (⟨S768x768, .f32⟩ : BufTy).Contents (Elt Ideal)) (w1 : (⟨S768x6144, .f32⟩ : BufTy).Contents (Elt Ideal))
    (w2 : (⟨S6144x768, .f32⟩ : BufTy).Contents (Elt Ideal)) (r q : Fin 768) :
    Read.val_main_v4 (F := Ideal) x w1 w2 (ix2 r q)
      = ∑ d : Fin 4, Cert.Spec.mlpAt (fun r j => x (ix2 r j))
          (fun j h => (Layout.block ⟨2, ![768, 1536]⟩ ⟨2, ![768, 6144]⟩ 1 4 d w1) (ix2 j h))
          (fun h q => (Layout.block ⟨2, ![1536, 768]⟩ ⟨2, ![6144, 768]⟩ 0 4 d w2) (ix2 h q)) r q := by
  rw [ref_at]
  unfold Cert.Spec.mlpAt
  beta_reduce
  rw [sum_blocks]
  refine Finset.sum_congr rfl fun d _ => Finset.sum_congr rfl fun h _ => ?_
  rw [block_w2_at]
  refine congrArg (fun s => max s (0 : EReal) * w2 (ix2 ⟨d.val * 1536 + h.val, by omega⟩ q))
    (Finset.sum_congr rfl fun j _ => ?_)
  rw [block_w1_at]

/-! ## The reference's frame -/

/-- (4) The reference runs (terminates, faults nowhere) and its three argument arrays end unchanged: the last three
    conjuncts of its run read back. -/
theorem frame_ri : Cert.frame_ReferenceIdeal := fun m ρ _ =>
  (θ_run Cert.ReferenceIdeal.defs _ _).mono (fun _ h c => (h c).2)
    (Cert.ReferenceIdeal.Value.run (F := Ideal) m ρ)

/-- info: 'Cert.Proof.RefValue.ref_split' depends on axioms: [propext, Classical.choice, Quot.sound] -/
#guard_msgs in #print axioms Cert.Proof.RefValue.ref_split

end Cert.Proof.RefValue

end
-- ==== Proof.Vals.lean ====
/-
  What each buffer of the kernel holds, as pure functions of every device's three argument blocks, at any float
  instance. Device `d` computes, for each chunk `k` of 192 rows of its copy of `x`, the partial product
  `relu (x_k · W1_d) · W2_d` through its own column block of `W1` and row block of `W2`; the four devices' partials of
  chunk `k` are added on device `k` (two of them pre-added by a neighbour on the way), one half of 96 rows at a time, and
  the eight finished half-chunks are then copied to every device.
-/
import proofs.«900459_g7700000000000460_dist_mlp2_tp_i_m768_h1536_out768_v7x_i4_f32_1_alg».proof.Proof.Gen.KernelIdeal.Skeleton
import Idealize.ShloMosaic.Lib.Pipeline.Value
import Idealize.ShloMosaic.Lib.ValueIdx

noncomputable section

namespace Cert.KernelIdeal.Vals

open Cert.KernelIdeal Cert.KernelIdeal.Gen
open Idealize.ShloMosaic

variable {F : FTy → Type} [FloatOps F]

/-! ## The ring of four devices -/

def nxt (c : Dev nD) : Dev nD := ⟨(c.val + 1) % 4, Nat.mod_lt _ (by decide)⟩
def prv (c : Dev nD) : Dev nD := ⟨(c.val + 3) % 4, Nat.mod_lt _ (by decide)⟩
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem nxt_nxt (c : Dev nD) : nxt (nxt c) = opp c := by revert c; decide
theorem prv_prv (c : Dev nD) : prv (prv c) = opp c := by revert c; decide
theorem opp_nxt (c : Dev nD) : opp (nxt c) = prv c := by revert c; decide
theorem opp_prv (c : Dev nD) : opp (prv c) = nxt c := by revert c; decide
theorem opp_opp (c : Dev nD) : opp (opp c) = c := by revert c; decide
theorem nxt_ne_prv (c : Dev nD) : nxt c ≠ prv c := by revert c; decide
theorem nxt_ne (c : Dev nD) : nxt c ≠ c := by revert c; decide
theorem prv_ne (c : Dev nD) : prv c ≠ c := by revert c; decide

/-! ## The values -/

section Values

variable (X : Dev nD → Vec F S768x768 .f32) (W1 : Dev nD → Vec F S768x1536 .f32) (W2 : Dev nD → Vec F S1536x768 .f32)

theorem rows_inb : ∀ k : Dev nD, ∀ a, (![192 * k.val, 0] : Fin 2 → Nat) a + S192x768.size a ≤ S768x768.size a := by decide

/-- The 192 rows of chunk `k`. -/
def rowsRect (k : Dev nD) : Rect S768x768 := Rect.unit (s := S768x768) ![192 * k.val, 0] S192x768.size (rows_inb k)

/-- Device `d`'s copy of `x`, rounded. -/
def xb (d : Dev nD) : FVec F S768x768 .bf16 := k0_pay1 (X d)

/-- Chunk `k` of it, as a load of those rows reads them. -/
def xrows (d k : Dev nD) : Vec F S192x768 .bf16 :=
  (Memref.whole cc0_scratch4 : Memref sig .tc .vmem S768x768 .bf16).view.readAt (Elt F) (rowsRect k).toLoadRect (xb X d)

/-- Device `d`'s partial product for chunk `k`, as stored in a slot of the send buffer. -/
def part (d k : Dev nD) : FVec F S1x192x768 .bf16 := k0_pay6 (xrows X d k) (k0_pay2 (W1 d)) (k0_pay4 (W2 d))

/-- Device `d`'s partial product for its own chunk, kept unrounded. -/
def own (d : Dev nD) : FVec F S192x768 .f32 := k0_pay13 (xrows X d d) (k0_pay2 (W1 d)) (k0_pay4 (W2 d))

theorem slices_lo : S1x192x768.Slices ![0, 0, 0] S1x96x768 := by decide
theorem slices_hi : S1x192x768.Slices ![0, 96, 0] S1x96x768 := by decide

/-- Rows 0–95 of a stored partial. -/
def half0 (Pt : FVec F S1x192x768 .bf16) : FVec F S96x768 .bf16 :=
  shapeCast S96x768 (extractStridedSlice S1x96x768 ![0, 0, 0] Pt slices_lo) shapeCasts_S1x96x768_S96x768
/-- Rows 96–191 of a stored partial. -/
def half1 (Pt : FVec F S1x192x768 .bf16) : FVec F S96x768 .bf16 :=
  shapeCast S96x768 (extractStridedSlice S1x96x768 ![0, 96, 0] Pt slices_hi) shapeCasts_S1x96x768_S96x768

/-- The sum of two half-chunks as a relaying device stores it. -/
def addPay (a b : FVec F S96x768 .bf16) : FVec F S1x96x768 .bf16 :=
  shapeCast S1x96x768 (addf a b) shapeCasts_S96x768_S1x96x768

/-- What device `d` forwards to its right neighbour: the upper half of chunk `d + 1`, its own partial plus its left
    neighbour's. -/
def comb0 (d : Dev nD) : FVec F S96x768 .bf16 :=
  shapeCast S96x768 (addPay (half1 (part X W1 W2 d (nxt d))) (half1 (part X W1 W2 (prv d) (nxt d)))) shapeCasts_S1x96x768_S96x768
/-- What device `d` forwards to its left neighbour: the lower half of chunk `d − 1`, its own partial plus its right
    neighbour's. -/
def comb1 (d : Dev nD) : FVec F S96x768 .bf16 :=
  shapeCast S96x768 (addPay (half0 (part X W1 W2 d (prv d))) (half0 (part X W1 W2 (nxt d) (prv d)))) shapeCasts_S1x96x768_S96x768

/-- The final three-way sum of a lower half: own rows 0–95 plus two received half-chunks. -/
def sum0 (o : FVec F S192x768 .f32) (a b : FVec F S96x768 .bf16) : FVec F S96x768 .bf16 :=
  truncf .bf16 (addf (addf (extractStridedSlice S96x768 ![0, 0] o slices_S192x768_o0_0_S96x768) (extf .f32 a bitsLt_bf16_f32))
    (extf .f32 b bitsLt_bf16_f32)) bitsLt_bf16_f32
/-- The same of an upper half: own rows 96–191. -/
def sum1 (o : FVec F S192x768 .f32) (a b : FVec F S96x768 .bf16) : FVec F S96x768 .bf16 :=
  truncf .bf16 (addf (addf (extractStridedSlice S96x768 ![96, 0] o slices_S192x768_o96_0_S96x768) (extf .f32 a bitsLt_bf16_f32))
    (extf .f32 b bitsLt_bf16_f32)) bitsLt_bf16_f32

/-- The finished lower half of chunk `k`, as device `k` stores it. -/
def out0 (k : Dev nD) : FVec F S96x768 .bf16 :=
  sum0 (own X W1 W2 k) (half0 (part X W1 W2 (prv k) k)) (comb1 X W1 W2 (nxt k))
/-- The finished upper half of chunk `k`. -/
def out1 (k : Dev nD) : FVec F S96x768 .bf16 :=
  sum1 (own X W1 W2 k) (half1 (part X W1 W2 (nxt k) k)) (comb0 X W1 W2 (prv k))

/-- Half `j` of chunk `k`. -/
def outHalf (k : Dev nD) (j : Fin 2) : FVec F S96x768 .bf16 := if j = 0 then out0 X W1 W2 k else out1 X W1 W2 k

end Values

/-! ## The printed payloads are these functions -/

theorem pay5_eq (v55 : Vec F S192x768 .bf16) (v56 : Vec F S768x1536 .bf16) (v67 : Vec F S1536x768 .bf16) :
    k0_pay5 (k0_pay3 v55 v56) (Scalar.ofBits .f32 0x00000000#32) v67 = k0_pay6 v55 v56 v67 := rfl
theorem pay8_eq (v119 : Vec F S192x768 .bf16) (v120 : Vec F S768x1536 .bf16) (v125 : Vec F S1536x768 .bf16) :
    k0_pay8 (k0_pay7 v119 v120) v125 = k0_pay6 v119 v120 v125 := rfl
theorem pay10_eq (L1 L2 : Vec F S1x96x768 .bf16) :
    k0_pay10 (k0_pay9 L1) L2 = addPay (shapeCast S96x768 L1 shapeCasts_S1x96x768_S96x768) (shapeCast S96x768 L2 shapeCasts_S1x96x768_S96x768) := rfl
theorem pay12_eq (L1 L2 : Vec F S1x96x768 .bf16) :
    k0_pay12 (k0_pay11 L1) L2 = addPay (shapeCast S96x768 L1 shapeCasts_S1x96x768_S96x768) (shapeCast S96x768 L2 shapeCasts_S1x96x768_S96x768) := rfl
theorem pay14_eq (o : FVec F S192x768 .f32) (L1 L2 : Vec F S1x96x768 .bf16) :
    k0_pay14 o L1 L2 = sum0 o (shapeCast S96x768 L1 shapeCasts_S1x96x768_S96x768) (shapeCast S96x768 L2 shapeCasts_S1x96x768_S96x768) := rfl
theorem pay15_eq (o : FVec F S192x768 .f32) (L1 L2 : Vec F S1x96x768 .bf16) :
    k0_pay15 o L1 L2 = sum1 o (shapeCast S96x768 L1 shapeCasts_S1x96x768_S96x768) (shapeCast S96x768 L2 shapeCasts_S1x96x768_S96x768) := rfl

end Cert.KernelIdeal.Vals

end
-- ==== Proof.Proto.lean ====
/-
  The protocol of the kernel on the ring of four devices, at any float instance: the memory regions that change hands,
  the semaphore cells with what each landing hands its waiter, what each device owes at launch and the levels that
  order the waits.

  Every device first signals both neighbours' barrier semaphore and waits for two units; a signal hands the neighbour
  the regions of the signaller's buffers that the neighbour will copy into. Then twelve remote copies of one half-chunk
  ([96, 768]) each: a copy pays the sender's send cell (the source comes back) and the receiver's receive cell (the
  destination, holding what was copied).
-/
import proofs.«900459_g7700000000000460_dist_mlp2_tp_i_m768_h1536_out768_v7x_i4_f32_1_alg».proof.Proof.Vals
import proofs.«900459_g7700000000000460_dist_mlp2_tp_i_m768_h1536_out768_v7x_i4_f32_1_alg».proof.Proof.Gen.KernelIdeal.Launch
import proofs.«900459_g7700000000000460_dist_mlp2_tp_i_m768_h1536_out768_v7x_i4_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The device chains of the program -/

theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = prv c := by decide +kernel
theorem dev4_eq : ∀ c : Dev nD, (⟨k0_dev4 c, k0_dev4_lt c⟩ : Dev nD) = nxt c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = prv c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = prv c := by decide +kernel
theorem dev9_eq : ∀ c : Dev nD, (⟨k0_dev9 c, k0_dev9_lt c⟩ : Dev nD) = nxt c := by decide +kernel
theorem dev10_eq : ∀ c : Dev nD, (⟨k0_dev10 c, k0_dev10_lt c⟩ : Dev nD) = prv c := by decide +kernel
theorem dev11_eq : ∀ c : Dev nD, (⟨k0_dev11 c, k0_dev11_lt c⟩ : Dev nD) = nxt c := by decide +kernel
theorem dev12_eq : ∀ c : Dev nD, (⟨k0_dev12 c, k0_dev12_lt c⟩ : Dev nD) = prv c := by decide +kernel
theorem dev13_eq : ∀ c : Dev nD, (⟨k0_dev13 c, k0_dev13_lt c⟩ : Dev nD) = prv c := by decide +kernel
theorem dev14_eq : ∀ c : Dev nD, (⟨k0_dev14 c, k0_dev14_lt c⟩ : Dev nD) = nxt c := by decide +kernel

/-- The row offsets of the program in closed form: the rows of a chunk, of a half-chunk. -/
theorem off1_eq : ∀ c : Dev nD, ∀ r : Fin 2, k0_off1 c (BitVec.ofNat 32 (1 + r.val)) = ![192 * ((c.val + 1 + r.val) % 4), 0] := by decide +kernel
theorem off2_eq : ∀ c : Dev nD, k0_off2 c = ![192 * ((c.val + 3) % 4), 0] := by decide +kernel
theorem off6_eq : ∀ c : Dev nD, ∀ r₁ r₂ : Fin 2, k0_off6 c (BitVec.ofNat 32 (1 + r₁.val)) (BitVec.ofNat 32 (96 * r₂.val)) = ![192 * ((c.val + 1 + r₁.val) % 4) + 96 * r₂.val, 0] := by decide +kernel
theorem off7_eq : ∀ c : Dev nD, ∀ r : Fin 2, k0_off7 c (BitVec.ofNat 32 (96 * r.val)) = ![192 * ((c.val + 3) % 4) + 96 * r.val, 0] := by decide +kernel

/-! ## The memrefs, as the program names them -/

abbrev xM : Memref sig .tc .vmem S768x768 .f32 := Memref.whole cc0_stg0_0
abbrev w1M : Memref sig .tc .vmem S768x1536 .f32 := Memref.whole cc0_stg1_0
abbrev w2M : Memref sig .tc .vmem S1536x768 .f32 := Memref.whole cc0_stg2_0
abbrev oM : Memref sig .tc .vmem S768x768 .bf16 := Memref.whole cc0_stg3_0
abbrev sbM : Memref sig .tc .vmem S3x192x768 .bf16 := Memref.whole cc0_scratch0
abbrev rsM : Memref sig .tc .vmem S4x96x768 .bf16 := Memref.whole cc0_scratch1
abbrev rlM : Memref sig .tc .vmem S2x96x768 .bf16 := Memref.whole cc0_scratch2
abbrev cbM : Memref sig .tc .vmem S2x96x768 .bf16 := Memref.whole cc0_scratch3
abbrev xbM : Memref sig .tc .vmem S768x768 .bf16 := Memref.whole cc0_scratch4
abbrev w1bM : Memref sig .tc .vmem S768x1536 .bf16 := Memref.whole cc0_scratch5
abbrev w2bM : Memref sig .tc .vmem S1536x768 .bf16 := Memref.whole cc0_scratch6

/-- The half-chunk windows the copies go through: halves of the send buffer's slots, -/
abbrev sb00 : Memref sig .tc .vmem S96x768 .bf16 := (sbM.slice (Rect.unit (s := S3x192x768) ![0, 0, 0] S1x96x768.size inb_S3x192x768_S1x96x768_0_0_0) (fun _ => rfl)).squeeze S96x768 squeezes_S1x96x768_S96x768
abbrev sb01 : Memref sig .tc .vmem S96x768 .bf16 := (sbM.slice (Rect.unit (s := S3x192x768) ![0, 96, 0] S1x96x768.size inb_S3x192x768_S1x96x768_0_96_0) (fun _ => rfl)).squeeze S96x768 squeezes_S1x96x768_S96x768
abbrev sb10 : Memref sig .tc .vmem S96x768 .bf16 := (sbM.slice (Rect.unit (s := S3x192x768) ![1, 0, 0] S1x96x768.size inb_S3x192x768_S1x96x768_1_0_0) (fun _ => rfl)).squeeze S96x768 squeezes_S1x96x768_S96x768
abbrev sb11 : Memref sig .tc .vmem S96x768 .bf16 := (sbM.slice (Rect.unit (s := S3x192x768) ![1, 96, 0] S1x96x768.size inb_S3x192x768_S1x96x768_1_96_0) (fun _ => rfl)).squeeze S96x768 squeezes_S1x96x768_S96x768
abbrev sb20 : Memref sig .tc .vmem S96x768 .bf16 := (sbM.slice (Rect.unit (s := S3x192x768) ![2, 0, 0] S1x96x768.size inb_S3x192x768_S1x96x768_2_0_0) (fun _ => rfl)).squeeze S96x768 squeezes_S1x96x768_S96x768
abbrev sb21 : Memref sig .tc .vmem S96x768 .bf16 := (sbM.slice (Rect.unit (s := S3x192x768) ![2, 96, 0] S1x96x768.size inb_S3x192x768_S1x96x768_2_96_0) (fun _ => rfl)).squeeze S96x768 squeezes_S1x96x768_S96x768
/-- the four receive slots, -/
abbrev rs0 : Memref sig .tc .vmem S96x768 .bf16 := (rsM.slice (Rect.unit (s := S4x96x768) ![0, 0, 0] S1x96x768.size inb_S4x96x768_S1x96x768_0_0_0) (fun _ => rfl)).squeeze S96x768 squeezes_S1x96x768_S96x768
abbrev rs1 : Memref sig .tc .vmem S96x768 .bf16 := (rsM.slice (Rect.unit (s := S4x96x768) ![1, 0, 0] S1x96x768.size inb_S4x96x768_S1x96x768_1_0_0) (fun _ => rfl)).squeeze S96x768 squeezes_S1x96x768_S96x768
abbrev rs2 : Memref sig .tc .vmem S96x768 .bf16 := (rsM.slice (Rect.unit (s := S4x96x768) ![2, 0, 0] S1x96x768.size inb_S4x96x768_S1x96x768_2_0_0) (fun _ => rfl)).squeeze S96x768 squeezes_S1x96x768_S96x768
abbrev rs3 : Memref sig .tc .vmem S96x768 .bf16 := (rsM.slice (Rect.unit (s := S4x96x768) ![3, 0, 0] S1x96x768.size inb_S4x96x768_S1x96x768_3_0_0) (fun _ => rfl)).squeeze S96x768 squeezes_S1x96x768_S96x768
/-- the two relay slots, the two slots of pre-added halves, -/
abbrev rl0 : Memref sig .tc .vmem S96x768 .bf16 := (rlM.slice (Rect.unit (s := S2x96x768) ![0, 0, 0] S1x96x768.size inb_S2x96x768_S1x96x768_0_0_0) (fun _ => rfl)).squeeze S96x768 squeezes_S1x96x768_S96x768
abbrev rl1 : Memref sig .tc .vmem S96x768 .bf16 := (rlM.slice (Rect.unit (s := S2x96x768) ![1, 0, 0] S1x96x768.size inb_S2x96x768_S1x96x768_1_0_0) (fun _ => rfl)).squeeze S96x768 squeezes_S1x96x768_S96x768
abbrev cb0 : Memref sig .tc .vmem S96x768 .bf16 := (cbM.slice (Rect.unit (s := S2x96x768) ![0, 0, 0] S1x96x768.size inb_S2x96x768_S1x96x768_0_0_0) (fun _ => rfl)).squeeze S96x768 squeezes_S1x96x768_S96x768
abbrev cb1 : Memref sig .tc .vmem S96x768 .bf16 := (cbM.slice (Rect.unit (s := S2x96x768) ![1, 0, 0] S1x96x768.size inb_S2x96x768_S1x96x768_1_0_0) (fun _ => rfl)).squeeze S96x768 squeezes_S1x96x768_S96x768

theorem orow_inb : ∀ (k : Dev nD) (j : Fin 2), ∀ a, (![192 * k.val + 96 * j.val, 0] : Fin 2 → Nat) a + S96x768.size a ≤ S768x768.size a := by decide
/-- and half `j` of chunk `k` of the result: rows `192 k + 96 j …`. -/
abbrev oS (k : Dev nD) (j : Fin 2) : Memref sig .tc .vmem S96x768 .bf16 :=
  oM.slice (Rect.unit (s := S768x768) ![192 * k.val + 96 * j.val, 0] S96x768.size (orow_inb k j)) (fun _ => rfl)

/-! ## Regions and what they hold -/

/-- Device `c` holds the window `M` at share `q`, and a read through it gives `V`. -/
def slot (c : Dev nD) (M : Memref sig .tc .vmem S96x768 .bf16) (q : PosShare TreeShare) (V : FVec F S96x768 .bf16) : sProp 𝕄 :=
  iprop(∃ f : Buf (Elt F) (M.view.loc (c : Thread nD τ)), ⌜M.view.read (Elt F) f = V⌝ ∗ (M.view.loc (c : Thread nD τ) ↦[M.view.set]{q} f))

/-- Device `c`'s window `M` whole, at some contents: what a device hands the neighbour that will copy into it. -/
def hole (c : Dev nD) (M : Memref sig .tc .vmem S96x768 .bf16) : sProp 𝕄 :=
  iprop(∃ f : Buf (Elt F) (M.view.loc (c : Thread nD τ)), (M.view.loc (c : Thread nD τ) ↦[M.view.set]{fullShare} f))

omit [FloatOps F] in
instance slot_storable (c : Dev nD) (M) (q) (V : FVec F S96x768 .bf16) : BI.Storable (upEmb : UEmb _ 𝕄) (slot (F := F) c M q V) := by unfold slot; infer_instance
omit [FloatOps F] in
instance hole_storable (c : Dev nD) (M) : BI.Storable (upEmb : UEmb _ 𝕄) (hole (F := F) c M) := by unfold hole; infer_instance

/-! ## The argument blocks as launched, and the values over them -/

def Xin (d : Dev nD) : Vec F S768x768 .f32 := m ((d : Thread nD τ).loc main_arg0)
def W1in (d : Dev nD) : Vec F S768x1536 .f32 := m ((d : Thread nD τ).loc main_arg1)
def W2in (d : Dev nD) : Vec F S1536x768 .f32 := m ((d : Thread nD τ).loc main_arg2)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)

/-! ## The schedule -/

abbrev barS : Sem sig := (SemArray.scalar (sig.barrier 0 rfl) : Sems sig S_).sem
abbrev barCell (c : Dev nD) : GSem nD τ sig := ((c : Thread nD τ), .reg barS)
/-- The kernel's `i`-th own DMA semaphore (of 24: six send and six receive cells of the reduction, six and six of the
    final exchange), on device `c`. -/
abbrev dsem (i : Fin 24) : DmaSem sig := ⟨4 + i.val, by have := i.isLt; show 4 + i.val < 28; omega⟩
abbrev dcell (c : Dev nD) (i : Fin 24) : GSem nD τ sig := ((c : Thread nD τ), .dma (dsem i))

/-- One half-chunk's credit. -/
abbrev N : ℕ := (rs0 : Memref sig .tc .vmem S96x768 .bf16).view.dmaCredit
theorem N_pos : 0 < N := View.dmaCredit_pos _ (by decide)

/-- What the landing on device `c`'s `i`-th cell hands `c`: for a send cell the source back, for a receive cell the
    window holding what was copied. -/
def dmaPay (c : Dev nD) (i : ℕ) : sProp 𝕄 :=
  match i with
  | 0 => slot c sb00 fullShare (half0 (PART c (opp c)))
  | 1 => slot c sb01 fullShare (half1 (PART c (opp c)))
  | 2 => slot c sb10 fullShare (half0 (PART c (nxt c)))
  | 3 => slot c cb0 fullShare (COMB0 c)
  | 4 => slot c sb21 fullShare (half1 (PART c (prv c)))
  | 5 => slot c cb1 fullShare (COMB1 c)
  | 6 => slot c rs0 fullShare (half0 (PART (prv c) c))
  | 7 => slot c rs1 fullShare (COMB1 (nxt c))
  | 8 => slot c rs2 fullShare (half1 (PART (nxt c) c))
  | 9 => slot c rs3 fullShare (COMB0 (prv c))
  | 10 => slot c rl0 fullShare (half0 (PART (nxt c) (prv c)))
  | 11 => slot c rl1 fullShare (half1 (PART (prv c) (nxt c)))
  | 12 => slot c (oS c 0) fullShare.left (OUTH c 0)
  | 13 => slot c (oS c 1) fullShare.left (OUTH c 1)
  | 14 => slot c (oS c 0) fullShare.right (OUTH c 0)
  | 15 => slot c (oS c 1) fullShare.right (OUTH c 1)
  | 16 => slot c (oS (nxt c) 1) fullShare (OUTH (nxt c) 1)
  | 17 => slot c (oS (prv c) 0) fullShare (OUTH (prv c) 0)
  | 18 => slot c (oS (nxt c) 0) fullShare (OUTH (nxt c) 0)
  | 19 => slot c (oS (nxt c) 1) fullShare (OUTH (nxt c) 1)
  | 20 => slot c (oS (prv c) 0) fullShare (OUTH (prv c) 0)
  | 21 => slot c (oS (prv c) 1) fullShare (OUTH (prv c) 1)
  | 22 => slot c (oS (opp c) 0) fullShare (OUTH (opp c) 0)
  | 23 => slot c (oS (opp c) 1) fullShare (OUTH (opp c) 1)
  | _ => iprop(emp)

/-- What the right neighbour's signal hands `c`: the windows of the right neighbour that `c` copies into. -/
def barPayR (c : Dev nD) : sProp 𝕄 :=
  iprop(hole (nxt c) rl1 ∗ hole (nxt c) rs0 ∗ hole (nxt c) rs3 ∗ hole (nxt c) (oS c 0) ∗ hole (nxt c) (oS c 1) ∗ hole (nxt c) (oS (prv c) 0))
/-- What the left neighbour's signal hands `c`. -/
def barPayL (c : Dev nD) : sProp 𝕄 :=
  iprop(hole (prv c) rl0 ∗ hole (prv c) rs2 ∗ hole (prv c) rs1 ∗ hole (prv c) (oS c 0) ∗ hole (prv c) (oS c 1) ∗ hole (prv c) (oS (nxt c) 1))

/-- One round per cell. A barrier cell has two duties of one unit: `false`, paid by the right neighbour, and `true`, paid
    by the left one. Each of the 24 transfer cells has the one duty `false` of a half-chunk's credit. -/
def ringRd : Rounds.Schedule (GSem nD τ sig) Bool 𝕄 where
  duties g r := if r = 0 ∧ g.1.2 = .tc then (match g.2 with
    | .reg s => if s = barS then Finset.univ else ∅
    | .dma s => if 4 ≤ s.val then {false} else ∅) else ∅
  unitless _ := False
  amount g _ _ := match g.2 with | .reg _ => 1 | .dma _ => N
  payload g _ d := match g.2 with
    | .reg _ => if d then barPayL g.1.1 else barPayR g.1.1
    | .dma s => dmaPay m g.1.1 (s.val - 4)
  amount_pos g _ _ _ := by
    cases g.2 with
    | reg _ => exact Nat.one_pos
    | dma _ => exact N_pos

instance ringRd_payload_storable (g : GSem nD τ sig) (r : ℕ) (d : Bool) :
    BI.Storable (upEmb : UEmb _ 𝕄) ((ringRd (F := F) m).payload g r d) := by
  show BI.Storable upEmb (match g.2 with
    | .reg _ => if d then barPayL g.1.1 else barPayR g.1.1
    | .dma s => dmaPay m g.1.1 (s.val - 4))
  cases g.2 with
  | reg _ => dsimp only; unfold barPayL barPayR; split <;> infer_instance
  | dma s => dsimp only; unfold dmaPay; split <;> infer_instance

section Sched
variable (c : Dev nD)

theorem duties_bar : (ringRd (F := F) m).duties (barCell c) 0 = Finset.univ := by
  dsimp only [ringRd]; rw [if_pos ⟨rfl, rfl⟩, if_pos rfl]
theorem duties_dma (i : Fin 24) : (ringRd (F := F) m).duties (dcell c i) 0 = {false} := by
  dsimp only [ringRd]; rw [if_pos ⟨rfl, rfl⟩, if_pos (Nat.le_add_right 4 i.val)]
theorem duties_later (g : GSem nD τ sig) : ∀ r, 1 ≤ r → (ringRd (F := F) m).duties g r = ∅ :=
  fun r hr => by dsimp only [ringRd]; rw [if_neg fun h => by omega]

theorem amount_bar (d : Bool) : (ringRd (F := F) m).amount (barCell c) 0 d = 1 := rfl
theorem amount_dma (i : Fin 24) (d : Bool) : (ringRd (F := F) m).amount (dcell c i) 0 d = N := rfl

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (i : Fin 24) : (ringRd (F := F) m).expect (dcell c i) 0 = N := by
  unfold Schedule.expect Schedule.amountOf; rw [duties_dma, Finset.sum_singleton, amount_dma]

theorem payload_bar_true : (ringRd (F := F) m).payload (barCell c) 0 true = barPayL c := rfl
theorem payload_bar_false : (ringRd (F := F) m).payload (barCell c) 0 false = barPayR c := rfl
theorem payload_dma (i : Fin 24) (d : Bool) : (ringRd (F := F) m).payload (dcell c i) 0 d = dmaPay m c i.val := by
  show dmaPay m c (4 + i.val - 4) = _; rw [Nat.add_sub_cancel_left]

/-- The whole of the barrier cell's round: what both neighbours hand over. -/
theorem rest_bar : bigSep ((ringRd (F := F) m).duties (barCell c) 0 \ ∅) (fun d => (ringRd (F := F) m).payload (barCell c) 0 d) = iprop(barPayR c ∗ barPayL c) := by
  rw [Finset.sdiff_empty, duties_bar, bigSep_univ_eq_bigSepL [false, true] (by decide) (by decide), bigSepL_cons_cons, bigSepL_singleton,
    payload_bar_false, payload_bar_true]
  rfl
theorem rest_dma (i : Fin 24) : bigSep ((ringRd (F := F) m).duties (dcell c i) 0 \ ∅) (fun d => (ringRd (F := F) m).payload (dcell c i) 0 d) = dmaPay m c i.val := by
  rw [Finset.sdiff_empty, duties_dma, bigSep_singleton, payload_dma]

end Sched

end Cert.KernelIdealProof

end
-- ==== Proof.Steps.lean ====
/-
  The rules of the rounds discipline at this kernel's cells: what each device owes, the levels that order the waits, the
  persistent records every device reads, and one lemma each for a remote copy of a half-chunk and for a wait on one of a
  device's transfer cells.
-/
import proofs.«900459_g7700000000000460_dist_mlp2_tp_i_m768_h1536_out768_v7x_i4_f32_1_alg».proof.Proof.Proto

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device owes -/

/-- The receive cells device `c`'s twelve copies pay, in program order. -/
def payCells (c : Dev nD) : List (GSem nD τ sig) :=
  [dcell (prv c) 10, dcell (nxt c) 11, dcell (nxt c) 6, dcell (prv c) 8, dcell (nxt c) 9, dcell (prv c) 7,
   dcell (nxt c) 20, dcell (prv c) 18, dcell (nxt c) 21, dcell (prv c) 19, dcell (prv c) 23, dcell (nxt c) 22]

/-- A half-chunk's credit on each cell of a list (the last cell of the list outermost). -/
def owedL (l : List (GSem nD τ sig)) : CellTallies nD τ sig Unit := l.foldr (fun g acc => acc + tallyAt g () N) 0

/-- What `c` owes once its first `n` copies are under way. -/
def Ofrom (c : Dev nD) (n : ℕ) : CellTallies nD τ sig Unit := owedL ((payCells c).drop n)

/-- At launch: the twelve copies, a unit to the right neighbour's barrier cell and a unit to the left one's (the first
    signal, to the left, peels the last summand). -/
def O₁ (c : Dev nD) : CellTallies nD τ sig Unit := Ofrom c 0 + tallyAt (barCell (nxt c)) () 1
def O₀ (c : Dev nD) : CellTallies nD τ sig Unit := O₁ c + tallyAt (barCell (prv c)) () 1

theorem owedL_pos {l : List (GSem nD τ sig)} {g : GSem nD τ sig} {u : Unit} (h : 0 < owedL l g u) : g ∈ l := by
  induction l with
  | nil => exact absurd h (Nat.lt_irrefl 0)
  | cons a l ih =>
    rcases Pipeline.add_pos_cases (show 0 < (owedL l + tallyAt a () N) g u from h) with h' | h'
    · exact List.mem_cons_of_mem _ (ih h')
    · rw [tallyAt_apply] at h'
      by_cases e : g = a ∧ u = ()
      · rw [e.1]; exact List.mem_cons_self
      · rw [if_neg e] at h'; exact absurd h' (Nat.lt_irrefl 0)

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The receive cells in the order a device waits on them; the barrier cell below them all; everything else (staging and
    send cells, waited while owing nothing that matters) at the bottom. -/
def lvl : SemLoc sig → ℕ
  | .reg _ => 1
  | .dma s => match s.val with
    | 15 => 2 | 14 => 3 | 10 => 4 | 11 => 5 | 12 => 6 | 13 => 7
    | 23 => 8 | 24 => 9 | 22 => 10 | 25 => 10 | 27 => 11 | 26 => 12
    | _ => 0
def lv (g : GSem nD τ sig) (_ : Unit) : ℕ := lvl g.2

omit [FloatOps F] in
/-- A wait on `sm` is allowed while owing the copies from the `n`-th on, when `sm` lies below all their cells. -/
theorem mayWait_from (c : Dev nD) (sm : SemLoc sig) (n : ℕ)
    (h : ∀ g ∈ (payCells c).drop n, g.1.2 = .tc ∧ lvl sm < lvl g.2) :
    (levAts L lv : sProp 𝕄) ⊢ MayWait (c : Thread nD τ) sm () (Ofrom c n) :=
  Pipeline.mayWait_of_levAts (by rw [L_tc]; exact Finset.mem_singleton_self _) fun g u hg => by
    have hm := h g (owedL_pos hg)
    exact ⟨by unfold L; rw [if_pos hm.1]; exact Finset.mem_singleton_self _, hm.2⟩

/-! ## The records every device reads -/

/-- The cells of device `c`: the barrier cell, then the 24 transfer cells. -/
abbrev kcell (ck : Dev nD × Fin 25) : GSem nD τ sig := Fin.cases (barCell ck.1) (fun i => dcell ck.1 i) ck.2

/-- Every cell's invariant at its name, and that its round 0 is reached. -/
def records (K : Dev nD × Fin 25 → ℕ) : sProp 𝕄 :=
  iprop((bigSep Finset.univ fun ck : Dev nD × Fin 25 => cellInv ER (ringRd m) (K ck) (kcell ck))
    ∗ bigSep Finset.univ fun ck : Dev nD × Fin 25 => reached ER (kcell ck) 0)

instance records_persistent (K : Dev nD × Fin 25 → ℕ) : BI.Persistent (records m K) := by unfold records; infer_instance

theorem inv_at (K : Dev nD × Fin 25 → ℕ) (ck : Dev nD × Fin 25) : records m K ⊢ cellInv ER (ringRd m) (K ck) (kcell ck) := by
  unfold records; iintro ⟨H, -⟩
  iapply (show (bigSep Finset.univ fun ck : Dev nD × Fin 25 => (cellInv ER (ringRd m) (K ck) (kcell ck) : sProp 𝕄)) ⊢ cellInv ER (ringRd m) (K ck) (kcell ck) from
    bigSep_elim (Finset.mem_univ ck)) $$ H
omit [FloatOps F] in
theorem reached_at (ck : Dev nD × Fin 25) :
    (bigSep Finset.univ fun ck : Dev nD × Fin 25 => (reached ER (kcell ck) 0 : sProp 𝕄)) ⊢ reached ER (kcell ck) 0 :=
  bigSep_elim (Finset.mem_univ ck)
theorem inv_bar (K : Dev nD × Fin 25 → ℕ) (c : Dev nD) : records m K ⊢ cellInv ER (ringRd m) (K (c, 0)) (barCell c) := inv_at m K (c, 0)
theorem inv_dma (K : Dev nD × Fin 25 → ℕ) (c : Dev nD) (i : Fin 24) : records m K ⊢ cellInv ER (ringRd m) (K (c, i.succ)) (dcell c i) := inv_at m K (c, i.succ)
theorem reached_bar (K : Dev nD × Fin 25 → ℕ) (c : Dev nD) : records m K ⊢ reached ER (barCell c) 0 := by
  unfold records; iintro ⟨-, H⟩; iapply (reached_at (F := F) (c, 0)) $$ H
theorem reached_dma (K : Dev nD × Fin 25 → ℕ) (c : Dev nD) (i : Fin 24) : records m K ⊢ reached ER (dcell c i) 0 := by
  unfold records; iintro ⟨-, H⟩; iapply (reached_at (F := F) (c, i.succ)) $$ H

abbrev 𝒱₀ : Variants := Variants.none

/-! ## A remote copy of a half-chunk -/

set_option maxHeartbeats 1600000 in
/-- Device `c` copies the window `src` (held at share `q`, reading `V`) into device `t`'s window `dst`: its send cell
    `is` and `t`'s receive cell `ir` are paid, the source comes back with the first, the destination holding `V` with
    the second. -/
theorem wp_copy (K : Dev nD × Fin 25 → ℕ) (c t t' : Dev nD) (ht : t' = t) (is ir : Fin 24) (sS sR : DmaSem sig) (hS : sS = dsem is) (hR : sR = dsem ir)
    {src dst : Memref sig .tc .vmem S96x768 .bf16} {hsc : (dst : Memref sig (Dev.tc t' : Thread nD τ).2.kind .vmem S96x768 .bf16).view.ref.isScScratch = false}
    {hsrc : src.view.WordExact} {hdst : dst.view.WordExact}
    {hsem : DmaTarget.Typed .vmem (.dma sR) (.remote (Dev.tc t' : Thread nD τ) dst (.dma sS) hsc)}
    {α : Type} {Q : α → sProp 𝕄} {k : PUnit → Prog (TpuEff nD τ sig (Elt F) Λ₀ .tc) α}
    (q : PosShare TreeShare) (V : FVec F S96x768 .bf16)
    (fs : Buf (Elt F) (src.view.loc (c : Thread nD τ))) (fd : Buf (Elt F) (dst.view.loc (t : Thread nD τ)))
    (O : CellTallies nD τ sig Unit) (W : Waits sig Unit)
    (hN : dst.view.amount (.dma (dsem ir)) = N)
    (hV : src.view.read (Elt F) fs = V)
    (hp₁ : dmaPay m c is.val = slot c src q V) (hp₂ : dmaPay m t ir.val = slot t dst fullShare V) :
    iprop(records m K
        ∗ (src.view.loc (c : Thread nD τ) ↦[src.view.set]{q} fs) ∗ (dst.view.loc (t : Thread nD τ) ↦[dst.view.set]{fullShare} fd)
        ∗ owes (c : Thread nD τ) (O + tallyAt (dcell t ir) () N) W
        ∗ dutyTok ER (dcell c is) 0 false ∗ dutyTok ER (dcell t ir) 0 false)
      ⊢ iprop(((cred (tallyAt (dcell c is) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t' : Thread nD τ) dst (.dma sS) hsc) (.dma sR) hsrc hdst hsem) k) Q) := by
  subst ht hS hR
  iintro ⟨#HR, Hs, Hd, HO, Ht₁, Ht₂⟩
  iapply (Rounds.wp_send_pointsTo 𝒱₀ ER (ringRd m) (c : Thread nD τ) none (c' := (t' : Thread nD τ)) (src := src) (dst := dst) (sS := .dma (dsem is)) (sem := .dma (dsem ir)) (κ₁ := K (c, is.succ)) (κ₂ := K (t', ir.succ))
    (r₁ := 0) (r₂ := 0) (d₁ := false) (d₂ := false) (fd := fd) (fs := fs) (q := q)
    (by rw [duties_dma]; exact Finset.mem_singleton_self _) (by rw [duties_dma]; exact Finset.mem_singleton_self _)
    () () N hN (amount_dma m c is false) (amount_dma m t' ir false) O rfl (W := W)
    (by rw [payload_dma, hp₁]; unfold slot; iintro H; iexists fs; isplitr; · ipureintro; exact hV
        iexact H)
    (by rw [payload_dma, hp₂]; unfold slot; iintro H
        iexists (dst.view.write (Elt F) fd (src.view.read (Elt F) fs) Finset.univ)
        isplitr; · (ipureintro; exact (View.read_write_univ _ _).trans hV)
        iexact H)) $$ [Hs Hd HO Ht₁ Ht₂]
  isplitr; · iapply (inv_dma m K c is); iexact HR
  isplitr; · iapply (inv_dma m K t' ir); iexact HR
  isplitl [Hs]; · iexact Hs
  isplitl [Hd]; · iexact Hd
  isplitl [HO]; · iexact HO
  isplitl [Ht₁]; · iexact Ht₁
  isplitr; · iapply (reached_dma m K c is); iexact HR
  isplitl [Ht₂]; · iexact Ht₂
  iapply (reached_dma m K t' ir); iexact HR

/-! ## A wait on one of a device's transfer cells -/

set_option maxHeartbeats 1600000 in
/-- Device `c` waits for the one landing of its cell `i`: what the landing hands it comes back. -/
theorem wp_await (K : Dev nD × Fin 25 → ℕ) (c : Dev nD) (i : Fin 24) (s : DmaSem sig) (hs : s = dsem i)
    {src dst : Memref sig .tc .vmem S96x768 .bf16} {hsrc : src.view.WordExact} {hdst : dst.view.WordExact}
    {α : Type} {Q : α → sProp 𝕄} {k : PUnit → Prog (TpuEff nD τ sig (Elt F) Λ₀ .tc) α}
    (O : CellTallies nD τ sig Unit) (W : Waits sig Unit) (hN : dst.view.dmaCredit = N) :
    iprop(records m K ∗ cred (tallyAt (dcell c i) () N) ∗ owes (c : Thread nD τ) O W
        ∗ MayWait (c : Thread nD τ) (.dma (dsem i)) () O ∗ atPos ER (dcell c i) 0 ∅ 0)
      ⊢ iprop(((owes (c : Thread nD τ) O (insert (SemLoc.dma (dsem i), ()) W) ∗ atPos ER (dcell c i) 1 ∅ 0 ∗ dmaPay m c i.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  iintro ⟨#HR, Hc, HO, Hmw, Hat⟩ Hk
  iapply (Rounds.wp_wait_rest_token 𝒱₀ ER (ringRd m) (c : Thread nD τ) none (κ := K (c, i.succ))
      (wpE_waitDma2_eq 𝒱₀ (c : Thread nD τ) none Set.univ) (Set.mem_univ _) () (O := O) (W := W) (R := 0) (m := 0) (T := ∅)
      (by rw [Nat.zero_add, expect_dma, hN])) $$ [Hc HO Hmw Hat]
  · isplitr; · iapply (inv_dma m K c i); iexact HR
    isplitl [Hc]; · rw [hN]; iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_dma m c i)); iexact Hpay

end Cert.KernelIdealProof

end
-- ==== Proof.OutAll.lean ====
/-
  The finished result as one array: row `ρ` of the [768, 768] result lies in chunk `ρ / 192`, half `ρ % 192 / 96`, at row
  `ρ % 96` of that half-chunk.
-/
import proofs.«900459_g7700000000000460_dist_mlp2_tp_i_m768_h1536_out768_v7x_i4_f32_1_alg».proof.Proof.Vals

noncomputable section

namespace Cert.KernelIdeal.Vals

open Cert.KernelIdeal Idealize.ShloMosaic

variable {F : FTy → Type} [FloatOps F]

/-- The [768, 768] array whose half-chunk `(k, j)` is `V k j`. -/
def outAll (V : Dev nD → Fin 2 → FVec F S96x768 .bf16) : Vec F S768x768 .bf16 := fun i =>
  V ⟨(i 0).val / 192, by have h : (i 0).val < 768 := (i 0).isLt; show (i 0).val / 192 < 4; omega⟩ ⟨(i 0).val % 192 / 96, by omega⟩
    (ValueIdx.ix2 ⟨(i 0).val % 96, Nat.mod_lt _ (by decide)⟩ ⟨(i 1).val, (i 1).isLt⟩)

end Cert.KernelIdeal.Vals

end
-- ==== Proof.Ghost.lean ====
/-
  What each device holds between the launch and the end of its kernel: the ghost state of the protocol it starts from, the
  pipeline's proof data (what each window's staging buffer holds after the body) and the assertions before and after the
  one grid point.
-/
import proofs.«900459_g7700000000000460_dist_mlp2_tp_i_m768_h1536_out768_v7x_i4_f32_1_alg».proof.Proof.Steps
import proofs.«900459_g7700000000000460_dist_mlp2_tp_i_m768_h1536_out768_v7x_i4_f32_1_alg».proof.Proof.OutAll

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state a device starts from -/

/-- A device's send cells and its receive cells, by index among its 24 transfer cells. -/
def sendIdx : List (Fin 24) := [0, 1, 2, 3, 4, 5, 12, 13, 14, 15, 16, 17]
def recvIdx : List (Fin 24) := [6, 7, 8, 9, 10, 11, 18, 19, 20, 21, 22, 23]

/-- The tokens of the duties device `c` pays: the left neighbour's barrier duty `false` (`c` is its right neighbour), the
    right neighbour's barrier duty `true`, its own twelve send duties, and the twelve receive duties its copies pay. -/
def payToks (c : Dev nD) : sProp 𝕄 :=
  iprop(dutyTok ER (barCell (prv c)) 0 false ∗ dutyTok ER (barCell (nxt c)) 0 true
    ∗ bigSepL sendIdx (fun i => dutyTok ER (dcell c i) 0 false) ∗ bigSepL (payCells c) (fun g => dutyTok ER g 0 false))

/-- Its positions: round 0 of each of its own 25 cells, nothing consumed. -/
def positions (c : Dev nD) : sProp 𝕄 :=
  iprop(atPos ER (barCell c) 0 ∅ 0 ∗ bigSep Finset.univ fun i : Fin 24 => atPos ER (dcell c i) 0 ∅ 0)

def ghost (K : Dev nD × Fin 25 → ℕ) (c : Dev nD) : sProp 𝕄 := iprop(records m K ∗ positions c ∗ payToks c)

/-- The credit of its twelve receive cells. -/
def recvCreds (c : Dev nD) : sProp 𝕄 := bigSepL recvIdx fun i => cred (tallyAt (dcell c i) () N)

/-- What device `c`'s body starts from, beside the buffers. -/
def start (c : Dev nD) : sProp 𝕄 :=
  iprop((∃ K, ghost m K c) ∗ cred (tallyAt (barCell c) () 2) ∗ recvCreds c ∗ levAts L lv)

/-! ## The pipeline's proof data -/

/-- The finished result: half-chunk `(k, j)` as device `k` computed it. -/
def outV : Vec F S768x768 .bf16 := outAll (outHalf (Xin m) (W1in m) (W2in m))

/-- Before the point: the start state and the seven scratch buffers at some contents. -/
def Φ₀ (c : Dev nD) : sProp 𝕄 := iprop(start m c ∗ Pipeline.scopedRest cfg0.spec c)
/-- After it: the scratch buffers again, the 24 transfer cells closed at zero. -/
def Φ₁ (c : Dev nD) : sProp 𝕄 :=
  iprop(Pipeline.scopedRest cfg0.spec c ∗ bigSep Finset.univ fun i : Fin 24 => semVal (dcell c i) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xin m c
    | ⟨1, _⟩ => W1in m c
    | ⟨2, _⟩ => W2in m c
    | ⟨3, _⟩ => outV m
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdealProof

end
-- ==== Proof.Geom.lean ====
/-
  The geometry of the kernel's buffers, at any float instance: which elements of a scratch buffer each half-chunk window
  covers, that the windows of one buffer are pairwise disjoint and together make up the buffer, which window a load or a
  store through a rectangle of the buffer falls in, and what a window reads after such a store. Every index set is
  described by coordinates: an index of a buffer of shape `[n₀, n₁, n₂]` is in the unit-stride rectangle at offsets
  `o` of sizes `z` exactly when `oₐ ≤ iₐ < oₐ + zₐ` on each axis.
-/
import proofs.«900459_g7700000000000460_dist_mlp2_tp_i_m768_h1536_out768_v7x_i4_f32_1_alg».proof.Proof.Proto
import proofs.«900459_g7700000000000460_dist_mlp2_tp_i_m768_h1536_out768_v7x_i4_f32_1_alg».proof.Proof.OutAll

noncomputable section

namespace Cert.KernelIdealProof

open Cert.KernelIdeal Cert.KernelIdeal.Gen Cert.KernelIdeal.Vals

open Idealize.ShloMosaic
open Idealize.ShloMosaic.TcCoe
open Idealize.ShloMosaic.ValueIdx (ix2)

variable {F : FTy → Type} [FloatOps F]

/-! ## Whole buffers

  A load through the rectangle of a buffer's own sizes at zero offsets reads the buffer's contents, and an unmasked
  store through it leaves the payload. -/

theorem zero2 : (![0, 0] : Fin 2 → Nat) = fun _ => 0 := by
  funext a; match a with | ⟨0, _⟩ => rfl | ⟨1, _⟩ => rfl

theorem xM_readAt (f : xM.view.ty.Contents (Elt F)) :
    xM.view.readAt (Elt F) (Rect.unit (s := S768x768) ![0, 0] S768x768.size inb_S768x768_S768x768_0_0).toLoadRect f = f :=
  Memref.readAt_unit_zero (Elt F) cc0_stg0_0 zero2 _ f
theorem w1M_readAt (f : w1M.view.ty.Contents (Elt F)) :
    w1M.view.readAt (Elt F) (Rect.unit (s := S768x1536) ![0, 0] S768x1536.size inb_S768x1536_S768x1536_0_0).toLoadRect f = f :=
  Memref.readAt_unit_zero (Elt F) cc0_stg1_0 zero2 _ f
theorem w2M_readAt (f : w2M.view.ty.Contents (Elt F)) :
    w2M.view.readAt (Elt F) (Rect.unit (s := S1536x768) ![0, 0] S1536x768.size inb_S1536x768_S1536x768_0_0).toLoadRect f = f :=
  Memref.readAt_unit_zero (Elt F) cc0_stg2_0 zero2 _ f
theorem xbM_readAt (f : xbM.view.ty.Contents (Elt F)) :
    xbM.view.readAt (Elt F) (Rect.unit (s := S768x768) ![0, 0] S768x768.size inb_S768x768_S768x768_0_0).toLoadRect f = f :=
  Memref.readAt_unit_zero (Elt F) cc0_scratch4 zero2 _ f
theorem w1bM_readAt (f : w1bM.view.ty.Contents (Elt F)) :
    w1bM.view.readAt (Elt F) (Rect.unit (s := S768x1536) ![0, 0] S768x1536.size inb_S768x1536_S768x1536_0_0).toLoadRect f = f :=
  Memref.readAt_unit_zero (Elt F) cc0_scratch5 zero2 _ f
theorem w2bM_readAt (f : w2bM.view.ty.Contents (Elt F)) :
    w2bM.view.readAt (Elt F) (Rect.unit (s := S1536x768) ![0, 0] S1536x768.size inb_S1536x768_S1536x768_0_0).toLoadRect f = f :=
  Memref.readAt_unit_zero (Elt F) cc0_scratch6 zero2 _ f

theorem xbM_write (f w : xbM.view.ty.Contents (Elt F)) :
    (xbM.access (Rect.unit (s := S768x768) ![0, 0] S768x768.size inb_S768x768_S768x768_0_0)).write (Elt F) f w Finset.univ = w :=
  Memref.write_access_unit_zero_univ (Elt F) cc0_scratch4 zero2 _ f w
theorem w1bM_write (f w : w1bM.view.ty.Contents (Elt F)) :
    (w1bM.access (Rect.unit (s := S768x1536) ![0, 0] S768x1536.size inb_S768x1536_S768x1536_0_0)).write (Elt F) f w Finset.univ = w :=
  Memref.write_access_unit_zero_univ (Elt F) cc0_scratch5 zero2 _ f w
theorem w2bM_write (f w : w2bM.view.ty.Contents (Elt F)) :
    (w2bM.access (Rect.unit (s := S1536x768) ![0, 0] S1536x768.size inb_S1536x768_S1536x768_0_0)).write (Elt F) f w Finset.univ = w :=
  Memref.write_access_unit_zero_univ (Elt F) cc0_scratch6 zero2 _ f w

/-- The whole-buffer rectangle's elements are all of them (what a whole load reads and a whole store touches). -/
theorem xbM_setOn : (xbM.access (Rect.unit (s := S768x768) ![0, 0] S768x768.size inb_S768x768_S768x768_0_0)).setOn Finset.univ ⊆ xbM.view.set :=
  View.set_slice_subset _ _
theorem w1bM_setOn : (w1bM.access (Rect.unit (s := S768x1536) ![0, 0] S768x1536.size inb_S768x1536_S768x1536_0_0)).setOn Finset.univ ⊆ w1bM.view.set :=
  View.set_slice_subset _ _
theorem w2bM_setOn : (w2bM.access (Rect.unit (s := S1536x768) ![0, 0] S1536x768.size inb_S1536x768_S1536x768_0_0)).setOn Finset.univ ⊆ w2bM.view.set :=
  View.set_slice_subset _ _

/-! ## A slot's load is the window's read; a landed copy is read back

  The window of a slot is the squeeze of the slice of the buffer at the slot's rectangle, so what it reads is the
  vector a load through the buffer at that rectangle reads, with the unit axis dropped. -/

theorem rs0_load (f : rsM.view.ty.Contents (Elt F)) :
    shapeCast S96x768 (rsM.view.readAt (Elt F) (Rect.unit (s := S4x96x768) ![0, 0, 0] S1x96x768.size inb_S4x96x768_S1x96x768_0_0_0).toLoadRect f) shapeCasts_S1x96x768_S96x768
      = rs0.view.read (Elt F) f := rfl
theorem rs1_load (f : rsM.view.ty.Contents (Elt F)) :
    shapeCast S96x768 (rsM.view.readAt (Elt F) (Rect.unit (s := S4x96x768) ![1, 0, 0] S1x96x768.size inb_S4x96x768_S1x96x768_1_0_0).toLoadRect f) shapeCasts_S1x96x768_S96x768
      = rs1.view.read (Elt F) f := rfl
theorem rs2_load (f : rsM.view.ty.Contents (Elt F)) :
    shapeCast S96x768 (rsM.view.readAt (Elt F) (Rect.unit (s := S4x96x768) ![2, 0, 0] S1x96x768.size inb_S4x96x768_S1x96x768_2_0_0).toLoadRect f) shapeCasts_S1x96x768_S96x768
      = rs2.view.read (Elt F) f := rfl
theorem rs3_load (f : rsM.view.ty.Contents (Elt F)) :
    shapeCast S96x768 (rsM.view.readAt (Elt F) (Rect.unit (s := S4x96x768) ![3, 0, 0] S1x96x768.size inb_S4x96x768_S1x96x768_3_0_0).toLoadRect f) shapeCasts_S1x96x768_S96x768
      = rs3.view.read (Elt F) f := rfl
theorem rl0_load (f : rlM.view.ty.Contents (Elt F)) :
    shapeCast S96x768 (rlM.view.readAt (Elt F) (Rect.unit (s := S2x96x768) ![0, 0, 0] S1x96x768.size inb_S2x96x768_S1x96x768_0_0_0).toLoadRect f) shapeCasts_S1x96x768_S96x768
      = rl0.view.read (Elt F) f := rfl
theorem rl1_load (f : rlM.view.ty.Contents (Elt F)) :
    shapeCast S96x768 (rlM.view.readAt (Elt F) (Rect.unit (s := S2x96x768) ![1, 0, 0] S1x96x768.size inb_S2x96x768_S1x96x768_1_0_0).toLoadRect f) shapeCasts_S1x96x768_S96x768
      = rl1.view.read (Elt F) f := rfl
theorem cb0_load (f : cbM.view.ty.Contents (Elt F)) :
    shapeCast S96x768 (cbM.view.readAt (Elt F) (Rect.unit (s := S2x96x768) ![0, 0, 0] S1x96x768.size inb_S2x96x768_S1x96x768_0_0_0).toLoadRect f) shapeCasts_S1x96x768_S96x768
      = cb0.view.read (Elt F) f := rfl
theorem cb1_load (f : cbM.view.ty.Contents (Elt F)) :
    shapeCast S96x768 (cbM.view.readAt (Elt F) (Rect.unit (s := S2x96x768) ![1, 0, 0] S1x96x768.size inb_S2x96x768_S1x96x768_1_0_0).toLoadRect f) shapeCasts_S1x96x768_S96x768
      = cb1.view.read (Elt F) f := rfl
theorem sb00_load (f : sbM.view.ty.Contents (Elt F)) :
    shapeCast S96x768 (sbM.view.readAt (Elt F) (Rect.unit (s := S3x192x768) ![0, 0, 0] S1x96x768.size inb_S3x192x768_S1x96x768_0_0_0).toLoadRect f) shapeCasts_S1x96x768_S96x768
      = sb00.view.read (Elt F) f := rfl
theorem sb01_load (f : sbM.view.ty.Contents (Elt F)) :
    shapeCast S96x768 (sbM.view.readAt (Elt F) (Rect.unit (s := S3x192x768) ![0, 96, 0] S1x96x768.size inb_S3x192x768_S1x96x768_0_96_0).toLoadRect f) shapeCasts_S1x96x768_S96x768
      = sb01.view.read (Elt F) f := rfl
theorem sb10_load (f : sbM.view.ty.Contents (Elt F)) :
    shapeCast S96x768 (sbM.view.readAt (Elt F) (Rect.unit (s := S3x192x768) ![1, 0, 0] S1x96x768.size inb_S3x192x768_S1x96x768_1_0_0).toLoadRect f) shapeCasts_S1x96x768_S96x768
      = sb10.view.read (Elt F) f := rfl
theorem sb11_load (f : sbM.view.ty.Contents (Elt F)) :
    shapeCast S96x768 (sbM.view.readAt (Elt F) (Rect.unit (s := S3x192x768) ![1, 96, 0] S1x96x768.size inb_S3x192x768_S1x96x768_1_96_0).toLoadRect f) shapeCasts_S1x96x768_S96x768
      = sb11.view.read (Elt F) f := rfl
theorem sb20_load (f : sbM.view.ty.Contents (Elt F)) :
    shapeCast S96x768 (sbM.view.readAt (Elt F) (Rect.unit (s := S3x192x768) ![2, 0, 0] S1x96x768.size inb_S3x192x768_S1x96x768_2_0_0).toLoadRect f) shapeCasts_S1x96x768_S96x768
      = sb20.view.read (Elt F) f := rfl
theorem sb21_load (f : sbM.view.ty.Contents (Elt F)) :
    shapeCast S96x768 (sbM.view.readAt (Elt F) (Rect.unit (s := S3x192x768) ![2, 96, 0] S1x96x768.size inb_S3x192x768_S1x96x768_2_96_0).toLoadRect f) shapeCasts_S1x96x768_S96x768
      = sb21.view.read (Elt F) f := rfl

/-- What was copied into a window, unmasked, is what the window then reads. -/
theorem win_read_write (dst : Memref sig .tc .vmem S96x768 .bf16) (fd : dst.view.ty.Contents (Elt F)) (v : FVec F S96x768 .bf16) :
    dst.view.read (Elt F) (dst.view.write (Elt F) fd v Finset.univ) = v :=
  View.read_write_univ fd v

/-! ## Index sets by coordinates -/

/-- The window of a whole buffer at a rectangle (the squeeze of the buffer's slice there) covers the rectangle's indices. -/
theorem win_set {κ : Kind} (b : Ref sig κ) (r : Rect b.ty.shape) (hr : ∀ a, r.stride a = 1) (s' : Shape)
    (hq : r.shape.Squeezes s') : (((Memref.whole b).slice r hr).squeeze s' hq).view.set = r.set := by
  rw [Memref.set_view_squeeze]; exact View.set_slice_whole b r

theorem mem_win {κ : Kind} (b : Ref sig κ) (r : Rect b.ty.shape) (hr : ∀ a, r.stride a = 1) (s' : Shape)
    (hq : r.shape.Squeezes s') (i : b.ty.shape.Idx) :
    i ∈ (((Memref.whole b).slice r hr).squeeze s' hq).view.set ↔ i ∈ r.set := by rw [win_set]

/-- An index of a rank-3 shape is in the unit-stride rectangle at offsets `o` of sizes `z` exactly when each of its
    coordinates is in `[oₐ, oₐ + zₐ)`. -/
theorem mem_unit3 {d : Fin 3 → Nat} (o0 o1 o2 z0 z1 z2 : Nat)
    (inb : ∀ a, (![o0, o1, o2] : Fin 3 → Nat) a + (![z0, z1, z2] : Fin 3 → Nat) a ≤ (⟨3, d⟩ : Shape).size a)
    (i : (⟨3, d⟩ : Shape).Idx) :
    i ∈ (Rect.unit (s := ⟨3, d⟩) ![o0, o1, o2] ![z0, z1, z2] inb).set ↔
      (o0 ≤ (i 0).val ∧ (i 0).val < o0 + z0) ∧ (o1 ≤ (i 1).val ∧ (i 1).val < o1 + z1) ∧ (o2 ≤ (i 2).val ∧ (i 2).val < o2 + z2) := by
  rw [Rect.mem_set_unit]
  exact ⟨fun h => ⟨h 0, h 1, h 2⟩, fun ⟨h0, h1, h2⟩ a => by
    match a with | ⟨0, _⟩ => exact h0 | ⟨1, _⟩ => exact h1 | ⟨2, _⟩ => exact h2⟩

/-- The same at rank 2. -/
theorem mem_unit2 {d : Fin 2 → Nat} (o0 o1 z0 z1 : Nat)
    (inb : ∀ a, (![o0, o1] : Fin 2 → Nat) a + (![z0, z1] : Fin 2 → Nat) a ≤ (⟨2, d⟩ : Shape).size a)
    (i : (⟨2, d⟩ : Shape).Idx) :
    i ∈ (Rect.unit (s := ⟨2, d⟩) ![o0, o1] ![z0, z1] inb).set ↔
      (o0 ≤ (i 0).val ∧ (i 0).val < o0 + z0) ∧ (o1 ≤ (i 1).val ∧ (i 1).val < o1 + z1) := by
  rw [Rect.mem_set_unit]
  exact ⟨fun h => ⟨h 0, h 1⟩, fun ⟨h0, h1⟩ a => by
    match a with | ⟨0, _⟩ => exact h0 | ⟨1, _⟩ => exact h1⟩

/-! ### Each window by coordinates: slot `k` on the leading axis, rows `h … h + 95` of the slot, every column -/

theorem mem_sb00 (i : S3x192x768.Idx) : i ∈ sb00.view.set ↔ (i 0).val = 0 ∧ 0 ≤ (i 1).val ∧ (i 1).val < 96 := by
  have h2 : (i 2).val < 768 := (i 2).isLt
  refine (mem_win cc0_scratch0 _ _ _ _ i).trans ((mem_unit3 0 0 0 1 96 768 inb_S3x192x768_S1x96x768_0_0_0 i).trans ?_)
  omega
theorem mem_sb01 (i : S3x192x768.Idx) : i ∈ sb01.view.set ↔ (i 0).val = 0 ∧ 96 ≤ (i 1).val ∧ (i 1).val < 192 := by
  have h2 : (i 2).val < 768 := (i 2).isLt
  refine (mem_win cc0_scratch0 _ _ _ _ i).trans ((mem_unit3 0 96 0 1 96 768 inb_S3x192x768_S1x96x768_0_96_0 i).trans ?_)
  omega
theorem mem_sb10 (i : S3x192x768.Idx) : i ∈ sb10.view.set ↔ (i 0).val = 1 ∧ 0 ≤ (i 1).val ∧ (i 1).val < 96 := by
  have h2 : (i 2).val < 768 := (i 2).isLt
  refine (mem_win cc0_scratch0 _ _ _ _ i).trans ((mem_unit3 1 0 0 1 96 768 inb_S3x192x768_S1x96x768_1_0_0 i).trans ?_)
  omega
theorem mem_sb11 (i : S3x192x768.Idx) : i ∈ sb11.view.set ↔ (i 0).val = 1 ∧ 96 ≤ (i 1).val ∧ (i 1).val < 192 := by
  have h2 : (i 2).val < 768 := (i 2).isLt
  refine (mem_win cc0_scratch0 _ _ _ _ i).trans ((mem_unit3 1 96 0 1 96 768 inb_S3x192x768_S1x96x768_1_96_0 i).trans ?_)
  omega
theorem mem_sb20 (i : S3x192x768.Idx) : i ∈ sb20.view.set ↔ (i 0).val = 2 ∧ 0 ≤ (i 1).val ∧ (i 1).val < 96 := by
  have h2 : (i 2).val < 768 := (i 2).isLt
  refine (mem_win cc0_scratch0 _ _ _ _ i).trans ((mem_unit3 2 0 0 1 96 768 inb_S3x192x768_S1x96x768_2_0_0 i).trans ?_)
  omega
theorem mem_sb21 (i : S3x192x768.Idx) : i ∈ sb21.view.set ↔ (i 0).val = 2 ∧ 96 ≤ (i 1).val ∧ (i 1).val < 192 := by
  have h2 : (i 2).val < 768 := (i 2).isLt
  refine (mem_win cc0_scratch0 _ _ _ _ i).trans ((mem_unit3 2 96 0 1 96 768 inb_S3x192x768_S1x96x768_2_96_0 i).trans ?_)
  omega
theorem mem_rs0 (i : S4x96x768.Idx) : i ∈ rs0.view.set ↔ (i 0).val = 0 ∧ 0 ≤ (i 1).val ∧ (i 1).val < 96 := by
  have h2 : (i 2).val < 768 := (i 2).isLt
  refine (mem_win cc0_scratch1 _ _ _ _ i).trans ((mem_unit3 0 0 0 1 96 768 inb_S4x96x768_S1x96x768_0_0_0 i).trans ?_)
  omega
theorem mem_rs1 (i : S4x96x768.Idx) : i ∈ rs1.view.set ↔ (i 0).val = 1 ∧ 0 ≤ (i 1).val ∧ (i 1).val < 96 := by
  have h2 : (i 2).val < 768 := (i 2).isLt
  refine (mem_win cc0_scratch1 _ _ _ _ i).trans ((mem_unit3 1 0 0 1 96 768 inb_S4x96x768_S1x96x768_1_0_0 i).trans ?_)
  omega
theorem mem_rs2 (i : S4x96x768.Idx) : i ∈ rs2.view.set ↔ (i 0).val = 2 ∧ 0 ≤ (i 1).val ∧ (i 1).val < 96 := by
  have h2 : (i 2).val < 768 := (i 2).isLt
  refine (mem_win cc0_scratch1 _ _ _ _ i).trans ((mem_unit3 2 0 0 1 96 768 inb_S4x96x768_S1x96x768_2_0_0 i).trans ?_)
  omega
theorem mem_rs3 (i : S4x96x768.Idx) : i ∈ rs3.view.set ↔ (i 0).val = 3 ∧ 0 ≤ (i 1).val ∧ (i 1).val < 96 := by
  have h2 : (i 2).val < 768 := (i 2).isLt
  refine (mem_win cc0_scratch1 _ _ _ _ i).trans ((mem_unit3 3 0 0 1 96 768 inb_S4x96x768_S1x96x768_3_0_0 i).trans ?_)
  omega
theorem mem_rl0 (i : S2x96x768.Idx) : i ∈ rl0.view.set ↔ (i 0).val = 0 ∧ 0 ≤ (i 1).val ∧ (i 1).val < 96 := by
  have h2 : (i 2).val < 768 := (i 2).isLt
  refine (mem_win cc0_scratch2 _ _ _ _ i).trans ((mem_unit3 0 0 0 1 96 768 inb_S2x96x768_S1x96x768_0_0_0 i).trans ?_)
  omega
theorem mem_rl1 (i : S2x96x768.Idx) : i ∈ rl1.view.set ↔ (i 0).val = 1 ∧ 0 ≤ (i 1).val ∧ (i 1).val < 96 := by
  have h2 : (i 2).val < 768 := (i 2).isLt
  refine (mem_win cc0_scratch2 _ _ _ _ i).trans ((mem_unit3 1 0 0 1 96 768 inb_S2x96x768_S1x96x768_1_0_0 i).trans ?_)
  omega
theorem mem_cb0 (i : S2x96x768.Idx) : i ∈ cb0.view.set ↔ (i 0).val = 0 ∧ 0 ≤ (i 1).val ∧ (i 1).val < 96 := by
  have h2 : (i 2).val < 768 := (i 2).isLt
  refine (mem_win cc0_scratch3 _ _ _ _ i).trans ((mem_unit3 0 0 0 1 96 768 inb_S2x96x768_S1x96x768_0_0_0 i).trans ?_)
  omega
theorem mem_cb1 (i : S2x96x768.Idx) : i ∈ cb1.view.set ↔ (i 0).val = 1 ∧ 0 ≤ (i 1).val ∧ (i 1).val < 96 := by
  have h2 : (i 2).val < 768 := (i 2).isLt
  refine (mem_win cc0_scratch3 _ _ _ _ i).trans ((mem_unit3 1 0 0 1 96 768 inb_S2x96x768_S1x96x768_1_0_0 i).trans ?_)
  omega

/-! ### The windows of one buffer are pairwise disjoint: two windows differ in the slot or in the half of the slot -/

theorem disj_sb00_sb01 : Disjoint sb00.view.set sb01.view.set :=
  Finset.disjoint_left.mpr fun i h1 h2 => by
    have h1 := (mem_sb00 i).mp h1; have h2 := (mem_sb01 i).mp h2; omega
theorem disj_sb00_sb10 : Disjoint sb00.view.set sb10.view.set :=
  Finset.disjoint_left.mpr fun i h1 h2 => by
    have h1 := (mem_sb00 i).mp h1; have h2 := (mem_sb10 i).mp h2; omega
theorem disj_sb00_sb11 : Disjoint sb00.view.set sb11.view.set :=
  Finset.disjoint_left.mpr fun i h1 h2 => by
    have h1 := (mem_sb00 i).mp h1; have h2 := (mem_sb11 i).mp h2; omega
theorem disj_sb00_sb20 : Disjoint sb00.view.set sb20.view.set :=
  Finset.disjoint_left.mpr fun i h1 h2 => by
    have h1 := (mem_sb00 i).mp h1; have h2 := (mem_sb20 i).mp h2; omega
theorem disj_sb00_sb21 : Disjoint sb00.view.set sb21.view.set :=
  Finset.disjoint_left.mpr fun i h1 h2 => by
    have h1 := (mem_sb00 i).mp h1; have h2 := (mem_sb21 i).mp h2; omega
theorem disj_sb01_sb10 : Disjoint sb01.view.set sb10.view.set :=
  Finset.disjoint_left.mpr fun i h1 h2 => by
    have h1 := (mem_sb01 i).mp h1; have h2 := (mem_sb10 i).mp h2; omega
theorem disj_sb01_sb11 : Disjoint sb01.view.set sb11.view.set :=
  Finset.disjoint_left.mpr fun i h1 h2 => by
    have h1 := (mem_sb01 i).mp h1; have h2 := (mem_sb11 i).mp h2; omega
theorem disj_sb01_sb20 : Disjoint sb01.view.set sb20.view.set :=
  Finset.disjoint_left.mpr fun i h1 h2 => by
    have h1 := (mem_sb01 i).mp h1; have h2 := (mem_sb20 i).mp h2; omega
theorem disj_sb01_sb21 : Disjoint sb01.view.set sb21.view.set :=
  Finset.disjoint_left.mpr fun i h1 h2 => by
    have h1 := (mem_sb01 i).mp h1; have h2 := (mem_sb21 i).mp h2; omega
theorem disj_sb10_sb11 : Disjoint sb10.view.set sb11.view.set :=
  Finset.disjoint_left.mpr fun i h1 h2 => by
    have h1 := (mem_sb10 i).mp h1; have h2 := (mem_sb11 i).mp h2; omega
theorem disj_sb10_sb20 : Disjoint sb10.view.set sb20.view.set :=
  Finset.disjoint_left.mpr fun i h1 h2 => by
    have h1 := (mem_sb10 i).mp h1; have h2 := (mem_sb20 i).mp h2; omega
theorem disj_sb10_sb21 : Disjoint sb10.view.set sb21.view.set :=
  Finset.disjoint_left.mpr fun i h1 h2 => by
    have h1 := (mem_sb10 i).mp h1; have h2 := (mem_sb21 i).mp h2; omega
theorem disj_sb11_sb20 : Disjoint sb11.view.set sb20.view.set :=
  Finset.disjoint_left.mpr fun i h1 h2 => by
    have h1 := (mem_sb11 i).mp h1; have h2 := (mem_sb20 i).mp h2; omega
theorem disj_sb11_sb21 : Disjoint sb11.view.set sb21.view.set :=
  Finset.disjoint_left.mpr fun i h1 h2 => by
    have h1 := (mem_sb11 i).mp h1; have h2 := (mem_sb21 i).mp h2; omega
theorem disj_sb20_sb21 : Disjoint sb20.view.set sb21.view.set :=
  Finset.disjoint_left.mpr fun i h1 h2 => by
    have h1 := (mem_sb20 i).mp h1; have h2 := (mem_sb21 i).mp h2; omega
theorem disj_rs0_rs1 : Disjoint rs0.view.set rs1.view.set :=
  Finset.disjoint_left.mpr fun i h1 h2 => by
    have h1 := (mem_rs0 i).mp h1; have h2 := (mem_rs1 i).mp h2; omega
theorem disj_rs0_rs2 : Disjoint rs0.view.set rs2.view.set :=
  Finset.disjoint_left.mpr fun i h1 h2 => by
    have h1 := (mem_rs0 i).mp h1; have h2 := (mem_rs2 i).mp h2; omega
theorem disj_rs0_rs3 : Disjoint rs0.view.set rs3.view.set :=
  Finset.disjoint_left.mpr fun i h1 h2 => by
    have h1 := (mem_rs0 i).mp h1; have h2 := (mem_rs3 i).mp h2; omega
theorem disj_rs1_rs2 : Disjoint rs1.view.set rs2.view.set :=
  Finset.disjoint_left.mpr fun i h1 h2 => by
    have h1 := (mem_rs1 i).mp h1; have h2 := (mem_rs2 i).mp h2; omega
theorem disj_rs1_rs3 : Disjoint rs1.view.set rs3.view.set :=
  Finset.disjoint_left.mpr fun i h1 h2 => by
    have h1 := (mem_rs1 i).mp h1; have h2 := (mem_rs3 i).mp h2; omega
theorem disj_rs2_rs3 : Disjoint rs2.view.set rs3.view.set :=
  Finset.disjoint_left.mpr fun i h1 h2 => by
    have h1 := (mem_rs2 i).mp h1; have h2 := (mem_rs3 i).mp h2; omega
theorem disj_rl0_rl1 : Disjoint rl0.view.set rl1.view.set :=
  Finset.disjoint_left.mpr fun i h1 h2 => by
    have h1 := (mem_rl0 i).mp h1; have h2 := (mem_rl1 i).mp h2; omega
theorem disj_cb0_cb1 : Disjoint cb0.view.set cb1.view.set :=
  Finset.disjoint_left.mpr fun i h1 h2 => by
    have h1 := (mem_cb0 i).mp h1; have h2 := (mem_cb1 i).mp h2; omega

/-! ### and together they are the whole buffer: every index has a slot and its row lies in one half -/

theorem sb_cover : (Finset.univ : Finset sbM.view.ty.Idx) = sb00.view.set ∪ sb01.view.set ∪ sb10.view.set ∪ sb11.view.set ∪ sb20.view.set ∪ sb21.view.set :=
  (Finset.eq_univ_of_forall fun i => by
    have h0 : ((i : S3x192x768.Idx) 0).val < 3 := (i 0).isLt
    have h1 : ((i : S3x192x768.Idx) 1).val < 192 := (i 1).isLt
    simp only [Finset.mem_union]
    rw [mem_sb00 i, mem_sb01 i, mem_sb10 i, mem_sb11 i, mem_sb20 i, mem_sb21 i]
    omega).symm
theorem rs_cover : (Finset.univ : Finset rsM.view.ty.Idx) = rs0.view.set ∪ rs1.view.set ∪ rs2.view.set ∪ rs3.view.set :=
  (Finset.eq_univ_of_forall fun i => by
    have h0 : ((i : S4x96x768.Idx) 0).val < 4 := (i 0).isLt
    have h1 : ((i : S4x96x768.Idx) 1).val < 96 := (i 1).isLt
    simp only [Finset.mem_union]
    rw [mem_rs0 i, mem_rs1 i, mem_rs2 i, mem_rs3 i]
    omega).symm
theorem rl_cover : (Finset.univ : Finset rlM.view.ty.Idx) = rl0.view.set ∪ rl1.view.set :=
  (Finset.eq_univ_of_forall fun i => by
    have h0 : ((i : S2x96x768.Idx) 0).val < 2 := (i 0).isLt
    have h1 : ((i : S2x96x768.Idx) 1).val < 96 := (i 1).isLt
    simp only [Finset.mem_union]
    rw [mem_rl0 i, mem_rl1 i]
    omega).symm
theorem cb_cover : (Finset.univ : Finset cbM.view.ty.Idx) = cb0.view.set ∪ cb1.view.set :=
  (Finset.eq_univ_of_forall fun i => by
    have h0 : ((i : S2x96x768.Idx) 0).val < 2 := (i 0).isLt
    have h1 : ((i : S2x96x768.Idx) 1).val < 96 := (i 1).isLt
    simp only [Finset.mem_union]
    rw [mem_cb0 i, mem_cb1 i]
    omega).symm

/-! ### What a store or a load through a rectangle of the buffer touches

  An access through a rectangle of a whole buffer touches the rectangle's indices. A slot of the send buffer is its
  two halves; a slot of the other buffers is one window. -/

theorem mem_access_whole {κ : Kind} (b : Ref sig κ) (r : Rect b.ty.shape) (i : b.ty.shape.Idx) :
    i ∈ ((Memref.whole b).access r).setOn Finset.univ ↔ i ∈ r.set := by
  rw [View.setOn_univ]
  show i ∈ ((View.whole b).slice r).set ↔ _
  rw [View.set_slice_whole]

theorem mem_load_whole {κ : Kind} (b : Ref sig κ) (r : LoadRect b.ty.shape) (i : b.ty.shape.Idx) :
    i ∈ (Memref.whole b).view.setOn r.set ↔ i ∈ r.set := by
  show i ∈ r.set.map (Function.Embedding.refl _) ↔ _
  rw [Finset.map_refl]

theorem sb_store0_sub :
    (sbM.access (Rect.unit (s := S3x192x768) ![0, 0, 0] S1x192x768.size inb_S3x192x768_S1x192x768_0_0_0)).setOn Finset.univ
      ⊆ sb00.view.set ∪ sb01.view.set := fun i hi => by
  have hi := (mem_unit3 0 0 0 1 192 768 inb_S3x192x768_S1x192x768_0_0_0 i).mp ((mem_access_whole cc0_scratch0 _ i).mp hi)
  refine Finset.mem_union.mpr ?_
  rw [mem_sb00 i, mem_sb01 i]
  omega
theorem sb_load0_sub :
    sbM.view.setOn (Rect.unit (s := S3x192x768) ![0, 0, 0] S1x192x768.size inb_S3x192x768_S1x192x768_0_0_0).toLoadRect.set
      ⊆ sb00.view.set ∪ sb01.view.set := fun i hi => by
  have hi := (mem_unit3 0 0 0 1 192 768 inb_S3x192x768_S1x192x768_0_0_0 i).mp ((mem_load_whole cc0_scratch0 _ i).mp hi)
  refine Finset.mem_union.mpr ?_
  rw [mem_sb00 i, mem_sb01 i]
  omega
theorem sb_store1_sub :
    (sbM.access (Rect.unit (s := S3x192x768) ![1, 0, 0] S1x192x768.size inb_S3x192x768_S1x192x768_1_0_0)).setOn Finset.univ
      ⊆ sb10.view.set ∪ sb11.view.set := fun i hi => by
  have hi := (mem_unit3 1 0 0 1 192 768 inb_S3x192x768_S1x192x768_1_0_0 i).mp ((mem_access_whole cc0_scratch0 _ i).mp hi)
  refine Finset.mem_union.mpr ?_
  rw [mem_sb10 i, mem_sb11 i]
  omega
theorem sb_load1_sub :
    sbM.view.setOn (Rect.unit (s := S3x192x768) ![1, 0, 0] S1x192x768.size inb_S3x192x768_S1x192x768_1_0_0).toLoadRect.set
      ⊆ sb10.view.set ∪ sb11.view.set := fun i hi => by
  have hi := (mem_unit3 1 0 0 1 192 768 inb_S3x192x768_S1x192x768_1_0_0 i).mp ((mem_load_whole cc0_scratch0 _ i).mp hi)
  refine Finset.mem_union.mpr ?_
  rw [mem_sb10 i, mem_sb11 i]
  omega
theorem sb_store2_sub :
    (sbM.access (Rect.unit (s := S3x192x768) ![2, 0, 0] S1x192x768.size inb_S3x192x768_S1x192x768_2_0_0)).setOn Finset.univ
      ⊆ sb20.view.set ∪ sb21.view.set := fun i hi => by
  have hi := (mem_unit3 2 0 0 1 192 768 inb_S3x192x768_S1x192x768_2_0_0 i).mp ((mem_access_whole cc0_scratch0 _ i).mp hi)
  refine Finset.mem_union.mpr ?_
  rw [mem_sb20 i, mem_sb21 i]
  omega
theorem sb_load2_sub :
    sbM.view.setOn (Rect.unit (s := S3x192x768) ![2, 0, 0] S1x192x768.size inb_S3x192x768_S1x192x768_2_0_0).toLoadRect.set
      ⊆ sb20.view.set ∪ sb21.view.set := fun i hi => by
  have hi := (mem_unit3 2 0 0 1 192 768 inb_S3x192x768_S1x192x768_2_0_0 i).mp ((mem_load_whole cc0_scratch0 _ i).mp hi)
  refine Finset.mem_union.mpr ?_
  rw [mem_sb20 i, mem_sb21 i]
  omega

theorem sb00_store_sub :
    (sbM.access (Rect.unit (s := S3x192x768) ![0, 0, 0] S1x96x768.size inb_S3x192x768_S1x96x768_0_0_0)).setOn Finset.univ ⊆ sb00.view.set :=
  fun i hi => (mem_win cc0_scratch0 _ _ _ _ i).mpr ((mem_access_whole cc0_scratch0 _ i).mp hi)
theorem sb01_store_sub :
    (sbM.access (Rect.unit (s := S3x192x768) ![0, 96, 0] S1x96x768.size inb_S3x192x768_S1x96x768_0_96_0)).setOn Finset.univ ⊆ sb01.view.set :=
  fun i hi => (mem_win cc0_scratch0 _ _ _ _ i).mpr ((mem_access_whole cc0_scratch0 _ i).mp hi)
theorem sb10_store_sub :
    (sbM.access (Rect.unit (s := S3x192x768) ![1, 0, 0] S1x96x768.size inb_S3x192x768_S1x96x768_1_0_0)).setOn Finset.univ ⊆ sb10.view.set :=
  fun i hi => (mem_win cc0_scratch0 _ _ _ _ i).mpr ((mem_access_whole cc0_scratch0 _ i).mp hi)
theorem sb11_store_sub :
    (sbM.access (Rect.unit (s := S3x192x768) ![1, 96, 0] S1x96x768.size inb_S3x192x768_S1x96x768_1_96_0)).setOn Finset.univ ⊆ sb11.view.set :=
  fun i hi => (mem_win cc0_scratch0 _ _ _ _ i).mpr ((mem_access_whole cc0_scratch0 _ i).mp hi)
theorem sb20_store_sub :
    (sbM.access (Rect.unit (s := S3x192x768) ![2, 0, 0] S1x96x768.size inb_S3x192x768_S1x96x768_2_0_0)).setOn Finset.univ ⊆ sb20.view.set :=
  fun i hi => (mem_win cc0_scratch0 _ _ _ _ i).mpr ((mem_access_whole cc0_scratch0 _ i).mp hi)
theorem sb21_store_sub :
    (sbM.access (Rect.unit (s := S3x192x768) ![2, 96, 0] S1x96x768.size inb_S3x192x768_S1x96x768_2_96_0)).setOn Finset.univ ⊆ sb21.view.set :=
  fun i hi => (mem_win cc0_scratch0 _ _ _ _ i).mpr ((mem_access_whole cc0_scratch0 _ i).mp hi)
theorem rs0_store_sub :
    (rsM.access (Rect.unit (s := S4x96x768) ![0, 0, 0] S1x96x768.size inb_S4x96x768_S1x96x768_0_0_0)).setOn Finset.univ ⊆ rs0.view.set :=
  fun i hi => (mem_win cc0_scratch1 _ _ _ _ i).mpr ((mem_access_whole cc0_scratch1 _ i).mp hi)
theorem rs1_store_sub :
    (rsM.access (Rect.unit (s := S4x96x768) ![1, 0, 0] S1x96x768.size inb_S4x96x768_S1x96x768_1_0_0)).setOn Finset.univ ⊆ rs1.view.set :=
  fun i hi => (mem_win cc0_scratch1 _ _ _ _ i).mpr ((mem_access_whole cc0_scratch1 _ i).mp hi)
theorem rs2_store_sub :
    (rsM.access (Rect.unit (s := S4x96x768) ![2, 0, 0] S1x96x768.size inb_S4x96x768_S1x96x768_2_0_0)).setOn Finset.univ ⊆ rs2.view.set :=
  fun i hi => (mem_win cc0_scratch1 _ _ _ _ i).mpr ((mem_access_whole cc0_scratch1 _ i).mp hi)
theorem rs3_store_sub :
    (rsM.access (Rect.unit (s := S4x96x768) ![3, 0, 0] S1x96x768.size inb_S4x96x768_S1x96x768_3_0_0)).setOn Finset.univ ⊆ rs3.view.set :=
  fun i hi => (mem_win cc0_scratch1 _ _ _ _ i).mpr ((mem_access_whole cc0_scratch1 _ i).mp hi)
theorem rl0_store_sub :
    (rlM.access (Rect.unit (s := S2x96x768) ![0, 0, 0] S1x96x768.size inb_S2x96x768_S1x96x768_0_0_0)).setOn Finset.univ ⊆ rl0.view.set :=
  fun i hi => (mem_win cc0_scratch2 _ _ _ _ i).mpr ((mem_access_whole cc0_scratch2 _ i).mp hi)
theorem rl1_store_sub :
    (rlM.access (Rect.unit (s := S2x96x768) ![1, 0, 0] S1x96x768.size inb_S2x96x768_S1x96x768_1_0_0)).setOn Finset.univ ⊆ rl1.view.set :=
  fun i hi => (mem_win cc0_scratch2 _ _ _ _ i).mpr ((mem_access_whole cc0_scratch2 _ i).mp hi)
theorem cb0_store_sub :
    (cbM.access (Rect.unit (s := S2x96x768) ![0, 0, 0] S1x96x768.size inb_S2x96x768_S1x96x768_0_0_0)).setOn Finset.univ ⊆ cb0.view.set :=
  fun i hi => (mem_win cc0_scratch3 _ _ _ _ i).mpr ((mem_access_whole cc0_scratch3 _ i).mp hi)
theorem cb1_store_sub :
    (cbM.access (Rect.unit (s := S2x96x768) ![1, 0, 0] S1x96x768.size inb_S2x96x768_S1x96x768_1_0_0)).setOn Finset.univ ⊆ cb1.view.set :=
  fun i hi => (mem_win cc0_scratch3 _ _ _ _ i).mpr ((mem_access_whole cc0_scratch3 _ i).mp hi)

theorem sb00_load_sub :
    sbM.view.setOn (Rect.unit (s := S3x192x768) ![0, 0, 0] S1x96x768.size inb_S3x192x768_S1x96x768_0_0_0).toLoadRect.set ⊆ sb00.view.set :=
  fun i hi => (mem_win cc0_scratch0 _ _ _ _ i).mpr ((mem_load_whole cc0_scratch0 _ i).mp hi)
theorem sb01_load_sub :
    sbM.view.setOn (Rect.unit (s := S3x192x768) ![0, 96, 0] S1x96x768.size inb_S3x192x768_S1x96x768_0_96_0).toLoadRect.set ⊆ sb01.view.set :=
  fun i hi => (mem_win cc0_scratch0 _ _ _ _ i).mpr ((mem_load_whole cc0_scratch0 _ i).mp hi)
theorem sb10_load_sub :
    sbM.view.setOn (Rect.unit (s := S3x192x768) ![1, 0, 0] S1x96x768.size inb_S3x192x768_S1x96x768_1_0_0).toLoadRect.set ⊆ sb10.view.set :=
  fun i hi => (mem_win cc0_scratch0 _ _ _ _ i).mpr ((mem_load_whole cc0_scratch0 _ i).mp hi)
theorem sb11_load_sub :
    sbM.view.setOn (Rect.unit (s := S3x192x768) ![1, 96, 0] S1x96x768.size inb_S3x192x768_S1x96x768_1_96_0).toLoadRect.set ⊆ sb11.view.set :=
  fun i hi => (mem_win cc0_scratch0 _ _ _ _ i).mpr ((mem_load_whole cc0_scratch0 _ i).mp hi)
theorem sb20_load_sub :
    sbM.view.setOn (Rect.unit (s := S3x192x768) ![2, 0, 0] S1x96x768.size inb_S3x192x768_S1x96x768_2_0_0).toLoadRect.set ⊆ sb20.view.set :=
  fun i hi => (mem_win cc0_scratch0 _ _ _ _ i).mpr ((mem_load_whole cc0_scratch0 _ i).mp hi)
theorem sb21_load_sub :
    sbM.view.setOn (Rect.unit (s := S3x192x768) ![2, 96, 0] S1x96x768.size inb_S3x192x768_S1x96x768_2_96_0).toLoadRect.set ⊆ sb21.view.set :=
  fun i hi => (mem_win cc0_scratch0 _ _ _ _ i).mpr ((mem_load_whole cc0_scratch0 _ i).mp hi)
theorem rs0_load_sub :
    rsM.view.setOn (Rect.unit (s := S4x96x768) ![0, 0, 0] S1x96x768.size inb_S4x96x768_S1x96x768_0_0_0).toLoadRect.set ⊆ rs0.view.set :=
  fun i hi => (mem_win cc0_scratch1 _ _ _ _ i).mpr ((mem_load_whole cc0_scratch1 _ i).mp hi)
theorem rs1_load_sub :
    rsM.view.setOn (Rect.unit (s := S4x96x768) ![1, 0, 0] S1x96x768.size inb_S4x96x768_S1x96x768_1_0_0).toLoadRect.set ⊆ rs1.view.set :=
  fun i hi => (mem_win cc0_scratch1 _ _ _ _ i).mpr ((mem_load_whole cc0_scratch1 _ i).mp hi)
theorem rs2_load_sub :
    rsM.view.setOn (Rect.unit (s := S4x96x768) ![2, 0, 0] S1x96x768.size inb_S4x96x768_S1x96x768_2_0_0).toLoadRect.set ⊆ rs2.view.set :=
  fun i hi => (mem_win cc0_scratch1 _ _ _ _ i).mpr ((mem_load_whole cc0_scratch1 _ i).mp hi)
theorem rs3_load_sub :
    rsM.view.setOn (Rect.unit (s := S4x96x768) ![3, 0, 0] S1x96x768.size inb_S4x96x768_S1x96x768_3_0_0).toLoadRect.set ⊆ rs3.view.set :=
  fun i hi => (mem_win cc0_scratch1 _ _ _ _ i).mpr ((mem_load_whole cc0_scratch1 _ i).mp hi)
theorem rl0_load_sub :
    rlM.view.setOn (Rect.unit (s := S2x96x768) ![0, 0, 0] S1x96x768.size inb_S2x96x768_S1x96x768_0_0_0).toLoadRect.set ⊆ rl0.view.set :=
  fun i hi => (mem_win cc0_scratch2 _ _ _ _ i).mpr ((mem_load_whole cc0_scratch2 _ i).mp hi)
theorem rl1_load_sub :
    rlM.view.setOn (Rect.unit (s := S2x96x768) ![1, 0, 0] S1x96x768.size inb_S2x96x768_S1x96x768_1_0_0).toLoadRect.set ⊆ rl1.view.set :=
  fun i hi => (mem_win cc0_scratch2 _ _ _ _ i).mpr ((mem_load_whole cc0_scratch2 _ i).mp hi)
theorem cb0_load_sub :
    cbM.view.setOn (Rect.unit (s := S2x96x768) ![0, 0, 0] S1x96x768.size inb_S2x96x768_S1x96x768_0_0_0).toLoadRect.set ⊆ cb0.view.set :=
  fun i hi => (mem_win cc0_scratch3 _ _ _ _ i).mpr ((mem_load_whole cc0_scratch3 _ i).mp hi)
theorem cb1_load_sub :
    cbM.view.setOn (Rect.unit (s := S2x96x768) ![1, 0, 0] S1x96x768.size inb_S2x96x768_S1x96x768_1_0_0).toLoadRect.set ⊆ cb1.view.set :=
  fun i hi => (mem_win cc0_scratch3 _ _ _ _ i).mpr ((mem_load_whole cc0_scratch3 _ i).mp hi)

/-! ## What a window reads after a store of its slot

  A slot of the send buffer is stored whole (`[1, 192, 768]`); its lower window then reads rows 0–95 of the payload and
  its upper window rows 96–191: the window's index `(0, p, q)` is the store's index `(0, h + p, q)`. A slot of the
  buffer of pre-added halves is stored through the window's own rectangle, so the window reads the payload. -/

/-- Reading through one rectangle of a view what an unmasked store through another rectangle left, when every index
    `j` of the first is the index `k j` of the second: the payload at `k j`. -/
theorem read_slice_write_slice_sub {κ : Kind} {sp : Space} {s : Shape} {e : EltTy} {Val : EltTy → Type} (v : View sig κ sp s e) (R r : Rect s)
    (f : v.ty.Contents Val) (w : R.shape.Idx → Val e) (k : r.shape.Idx → R.shape.Idx) (hk : ∀ j, r.emb j = R.emb (k j)) :
    (v.slice r).read Val ((v.slice R).write Val f w Finset.univ) = fun j => w (k j) :=
  funext fun j => by
    show v.read Val _ (r.emb j) = _
    rw [hk j]
    exact View.read_slice_write_emb R f w (Finset.mem_univ _)

theorem sb00_read_store (f : sbM.view.ty.Contents (Elt F)) (w : FVec F S1x192x768 .bf16) :
    sb00.view.read (Elt F) ((sbM.access (Rect.unit (s := S3x192x768) ![0, 0, 0] S1x192x768.size inb_S3x192x768_S1x192x768_0_0_0)).write (Elt F) f w Finset.univ)
      = half0 w :=
  (sb00_load _).symm.trans (congrArg (fun v => shapeCast S96x768 v shapeCasts_S1x96x768_S96x768)
    (read_slice_write_slice_sub sbM.view (Rect.unit (s := S3x192x768) ![0, 0, 0] S1x192x768.size inb_S3x192x768_S1x192x768_0_0_0) (Rect.unit (s := S3x192x768) ![0, 0, 0] S1x96x768.size inb_S3x192x768_S1x96x768_0_0_0) f w
      (fun j a => ⟨(![0, 0, 0] : Fin 3 → Nat) a + (j (a.cast slices_lo.1.symm)).val,
        Nat.lt_of_lt_of_le (Nat.add_lt_add_left (j _).isLt _) (slices_lo.2 a)⟩)
      (fun j => funext fun a => Fin.ext (by
        match a with
        | ⟨0, _⟩ => show 0 + 1 * (j 0).val = 0 + 1 * (0 + (j 0).val); omega
        | ⟨1, _⟩ => show 0 + 1 * (j 1).val = 0 + 1 * (0 + (j 1).val); omega
        | ⟨2, _⟩ => show 0 + 1 * (j 2).val = 0 + 1 * (0 + (j 2).val); omega))))
theorem sb01_read_store (f : sbM.view.ty.Contents (Elt F)) (w : FVec F S1x192x768 .bf16) :
    sb01.view.read (Elt F) ((sbM.access (Rect.unit (s := S3x192x768) ![0, 0, 0] S1x192x768.size inb_S3x192x768_S1x192x768_0_0_0)).write (Elt F) f w Finset.univ)
      = half1 w :=
  (sb01_load _).symm.trans (congrArg (fun v => shapeCast S96x768 v shapeCasts_S1x96x768_S96x768)
    (read_slice_write_slice_sub sbM.view (Rect.unit (s := S3x192x768) ![0, 0, 0] S1x192x768.size inb_S3x192x768_S1x192x768_0_0_0) (Rect.unit (s := S3x192x768) ![0, 96, 0] S1x96x768.size inb_S3x192x768_S1x96x768_0_96_0) f w
      (fun j a => ⟨(![0, 96, 0] : Fin 3 → Nat) a + (j (a.cast slices_hi.1.symm)).val,
        Nat.lt_of_lt_of_le (Nat.add_lt_add_left (j _).isLt _) (slices_hi.2 a)⟩)
      (fun j => funext fun a => Fin.ext (by
        match a with
        | ⟨0, _⟩ => show 0 + 1 * (j 0).val = 0 + 1 * (0 + (j 0).val); omega
        | ⟨1, _⟩ => show 96 + 1 * (j 1).val = 0 + 1 * (96 + (j 1).val); omega
        | ⟨2, _⟩ => show 0 + 1 * (j 2).val = 0 + 1 * (0 + (j 2).val); omega))))
theorem sb10_read_store (f : sbM.view.ty.Contents (Elt F)) (w : FVec F S1x192x768 .bf16) :
    sb10.view.read (Elt F) ((sbM.access (Rect.unit (s := S3x192x768) ![1, 0, 0] S1x192x768.size inb_S3x192x768_S1x192x768_1_0_0)).write (Elt F) f w Finset.univ)
      = half0 w :=
  (sb10_load _).symm.trans (congrArg (fun v => shapeCast S96x768 v shapeCasts_S1x96x768_S96x768)
    (read_slice_write_slice_sub sbM.view (Rect.unit (s := S3x192x768) ![1, 0, 0] S1x192x768.size inb_S3x192x768_S1x192x768_1_0_0) (Rect.unit (s := S3x192x768) ![1, 0, 0] S1x96x768.size inb_S3x192x768_S1x96x768_1_0_0) f w
      (fun j a => ⟨(![0, 0, 0] : Fin 3 → Nat) a + (j (a.cast slices_lo.1.symm)).val,
        Nat.lt_of_lt_of_le (Nat.add_lt_add_left (j _).isLt _) (slices_lo.2 a)⟩)
      (fun j => funext fun a => Fin.ext (by
        match a with
        | ⟨0, _⟩ => show 1 + 1 * (j 0).val = 1 + 1 * (0 + (j 0).val); omega
        | ⟨1, _⟩ => show 0 + 1 * (j 1).val = 0 + 1 * (0 + (j 1).val); omega
        | ⟨2, _⟩ => show 0 + 1 * (j 2).val = 0 + 1 * (0 + (j 2).val); omega))))
theorem sb11_read_store (f : sbM.view.ty.Contents (Elt F)) (w : FVec F S1x192x768 .bf16) :
    sb11.view.read (Elt F) ((sbM.access (Rect.unit (s := S3x192x768) ![1, 0, 0] S1x192x768.size inb_S3x192x768_S1x192x768_1_0_0)).write (Elt F) f w Finset.univ)
      = half1 w :=
  (sb11_load _).symm.trans (congrArg (fun v => shapeCast S96x768 v shapeCasts_S1x96x768_S96x768)
    (read_slice_write_slice_sub sbM.view (Rect.unit (s := S3x192x768) ![1, 0, 0] S1x192x768.size inb_S3x192x768_S1x192x768_1_0_0) (Rect.unit (s := S3x192x768) ![1, 96, 0] S1x96x768.size inb_S3x192x768_S1x96x768_1_96_0) f w
      (fun j a => ⟨(![0, 96, 0] : Fin 3 → Nat) a + (j (a.cast slices_hi.1.symm)).val,
        Nat.lt_of_lt_of_le (Nat.add_lt_add_left (j _).isLt _) (slices_hi.2 a)⟩)
      (fun j => funext fun a => Fin.ext (by
        match a with
        | ⟨0, _⟩ => show 1 + 1 * (j 0).val = 1 + 1 * (0 + (j 0).val); omega
        | ⟨1, _⟩ => show 96 + 1 * (j 1).val = 0 + 1 * (96 + (j 1).val); omega
        | ⟨2, _⟩ => show 0 + 1 * (j 2).val = 0 + 1 * (0 + (j 2).val); omega))))
theorem sb20_read_store (f : sbM.view.ty.Contents (Elt F)) (w : FVec F S1x192x768 .bf16) :
    sb20.view.read (Elt F) ((sbM.access (Rect.unit (s := S3x192x768) ![2, 0, 0] S1x192x768.size inb_S3x192x768_S1x192x768_2_0_0)).write (Elt F) f w Finset.univ)
      = half0 w :=
  (sb20_load _).symm.trans (congrArg (fun v => shapeCast S96x768 v shapeCasts_S1x96x768_S96x768)
    (read_slice_write_slice_sub sbM.view (Rect.unit (s := S3x192x768) ![2, 0, 0] S1x192x768.size inb_S3x192x768_S1x192x768_2_0_0) (Rect.unit (s := S3x192x768) ![2, 0, 0] S1x96x768.size inb_S3x192x768_S1x96x768_2_0_0) f w
      (fun j a => ⟨(![0, 0, 0] : Fin 3 → Nat) a + (j (a.cast slices_lo.1.symm)).val,
        Nat.lt_of_lt_of_le (Nat.add_lt_add_left (j _).isLt _) (slices_lo.2 a)⟩)
      (fun j => funext fun a => Fin.ext (by
        match a with
        | ⟨0, _⟩ => show 2 + 1 * (j 0).val = 2 + 1 * (0 + (j 0).val); omega
        | ⟨1, _⟩ => show 0 + 1 * (j 1).val = 0 + 1 * (0 + (j 1).val); omega
        | ⟨2, _⟩ => show 0 + 1 * (j 2).val = 0 + 1 * (0 + (j 2).val); omega))))
theorem sb21_read_store (f : sbM.view.ty.Contents (Elt F)) (w : FVec F S1x192x768 .bf16) :
    sb21.view.read (Elt F) ((sbM.access (Rect.unit (s := S3x192x768) ![2, 0, 0] S1x192x768.size inb_S3x192x768_S1x192x768_2_0_0)).write (Elt F) f w Finset.univ)
      = half1 w :=
  (sb21_load _).symm.trans (congrArg (fun v => shapeCast S96x768 v shapeCasts_S1x96x768_S96x768)
    (read_slice_write_slice_sub sbM.view (Rect.unit (s := S3x192x768) ![2, 0, 0] S1x192x768.size inb_S3x192x768_S1x192x768_2_0_0) (Rect.unit (s := S3x192x768) ![2, 96, 0] S1x96x768.size inb_S3x192x768_S1x96x768_2_96_0) f w
      (fun j a => ⟨(![0, 96, 0] : Fin 3 → Nat) a + (j (a.cast slices_hi.1.symm)).val,
        Nat.lt_of_lt_of_le (Nat.add_lt_add_left (j _).isLt _) (slices_hi.2 a)⟩)
      (fun j => funext fun a => Fin.ext (by
        match a with
        | ⟨0, _⟩ => show 2 + 1 * (j 0).val = 2 + 1 * (0 + (j 0).val); omega
        | ⟨1, _⟩ => show 96 + 1 * (j 1).val = 0 + 1 * (96 + (j 1).val); omega
        | ⟨2, _⟩ => show 0 + 1 * (j 2).val = 0 + 1 * (0 + (j 2).val); omega))))

theorem cb0_read_store (f : cbM.view.ty.Contents (Elt F)) (w : FVec F S1x96x768 .bf16) :
    cb0.view.read (Elt F) ((cbM.access (Rect.unit (s := S2x96x768) ![0, 0, 0] S1x96x768.size inb_S2x96x768_S1x96x768_0_0_0)).write (Elt F) f w Finset.univ)
      = shapeCast S96x768 w shapeCasts_S1x96x768_S96x768 :=
  (cb0_load _).symm.trans (congrArg (fun v => shapeCast S96x768 v shapeCasts_S1x96x768_S96x768)
    (View.read_write_univ (v := cbM.access (Rect.unit (s := S2x96x768) ![0, 0, 0] S1x96x768.size inb_S2x96x768_S1x96x768_0_0_0)) f w))
theorem cb1_read_store (f : cbM.view.ty.Contents (Elt F)) (w : FVec F S1x96x768 .bf16) :
    cb1.view.read (Elt F) ((cbM.access (Rect.unit (s := S2x96x768) ![1, 0, 0] S1x96x768.size inb_S2x96x768_S1x96x768_1_0_0)).write (Elt F) f w Finset.univ)
      = shapeCast S96x768 w shapeCasts_S1x96x768_S96x768 :=
  (cb1_load _).symm.trans (congrArg (fun v => shapeCast S96x768 v shapeCasts_S1x96x768_S96x768)
    (View.read_write_univ (v := cbM.access (Rect.unit (s := S2x96x768) ![1, 0, 0] S1x96x768.size inb_S2x96x768_S1x96x768_1_0_0)) f w))

/-! ## The result buffer in eight blocks of 96 rows

  Half `j` of chunk `k` of the `[768, 768]` result is rows `192 k + 96 j … 192 k + 96 j + 95`, every column. A row `ρ`
  lies in exactly one block: chunk `ρ / 192`, half `ρ % 192 / 96`. -/

theorem mem_oS (k : Dev nD) (j : Fin 2) (i : S768x768.Idx) :
    i ∈ (oS k j).view.set ↔ 192 * k.val + 96 * j.val ≤ (i 0).val ∧ (i 0).val < 192 * k.val + 96 * j.val + 96 := by
  have h1 : (i 1).val < 768 := (i 1).isLt
  refine (show i ∈ (oS k j).view.set ↔ i ∈ (Rect.unit (s := S768x768) ![192 * k.val + 96 * j.val, 0] S96x768.size (orow_inb k j)).set from by
      rw [show (oS k j).view.set = _ from View.set_slice_whole cc0_stg3_0 _]).trans
    ((mem_unit2 (192 * k.val + 96 * j.val) 0 96 768 (orow_inb k j) i).trans ?_)
  omega

/-- The blocks, as a family over (chunk, half). -/
abbrev oSet (p : Dev nD × Fin 2) : Finset oM.view.ty.Idx := (oS p.1 p.2).view.set

/-- Two different blocks share no row. -/
theorem oS_disjoint (p p' : Dev nD × Fin 2) (h : p ≠ p') : Disjoint (oSet p) (oSet p') :=
  Finset.disjoint_left.mpr fun i h1 h2 => h (by
    have h1 := (mem_oS p.1 p.2 i).mp h1
    have h2 := (mem_oS p'.1 p'.2 i).mp h2
    have := p.2.isLt; have := p'.2.isLt
    exact Prod.ext (Fin.ext (by omega)) (Fin.ext (by omega)))

theorem oS_pairwise : ∀ t ∈ (Finset.univ : Finset (Dev nD × Fin 2)), ∀ t' ∈ (Finset.univ : Finset (Dev nD × Fin 2)),
    t ≠ t' → Disjoint (oSet t) (oSet t') := fun t _ t' _ h => oS_disjoint t t' h

/-- Every row is in a block: row `ρ` in chunk `ρ / 192`, half `ρ % 192 / 96`. -/
theorem oS_mem (i : S768x768.Idx) : i ∈ (Finset.univ : Finset (Dev nD × Fin 2)).biUnion oSet := by
  have h0 : (i 0).val < 768 := (i 0).isLt
  have hk : (i 0).val / 192 < 4 := by omega
  have hj : (i 0).val % 192 / 96 < 2 := by omega
  refine Finset.mem_biUnion.mpr ⟨(⟨_, hk⟩, ⟨_, hj⟩), Finset.mem_univ _, ?_⟩
  exact (mem_oS ⟨_, hk⟩ ⟨_, hj⟩ i).mpr
    ⟨by show 192 * ((i 0).val / 192) + 96 * ((i 0).val % 192 / 96) ≤ (i 0).val; omega,
     by show (i 0).val < 192 * ((i 0).val / 192) + 96 * ((i 0).val % 192 / 96) + 96; omega⟩

theorem oS_cover : (Finset.univ : Finset oM.view.ty.Idx) = (Finset.univ : Finset (Dev nD × Fin 2)).biUnion oSet :=
  (Finset.eq_univ_of_forall fun i => oS_mem i).symm

/-- A store of a block touches the block, a load of it reads inside it, -/
theorem oS_store_sub (k : Dev nD) (j : Fin 2) :
    (oM.access (Rect.unit (s := S768x768) ![192 * k.val + 96 * j.val, 0] S96x768.size (orow_inb k j))).setOn Finset.univ ⊆ (oS k j).view.set :=
  fun _ hi => hi
theorem oS_load_sub (k : Dev nD) (j : Fin 2) :
    oM.view.setOn (Rect.unit (s := S768x768) ![192 * k.val + 96 * j.val, 0] S96x768.size (orow_inb k j)).toLoadRect.set ⊆ (oS k j).view.set :=
  fun i hi => by
    rw [show (oS k j).view.set = _ from View.set_slice_whole cc0_stg3_0 _]
    exact (mem_load_whole cc0_stg3_0 _ i).mp hi
/-- and after the store the block reads the payload. -/
theorem oS_read_store (k : Dev nD) (j : Fin 2) (f : oM.view.ty.Contents (Elt F)) (w : FVec F S96x768 .bf16) :
    (oS k j).view.read (Elt F) ((oM.access (Rect.unit (s := S768x768) ![192 * k.val + 96 * j.val, 0] S96x768.size (orow_inb k j))).write (Elt F) f w Finset.univ) = w :=
  View.read_write_univ (v := oM.access (Rect.unit (s := S768x768) ![192 * k.val + 96 * j.val, 0] S96x768.size (orow_inb k j))) f w

/-- Row `192 k + 96 j + p` of the assembled array is row `p` of block `(k, j)`. -/
theorem outAll_at (V : Dev nD → Fin 2 → FVec F S96x768 .bf16) (k : Dev nD) (j : Fin 2) (p : Fin 96) (q : Fin 768) :
    outAll V (ix2 ⟨192 * k.val + 96 * j.val + p.val, by have hk : k.val < 4 := k.isLt; have := j.isLt; have := p.isLt; show _ < 768; omega⟩ q) = V k j (ix2 p q) := by
  have hk : k.val < 4 := k.isLt
  have hj := j.isLt
  have hp := p.isLt
  have e1 : (192 * k.val + 96 * j.val + p.val) / 192 = k.val := by omega
  have e2 : (192 * k.val + 96 * j.val + p.val) % 192 / 96 = j.val := by omega
  have e3 : (192 * k.val + 96 * j.val + p.val) % 96 = p.val := by omega
  unfold outAll
  exact congr (congr (congrArg V (Fin.ext e1)) (Fin.ext e2)) (congrArg (fun a => ix2 a q) (Fin.ext e3))

/-- Contents of the result buffer whose eight blocks read `V k j` are the assembled array: the element at row `ρ` is
    read by block `(ρ / 192, ρ % 192 / 96)` at its row `ρ % 96`. -/
theorem eq_outAll (g : oM.view.ty.Contents (Elt F)) (V : Dev nD → Fin 2 → FVec F S96x768 .bf16)
    (h : ∀ k j, (oS k j).view.read (Elt F) g = V k j) : g = outAll V := by
  funext i
  have hi0 : ((i : S768x768.Idx) 0).val < 768 := (i 0).isLt
  let k : Dev nD := ⟨((i : S768x768.Idx) 0).val / 192, by show _ < 4; omega⟩
  let j : Fin 2 := ⟨((i : S768x768.Idx) 0).val % 192 / 96, by omega⟩
  let x : S96x768.Idx := ix2 ⟨((i : S768x768.Idx) 0).val % 96, Nat.mod_lt _ (by decide)⟩ ⟨((i : S768x768.Idx) 1).val, (i 1).isLt⟩
  have e : (Rect.unit (s := S768x768) ![192 * k.val + 96 * j.val, 0] S96x768.size (orow_inb k j)).emb x = i :=
    funext fun a => Fin.ext (by
      match a with
      | ⟨0, _⟩ =>
        show 192 * (((i : S768x768.Idx) 0).val / 192) + 96 * (((i : S768x768.Idx) 0).val % 192 / 96) + 1 * (((i : S768x768.Idx) 0).val % 96) = ((i : S768x768.Idx) 0).val
        omega
      | ⟨1, _⟩ => show 0 + 1 * ((i : S768x768.Idx) 1).val = ((i : S768x768.Idx) 1).val; omega)
  calc g i = g ((Rect.unit (s := S768x768) ![192 * k.val + 96 * j.val, 0] S96x768.size (orow_inb k j)).emb x) := by rw [e]
    _ = (oS k j).view.read (Elt F) g x := rfl
    _ = V k j x := congrFun (h k j) x

/-- info: 'Cert.KernelIdealProof.eq_outAll' depends on axioms: [propext, Classical.choice, Quot.sound] -/
#guard_msgs in #print axioms Cert.KernelIdealProof.eq_outAll
/-- info: 'Cert.KernelIdealProof.sb_cover' depends on axioms: [propext, Classical.choice, Quot.sound] -/
#guard_msgs in #print axioms Cert.KernelIdealProof.sb_cover

end Cert.KernelIdealProof

end
-- ==== Proof.Local.lean ====
/-
  Two restatements of the load and store rules that name what is read and what is left, so that a run keeps the values in
  closed form; and the bound on the levels of the cells a device still pays.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

/-- A load whose value is known: the program continues at that value. -/
theorem wp_load_eq {cs : CoreSpace} {s : Shape} {e : EltTy} (c : Thread nD τ) {mr : Memref sig c.2.kind cs s e} {r : LoadRect s} {hl : mr.view.LoadsAt r}
    {α : Type} {Q : α → sProp 𝕄} {k : (r.shape.Idx → Elt F e) → Prog (TpuEff nD τ sig (Elt F) Λ₀ c.2) α}
    {S : Finset (Idx (mr.view.loc c))} {q : PosShare TreeShare} {f : Buf (Elt F) (mr.view.loc c)}
    (hS : mr.view.setOn r.set ⊆ S) (v : r.shape.Idx → Elt F e) (hv : mr.view.readAt (Elt F) r f = v) :
    (mr.view.loc c ↦[S]{q} f)
      ⊢ iprop(((mr.view.loc c ↦[S]{q} f) -∗ wp frame (wpE (defs₀ (F := F)) 𝒱₀ c none) Set.univ (k v) Q)
        -∗ wp frame (wpE (defs₀ (F := F)) 𝒱₀ c none) Set.univ (.op (.load mr r hl) k) Q) := by
  subst hv; exact wp_load 𝒱₀ c none Set.univ hS

/-- A store whose result is known. -/
theorem wp_store_eq {cs : CoreSpace} {s : Shape} {e : EltTy} (c : Thread nD τ) {mr : Memref sig c.2.kind cs s e} {r : Rect s} {w : r.shape.Idx → Elt F e} {Mk : Finset r.shape.Idx}
    {hx : (mr.access r).Stores Mk} {hm : Mk = Finset.univ ∨ ∀ a, r.stride a = 1}
    {α : Type} {Q : α → sProp 𝕄} {k : PUnit → Prog (TpuEff nD τ sig (Elt F) Λ₀ c.2) α}
    {S : Finset (Idx ((mr.access r).loc c))} {f : Buf (Elt F) ((mr.access r).loc c)}
    (hS : (mr.access r).setOn Mk ⊆ S) (g : Buf (Elt F) ((mr.access r).loc c)) (hg : (mr.access r).write (Elt F) f w Mk = g) :
    ((mr.access r).loc c ↦[S]{fullShare} f)
      ⊢ iprop((((mr.access r).loc c ↦[S]{fullShare} g) -∗ wp frame (wpE (defs₀ (F := F)) 𝒱₀ c none) Set.univ (k ⟨⟩) Q)
        -∗ wp frame (wpE (defs₀ (F := F)) 𝒱₀ c none) Set.univ (.op (.store mr r w Mk hx hm) k) Q) := by
  subst hg; exact wp_store 𝒱₀ c none Set.univ hS

/-- Every cell device `c`'s copies pay from some copy on is a TensorCore cell above a level: by cases on the list. -/
macro "pay_above" : tactic => `(tactic| (
  intro g hg
  simp only [payCells, List.drop_succ_cons, List.drop_zero, List.mem_cons, List.not_mem_nil, or_false] at hg
  (try casesm* _ ∨ _) <;> subst_vars <;> exact ⟨rfl, by dsimp only; decide⟩))

omit [FloatOps F] in
theorem pay_above_0 (c : Dev nD) : ∀ g ∈ (payCells c).drop 0, g.1.2 = .tc ∧ 1 < lvl g.2 := by pay_above
omit [FloatOps F] in
theorem pay_above_4 (c : Dev nD) : ∀ g ∈ (payCells c).drop 4, g.1.2 = .tc ∧ 2 < lvl g.2 := by pay_above
omit [FloatOps F] in
theorem pay_above_5 (c : Dev nD) : ∀ g ∈ (payCells c).drop 5, g.1.2 = .tc ∧ 3 < lvl g.2 := by pay_above
omit [FloatOps F] in
theorem pay_above_6 (c : Dev nD) : ∀ g ∈ (payCells c).drop 6, g.1.2 = .tc ∧ 5 < lvl g.2 := by pay_above
omit [FloatOps F] in
theorem pay_above_8 (c : Dev nD) : ∀ g ∈ (payCells c).drop 8, g.1.2 = .tc ∧ 7 < lvl g.2 := by pay_above
omit [FloatOps F] in
theorem pay_above_10 (c : Dev nD) : ∀ g ∈ (payCells c).drop 10, g.1.2 = .tc ∧ 8 < lvl g.2 := by pay_above
omit [FloatOps F] in
theorem pay_above_11 (c : Dev nD) : ∀ g ∈ (payCells c).drop 11, g.1.2 = .tc ∧ 9 < lvl g.2 := by pay_above
omit [FloatOps F] in
theorem pay_above_12 (c : Dev nD) (k : ℕ) : ∀ g ∈ (payCells c).drop 12, g.1.2 = .tc ∧ k < lvl g.2 := by
  intro g hg; simp only [payCells, List.drop_succ_cons, List.drop_zero, List.not_mem_nil] at hg

/-- Device `c` holds its buffer `b` whole at `f`. -/
abbrev bufAt (c : Dev nD) (b : Ref sig .tc) (f : Buf (Elt F) ((c : Thread nD τ).loc b)) : sProp 𝕄 :=
  (((c : Thread nD τ).loc b) ↦{fullShare} f)

/-! ## The rows of a chunk, as the program's loads spell them -/

theorem off1_opp : ∀ c : Dev nD, k0_off1 c 2#32 = ![192 * (opp c).val, 0] := by decide +kernel
theorem off1_nxt : ∀ c : Dev nD, k0_off1 c 1#32 = ![192 * (nxt c).val, 0] := by decide +kernel
theorem off2_prv : ∀ c : Dev nD, k0_off2 c = ![192 * (prv c).val, 0] := by decide +kernel

theorem xrows_opp (X : Dev nD → Vec F S768x768 .f32) (c : Dev nD) :
    xbM.view.readAt (Elt F) (Rect.unit (s := S768x768) (k0_off1 c 2#32) S192x768.size (k0_off1_inb c 1)).toLoadRect (k0_pay1 (X c)) = xrows X c (opp c) :=
  View.readAt_unit_congr _ (off1_opp c) _ _ _
theorem xrows_nxt (X : Dev nD → Vec F S768x768 .f32) (c : Dev nD) :
    xbM.view.readAt (Elt F) (Rect.unit (s := S768x768) (k0_off1 c 1#32) S192x768.size (k0_off1_inb c 0)).toLoadRect (k0_pay1 (X c)) = xrows X c (nxt c) :=
  View.readAt_unit_congr _ (off1_nxt c) _ _ _
theorem xrows_prv (X : Dev nD → Vec F S768x768 .f32) (c : Dev nD) :
    xbM.view.readAt (Elt F) (Rect.unit (s := S768x768) (k0_off2 c) S192x768.size (k0_off2_inb c)).toLoadRect (k0_pay1 (X c)) = xrows X c (prv c) :=
  View.readAt_unit_congr _ (off2_prv c) _ _ _
theorem xrows_own (X : Dev nD → Vec F S768x768 .f32) (c : Dev nD) :
    xbM.view.readAt (Elt F) (Rect.unit (s := S768x768) (k0_off3 c) S192x768.size (k0_off3_inb c)).toLoadRect (k0_pay1 (X c)) = xrows X c c :=
  View.readAt_unit_congr _ (k0_off3_eq c) _ _ _

end Cert.KernelIdealProof

end
-- ==== Proof.Join.lean ====
/-
  Splitting a device's buffers into the windows that change hands, joining them again, and the bookkeeping of the 24
  transfer cells taken one by one.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

/-! ## Conjunctions over the cells, unfolded -/

omit [FloatOps F] in
theorem fin24 (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  rw [bigSep_univ_eq_bigSepL [0, 1, 2, 3, 4, 5, 6, 7, 8, 9, 10, 11, 12, 13, 14, 15, 16, 17, 18, 19, 20, 21, 22, 23] (by decide) (by decide)]
  rfl

omit [FloatOps F] in
theorem sendToks_eq (c : Dev nD) : (bigSepL sendIdx (fun i => (dutyTok ER (dcell c i) 0 false : sProp 𝕄)))
    = iprop(dutyTok ER (dcell c 0) 0 false ∗ dutyTok ER (dcell c 1) 0 false ∗ dutyTok ER (dcell c 2) 0 false ∗ dutyTok ER (dcell c 3) 0 false ∗ dutyTok ER (dcell c 4) 0 false ∗ dutyTok ER (dcell c 5) 0 false ∗ dutyTok ER (dcell c 12) 0 false ∗ dutyTok ER (dcell c 13) 0 false ∗ dutyTok ER (dcell c 14) 0 false ∗ dutyTok ER (dcell c 15) 0 false ∗ dutyTok ER (dcell c 16) 0 false ∗ dutyTok ER (dcell c 17) 0 false) := by
  rfl

omit [FloatOps F] in
theorem payToksL_eq (c : Dev nD) : (bigSepL (payCells c) (fun g => (dutyTok ER g 0 false : sProp 𝕄)))
    = iprop(dutyTok ER (dcell (prv c) 10) 0 false ∗ dutyTok ER (dcell (nxt c) 11) 0 false ∗ dutyTok ER (dcell (nxt c) 6) 0 false
        ∗ dutyTok ER (dcell (prv c) 8) 0 false ∗ dutyTok ER (dcell (nxt c) 9) 0 false ∗ dutyTok ER (dcell (prv c) 7) 0 false
        ∗ dutyTok ER (dcell (nxt c) 20) 0 false ∗ dutyTok ER (dcell (prv c) 18) 0 false ∗ dutyTok ER (dcell (nxt c) 21) 0 false
        ∗ dutyTok ER (dcell (prv c) 19) 0 false ∗ dutyTok ER (dcell (prv c) 23) 0 false ∗ dutyTok ER (dcell (nxt c) 22) 0 false) := by
  rfl

omit [FloatOps F] in
theorem recvCreds_eq (c : Dev nD) : (recvCreds c : sProp 𝕄)
    = iprop(cred (tallyAt (dcell c 6) () N) ∗ cred (tallyAt (dcell c 7) () N) ∗ cred (tallyAt (dcell c 8) () N) ∗ cred (tallyAt (dcell c 9) () N) ∗ cred (tallyAt (dcell c 10) () N) ∗ cred (tallyAt (dcell c 11) () N) ∗ cred (tallyAt (dcell c 18) () N) ∗ cred (tallyAt (dcell c 19) () N) ∗ cred (tallyAt (dcell c 20) () N) ∗ cred (tallyAt (dcell c 21) () N) ∗ cred (tallyAt (dcell c 22) () N) ∗ cred (tallyAt (dcell c 23) () N)) := by
  rfl

omit [FloatOps F] in
/-- The eight half-chunks of the result, counted from device `c`. -/
theorem out_blocks (c : Dev nD) (Φ : Dev nD × Fin 2 → sProp 𝕄) :
    bigSep Finset.univ Φ = iprop(Φ (c, 0) ∗ Φ (c, 1) ∗ Φ (nxt c, 0) ∗ Φ (nxt c, 1) ∗ Φ (prv c, 0) ∗ Φ (prv c, 1) ∗ Φ (opp c, 0) ∗ Φ (opp c, 1)) := by
  rw [bigSep_univ_eq_bigSepL [(c, 0), (c, 1), (nxt c, 0), (nxt c, 1), (prv c, 0), (prv c, 1), (opp c, 0), (opp c, 1)]
    (by revert c; decide) (by revert c; decide)]
  rfl

/-! ## Splitting -/

omit [FloatOps F] in
theorem split_rs (c : Dev nD) (f : Buf (Elt F) ((c : Thread nD τ).loc cc0_scratch1)) :
    bufAt c cc0_scratch1 f ⊢ iprop(hole (F := F) c rs0 ∗ hole (F := F) c rs1 ∗ hole (F := F) c rs2 ∗ hole (F := F) c rs3) := by
  unfold hole
  have d3 : Disjoint (rs0.view.set ∪ rs1.view.set ∪ rs2.view.set) rs3.view.set :=
    Finset.disjoint_union_left.mpr ⟨Finset.disjoint_union_left.mpr ⟨disj_rs0_rs3, disj_rs1_rs3⟩, disj_rs2_rs3⟩
  have d2 : Disjoint (rs0.view.set ∪ rs1.view.set) rs2.view.set :=
    Finset.disjoint_union_left.mpr ⟨disj_rs0_rs2, disj_rs1_rs2⟩
  iintro H
  ihave H := (Entails.of_eq (congrArg (fun S => (rsM.view.loc (c : Thread nD τ) ↦[S]{fullShare} f : sProp 𝕄)) rs_cover)) $$ H
  ihave H := (pointsTo_union d3).1 $$ H
  icases H with ⟨H, H3⟩
  ihave H := (pointsTo_union d2).1 $$ H
  icases H with ⟨H, H2⟩
  ihave H := (pointsTo_union disj_rs0_rs1).1 $$ H
  icases H with ⟨H0, H1⟩
  isplitl [H0]; · iexists f; iexact H0
  isplitl [H1]; · iexists f; iexact H1
  isplitl [H2]; · iexists f; iexact H2
  iexists f; iexact H3
omit [FloatOps F] in
theorem split_rl (c : Dev nD) (f : Buf (Elt F) ((c : Thread nD τ).loc cc0_scratch2)) :
    bufAt c cc0_scratch2 f ⊢ iprop(hole (F := F) c rl0 ∗ hole (F := F) c rl1) := by
  unfold hole
  iintro H
  ihave H := (Entails.of_eq (congrArg (fun S => (rlM.view.loc (c : Thread nD τ) ↦[S]{fullShare} f : sProp 𝕄)) rl_cover)) $$ H
  ihave H := (pointsTo_union disj_rl0_rl1).1 $$ H
  icases H with ⟨H0, H1⟩
  isplitl [H0]; · iexists f; iexact H0
  iexists f; iexact H1
omit [FloatOps F] in
theorem split_cb (c : Dev nD) (f : Buf (Elt F) ((c : Thread nD τ).loc cc0_scratch3)) :
    bufAt c cc0_scratch3 f ⊢ iprop((∃ f, (cbM.view.loc (c : Thread nD τ) ↦[cb0.view.set]{fullShare} f : sProp 𝕄))
      ∗ (∃ f, (cbM.view.loc (c : Thread nD τ) ↦[cb1.view.set]{fullShare} f : sProp 𝕄))) := by
  iintro H
  ihave H := (Entails.of_eq (congrArg (fun S => (cbM.view.loc (c : Thread nD τ) ↦[S]{fullShare} f : sProp 𝕄)) cb_cover)) $$ H
  ihave H := (pointsTo_union disj_cb0_cb1).1 $$ H
  icases H with ⟨H0, H1⟩
  isplitl [H0]; · iexists f; iexact H0
  iexists f; iexact H1
omit [FloatOps F] in
theorem split_sb (c : Dev nD) (f : Buf (Elt F) ((c : Thread nD τ).loc cc0_scratch0)) :
    bufAt c cc0_scratch0 f ⊢ iprop((∃ f, (sbM.view.loc (c : Thread nD τ) ↦[sb00.view.set ∪ sb01.view.set]{fullShare} f : sProp 𝕄))
      ∗ (∃ f, (sbM.view.loc (c : Thread nD τ) ↦[sb10.view.set ∪ sb11.view.set]{fullShare} f : sProp 𝕄))
      ∗ (∃ f, (sbM.view.loc (c : Thread nD τ) ↦[sb20.view.set ∪ sb21.view.set]{fullShare} f : sProp 𝕄))) := by
  have e : (Finset.univ : Finset sbM.view.ty.Idx)
      = (sb00.view.set ∪ sb01.view.set) ∪ ((sb10.view.set ∪ sb11.view.set) ∪ (sb20.view.set ∪ sb21.view.set)) := by
    rw [sb_cover]; simp only [Finset.union_assoc]
  have d1 : Disjoint (sb00.view.set ∪ sb01.view.set) ((sb10.view.set ∪ sb11.view.set) ∪ (sb20.view.set ∪ sb21.view.set)) :=
    Finset.disjoint_union_left.mpr
      ⟨Finset.disjoint_union_right.mpr ⟨Finset.disjoint_union_right.mpr ⟨disj_sb00_sb10, disj_sb00_sb11⟩, Finset.disjoint_union_right.mpr ⟨disj_sb00_sb20, disj_sb00_sb21⟩⟩,
       Finset.disjoint_union_right.mpr ⟨Finset.disjoint_union_right.mpr ⟨disj_sb01_sb10, disj_sb01_sb11⟩, Finset.disjoint_union_right.mpr ⟨disj_sb01_sb20, disj_sb01_sb21⟩⟩⟩
  have d2 : Disjoint (sb10.view.set ∪ sb11.view.set) (sb20.view.set ∪ sb21.view.set) :=
    Finset.disjoint_union_left.mpr
      ⟨Finset.disjoint_union_right.mpr ⟨disj_sb10_sb20, disj_sb10_sb21⟩, Finset.disjoint_union_right.mpr ⟨disj_sb11_sb20, disj_sb11_sb21⟩⟩
  iintro H
  ihave H := (Entails.of_eq (congrArg (fun S => (sbM.view.loc (c : Thread nD τ) ↦[S]{fullShare} f : sProp 𝕄)) e)) $$ H
  ihave H := (pointsTo_union d1).1 $$ H
  icases H with ⟨H0, H⟩
  ihave H := (pointsTo_union d2).1 $$ H
  icases H with ⟨H1, H2⟩
  isplitl [H0]; · iexists f; iexact H0
  isplitl [H1]; · iexists f; iexact H1
  iexists f; iexact H2
omit [FloatOps F] in
/-- The result buffer in its eight half-chunks: the two of the device's own chunk as the regions its stores go into, the
    other six as windows to hand to the neighbours. -/
theorem split_out (c : Dev nD) (f : Buf (Elt F) ((c : Thread nD τ).loc cc0_stg3_0)) :
    bufAt c cc0_stg3_0 f ⊢ iprop((∃ f, (oM.view.loc (c : Thread nD τ) ↦[(oS c 0).view.set]{fullShare} f : sProp 𝕄))
      ∗ (∃ f, (oM.view.loc (c : Thread nD τ) ↦[(oS c 1).view.set]{fullShare} f : sProp 𝕄))
      ∗ hole (F := F) c (oS (nxt c) 0) ∗ hole (F := F) c (oS (nxt c) 1) ∗ hole (F := F) c (oS (prv c) 0) ∗ hole (F := F) c (oS (prv c) 1)
      ∗ hole (F := F) c (oS (opp c) 0) ∗ hole (F := F) c (oS (opp c) 1)) := by
  unfold hole
  iintro H
  ihave H := (Entails.of_eq (congrArg (fun S => (oM.view.loc (c : Thread nD τ) ↦[S]{fullShare} f : sProp 𝕄)) oS_cover)) $$ H
  ihave H := (Entails.of_eq (pointsTo_biUnion (q := fullShare) (f := f) (Finset.univ : Finset (Dev nD × Fin 2)) oSet oS_pairwise)) $$ H
  ihave H := (Entails.of_eq (out_blocks c fun t => (oM.view.loc (c : Thread nD τ) ↦[oSet t]{fullShare} f : sProp 𝕄))) $$ H
  icases H with ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

/-! ## Joining -/

omit [FloatOps F] in
/-- Two half shares of one window reading the same value are the window whole. -/
theorem slot_halves (c : Dev nD) (M : Memref sig .tc .vmem S96x768 .bf16) (V : FVec F S96x768 .bf16) :
    iprop(slot c M fullShare.left V ∗ slot c M fullShare.right V) ⊢ slot c M fullShare V := by
  unfold slot
  have core (f1 f2 : Buf (Elt F) (M.view.loc (c : Thread nD τ))) :
      iprop((M.view.loc (c : Thread nD τ) ↦[M.view.set]{fullShare.left} f1) ∗ (M.view.loc (c : Thread nD τ) ↦[M.view.set]{fullShare.right} f2))
        ⊢ (M.view.loc (c : Thread nD τ) ↦[M.view.set]{fullShare} f1 : sProp 𝕄) :=
    Idealize.SL.BI.Laws.pure_elim _ pointsTo_agree fun hag => by
      rw [pointsTo_congr (f := f2) (g := f1) fun i hi => ((hag i (Finset.mem_inter.mpr ⟨hi, hi⟩)).1).symm]
      exact (pointsTo_share (PosShare.mem_left_op_right fullShare)).2
  iintro ⟨⟨%f1, %h1, H1⟩, ⟨%f2, %h2, H2⟩⟩
  iexists f1
  isplitr; · ipureintro; exact h1
  iapply (core f1 f2)
  isplitl [H1] <;> iassumption

omit [FloatOps F] in
/-- Contents of the result buffer whose eight blocks read `V k j` are the assembled array (at any float type): the element
    at row `ρ` is read by block `(ρ / 192, ρ % 192 / 96)` at its row `ρ % 96`. -/
theorem eq_outAll_any (g : oM.view.ty.Contents (Elt F)) (V : Dev nD → Fin 2 → FVec F S96x768 .bf16)
    (h : ∀ k j, (oS k j).view.read (Elt F) g = V k j) : g = outAll V := by
  funext i
  have hi0 : ((i : S768x768.Idx) 0).val < 768 := (i 0).isLt
  let k : Dev nD := ⟨((i : S768x768.Idx) 0).val / 192, by show _ < 4; omega⟩
  let j : Fin 2 := ⟨((i : S768x768.Idx) 0).val % 192 / 96, by omega⟩
  let x : S96x768.Idx := Idealize.ShloMosaic.ValueIdx.ix2 ⟨((i : S768x768.Idx) 0).val % 96, Nat.mod_lt _ (by decide)⟩ ⟨((i : S768x768.Idx) 1).val, (i 1).isLt⟩
  have e : (Rect.unit (s := S768x768) ![192 * k.val + 96 * j.val, 0] S96x768.size (orow_inb k j)).emb x = i :=
    funext fun a => Fin.ext (by
      match a with
      | ⟨0, _⟩ =>
        show 192 * (((i : S768x768.Idx) 0).val / 192) + 96 * (((i : S768x768.Idx) 0).val % 192 / 96) + 1 * (((i : S768x768.Idx) 0).val % 96) = ((i : S768x768.Idx) 0).val
        omega
      | ⟨1, _⟩ => show 0 + 1 * ((i : S768x768.Idx) 1).val = ((i : S768x768.Idx) 1).val; omega)
  calc g i = g ((Rect.unit (s := S768x768) ![192 * k.val + 96 * j.val, 0] S96x768.size (orow_inb k j)).emb x) := by rw [e]
    _ = (oS k j).view.read (Elt F) g x := rfl
    _ = V k j x := congrFun (h k j) x

omit [FloatOps F] in
/-- The eight half-chunks, each holding its value, are the whole result. -/
theorem join_out (c : Dev nD) (V : Dev nD → Fin 2 → FVec F S96x768 .bf16) :
    (bigSep Finset.univ fun t : Dev nD × Fin 2 => slot c (oS t.1 t.2) fullShare (V t.1 t.2)) ⊢ bufAt c cc0_stg3_0 (outAll V) := by
  unfold slot
  have hne : ∀ i : Dev nD × Fin 2, Nonempty (Buf (Elt F) (oM.view.loc (c : Thread nD τ))) := fun _ =>
    ⟨fun _ => V 0 0 (Idealize.ShloMosaic.ValueIdx.ix2 ⟨0, by decide⟩ ⟨0, by decide⟩)⟩
  iintro H
  ihave H := (@BI.bigSep_exists_pi _ _ _ _ _ hne Finset.univ (fun (t : Dev nD × Fin 2) (f : Buf (Elt F) (oM.view.loc (c : Thread nD τ))) =>
    (iprop(⌜(oS t.1 t.2).view.read (Elt F) f = V t.1 t.2⌝ ∗ (oM.view.loc (c : Thread nD τ) ↦[oSet t]{fullShare} f)) : sProp 𝕄))) $$ H
  icases H with ⟨%fs, H⟩
  ihave H := (bigSep_pure_sep Finset.univ (fun t : Dev nD × Fin 2 => (oS t.1 t.2).view.read (Elt F) (fs t) = V t.1 t.2)
    (fun t => (oM.view.loc (c : Thread nD τ) ↦[oSet t]{fullShare} fs t : sProp 𝕄))) $$ H
  icases H with ⟨%hV, H⟩
  ihave H := (pointsTo_biUnion_join (q := fullShare) (Finset.univ : Finset (Dev nD × Fin 2)) oSet fs (fs (c, 0)) oS_pairwise) $$ H
  icases H with ⟨%g, %hg, H⟩
  have hgo : g = outAll V := eq_outAll_any g V fun k j =>
    (View.read_congr (v := (oS k j).view) fun i hi => hg (k, j) (Finset.mem_univ _) i hi).trans (hV (k, j) (Finset.mem_univ _))
  subst hgo
  iapply (Entails.of_eq (congrArg (fun S => (oM.view.loc (c : Thread nD τ) ↦[S]{fullShare} outAll V : sProp 𝕄)) oS_cover.symm))
  iexact H

omit [FloatOps F] in
theorem join_sb (c : Dev nD) (V1 V2 V3 V4 V5 V6 : FVec F S96x768 .bf16) :
    iprop(slot c sb00 fullShare V1 ∗ slot c sb01 fullShare V2 ∗ slot c sb10 fullShare V3 ∗ slot c sb11 fullShare V4 ∗ slot c sb20 fullShare V5 ∗ slot c sb21 fullShare V6)
      ⊢ iprop(∃ f, bufAt (F := F) c cc0_scratch0 f) := by
  unfold slot
  have d1 : Disjoint (sb00.view.set ∪ sb01.view.set) sb10.view.set := Finset.disjoint_union_left.mpr ⟨disj_sb00_sb10, disj_sb01_sb10⟩
  have d2 : Disjoint (sb00.view.set ∪ sb01.view.set ∪ sb10.view.set) sb11.view.set :=
    Finset.disjoint_union_left.mpr ⟨Finset.disjoint_union_left.mpr ⟨disj_sb00_sb11, disj_sb01_sb11⟩, disj_sb10_sb11⟩
  have d3 : Disjoint (sb00.view.set ∪ sb01.view.set ∪ sb10.view.set ∪ sb11.view.set) sb20.view.set :=
    Finset.disjoint_union_left.mpr ⟨Finset.disjoint_union_left.mpr ⟨Finset.disjoint_union_left.mpr ⟨disj_sb00_sb20, disj_sb01_sb20⟩, disj_sb10_sb20⟩, disj_sb11_sb20⟩
  have d4 : Disjoint (sb00.view.set ∪ sb01.view.set ∪ sb10.view.set ∪ sb11.view.set ∪ sb20.view.set) sb21.view.set :=
    Finset.disjoint_union_left.mpr ⟨Finset.disjoint_union_left.mpr ⟨Finset.disjoint_union_left.mpr ⟨Finset.disjoint_union_left.mpr ⟨disj_sb00_sb21, disj_sb01_sb21⟩, disj_sb10_sb21⟩, disj_sb11_sb21⟩, disj_sb20_sb21⟩
  iintro ⟨⟨%f0, %h0, H0⟩, ⟨%f1, %h1, H1⟩, ⟨%f2, %h2, H2⟩, ⟨%f3, %h3, H3⟩, ⟨%f4, %h4, H4⟩, ⟨%f5, %h5, H5⟩⟩
  ihave H := (pointsTo_join (ℓ := sbM.view.loc (c : Thread nD τ)) (f := f0) (g := f1) disj_sb00_sb01) $$ [H0 H1]
  · isplitl [H0] <;> iassumption
  ihave H := (pointsTo_join (ℓ := sbM.view.loc (c : Thread nD τ)) (g := f2) d1) $$ [H H2]
  · isplitl [H] <;> iassumption
  ihave H := (pointsTo_join (ℓ := sbM.view.loc (c : Thread nD τ)) (g := f3) d2) $$ [H H3]
  · isplitl [H] <;> iassumption
  ihave H := (pointsTo_join (ℓ := sbM.view.loc (c : Thread nD τ)) (g := f4) d3) $$ [H H4]
  · isplitl [H] <;> iassumption
  ihave H := (pointsTo_join (ℓ := sbM.view.loc (c : Thread nD τ)) (g := f5) d4) $$ [H H5]
  · isplitl [H] <;> iassumption
  iexists _
  iapply (Entails.of_eq (congrArg (fun S => (sbM.view.loc (c : Thread nD τ) ↦[S]{fullShare} _ : sProp 𝕄)) sb_cover.symm))
  iexact H
omit [FloatOps F] in
theorem join_rs (c : Dev nD) (V1 V2 V3 V4 : FVec F S96x768 .bf16) :
    iprop(slot c rs0 fullShare V1 ∗ slot c rs1 fullShare V2 ∗ slot c rs2 fullShare V3 ∗ slot c rs3 fullShare V4)
      ⊢ iprop(∃ f, bufAt (F := F) c cc0_scratch1 f) := by
  unfold slot
  have d2 : Disjoint (rs0.view.set ∪ rs1.view.set) rs2.view.set := Finset.disjoint_union_left.mpr ⟨disj_rs0_rs2, disj_rs1_rs2⟩
  have d3 : Disjoint (rs0.view.set ∪ rs1.view.set ∪ rs2.view.set) rs3.view.set :=
    Finset.disjoint_union_left.mpr ⟨Finset.disjoint_union_left.mpr ⟨disj_rs0_rs3, disj_rs1_rs3⟩, disj_rs2_rs3⟩
  iintro ⟨⟨%f0, %h0, H0⟩, ⟨%f1, %h1, H1⟩, ⟨%f2, %h2, H2⟩, ⟨%f3, %h3, H3⟩⟩
  ihave H := (pointsTo_join (ℓ := rsM.view.loc (c : Thread nD τ)) (f := f0) (g := f1) disj_rs0_rs1) $$ [H0 H1]
  · isplitl [H0] <;> iassumption
  ihave H := (pointsTo_join (ℓ := rsM.view.loc (c : Thread nD τ)) (g := f2) d2) $$ [H H2]
  · isplitl [H] <;> iassumption
  ihave H := (pointsTo_join (ℓ := rsM.view.loc (c : Thread nD τ)) (g := f3) d3) $$ [H H3]
  · isplitl [H] <;> iassumption
  iexists _
  iapply (Entails.of_eq (congrArg (fun S => (rsM.view.loc (c : Thread nD τ) ↦[S]{fullShare} _ : sProp 𝕄)) rs_cover.symm))
  iexact H
omit [FloatOps F] in
theorem join_rl (c : Dev nD) (V1 V2 : FVec F S96x768 .bf16) :
    iprop(slot c rl0 fullShare V1 ∗ slot c rl1 fullShare V2) ⊢ iprop(∃ f, bufAt (F := F) c cc0_scratch2 f) := by
  unfold slot
  iintro ⟨⟨%f0, %h0, H0⟩, ⟨%f1, %h1, H1⟩⟩
  ihave H := (pointsTo_join (ℓ := rlM.view.loc (c : Thread nD τ)) (f := f0) (g := f1) disj_rl0_rl1) $$ [H0 H1]
  · isplitl [H0] <;> iassumption
  iexists _
  iapply (Entails.of_eq (congrArg (fun S => (rlM.view.loc (c : Thread nD τ) ↦[S]{fullShare} _ : sProp 𝕄)) rl_cover.symm))
  iexact H
omit [FloatOps F] in
theorem join_cb (c : Dev nD) (V1 V2 : FVec F S96x768 .bf16) :
    iprop(slot c cb0 fullShare V1 ∗ slot c cb1 fullShare V2) ⊢ iprop(∃ f, bufAt (F := F) c cc0_scratch3 f) := by
  unfold slot
  iintro ⟨⟨%f0, %h0, H0⟩, ⟨%f1, %h1, H1⟩⟩
  ihave H := (pointsTo_join (ℓ := cbM.view.loc (c : Thread nD τ)) (f := f0) (g := f1) disj_cb0_cb1) $$ [H0 H1]
  · isplitl [H0] <;> iassumption
  iexists _
  iapply (Entails.of_eq (congrArg (fun S => (cbM.view.loc (c : Thread nD τ) ↦[S]{fullShare} _ : sProp 𝕄)) cb_cover.symm))
  iexact H

/-! ## Closing the cells -/

/-- Every transfer cell of a device, past its one round, closes: its counter at zero is the device's again. -/
theorem close_cells (K : Dev nD × Fin 25 → ℕ) (c : Dev nD) :
    iprop(records m K ∗ bigSep Finset.univ fun i : Fin 24 => atPos ER (dcell c i) 1 ∅ 0)
      ⊢ (|={Set.univ}=> bigSep Finset.univ fun i : Fin 24 => semVal (dcell c i) 0 : sProp 𝕄) := by
  refine (BI.bigSep_with_persistent (R := records m K) (Ψ := fun i : Fin 24 => iprop(|={Set.univ}=> semVal (dcell c i) 0)) fun i _ => ?_).trans (bigSep_fupd _ _)
  iintro ⟨#HR, Hat⟩
  iapply (Rounds.cell_close ER (ringRd m) (κ := K (c, i.succ)) (Set.mem_univ _) (fun h => h) (R := 1) (duties_later m (dcell c i)))
  isplitr; · iapply (inv_dma m K c i); iexact HR
  iexact Hat

end Cert.KernelIdealProof

end
-- ==== Proof.Part1.lean ====
/-
  The entry handshake: a device signals both neighbours' barrier semaphore, handing each the windows of its own buffers
  that neighbour will copy into, and waits for the two units of its own, receiving the neighbours' windows it copies into.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 1600000 in
theorem part1_spec (K : Dev nD × Fin 25 → ℕ) (c : Dev nD) (W : Waits sig Unit)
    (Kt : (Σ' (d0 : Dev nD) (v2 : BitVec 32) (v13 : BitVec 32), BitVec 32) → sProp 𝕄) :
    iprop(records m K ∗ levAts L lv ∗ owes (c : Thread nD τ) (O₀ c) W
        ∗ dutyTok ER (barCell (prv c)) 0 false ∗ dutyTok ER (barCell (nxt c)) 0 true
        ∗ barPayR (F := F) (prv c) ∗ barPayL (F := F) (nxt c)
        ∗ cred (tallyAt (barCell c) () 2) ∗ atPos ER (barCell c) 0 ∅ 0
        ∗ (∀ v2 v13 v24, ((∃ W', owes (c : Thread nD τ) (Ofrom c 0) W') ∗ barPayR (F := F) c ∗ barPayL (F := F) c ∗ atPos ER (barCell c) 1 ∅ 0) -∗ Kt ⟨c, v2, v13, v24⟩))
      ⊢ wp frame (wpE (defs₀ (F := F)) 𝒱₀ (c : Thread nD τ) none) Set.univ (k0_part1 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10) Kt := by
  rw [k0_part1_eq_skeleton]; unfold k0_part1_skel
  simp only [semSignalWord, semWaitWord, Prog.lift, Prog.bind_op, Prog.bind_ret, Prog.pure_eq_ret, wp_deviceId]
  iintro ⟨#HR, #Hlev, HO, HtP, HtN, HgP, HgN, Hc, Hat, Hk⟩
  simp only [dev1_eq c, dev2_eq c]
  -- the first signal, to the left neighbour: duty `false` of its barrier cell
  iapply (Rounds.wp_signal 𝒱₀ ER (ringRd m) (c : Thread nD τ) none (dst := (prv c : Thread nD τ)) (κ := K (prv c, 0))
      (d := false) (by rw [duties_bar]; exact Finset.mem_univ _) ((amount_bar m (prv c) false).trans (by decide)) () (O₁ c) rfl)
    $$ [HO HtP HgP]
  · isplitr; · iapply (inv_bar m K (prv c)); iexact HR
    isplitl [HO]; · iexact HO
    isplitl [HtP]; · iexact HtP
    isplitl [HgP]; · rw [payload_bar_false]; iexact HgP
    iapply (reached_bar m K (prv c)); iexact HR
  iintro HO
  unfold O₁
  -- the second, to the right neighbour: duty `true` of its barrier cell
  iapply (Rounds.wp_signal 𝒱₀ ER (ringRd m) (c : Thread nD τ) none (dst := (nxt c : Thread nD τ)) (κ := K (nxt c, 0))
      (d := true) (by rw [duties_bar]; exact Finset.mem_univ _) ((amount_bar m (nxt c) true).trans (by decide)) () (Ofrom c 0) rfl)
    $$ [HO HtN HgN]
  · isplitr; · iapply (inv_bar m K (nxt c)); iexact HR
    isplitl [HO]; · iexact HO
    isplitl [HtN]; · iexact HtN
    isplitl [HgN]; · rw [payload_bar_true]; iexact HgN
    iapply (reached_bar m K (nxt c)); iexact HR
  iintro HO
  -- the wait for both neighbours' units, owing the twelve copies: every receive cell lies above the barrier cell
  iapply (Rounds.wp_wait_rest_token 𝒱₀ ER (ringRd m) (c : Thread nD τ) none (κ := K (c, 0))
      (wpE_semWait_eq 𝒱₀ (c : Thread nD τ) none Set.univ) (Set.mem_univ _) () (O := Ofrom c 0) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_from c (.reg barS) 0 (pay_above_0 c)); iexact Hlev
    iexact Hat
  iintro ⟨HO, Hat, -, Hpay⟩
  ihave Hp := (Entails.of_eq (rest_bar m c)) $$ Hpay
  icases Hp with ⟨HgR, HgL⟩
  rw [wp_ret]; imodintro
  iapply Hk
  isplitl [HO]; · iexists _; iexact HO
  isplitl [HgR]; · iexact HgR
  isplitl [HgL]; · iexact HgL
  iexact Hat

end Cert.KernelIdealProof

end
-- ==== Proof.Part2.lean ====
/-
  The device rounds its three argument blocks into scratch buffers and forms the first matrix product for the chunk two
  devices away.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 1600000 in
theorem part2_spec (c : Dev nD) (v2 : BitVec 32)
    (Kt : (Σ' (v52 : BitVec 32) (v57 : FVec F S192x1536 .f32), F .f32) → sProp 𝕄) :
    iprop(bufAt c cc0_stg0_0 (Xin m c) ∗ bufAt c cc0_stg1_0 (W1in m c) ∗ bufAt c cc0_stg2_0 (W2in m c)
        ∗ (∃ f, bufAt (F := F) c cc0_scratch4 f) ∗ (∃ f, bufAt (F := F) c cc0_scratch5 f) ∗ (∃ f, bufAt (F := F) c cc0_scratch6 f)
        ∗ (∀ v52, (bufAt c cc0_stg0_0 (Xin m c) ∗ bufAt c cc0_stg1_0 (W1in m c) ∗ bufAt c cc0_stg2_0 (W2in m c)
              ∗ bufAt c cc0_scratch4 (k0_pay1 (Xin m c)) ∗ bufAt c cc0_scratch5 (k0_pay2 (W1in m c)) ∗ bufAt c cc0_scratch6 (k0_pay4 (W2in m c)))
            -∗ Kt ⟨v52, k0_pay3 (xrows (Xin m) c (opp c)) (k0_pay2 (W1in m c)), Scalar.ofBits .f32 0x00000000#32⟩))
      ⊢ wp frame (wpE (defs₀ (F := F)) 𝒱₀ (c : Thread nD τ) none) Set.univ (k0_part2 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2) Kt := by
  rw [k0_part2_eq_skeleton]; unfold k0_part2_skel
  simp only [Prog.lift, Prog.bind_op, Prog.bind_ret, Prog.pure_eq_ret]
  iintro ⟨Hx, Hw1, Hw2, ⟨%f4, Hxb⟩, ⟨%f5, Hw1b⟩, ⟨%f6, Hw2b⟩, Hk⟩
  -- x, rounded into its scratch buffer
  iapply (wp_load_eq (c : Thread nD τ) (mr := xM) (Finset.subset_univ _) (Xin m c) (xM_readAt _)) $$ Hx; iintro Hx
  iapply (wp_load 𝒱₀ (c : Thread nD τ) none Set.univ (m := xbM) (Finset.subset_univ _)) $$ Hxb; iintro Hxb
  iapply (wp_store_eq (c : Thread nD τ) (mr := xbM) (r := (Rect.unit (s := S768x768) ![0, 0] S768x768.size inb_S768x768_S768x768_0_0)) (Finset.subset_univ _) (k0_pay1 (Xin m c)) (xbM_write _ _)) $$ Hxb; iintro Hxb
  -- W1 likewise
  iapply (wp_load_eq (c : Thread nD τ) (mr := w1M) (Finset.subset_univ _) (W1in m c) (w1M_readAt _)) $$ Hw1; iintro Hw1
  iapply (wp_load 𝒱₀ (c : Thread nD τ) none Set.univ (m := w1bM) (Finset.subset_univ _)) $$ Hw1b; iintro Hw1b
  iapply (wp_store_eq (c : Thread nD τ) (mr := w1bM) (r := (Rect.unit (s := S768x1536) ![0, 0] S768x1536.size inb_S768x1536_S768x1536_0_0)) (Finset.subset_univ _) (k0_pay2 (W1in m c)) (w1bM_write _ _)) $$ Hw1b; iintro Hw1b
  -- the rows of the chunk two devices away, and the rounded W1
  iapply (wp_load_eq (c : Thread nD τ) (mr := xbM) (Finset.subset_univ _) (xrows (Xin m) c (opp c)) (xrows_opp (Xin m) c)) $$ Hxb; iintro Hxb
  iapply (wp_load_eq (c : Thread nD τ) (mr := w1bM) (Finset.subset_univ _) (k0_pay2 (W1in m c)) (w1bM_readAt _)) $$ Hw1b; iintro Hw1b
  -- W2, rounded
  iapply (wp_load_eq (c : Thread nD τ) (mr := w2M) (Finset.subset_univ _) (W2in m c) (w2M_readAt _)) $$ Hw2; iintro Hw2
  iapply (wp_load 𝒱₀ (c : Thread nD τ) none Set.univ (m := w2bM) (Finset.subset_univ _)) $$ Hw2b; iintro Hw2b
  iapply (wp_store_eq (c : Thread nD τ) (mr := w2bM) (r := (Rect.unit (s := S1536x768) ![0, 0] S1536x768.size inb_S1536x768_S1536x768_0_0)) (Finset.subset_univ _) (k0_pay4 (W2in m c)) (w2bM_write _ _)) $$ Hw2b; iintro Hw2b
  rw [wp_ret]; imodintro
  iapply Hk
  isplitl [Hx]; · iexact Hx
  isplitl [Hw1]; · iexact Hw1
  isplitl [Hw2]; · iexact Hw2
  isplitl [Hxb]; · iexact Hxb
  isplitl [Hw1b]; · iexact Hw1b
  iexact Hw2b

end Cert.KernelIdealProof

end
-- ==== Proof.Part3.lean ====
/-
  The partial product for the chunk two devices away goes into slot 0 of the send buffer, and its two halves leave: the
  lower to the left neighbour's relay slot 0, the upper to the right neighbour's relay slot 1.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part3_spec (K : Dev nD × Fin 25 → ℕ) (c : Dev nD) (v13 v24 : BitVec 32)
    (Kt : BitVec 32 → sProp 𝕄) :
    iprop(records m K ∗ bufAt c cc0_scratch6 (k0_pay4 (W2in m c))
        ∗ (∃ f, (sbM.view.loc (c : Thread nD τ) ↦[sb00.view.set ∪ sb01.view.set]{fullShare} f : sProp 𝕄))
        ∗ hole (F := F) (prv c) rl0 ∗ hole (F := F) (nxt c) rl1
        ∗ (∃ W, owes (c : Thread nD τ) (Ofrom c 0) W)
        ∗ dutyTok ER (dcell c 0) 0 false ∗ dutyTok ER (dcell c 1) 0 false
        ∗ dutyTok ER (dcell (prv c) 10) 0 false ∗ dutyTok ER (dcell (nxt c) 11) 0 false
        ∗ (∀ v93, (bufAt c cc0_scratch6 (k0_pay4 (W2in m c)) ∗ (∃ W, owes (c : Thread nD τ) (Ofrom c 2) W)
              ∗ cred (tallyAt (dcell c 0) () N) ∗ cred (tallyAt (dcell c 1) () N)) -∗ Kt v93))
      ⊢ wp frame (wpE (defs₀ (F := F)) 𝒱₀ (c : Thread nD τ) none) Set.univ
          (k0_part3 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v13 v24 (k0_pay3 (xrows (Xin m) c (opp c)) (k0_pay2 (W1in m c))) (Scalar.ofBits .f32 0x00000000#32)) Kt := by
  rw [k0_part3_eq_skeleton]; unfold k0_part3_skel
  simp only [Prog.lift, Prog.bind_op, Prog.bind_ret, Prog.pure_eq_ret]
  unfold hole
  iintro ⟨#HR, Hw2b, ⟨%f0, Hsb⟩, ⟨%fL, HhL⟩, ⟨%fR, HhR⟩, ⟨%W, HO⟩, Ht0, Ht1, HtL, HtR, Hk⟩
  iapply (wp_load_eq (c : Thread nD τ) (mr := w2bM) (Finset.subset_univ _) (k0_pay4 (W2in m c)) (w2bM_readAt _)) $$ Hw2b; iintro Hw2b
  -- slot 0 of the send buffer: read (the value is not used), then overwritten by the partial product
  iapply (wp_load 𝒱₀ (c : Thread nD τ) none Set.univ (m := sbM) sb_load0_sub) $$ Hsb; iintro Hsb
  iapply (wp_store 𝒱₀ (c : Thread nD τ) none Set.univ (m := sbM) (r := (Rect.unit (s := S3x192x768) ![0, 0, 0] S1x192x768.size inb_S3x192x768_S1x192x768_0_0_0)) (Mk := Finset.univ) sb_store0_sub) $$ Hsb; iintro Hsb
  ihave Hsb' := (pointsTo_union disj_sb00_sb01).1 $$ Hsb
  icases Hsb' with ⟨Hs0, Hs1⟩
  -- the lower half to the left neighbour
  iapply (wp_copy m K c (prv c) _ (dev3_eq c) 0 10 _ _ rfl rfl fullShare (half0 (PART c (opp c))) _ fL (Ofrom c 1) W rfl
      (sb00_read_store _ _) rfl (by show slot _ _ _ _ = slot _ _ _ _; rw [nxt_prv, prv_prv])) $$ [Hs0 HhL HO Ht0 HtL]
  · isplitr; · iexact HR
    isplitl [Hs0]; · iexact Hs0
    isplitl [HhL]; · iexact HhL
    isplitl [HO]; · iexact HO
    isplitl [Ht0]; · iexact Ht0
    iexact HtL
  iintro ⟨Hc0, HO⟩
  -- the upper half to the right neighbour
  iapply (wp_copy m K c (nxt c) _ (dev4_eq c) 1 11 _ _ rfl rfl fullShare (half1 (PART c (opp c))) _ fR (Ofrom c 2) W rfl
      (sb01_read_store _ _) rfl (by show slot _ _ _ _ = slot _ _ _ _; rw [prv_nxt, nxt_nxt])) $$ [Hs1 HhR HO Ht1 HtR]
  · isplitr; · iexact HR
    isplitl [Hs1]; · iexact Hs1
    isplitl [HhR]; · iexact HhR
    isplitl [HO]; · iexact HO
    isplitl [Ht1]; · iexact Ht1
    iexact HtR
  iintro ⟨Hc1, HO⟩
  rw [wp_ret]; imodintro
  iapply Hk
  isplitl [Hw2b]; · iexact Hw2b
  isplitl [HO]; · iexists W; iexact HO
  isplitl [Hc0]; · iexact Hc0
  iexact Hc1

end Cert.KernelIdealProof

end
-- ==== Proof.Part4.lean ====
/-
  The partial product for the right neighbour's chunk goes into slot 1 of the send buffer; its lower half leaves for the
  right neighbour's receive slot 0; the first matrix product for the left neighbour's chunk is formed.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part4_spec (K : Dev nD × Fin 25 → ℕ) (c : Dev nD) (v13 v24 v93 : BitVec 32)
    (Kt : FVec F S192x1536 .bf16 → sProp 𝕄) :
    iprop(records m K ∗ bufAt c cc0_scratch4 (k0_pay1 (Xin m c)) ∗ bufAt c cc0_scratch5 (k0_pay2 (W1in m c)) ∗ bufAt c cc0_scratch6 (k0_pay4 (W2in m c))
        ∗ (∃ f, (sbM.view.loc (c : Thread nD τ) ↦[sb10.view.set ∪ sb11.view.set]{fullShare} f : sProp 𝕄))
        ∗ hole (F := F) (nxt c) rs0
        ∗ (∃ W, owes (c : Thread nD τ) (Ofrom c 2) W)
        ∗ dutyTok ER (dcell c 2) 0 false ∗ dutyTok ER (dcell (nxt c) 6) 0 false
        ∗ ((bufAt c cc0_scratch4 (k0_pay1 (Xin m c)) ∗ bufAt c cc0_scratch5 (k0_pay2 (W1in m c)) ∗ bufAt c cc0_scratch6 (k0_pay4 (W2in m c))
              ∗ slot c sb11 fullShare (half1 (PART c (nxt c)))
              ∗ (∃ W, owes (c : Thread nD τ) (Ofrom c 3) W) ∗ cred (tallyAt (dcell c 2) () N))
            -∗ Kt (k0_pay7 (xrows (Xin m) c (prv c)) (k0_pay2 (W1in m c)))))
      ⊢ wp frame (wpE (defs₀ (F := F)) 𝒱₀ (c : Thread nD τ) none) Set.univ
          (k0_part4 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v13 v24 v93) Kt := by
  rw [k0_part4_eq_skeleton]; unfold k0_part4_skel
  simp only [Prog.lift, Prog.bind_op, Prog.bind_ret, Prog.pure_eq_ret]
  unfold hole
  iintro ⟨#HR, Hxb, Hw1b, Hw2b, ⟨%f0, Hsb⟩, ⟨%fR, HhR⟩, ⟨%W, HO⟩, Ht2, HtR, Hk⟩
  iapply (wp_load_eq (c : Thread nD τ) (mr := xbM) (Finset.subset_univ _) (xrows (Xin m) c (nxt c)) (xrows_nxt (Xin m) c)) $$ Hxb; iintro Hxb
  iapply (wp_load_eq (c : Thread nD τ) (mr := w1bM) (Finset.subset_univ _) (k0_pay2 (W1in m c)) (w1bM_readAt _)) $$ Hw1b; iintro Hw1b
  iapply (wp_load_eq (c : Thread nD τ) (mr := w2bM) (Finset.subset_univ _) (k0_pay4 (W2in m c)) (w2bM_readAt _)) $$ Hw2b; iintro Hw2b
  -- slot 1 of the send buffer: read (not used), then overwritten by the partial product for the right neighbour's chunk
  iapply (wp_load 𝒱₀ (c : Thread nD τ) none Set.univ (m := sbM) sb_load1_sub) $$ Hsb; iintro Hsb
  iapply (wp_store 𝒱₀ (c : Thread nD τ) none Set.univ (m := sbM) (r := (Rect.unit (s := S3x192x768) ![1, 0, 0] S1x192x768.size inb_S3x192x768_S1x192x768_1_0_0)) (Mk := Finset.univ) sb_store1_sub) $$ Hsb; iintro Hsb
  ihave Hsb' := (pointsTo_union disj_sb10_sb11).1 $$ Hsb
  icases Hsb' with ⟨Hs0, Hs1⟩
  -- the lower half to the right neighbour
  iapply (wp_copy m K c (nxt c) _ (dev5_eq c) 2 6 _ _ rfl rfl fullShare (half0 (PART c (nxt c))) _ fR (Ofrom c 3) W rfl
      (sb10_read_store _ _) rfl (by show slot _ _ _ _ = slot _ _ _ _; rw [prv_nxt])) $$ [Hs0 HhR HO Ht2 HtR]
  · isplitr; · iexact HR
    isplitl [Hs0]; · iexact Hs0
    isplitl [HhR]; · iexact HhR
    isplitl [HO]; · iexact HO
    isplitl [Ht2]; · iexact Ht2
    iexact HtR
  iintro ⟨Hc2, HO⟩
  -- the rows of the left neighbour's chunk
  iapply (wp_load_eq (c : Thread nD τ) (mr := xbM) (Finset.subset_univ _) (xrows (Xin m) c (prv c)) (xrows_prv (Xin m) c)) $$ Hxb; iintro Hxb
  iapply (wp_load_eq (c : Thread nD τ) (mr := w1bM) (Finset.subset_univ _) (k0_pay2 (W1in m c)) (w1bM_readAt _)) $$ Hw1b; iintro Hw1b
  rw [wp_ret]; imodintro
  iapply Hk
  isplitl [Hxb]; · iexact Hxb
  isplitl [Hw1b]; · iexact Hw1b
  isplitl [Hw2b]; · iexact Hw2b
  isplitl [Hs1]
  · unfold slot
    iexists ((sbM.access (Rect.unit (s := S3x192x768) ![1, 0, 0] S1x192x768.size inb_S3x192x768_S1x192x768_1_0_0)).write (Elt F) f0 (k0_pay6 (xrows (Xin m) c (nxt c)) (k0_pay2 (W1in m c)) (k0_pay4 (W2in m c))) Finset.univ)
    isplitr; · (ipureintro; exact sb11_read_store f0 _)
    iexact Hs1
  isplitl [HO]; · iexists _; iexact HO
  iexact Hc2

end Cert.KernelIdealProof

end
-- ==== Proof.Part5.lean ====
/-
  The partial product for the left neighbour's chunk goes into slot 2 of the send buffer; its upper half leaves for the
  left neighbour's receive slot 2; the device then waits for the upper half its left neighbour sent into relay slot 1 and
  reads the upper half of slot 1, which it will add to it.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part5_spec (K : Dev nD × Fin 25 → ℕ) (c : Dev nD) (v2 v24 : BitVec 32)
    (Kt : FVec F S96x768 .bf16 → sProp 𝕄) :
    iprop(records m K ∗ levAts L lv ∗ bufAt c cc0_scratch6 (k0_pay4 (W2in m c))
        ∗ (∃ f, (sbM.view.loc (c : Thread nD τ) ↦[sb20.view.set ∪ sb21.view.set]{fullShare} f : sProp 𝕄))
        ∗ hole (F := F) (prv c) rs2
        ∗ (∃ W, owes (c : Thread nD τ) (Ofrom c 3) W)
        ∗ dutyTok ER (dcell c 4) 0 false ∗ dutyTok ER (dcell (prv c) 8) 0 false
        ∗ cred (tallyAt (dcell c 11) () N) ∗ atPos ER (dcell c 11) 0 ∅ 0
        ∗ slot c sb11 fullShare (half1 (PART c (nxt c)))
        ∗ ((bufAt c cc0_scratch6 (k0_pay4 (W2in m c)) ∗ slot c sb20 fullShare (half0 (PART c (prv c)))
              ∗ (∃ W, owes (c : Thread nD τ) (Ofrom c 4) W) ∗ cred (tallyAt (dcell c 4) () N) ∗ atPos ER (dcell c 11) 1 ∅ 0
              ∗ slot c rl1 fullShare (half1 (PART (prv c) (nxt c))) ∗ slot c sb11 fullShare (half1 (PART c (nxt c))))
            -∗ Kt (half1 (PART c (nxt c)))))
      ⊢ wp frame (wpE (defs₀ (F := F)) 𝒱₀ (c : Thread nD τ) none) Set.univ
          (k0_part5 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v24 (k0_pay7 (xrows (Xin m) c (prv c)) (k0_pay2 (W1in m c)))) Kt := by
  rw [k0_part5_eq_skeleton]; unfold k0_part5_skel
  simp only [Prog.lift, Prog.bind_op, Prog.bind_ret, Prog.pure_eq_ret]
  unfold slot hole
  iintro ⟨#HR, #Hlev, Hw2b, ⟨%f0, Hsb⟩, ⟨%fL, HhL⟩, ⟨%W, HO⟩, Ht4, HtL, Hc11, Hat11, ⟨%f11, %hf11, Hs11⟩, Hk⟩
  iapply (wp_load_eq (c : Thread nD τ) (mr := w2bM) (Finset.subset_univ _) (k0_pay4 (W2in m c)) (w2bM_readAt _)) $$ Hw2b; iintro Hw2b
  -- slot 2 of the send buffer: read (not used), then overwritten by the partial product for the left neighbour's chunk
  iapply (wp_load 𝒱₀ (c : Thread nD τ) none Set.univ (m := sbM) sb_load2_sub) $$ Hsb; iintro Hsb
  iapply (wp_store 𝒱₀ (c : Thread nD τ) none Set.univ (m := sbM) (r := (Rect.unit (s := S3x192x768) ![2, 0, 0] S1x192x768.size inb_S3x192x768_S1x192x768_2_0_0)) (Mk := Finset.univ) sb_store2_sub) $$ Hsb; iintro Hsb
  ihave Hsb' := (pointsTo_union disj_sb20_sb21).1 $$ Hsb
  icases Hsb' with ⟨Hs0, Hs1⟩
  -- the upper half to the left neighbour
  iapply (wp_copy m K c (prv c) _ (dev6_eq c) 4 8 _ _ rfl rfl fullShare (half1 (PART c (prv c))) _ fL (Ofrom c 4) W rfl
      (sb21_read_store _ _) rfl (by show slot _ _ _ _ = slot _ _ _ _; rw [nxt_prv])) $$ [Hs1 HhL HO Ht4 HtL]
  · isplitr; · iexact HR
    isplitl [Hs1]; · iexact Hs1
    isplitl [HhL]; · iexact HhL
    isplitl [HO]; · iexact HO
    isplitl [Ht4]; · iexact Ht4
    iexact HtL
  iintro ⟨Hc4, HO⟩
  -- the wait for the landing in relay slot 1
  iapply (wp_await m K c 11 _ rfl (dst := rl1) (Ofrom c 4) W rfl) $$ [Hc11 HO Hat11]
  · isplitr; · iexact HR
    isplitl [Hc11]; · iexact Hc11
    isplitl [HO]; · iexact HO
    isplitr; · iapply (mayWait_from c (.dma (dsem 11)) 4 (pay_above_4 c)); iexact Hlev
    iexact Hat11
  iintro ⟨HO, Hat11, Hrl1⟩
  simp only [dmaPay]; unfold slot
  -- the upper half of slot 1
  iapply (wp_load 𝒱₀ (c : Thread nD τ) none Set.univ (m := sbM) sb11_load_sub) $$ Hs11; iintro Hs11
  rw [show k0_pay9 (F := F) (sbM.view.readAt (Elt F) (Rect.unit (s := S3x192x768) ![1, 96, 0] S1x96x768.size inb_S3x192x768_S1x96x768_1_96_0).toLoadRect f11) = half1 (PART c (nxt c)) from (sb11_load f11).trans hf11, wp_ret]; imodintro
  iapply Hk
  isplitl [Hw2b]; · iexact Hw2b
  isplitl [Hs0]
  · iexists ((sbM.access (Rect.unit (s := S3x192x768) ![2, 0, 0] S1x192x768.size inb_S3x192x768_S1x192x768_2_0_0)).write (Elt F) f0 (k0_pay8 (k0_pay7 (xrows (Xin m) c (prv c)) (k0_pay2 (W1in m c))) (k0_pay4 (W2in m c))) Finset.univ)
    isplitr; · (ipureintro; exact sb20_read_store f0 _)
    iexact Hs0
  isplitl [HO]; · iexists _; iexact HO
  isplitl [Hc4]; · iexact Hc4
  isplitl [Hat11]; · iexact Hat11
  isplitl [Hrl1]; · iexact Hrl1
  iexists f11; isplitr; · (ipureintro; exact hf11)
  iexact Hs11

end Cert.KernelIdealProof

end
-- ==== Proof.Part6.lean ====
/-
  The device adds the upper half it received in relay slot 1 to the upper half of its own partial product for the right
  neighbour's chunk and sends the sum on to the right neighbour's receive slot 3; it then waits for the lower half its right
  neighbour sent into relay slot 0 and reads the two lower halves it will add next.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part6_spec (K : Dev nD × Fin 25 → ℕ) (c : Dev nD) (v2 v13 : BitVec 32)
    (Kt : (Σ' (v176 : FVec F S96x768 .bf16), Vec F S1x96x768 .bf16) → sProp 𝕄) :
    iprop(records m K ∗ levAts L lv
        ∗ slot c rl1 fullShare (half1 (PART (prv c) (nxt c)))
        ∗ (∃ f, (cbM.view.loc (c : Thread nD τ) ↦[cb0.view.set]{fullShare} f : sProp 𝕄))
        ∗ hole (F := F) (nxt c) rs3
        ∗ (∃ W, owes (c : Thread nD τ) (Ofrom c 4) W)
        ∗ dutyTok ER (dcell c 3) 0 false ∗ dutyTok ER (dcell (nxt c) 9) 0 false
        ∗ cred (tallyAt (dcell c 10) () N) ∗ atPos ER (dcell c 10) 0 ∅ 0
        ∗ slot c sb20 fullShare (half0 (PART c (prv c)))
        ∗ (∀ Lr : Vec F S1x96x768 .bf16, ⌜shapeCast S96x768 Lr shapeCasts_S1x96x768_S96x768 = half0 (PART (nxt c) (prv c))⌝ -∗
            (slot c rl1 fullShare (half1 (PART (prv c) (nxt c)))
              ∗ (∃ W, owes (c : Thread nD τ) (Ofrom c 5) W) ∗ cred (tallyAt (dcell c 3) () N) ∗ atPos ER (dcell c 10) 1 ∅ 0
              ∗ slot c rl0 fullShare (half0 (PART (nxt c) (prv c))) ∗ slot c sb20 fullShare (half0 (PART c (prv c))))
            -∗ Kt ⟨half0 (PART c (prv c)), Lr⟩))
      ⊢ wp frame (wpE (defs₀ (F := F)) 𝒱₀ (c : Thread nD τ) none) Set.univ
          (k0_part6 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v13 (half1 (PART c (nxt c)))) Kt := by
  rw [k0_part6_eq_skeleton]; unfold k0_part6_skel
  simp only [Prog.lift, Prog.bind_op, Prog.bind_ret, Prog.pure_eq_ret]
  unfold slot hole
  iintro ⟨#HR, #Hlev, ⟨%f1, %hf1, Hrl1⟩, ⟨%fc, Hcb⟩, ⟨%fR, HhR⟩, ⟨%W, HO⟩, Ht3, HtR, Hc10, Hat10, ⟨%f20, %hf20, Hs20⟩, Hk⟩
  -- the received upper half, and the slot the sum goes into (read first: not used)
  iapply (wp_load 𝒱₀ (c : Thread nD τ) none Set.univ (m := rlM) rl1_load_sub) $$ Hrl1; iintro Hrl1
  iapply (wp_load 𝒱₀ (c : Thread nD τ) none Set.univ (m := cbM) cb0_load_sub) $$ Hcb; iintro Hcb
  iapply (wp_store 𝒱₀ (c : Thread nD τ) none Set.univ (m := cbM) (r := (Rect.unit (s := S2x96x768) ![0, 0, 0] S1x96x768.size inb_S2x96x768_S1x96x768_0_0_0)) (Mk := Finset.univ) cb0_store_sub) $$ Hcb; iintro Hcb
  -- the sum to the right neighbour
  iapply (wp_copy m K c (nxt c) _ (dev7_eq c) 3 9 _ _ rfl rfl fullShare (COMB0 c) _ fR (Ofrom c 5) W rfl
      ((cb0_read_store _ _).trans (by unfold comb0; rw [← hf1, ← rl1_load f1])) rfl
      (by show slot _ _ _ _ = slot _ _ _ _; rw [prv_nxt])) $$ [Hcb HhR HO Ht3 HtR]
  · isplitr; · iexact HR
    isplitl [Hcb]; · iexact Hcb
    isplitl [HhR]; · iexact HhR
    isplitl [HO]; · iexact HO
    isplitl [Ht3]; · iexact Ht3
    iexact HtR
  iintro ⟨Hc3, HO⟩
  -- the wait for the landing in relay slot 0
  iapply (wp_await m K c 10 _ rfl (dst := rl0) (Ofrom c 5) W rfl) $$ [Hc10 HO Hat10]
  · isplitr; · iexact HR
    isplitl [Hc10]; · iexact Hc10
    isplitl [HO]; · iexact HO
    isplitr; · iapply (mayWait_from c (.dma (dsem 10)) 5 (pay_above_5 c)); iexact Hlev
    iexact Hat10
  iintro ⟨HO, Hat10, Hrl0⟩
  -- the lower half of slot 2 and the received lower half
  iapply (wp_load 𝒱₀ (c : Thread nD τ) none Set.univ (m := sbM) sb20_load_sub) $$ Hs20; iintro Hs20
  ihave Hrl0 := (Entails.of_eq (show dmaPay m c (10 : Fin 24).val = slot c rl0 fullShare (half0 (PART (nxt c) (prv c))) from rfl)) $$ Hrl0
  unfold slot
  icases Hrl0 with ⟨%f0, %hf0, Hrl0⟩
  iapply (wp_load 𝒱₀ (c : Thread nD τ) none Set.univ (m := rlM) rl0_load_sub) $$ Hrl0; iintro Hrl0
  rw [show k0_pay11 (F := F) (sbM.view.readAt (Elt F) (Rect.unit (s := S3x192x768) ![2, 0, 0] S1x96x768.size inb_S3x192x768_S1x96x768_2_0_0).toLoadRect f20) = half0 (PART c (prv c)) from (sb20_load f20).trans hf20, wp_ret]; imodintro
  iapply Hk $$ %_ [] [Hrl1 HO Hc3 Hat10 Hrl0 Hs20]
  · ipureintro; exact (rl0_load f0).trans hf0
  isplitl [Hrl1]; · iexists f1; isplitr; · (ipureintro; exact hf1)
                    iexact Hrl1
  isplitl [HO]; · iexists _; iexact HO
  isplitl [Hc3]; · iexact Hc3
  isplitl [Hat10]; · iexact Hat10
  isplitl [Hrl0]; · iexists f0; isplitr; · (ipureintro; exact hf0)
                    iexact Hrl0
  iexists f20; isplitr; · (ipureintro; exact hf20)
  iexact Hs20

end Cert.KernelIdealProof

end
-- ==== Proof.Part7.lean ====
/-
  The device adds the lower half it received in relay slot 0 to the lower half of its own partial product for the left
  neighbour's chunk and sends the sum on to the left neighbour's receive slot 1; it then forms the partial product for its
  own chunk.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part7_spec (K : Dev nD × Fin 25 → ℕ) (c : Dev nD) (v2 v24 : BitVec 32) (Lr : Vec F S1x96x768 .bf16)
    (hLr : shapeCast S96x768 Lr shapeCasts_S1x96x768_S96x768 = half0 (PART (nxt c) (prv c)))
    (Kt : FVec F S192x768 .f32 → sProp 𝕄) :
    iprop(records m K
        ∗ (∃ f, (cbM.view.loc (c : Thread nD τ) ↦[cb1.view.set]{fullShare} f : sProp 𝕄))
        ∗ hole (F := F) (prv c) rs1
        ∗ (∃ W, owes (c : Thread nD τ) (Ofrom c 5) W)
        ∗ dutyTok ER (dcell c 5) 0 false ∗ dutyTok ER (dcell (prv c) 7) 0 false
        ∗ bufAt c cc0_scratch4 (k0_pay1 (Xin m c)) ∗ bufAt c cc0_scratch5 (k0_pay2 (W1in m c)) ∗ bufAt c cc0_scratch6 (k0_pay4 (W2in m c))
        ∗ ((bufAt c cc0_scratch4 (k0_pay1 (Xin m c)) ∗ bufAt c cc0_scratch5 (k0_pay2 (W1in m c)) ∗ bufAt c cc0_scratch6 (k0_pay4 (W2in m c))
              ∗ (∃ W, owes (c : Thread nD τ) (Ofrom c 6) W) ∗ cred (tallyAt (dcell c 5) () N))
            -∗ Kt (OWN c)))
      ⊢ wp frame (wpE (defs₀ (F := F)) 𝒱₀ (c : Thread nD τ) none) Set.univ
          (k0_part7 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v24 (half0 (PART c (prv c))) Lr) Kt := by
  rw [k0_part7_eq_skeleton]; unfold k0_part7_skel
  simp only [Prog.lift, Prog.bind_op, Prog.bind_ret, Prog.pure_eq_ret]
  unfold hole
  iintro ⟨#HR, ⟨%fc, Hcb⟩, ⟨%fL, HhL⟩, ⟨%W, HO⟩, Ht5, HtL, Hxb, Hw1b, Hw2b, Hk⟩
  -- the slot the sum goes into (read first: not used), then the sum
  iapply (wp_load 𝒱₀ (c : Thread nD τ) none Set.univ (m := cbM) cb1_load_sub) $$ Hcb; iintro Hcb
  iapply (wp_store 𝒱₀ (c : Thread nD τ) none Set.univ (m := cbM) (r := (Rect.unit (s := S2x96x768) ![1, 0, 0] S1x96x768.size inb_S2x96x768_S1x96x768_1_0_0)) (Mk := Finset.univ) cb1_store_sub) $$ Hcb; iintro Hcb
  -- the sum to the left neighbour
  iapply (wp_copy m K c (prv c) _ (dev8_eq c) 5 7 _ _ rfl rfl fullShare (COMB1 c) _ fL (Ofrom c 6) W rfl
      ((cb1_read_store _ _).trans (by unfold comb1; rw [← hLr])) rfl
      (by show slot _ _ _ _ = slot _ _ _ _; rw [nxt_prv])) $$ [Hcb HhL HO Ht5 HtL]
  · isplitr; · iexact HR
    isplitl [Hcb]; · iexact Hcb
    isplitl [HhL]; · iexact HhL
    isplitl [HO]; · iexact HO
    isplitl [Ht5]; · iexact Ht5
    iexact HtL
  iintro ⟨Hc5, HO⟩
  -- the device's own chunk
  iapply (wp_load_eq (c : Thread nD τ) (mr := xbM) (Finset.subset_univ _) (xrows (Xin m) c c) (xrows_own (Xin m) c)) $$ Hxb; iintro Hxb
  iapply (wp_load_eq (c : Thread nD τ) (mr := w1bM) (Finset.subset_univ _) (k0_pay2 (W1in m c)) (w1bM_readAt _)) $$ Hw1b; iintro Hw1b
  iapply (wp_load_eq (c : Thread nD τ) (mr := w2bM) (Finset.subset_univ _) (k0_pay4 (W2in m c)) (w2bM_readAt _)) $$ Hw2b; iintro Hw2b
  rw [show k0_pay13 (F := F) (xrows (Xin m) c c) (k0_pay2 (W1in m c)) (k0_pay4 (W2in m c)) = OWN c from rfl, wp_ret]; imodintro
  iapply Hk
  isplitl [Hxb]; · iexact Hxb
  isplitl [Hw1b]; · iexact Hw1b
  isplitl [Hw2b]; · iexact Hw2b
  isplitl [HO]; · iexists _; iexact HO
  iexact Hc5

end Cert.KernelIdealProof

end
-- ==== Proof.GeomOut.lean ====
/-
  The rows of the result buffer as the program spells them. The program names a half-chunk window of the `[768, 768]`
  result by an offset computed from the device number; in closed form that offset is `(192 k + 96 j, 0)`, the rows of
  half `j` of chunk `k`. Slices, index sets, loads and stores through rectangles of the same sizes at equal offsets are
  equal, so every fact about the block `(k, j)` holds of the program's spelling of it.
-/
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.OutAll

noncomputable section

namespace Cert.KernelIdealProof

open Cert.KernelIdeal Cert.KernelIdeal.Gen Cert.KernelIdeal.Vals

open Idealize.ShloMosaic
open Idealize.ShloMosaic.TcCoe
open Idealize.ShloMosaic.ValueIdx (ix2)

variable {F : FTy → Type} [FloatOps F]

/-! ## Equal offsets, equal accesses -/

section Congr
variable {s : Shape} {e : EltTy} (M : Memref sig .tc .vmem s e) {off off' size : Fin s.rank → Nat}

theorem set_slice_unit_congr (h : off = off') (p : ∀ a, off a + size a ≤ s.size a) (p' : ∀ a, off' a + size a ≤ s.size a) (hs hs') :
    (M.slice (Rect.unit off size p) hs).view.set = (M.slice (Rect.unit off' size p') hs').view.set := by
  subst h; rfl

theorem read_slice_unit_congr (h : off = off') (p : ∀ a, off a + size a ≤ s.size a) (p' : ∀ a, off' a + size a ≤ s.size a) (hs hs')
    (f : M.view.ty.Contents (Elt F)) :
    (M.slice (Rect.unit off size p) hs).view.read (Elt F) f = (M.slice (Rect.unit off' size p') hs').view.read (Elt F) f := by
  subst h; rfl

theorem loadset_unit_congr (h : off = off') (p : ∀ a, off a + size a ≤ s.size a) (p' : ∀ a, off' a + size a ≤ s.size a) :
    (Rect.unit (s := s) off size p).toLoadRect.set = (Rect.unit (s := s) off' size p').toLoadRect.set := by
  subst h; rfl

theorem write_unit_congr (h : off = off') (p : ∀ a, off a + size a ≤ s.size a) (p' : ∀ a, off' a + size a ≤ s.size a)
    (f : M.view.ty.Contents (Elt F)) (w : (⟨s.rank, size⟩ : Shape).Idx → Elt F e) :
    (M.access (Rect.unit off size p)).write (Elt F) f w Finset.univ = (M.access (Rect.unit off' size p')).write (Elt F) f w Finset.univ := by
  subst h; rfl

end Congr

/-! ## The program's windows of the result are the blocks -/

theorem oS_off5 (c : Dev nD) (j : Fin 2) :
    oM.slice (Rect.unit (s := S768x768) (k0_off5 c (BitVec.ofNat 32 (96 * j.val))) S96x768.size (k0_off5_inb c j)) (fun _ => rfl) = oS c j :=
  Memref.slice_unit_congr oM (k0_off5_eq c j) _ _ _ _
/-- Own rows, lower half; -/
theorem oS_off5_0 (c : Dev nD) :
    oM.slice (Rect.unit (s := S768x768) (k0_off5 c 0#32) S96x768.size (k0_off5_inb c 0)) (fun _ => rfl) = oS c 0 := oS_off5 c 0
/-- upper half; -/
theorem oS_off5_1 (c : Dev nD) :
    oM.slice (Rect.unit (s := S768x768) (k0_off5 c 96#32) S96x768.size (k0_off5_inb c 1)) (fun _ => rfl) = oS c 1 := oS_off5 c 1
/-- the right neighbour's upper half; -/
theorem oS_off6 (c : Dev nD) :
    oM.slice (Rect.unit (s := S768x768) (k0_off6 c 1#32 96#32) S96x768.size (k0_off6_inb c 0 1)) (fun _ => rfl) = oS (nxt c) 1 :=
  Memref.slice_unit_congr oM (off6_eq c 0 1) _ _ _ _
/-- the left neighbour's lower half. -/
theorem oS_off7 (c : Dev nD) :
    oM.slice (Rect.unit (s := S768x768) (k0_off7 c 0#32) S96x768.size (k0_off7_inb c 0)) (fun _ => rfl) = oS (prv c) 0 :=
  Memref.slice_unit_congr oM (off7_eq c 0) _ _ _ _

/-- The same of their index sets, -/
theorem oSet_off5_0 (c : Dev nD) :
    (oM.slice (Rect.unit (s := S768x768) (k0_off5 c 0#32) S96x768.size (k0_off5_inb c 0)) (fun _ => rfl)).view.set = (oS c 0).view.set :=
  set_slice_unit_congr oM (k0_off5_eq c 0) _ _ _ _
theorem oSet_off5_1 (c : Dev nD) :
    (oM.slice (Rect.unit (s := S768x768) (k0_off5 c 96#32) S96x768.size (k0_off5_inb c 1)) (fun _ => rfl)).view.set = (oS c 1).view.set :=
  set_slice_unit_congr oM (k0_off5_eq c 1) _ _ _ _
theorem oSet_off6 (c : Dev nD) :
    (oM.slice (Rect.unit (s := S768x768) (k0_off6 c 1#32 96#32) S96x768.size (k0_off6_inb c 0 1)) (fun _ => rfl)).view.set = (oS (nxt c) 1).view.set :=
  set_slice_unit_congr oM (off6_eq c 0 1) _ _ _ _
theorem oSet_off7 (c : Dev nD) :
    (oM.slice (Rect.unit (s := S768x768) (k0_off7 c 0#32) S96x768.size (k0_off7_inb c 0)) (fun _ => rfl)).view.set = (oS (prv c) 0).view.set :=
  set_slice_unit_congr oM (off7_eq c 0) _ _ _ _

/-- and of what they read. -/
theorem oRead_off5_0 (c : Dev nD) (f : oM.view.ty.Contents (Elt F)) :
    (oM.slice (Rect.unit (s := S768x768) (k0_off5 c 0#32) S96x768.size (k0_off5_inb c 0)) (fun _ => rfl)).view.read (Elt F) f = (oS c 0).view.read (Elt F) f :=
  read_slice_unit_congr oM (k0_off5_eq c 0) _ _ _ _ f
theorem oRead_off5_1 (c : Dev nD) (f : oM.view.ty.Contents (Elt F)) :
    (oM.slice (Rect.unit (s := S768x768) (k0_off5 c 96#32) S96x768.size (k0_off5_inb c 1)) (fun _ => rfl)).view.read (Elt F) f = (oS c 1).view.read (Elt F) f :=
  read_slice_unit_congr oM (k0_off5_eq c 1) _ _ _ _ f
theorem oRead_off6 (c : Dev nD) (f : oM.view.ty.Contents (Elt F)) :
    (oM.slice (Rect.unit (s := S768x768) (k0_off6 c 1#32 96#32) S96x768.size (k0_off6_inb c 0 1)) (fun _ => rfl)).view.read (Elt F) f = (oS (nxt c) 1).view.read (Elt F) f :=
  read_slice_unit_congr oM (off6_eq c 0 1) _ _ _ _ f
theorem oRead_off7 (c : Dev nD) (f : oM.view.ty.Contents (Elt F)) :
    (oM.slice (Rect.unit (s := S768x768) (k0_off7 c 0#32) S96x768.size (k0_off7_inb c 0)) (fun _ => rfl)).view.read (Elt F) f = (oS (prv c) 0).view.read (Elt F) f :=
  read_slice_unit_congr oM (off7_eq c 0) _ _ _ _ f

/-! ## Loads and stores of a device's own rows, at the program's spelling of the offset -/

theorem oS_load_sub4 (c : Dev nD) (j : Fin 2) :
    oM.view.setOn (Rect.unit (s := S768x768) (k0_off4 c (BitVec.ofNat 32 (96 * j.val))) S96x768.size (k0_off4_inb c j)).toLoadRect.set ⊆ (oS c j).view.set := by
  rw [loadset_unit_congr (k0_off4_eq c j) (k0_off4_inb c j) (orow_inb c j)]
  exact oS_load_sub c j
theorem oS_store_sub4 (c : Dev nD) (j : Fin 2) :
    (oM.access (Rect.unit (s := S768x768) (k0_off4 c (BitVec.ofNat 32 (96 * j.val))) S96x768.size (k0_off4_inb c j))).setOn Finset.univ ⊆ (oS c j).view.set :=
  subset_of_eq (set_slice_unit_congr oM (k0_off4_eq c j) (k0_off4_inb c j) (orow_inb c j) (fun _ => rfl) (fun _ => rfl))
theorem oS_read_store4 (c : Dev nD) (j : Fin 2) (f : oM.view.ty.Contents (Elt F)) (w : FVec F S96x768 .bf16) :
    (oS c j).view.read (Elt F) ((oM.access (Rect.unit (s := S768x768) (k0_off4 c (BitVec.ofNat 32 (96 * j.val))) S96x768.size (k0_off4_inb c j))).write (Elt F) f w Finset.univ) = w :=
  (congrArg ((oS c j).view.read (Elt F)) (write_unit_congr oM (k0_off4_eq c j) (k0_off4_inb c j) (orow_inb c j) f w)).trans (oS_read_store c j f w)

theorem oS_load_sub4_0 (c : Dev nD) :
    oM.view.setOn (Rect.unit (s := S768x768) (k0_off4 c 0#32) S96x768.size (k0_off4_inb c 0)).toLoadRect.set ⊆ (oS c 0).view.set := oS_load_sub4 c 0
theorem oS_load_sub4_1 (c : Dev nD) :
    oM.view.setOn (Rect.unit (s := S768x768) (k0_off4 c 96#32) S96x768.size (k0_off4_inb c 1)).toLoadRect.set ⊆ (oS c 1).view.set := oS_load_sub4 c 1
theorem oS_store_sub4_0 (c : Dev nD) :
    (oM.access (Rect.unit (s := S768x768) (k0_off4 c 0#32) S96x768.size (k0_off4_inb c 0))).setOn Finset.univ ⊆ (oS c 0).view.set := oS_store_sub4 c 0
theorem oS_store_sub4_1 (c : Dev nD) :
    (oM.access (Rect.unit (s := S768x768) (k0_off4 c 96#32) S96x768.size (k0_off4_inb c 1))).setOn Finset.univ ⊆ (oS c 1).view.set := oS_store_sub4 c 1
theorem oS_read_store4_0 (c : Dev nD) (f : oM.view.ty.Contents (Elt F)) (w : FVec F S96x768 .bf16) :
    (oS c 0).view.read (Elt F) ((oM.access (Rect.unit (s := S768x768) (k0_off4 c 0#32) S96x768.size (k0_off4_inb c 0))).write (Elt F) f w Finset.univ) = w :=
  oS_read_store4 c 0 f w
theorem oS_read_store4_1 (c : Dev nD) (f : oM.view.ty.Contents (Elt F)) (w : FVec F S96x768 .bf16) :
    (oS c 1).view.read (Elt F) ((oM.access (Rect.unit (s := S768x768) (k0_off4 c 96#32) S96x768.size (k0_off4_inb c 1))).write (Elt F) f w Finset.univ) = w :=
  oS_read_store4 c 1 f w

end Cert.KernelIdealProof

end
-- ==== Proof.Part8.lean ====
/-
  The device waits for the two landings that complete the lower half of its own chunk, adds them to the lower half of its
  own partial product and stores the finished half-chunk in its rows of the result.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local
import proofs.«900459_g7700000000000460_dist_mlp2_tp_i_m768_h1536_out768_v7x_i4_f32_1_alg».proof.Proof.GeomOut

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part8_spec (K : Dev nD × Fin 25 → ℕ) (c : Dev nD) (v2 : BitVec 32)
    (Kt : PUnit → sProp 𝕄) :
    iprop(records m K ∗ levAts L lv
        ∗ (∃ W, owes (c : Thread nD τ) (Ofrom c 6) W) ∗ cred (tallyAt (dcell c 6) () N) ∗ atPos ER (dcell c 6) 0 ∅ 0 ∗ cred (tallyAt (dcell c 7) () N) ∗ atPos ER (dcell c 7) 0 ∅ 0
        ∗ (∃ f, (oM.view.loc (c : Thread nD τ) ↦[(oS c 0).view.set]{fullShare} f : sProp 𝕄))
        ∗ (((∃ W, owes (c : Thread nD τ) (Ofrom c 6) W) ∗ atPos ER (dcell c 6) 1 ∅ 0 ∗ atPos ER (dcell c 7) 1 ∅ 0
              ∗ slot c rs0 fullShare (half0 (PART (prv c) c)) ∗ slot c rs1 fullShare (COMB1 (nxt c))
              ∗ slot c (oS c 0) fullShare (OUTH c 0))
            -∗ Kt ⟨⟩))
      ⊢ wp frame (wpE (defs₀ (F := F)) 𝒱₀ (c : Thread nD τ) none) Set.univ
          (k0_part8 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 (OWN c)) Kt := by
  rw [k0_part8_eq_skeleton]; unfold k0_part8_skel
  simp only [Prog.lift, Prog.bind_op, Prog.bind_ret, Prog.pure_eq_ret]
  iintro ⟨#HR, #Hlev, ⟨%W, HO⟩, Hc6, Hat6, Hc7, Hat7, ⟨%fo, Ho⟩, Hk⟩
  -- the two landings: the left neighbour's lower half, and the right neighbour's pre-added lower halves
  iapply (wp_await m K c 6 _ rfl (dst := rs0) (Ofrom c 6) W rfl) $$ [Hc6 HO Hat6]
  · isplitr; · iexact HR
    isplitl [Hc6]; · iexact Hc6
    isplitl [HO]; · iexact HO
    isplitr; · iapply (mayWait_from c (.dma (dsem 6)) 6 (fun g hg => ⟨(pay_above_6 c g hg).1, Nat.lt_of_succ_lt (pay_above_6 c g hg).2⟩)); iexact Hlev
    iexact Hat6
  iintro ⟨HO, Hat6, Hrs0⟩
  iapply (wp_await m K c 7 _ rfl (dst := rs1) (Ofrom c 6) _ rfl) $$ [Hc7 HO Hat7]
  · isplitr; · iexact HR
    isplitl [Hc7]; · iexact Hc7
    isplitl [HO]; · iexact HO
    isplitr; · iapply (mayWait_from c (.dma (dsem 7)) 6 (pay_above_6 c)); iexact Hlev
    iexact Hat7
  iintro ⟨HO, Hat7, Hrs1⟩
  ihave Hrs0' := (Entails.of_eq (show dmaPay m c (6 : Fin 24).val = slot c rs0 fullShare (half0 (PART (prv c) c)) from rfl)) $$ Hrs0
  ihave Hrs1' := (Entails.of_eq (show dmaPay m c (7 : Fin 24).val = slot c rs1 fullShare (COMB1 (nxt c)) from rfl)) $$ Hrs1
  unfold slot
  icases Hrs0' with ⟨%f0, %hf0, Hrs0⟩
  icases Hrs1' with ⟨%f1, %hf1, Hrs1⟩
  -- the two received half-chunks, then the device's own rows (read first: not used) and the store of the sum
  iapply (wp_load 𝒱₀ (c : Thread nD τ) none Set.univ (m := rsM) rs0_load_sub) $$ Hrs0; iintro Hrs0
  iapply (wp_load 𝒱₀ (c : Thread nD τ) none Set.univ (m := rsM) rs1_load_sub) $$ Hrs1; iintro Hrs1
  iapply (wp_load 𝒱₀ (c : Thread nD τ) none Set.univ (m := oM) (oS_load_sub4_0 c)) $$ Ho; iintro Ho
  iapply (wp_store 𝒱₀ (c : Thread nD τ) none Set.univ (m := oM) (r := (Rect.unit (s := S768x768) (k0_off4 c 0#32) S96x768.size (k0_off4_inb c 0))) (Mk := Finset.univ) (oS_store_sub4_0 c)) $$ Ho; iintro Ho
  rw [wp_ret]; imodintro
  iapply Hk
  isplitl [HO]; · iexists _; iexact HO
  isplitl [Hat6]; · iexact Hat6
  isplitl [Hat7]; · iexact Hat7
  isplitl [Hrs0]; · iexists f0; isplitr; · (ipureintro; exact hf0)
                    iexact Hrs0
  isplitl [Hrs1]; · iexists f1; isplitr; · (ipureintro; exact hf1)
                    iexact Hrs1
  iexists ((oM.access (Rect.unit (s := S768x768) (k0_off4 c 0#32) S96x768.size (k0_off4_inb c 0))).write (Elt F) fo
    (k0_pay14 (OWN c) (rsM.view.readAt (Elt F) (Rect.unit (s := S4x96x768) ![0, 0, 0] S1x96x768.size inb_S4x96x768_S1x96x768_0_0_0).toLoadRect f0) (rsM.view.readAt (Elt F) (Rect.unit (s := S4x96x768) ![1, 0, 0] S1x96x768.size inb_S4x96x768_S1x96x768_1_0_0).toLoadRect f1)) Finset.univ)
  isplitr
  · ipureintro
    refine (oS_read_store4_0 c _ _).trans ?_
    rw [pay14_eq, rs0_load f0, rs1_load f1, hf0, hf1]
    rfl
  iexact Ho

end Cert.KernelIdealProof

end
-- ==== Proof.Part9.lean ====
/-
  The finished lower half of the device's own chunk leaves for both neighbours (the source held in two half shares); the
  device then waits for the landing in receive slot 2.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local
import proofs.«900459_g7700000000000460_dist_mlp2_tp_i_m768_h1536_out768_v7x_i4_f32_1_alg».proof.Proof.GeomOut

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part9_spec (K : Dev nD × Fin 25 → ℕ) (c : Dev nD) (v2 v13 v24 : BitVec 32)
    (Kt : PUnit → sProp 𝕄) :
    iprop(records m K ∗ levAts L lv
        ∗ slot c (oS c 0) fullShare (OUTH c 0) ∗ hole (F := F) (nxt c) (oS c 0) ∗ hole (F := F) (prv c) (oS c 0)
        ∗ (∃ W, owes (c : Thread nD τ) (Ofrom c 6) W) ∗ dutyTok ER (dcell c 12) 0 false ∗ dutyTok ER (dcell c 14) 0 false ∗ dutyTok ER (dcell (nxt c) 20) 0 false ∗ dutyTok ER (dcell (prv c) 18) 0 false
        ∗ cred (tallyAt (dcell c 8) () N) ∗ atPos ER (dcell c 8) 0 ∅ 0
        ∗ (((∃ W, owes (c : Thread nD τ) (Ofrom c 8) W) ∗ cred (tallyAt (dcell c 12) () N) ∗ cred (tallyAt (dcell c 14) () N) ∗ atPos ER (dcell c 8) 1 ∅ 0
              ∗ slot c rs2 fullShare (half1 (PART (nxt c) c)))
            -∗ Kt ⟨⟩))
      ⊢ wp frame (wpE (defs₀ (F := F)) 𝒱₀ (c : Thread nD τ) none) Set.univ
          (k0_part9 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v13 v24) Kt := by
  rw [k0_part9_eq_skeleton]; unfold k0_part9_skel
  simp only [Prog.lift, Prog.bind_op, Prog.bind_ret, Prog.pure_eq_ret]
  -- the device's own lower half in the program's spelling
  rw [← oS_off5_0 c]
  unfold slot hole
  iintro ⟨#HR, #Hlev, ⟨%fs, %hfs, Hs⟩, ⟨%fR, HhR⟩, ⟨%fL, HhL⟩, ⟨%W, HO⟩, Ht12, Ht14, HtR, HtL, Hc8, Hat8, Hk⟩
  -- the finished lower half is lent twice, a half share to each copy
  ihave Hs := (pointsTo_share (PosShare.mem_left_op_right fullShare)).1 $$ Hs
  icases Hs with ⟨HsL, HsR⟩
  -- to the right neighbour
  iapply (wp_copy m K c (nxt c) _ (dev9_eq c) 12 20 _ _ rfl rfl fullShare.left (OUTH c 0) fs fR (Ofrom c 7) W rfl hfs
      (by show slot c (oS c 0) _ _ = _; rw [oS_off5_0 c])
      (by show slot (nxt c) (oS (prv (nxt c)) 0) _ (OUTH (prv (nxt c)) 0) = _; rw [prv_nxt, oS_off5_0 c])) $$ [HsL HhR HO Ht12 HtR]
  · isplitr; · iexact HR
    isplitl [HsL]; · iexact HsL
    isplitl [HhR]; · iexact HhR
    isplitl [HO]; · iexact HO
    isplitl [Ht12]; · iexact Ht12
    iexact HtR
  iintro ⟨Hc12, HO⟩
  -- to the left neighbour
  iapply (wp_copy m K c (prv c) _ (dev10_eq c) 14 18 _ _ rfl rfl fullShare.right (OUTH c 0) fs fL (Ofrom c 8) W rfl hfs
      (by show slot c (oS c 0) _ _ = _; rw [oS_off5_0 c])
      (by show slot (prv c) (oS (nxt (prv c)) 0) _ (OUTH (nxt (prv c)) 0) = _; rw [nxt_prv, oS_off5_0 c])) $$ [HsR HhL HO Ht14 HtL]
  · isplitr; · iexact HR
    isplitl [HsR]; · iexact HsR
    isplitl [HhL]; · iexact HhL
    isplitl [HO]; · iexact HO
    isplitl [Ht14]; · iexact Ht14
    iexact HtL
  iintro ⟨Hc14, HO⟩
  -- the wait for the right neighbour's partial of the upper half
  iapply (wp_await m K c 8 _ rfl (dst := rs2) (Ofrom c 8) W rfl) $$ [Hc8 HO Hat8]
  · isplitr; · iexact HR
    isplitl [Hc8]; · iexact Hc8
    isplitl [HO]; · iexact HO
    isplitr
    · iapply (mayWait_from c (.dma (dsem 8)) 8 fun g hg =>
        ⟨(pay_above_8 c g hg).1, (show 6 < lvl g.2 from Nat.lt_of_succ_lt (pay_above_8 c g hg).2)⟩)
      iexact Hlev
    iexact Hat8
  iintro ⟨HO, Hat8, Hp8⟩
  ihave Hp8 := (Entails.of_eq (show dmaPay m c (8 : Fin 24).val = slot c rs2 fullShare (half1 (PART (nxt c) c)) from rfl)) $$ Hp8
  unfold slot
  rw [wp_ret]; imodintro
  iapply Hk
  isplitl [HO]; · iexists _; iexact HO
  isplitl [Hc12]; · iexact Hc12
  isplitl [Hc14]; · iexact Hc14
  isplitl [Hat8]; · iexact Hat8
  iexact Hp8

end Cert.KernelIdealProof

end
-- ==== Proof.Part10.lean ====
/-
  The device waits for the landing in receive slot 3, adds receive slots 2 and 3 to the upper half of its own partial
  product and stores the finished half-chunk in its rows of the result.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local
import proofs.«900459_g7700000000000460_dist_mlp2_tp_i_m768_h1536_out768_v7x_i4_f32_1_alg».proof.Proof.GeomOut

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part10_spec (K : Dev nD × Fin 25 → ℕ) (c : Dev nD) (v2 v13 : BitVec 32)
    (Kt : PUnit → sProp 𝕄) :
    iprop(records m K ∗ levAts L lv
        ∗ (∃ W, owes (c : Thread nD τ) (Ofrom c 8) W) ∗ cred (tallyAt (dcell c 9) () N) ∗ atPos ER (dcell c 9) 0 ∅ 0
        ∗ slot c rs2 fullShare (half1 (PART (nxt c) c))
        ∗ (∃ f, (oM.view.loc (c : Thread nD τ) ↦[(oS c 1).view.set]{fullShare} f : sProp 𝕄))
        ∗ (((∃ W, owes (c : Thread nD τ) (Ofrom c 8) W) ∗ atPos ER (dcell c 9) 1 ∅ 0
              ∗ slot c rs2 fullShare (half1 (PART (nxt c) c)) ∗ slot c rs3 fullShare (COMB0 (prv c))
              ∗ slot c (oS c 1) fullShare (OUTH c 1))
            -∗ Kt ⟨⟩))
      ⊢ wp frame (wpE (defs₀ (F := F)) 𝒱₀ (c : Thread nD τ) none) Set.univ
          (k0_part10 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v13 (OWN c)) Kt := by
  rw [k0_part10_eq_skeleton]; unfold k0_part10_skel
  simp only [Prog.lift, Prog.bind_op, Prog.bind_ret, Prog.pure_eq_ret]
  unfold slot
  iintro ⟨#HR, #Hlev, ⟨%W, HO⟩, Hc9, Hat9, ⟨%f2, %hf2, Hrs2⟩, ⟨%fo, Ho⟩, Hk⟩
  -- the wait for the pair the left neighbour pre-added
  iapply (wp_await m K c 9 _ rfl (dst := rs3) (Ofrom c 8) W rfl) $$ [Hc9 HO Hat9]
  · isplitr; · iexact HR
    isplitl [Hc9]; · iexact Hc9
    isplitl [HO]; · iexact HO
    isplitr; · iapply (mayWait_from c (.dma (dsem 9)) 8 (pay_above_8 c)); iexact Hlev
    iexact Hat9
  iintro ⟨HO, Hat9, Hp9⟩
  ihave Hp9 := (Entails.of_eq (show dmaPay m c (9 : Fin 24).val = slot c rs3 fullShare (COMB0 (prv c)) from rfl)) $$ Hp9
  unfold slot
  icases Hp9 with ⟨%f3, %hf3, Hrs3⟩
  -- the two received half-chunks, the device's own upper rows (read first: not used), and the sum stored there
  iapply (wp_load 𝒱₀ (c : Thread nD τ) none Set.univ (m := rsM) rs2_load_sub) $$ Hrs2; iintro Hrs2
  iapply (wp_load 𝒱₀ (c : Thread nD τ) none Set.univ (m := rsM) rs3_load_sub) $$ Hrs3; iintro Hrs3
  iapply (wp_load 𝒱₀ (c : Thread nD τ) none Set.univ (m := oM) (oS_load_sub4_1 c)) $$ Ho; iintro Ho
  iapply (wp_store 𝒱₀ (c : Thread nD τ) none Set.univ (m := oM) (r := (Rect.unit (s := S768x768) (k0_off4 c 96#32) S96x768.size (k0_off4_inb c 1))) (Mk := Finset.univ) (oS_store_sub4_1 c)) $$ Ho; iintro Ho
  rw [wp_ret]; imodintro
  iapply Hk
  isplitl [HO]; · iexists _; iexact HO
  isplitl [Hat9]; · iexact Hat9
  isplitl [Hrs2]; · iexists f2; isplitr; · (ipureintro; exact hf2)
                    iexact Hrs2
  isplitl [Hrs3]; · iexists f3; isplitr; · (ipureintro; exact hf3)
                    iexact Hrs3
  iexists ((oM.access (Rect.unit (s := S768x768) (k0_off4 c 96#32) S96x768.size (k0_off4_inb c 1))).write (Elt F) fo
    (k0_pay15 (OWN c) (rsM.view.readAt (Elt F) (Rect.unit (s := S4x96x768) ![2, 0, 0] S1x96x768.size inb_S4x96x768_S1x96x768_2_0_0).toLoadRect f2) (rsM.view.readAt (Elt F) (Rect.unit (s := S4x96x768) ![3, 0, 0] S1x96x768.size inb_S4x96x768_S1x96x768_3_0_0).toLoadRect f3)) Finset.univ)
  isplitr
  · ipureintro
    refine (oS_read_store4_1 c _ _).trans ?_
    rw [pay15_eq, rs2_load f2, rs3_load f3, hf2, hf3]
    rfl
  iexact Ho

end Cert.KernelIdealProof

end
-- ==== Proof.Part11.lean ====
/-
  The finished upper half of the device's own chunk leaves for both neighbours; the device then waits for the right
  neighbour's upper half to land in its rows of the result.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local
import proofs.«900459_g7700000000000460_dist_mlp2_tp_i_m768_h1536_out768_v7x_i4_f32_1_alg».proof.Proof.GeomOut

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part11_spec (K : Dev nD × Fin 25 → ℕ) (c : Dev nD) (v2 v13 v24 : BitVec 32)
    (Kt : PUnit → sProp 𝕄) :
    iprop(records m K ∗ levAts L lv
        ∗ slot c (oS c 1) fullShare (OUTH c 1) ∗ hole (F := F) (nxt c) (oS c 1) ∗ hole (F := F) (prv c) (oS c 1)
        ∗ (∃ W, owes (c : Thread nD τ) (Ofrom c 8) W) ∗ dutyTok ER (dcell c 13) 0 false ∗ dutyTok ER (dcell c 15) 0 false ∗ dutyTok ER (dcell (nxt c) 21) 0 false ∗ dutyTok ER (dcell (prv c) 19) 0 false
        ∗ cred (tallyAt (dcell c 19) () N) ∗ atPos ER (dcell c 19) 0 ∅ 0
        ∗ (((∃ W, owes (c : Thread nD τ) (Ofrom c 10) W) ∗ cred (tallyAt (dcell c 13) () N) ∗ cred (tallyAt (dcell c 15) () N) ∗ atPos ER (dcell c 19) 1 ∅ 0
              ∗ slot c (oS (nxt c) 1) fullShare (OUTH (nxt c) 1))
            -∗ Kt ⟨⟩))
      ⊢ wp frame (wpE (defs₀ (F := F)) 𝒱₀ (c : Thread nD τ) none) Set.univ
          (k0_part11 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v13 v24) Kt := by
  rw [k0_part11_eq_skeleton]; unfold k0_part11_skel
  simp only [Prog.lift, Prog.bind_op, Prog.bind_ret, Prog.pure_eq_ret]
  -- the device's own upper half in the program's spelling
  rw [← oS_off5_1 c]
  unfold slot hole
  iintro ⟨#HR, #Hlev, ⟨%fs, %hfs, Hs⟩, ⟨%fR, HhR⟩, ⟨%fL, HhL⟩, ⟨%W, HO⟩, Ht13, Ht15, HtR, HtL, Hc19, Hat19, Hk⟩
  -- the finished upper half is lent twice, a half share to each copy
  ihave Hs := (pointsTo_share (PosShare.mem_left_op_right fullShare)).1 $$ Hs
  icases Hs with ⟨HsL, HsR⟩
  -- to the right neighbour
  iapply (wp_copy m K c (nxt c) _ (dev11_eq c) 13 21 _ _ rfl rfl fullShare.left (OUTH c 1) fs fR (Ofrom c 9) W rfl hfs
      (by show slot c (oS c 1) _ _ = _; rw [oS_off5_1 c])
      (by show slot (nxt c) (oS (prv (nxt c)) 1) _ (OUTH (prv (nxt c)) 1) = _; rw [prv_nxt, oS_off5_1 c])) $$ [HsL HhR HO Ht13 HtR]
  · isplitr; · iexact HR
    isplitl [HsL]; · iexact HsL
    isplitl [HhR]; · iexact HhR
    isplitl [HO]; · iexact HO
    isplitl [Ht13]; · iexact Ht13
    iexact HtR
  iintro ⟨Hc13, HO⟩
  -- to the left neighbour
  iapply (wp_copy m K c (prv c) _ (dev12_eq c) 15 19 _ _ rfl rfl fullShare.right (OUTH c 1) fs fL (Ofrom c 10) W rfl hfs
      (by show slot c (oS c 1) _ _ = _; rw [oS_off5_1 c])
      (by show slot (prv c) (oS (nxt (prv c)) 1) _ (OUTH (nxt (prv c)) 1) = _; rw [nxt_prv, oS_off5_1 c])) $$ [HsR HhL HO Ht15 HtL]
  · isplitr; · iexact HR
    isplitl [HsR]; · iexact HsR
    isplitl [HhL]; · iexact HhL
    isplitl [HO]; · iexact HO
    isplitl [Ht15]; · iexact Ht15
    iexact HtL
  iintro ⟨Hc15, HO⟩
  -- the wait for the right neighbour's upper half
  iapply (wp_await m K c 19 _ rfl (dst := (oM.slice (Rect.unit (s := S768x768) (k0_off6 c 1#32 96#32) S96x768.size (k0_off6_inb c 0 1)) (fun _ => rfl))) (Ofrom c 10) W rfl) $$ [Hc19 HO Hat19]
  · isplitr; · iexact HR
    isplitl [Hc19]; · iexact Hc19
    isplitl [HO]; · iexact HO
    isplitr; · iapply (mayWait_from c (.dma (dsem 19)) 10 (pay_above_10 c)); iexact Hlev
    iexact Hat19
  iintro ⟨HO, Hat19, Hp19⟩
  ihave Hp19 := (Entails.of_eq (show dmaPay m c (19 : Fin 24).val = slot c (oS (nxt c) 1) fullShare (OUTH (nxt c) 1) from rfl)) $$ Hp19
  unfold slot
  rw [wp_ret]; imodintro
  iapply Hk
  isplitl [HO]; · iexists _; iexact HO
  isplitl [Hc13]; · iexact Hc13
  isplitl [Hc15]; · iexact Hc15
  isplitl [Hat19]; · iexact Hat19
  iexact Hp19

end Cert.KernelIdealProof

end
-- ==== Proof.Part12.lean ====
/-
  The right neighbour's upper half is forwarded to the left neighbour; the device waits for the left neighbour's lower half
  and forwards it to the right neighbour.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local
import proofs.«900459_g7700000000000460_dist_mlp2_tp_i_m768_h1536_out768_v7x_i4_f32_1_alg».proof.Proof.GeomOut

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part12_spec (K : Dev nD × Fin 25 → ℕ) (c : Dev nD) (v2 v13 v24 v52 : BitVec 32)
    (Kt : (Σ' (v357 : BitVec 32), BitVec 32) → sProp 𝕄) :
    iprop(records m K ∗ levAts L lv
        ∗ slot c (oS (nxt c) 1) fullShare (OUTH (nxt c) 1) ∗ hole (F := F) (prv c) (oS (nxt c) 1) ∗ hole (F := F) (nxt c) (oS (prv c) 0)
        ∗ (∃ W, owes (c : Thread nD τ) (Ofrom c 10) W) ∗ dutyTok ER (dcell c 16) 0 false ∗ dutyTok ER (dcell c 17) 0 false ∗ dutyTok ER (dcell (prv c) 23) 0 false ∗ dutyTok ER (dcell (nxt c) 22) 0 false
        ∗ cred (tallyAt (dcell c 20) () N) ∗ atPos ER (dcell c 20) 0 ∅ 0
        ∗ (∀ v357 w, ((∃ W, owes (c : Thread nD τ) (Ofrom c 12) W) ∗ cred (tallyAt (dcell c 16) () N) ∗ cred (tallyAt (dcell c 17) () N) ∗ atPos ER (dcell c 20) 1 ∅ 0)
            -∗ Kt ⟨v357, w⟩))
      ⊢ wp frame (wpE (defs₀ (F := F)) 𝒱₀ (c : Thread nD τ) none) Set.univ
          (k0_part12 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v13 v24 v52) Kt := by
  rw [k0_part12_eq_skeleton]; unfold k0_part12_skel
  simp only [Prog.lift, Prog.bind_op, Prog.bind_ret, Prog.pure_eq_ret]
  -- the windows in the program's spelling
  rw [← oS_off6 c, ← oS_off7 c]
  unfold slot hole
  iintro ⟨#HR, #Hlev, ⟨%fs, %hfs, Hs⟩, ⟨%fL, HhL⟩, ⟨%fR, HhR⟩, ⟨%W, HO⟩, Ht16, Ht17, HtL, HtR, Hc20, Hat20, Hk⟩
  -- the right neighbour's upper half, forwarded to the left neighbour
  iapply (wp_copy m K c (prv c) _ (dev13_eq c) 16 23 _ _ rfl rfl fullShare (OUTH (nxt c) 1) fs fL (Ofrom c 11) W rfl hfs
      (by show slot c (oS (nxt c) 1) _ _ = _; rw [oS_off6 c])
      (by show slot (prv c) (oS (opp (prv c)) 1) _ (OUTH (opp (prv c)) 1) = _; rw [opp_prv, oS_off6 c])) $$ [Hs HhL HO Ht16 HtL]
  · isplitr; · iexact HR
    isplitl [Hs]; · iexact Hs
    isplitl [HhL]; · iexact HhL
    isplitl [HO]; · iexact HO
    isplitl [Ht16]; · iexact Ht16
    iexact HtL
  iintro ⟨Hc16, HO⟩
  -- the wait for the left neighbour's lower half
  iapply (wp_await m K c 20 _ rfl (dst := (oM.slice (Rect.unit (s := S768x768) (k0_off7 c 0#32) S96x768.size (k0_off7_inb c 0)) (fun _ => rfl))) (Ofrom c 11) W rfl) $$ [Hc20 HO Hat20]
  · isplitr; · iexact HR
    isplitl [Hc20]; · iexact Hc20
    isplitl [HO]; · iexact HO
    isplitr; · iapply (mayWait_from c (.dma (dsem 20)) 11 (pay_above_11 c)); iexact Hlev
    iexact Hat20
  iintro ⟨HO, Hat20, Hp20⟩
  ihave Hp20 := (Entails.of_eq (show dmaPay m c (20 : Fin 24).val = slot c (oM.slice (Rect.unit (s := S768x768) (k0_off7 c 0#32) S96x768.size (k0_off7_inb c 0)) (fun _ => rfl)) fullShare (OUTH (prv c) 0) from by
    show slot c (oS (prv c) 0) _ _ = _; rw [oS_off7 c])) $$ Hp20
  unfold slot
  icases Hp20 with ⟨%f0, %hf0, Hp20⟩
  -- forwarded to the right neighbour
  iapply (wp_copy m K c (nxt c) _ (dev14_eq c) 17 22 _ _ rfl rfl fullShare (OUTH (prv c) 0) f0 fR (Ofrom c 12) _ rfl hf0
      (by show slot c (oS (prv c) 0) _ _ = _; rw [oS_off7 c])
      (by show slot (nxt c) (oS (opp (nxt c)) 0) _ (OUTH (opp (nxt c)) 0) = _; rw [opp_nxt, oS_off7 c])) $$ [Hp20 HhR HO Ht17 HtR]
  · isplitr; · iexact HR
    isplitl [Hp20]; · iexact Hp20
    isplitl [HhR]; · iexact HhR
    isplitl [HO]; · iexact HO
    isplitl [Ht17]; · iexact Ht17
    iexact HtR
  iintro ⟨Hc17, HO⟩
  rw [wp_ret]; imodintro
  iapply Hk
  isplitl [HO]; · iexists _; iexact HO
  isplitl [Hc16]; · iexact Hc16
  isplitl [Hc17]; · iexact Hc17
  iexact Hat20

end Cert.KernelIdealProof

end
-- ==== Proof.Part13.lean ====
/-
  The last four landings of the final exchange: the right neighbour's lower half, the left neighbour's upper half and the two
  halves of the chunk two devices away.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part13_spec (K : Dev nD × Fin 25 → ℕ) (c : Dev nD) (v2 v357 w : BitVec 32)
    (Kt : PUnit → sProp 𝕄) :
    iprop(records m K ∗ levAts L lv ∗ (∃ W, owes (c : Thread nD τ) (Ofrom c 12) W)
        ∗ cred (tallyAt (dcell c 18) () N) ∗ atPos ER (dcell c 18) 0 ∅ 0
        ∗ cred (tallyAt (dcell c 21) () N) ∗ atPos ER (dcell c 21) 0 ∅ 0
        ∗ cred (tallyAt (dcell c 22) () N) ∗ atPos ER (dcell c 22) 0 ∅ 0
        ∗ cred (tallyAt (dcell c 23) () N) ∗ atPos ER (dcell c 23) 0 ∅ 0
        ∗ (((∃ W, owes (c : Thread nD τ) (Ofrom c 12) W)
              ∗ atPos ER (dcell c 18) 1 ∅ 0 ∗ dmaPay m c 18
              ∗ atPos ER (dcell c 21) 1 ∅ 0 ∗ dmaPay m c 21
              ∗ atPos ER (dcell c 22) 1 ∅ 0 ∗ dmaPay m c 22
              ∗ atPos ER (dcell c 23) 1 ∅ 0 ∗ dmaPay m c 23)
            -∗ Kt ⟨⟩))
      ⊢ wp frame (wpE (defs₀ (F := F)) 𝒱₀ (c : Thread nD τ) none) Set.univ
          (k0_part13 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v357 w) Kt := by
  rw [k0_part13_eq_skeleton]; unfold k0_part13_skel
  simp only [Prog.lift, Prog.bind_op, Prog.bind_ret, Prog.pure_eq_ret]
  iintro ⟨#HR, #Hlev, ⟨%W, HO⟩, Hc18, Hat18, Hc21, Hat21, Hc22, Hat22, Hc23, Hat23, Hk⟩
  iapply (wp_await m K c 18 _ rfl (dst := (oM.slice (Rect.unit (s := S768x768) (k0_off6 c 1#32 0#32) S96x768.size (k0_off6_inb c 0 0)) (fun _ => rfl))) (Ofrom c 12) _ rfl) $$ [Hc18 HO Hat18]
  · isplitr; · iexact HR
    isplitl [Hc18]; · iexact Hc18
    isplitl [HO]; · iexact HO
    isplitr; · iapply (mayWait_from c (.dma (dsem 18)) 12 (pay_above_12 c _)); iexact Hlev
    iexact Hat18
  iintro ⟨HO, Hat18, Hp18⟩
  iapply (wp_await m K c 21 _ rfl (dst := (oM.slice (Rect.unit (s := S768x768) (k0_off7 c 96#32) S96x768.size (k0_off7_inb c 1)) (fun _ => rfl))) (Ofrom c 12) _ rfl) $$ [Hc21 HO Hat21]
  · isplitr; · iexact HR
    isplitl [Hc21]; · iexact Hc21
    isplitl [HO]; · iexact HO
    isplitr; · iapply (mayWait_from c (.dma (dsem 21)) 12 (pay_above_12 c _)); iexact Hlev
    iexact Hat21
  iintro ⟨HO, Hat21, Hp21⟩
  iapply (wp_await m K c 22 _ rfl (dst := (oM.slice (Rect.unit (s := S768x768) (k0_off6 c 2#32 0#32) S96x768.size (k0_off6_inb c 1 0)) (fun _ => rfl))) (Ofrom c 12) _ rfl) $$ [Hc22 HO Hat22]
  · isplitr; · iexact HR
    isplitl [Hc22]; · iexact Hc22
    isplitl [HO]; · iexact HO
    isplitr; · iapply (mayWait_from c (.dma (dsem 22)) 12 (pay_above_12 c _)); iexact Hlev
    iexact Hat22
  iintro ⟨HO, Hat22, Hp22⟩
  iapply (wp_await m K c 23 _ rfl (dst := (oM.slice (Rect.unit (s := S768x768) (k0_off6 c 2#32 96#32) S96x768.size (k0_off6_inb c 1 1)) (fun _ => rfl))) (Ofrom c 12) _ rfl) $$ [Hc23 HO Hat23]
  · isplitr; · iexact HR
    isplitl [Hc23]; · iexact Hc23
    isplitl [HO]; · iexact HO
    isplitr; · iapply (mayWait_from c (.dma (dsem 23)) 12 (pay_above_12 c _)); iexact Hlev
    iexact Hat23
  iintro ⟨HO, Hat23, Hp23⟩
  rw [wp_ret]; imodintro
  iapply Hk
  isplitl [HO]; · iexists _; iexact HO
  isplitl [Hat18]; · iexact Hat18
  isplitl [Hp18]; · iexact Hp18
  isplitl [Hat21]; · iexact Hat21
  isplitl [Hp21]; · iexact Hp21
  isplitl [Hat22]; · iexact Hat22
  isplitl [Hp22]; · iexact Hp22
  isplitl [Hat23]; · iexact Hat23
  iexact Hp23

end Cert.KernelIdealProof

end
-- ==== Proof.Part14.lean ====
/-
  The device waits for four of its copies of the reduction to have left: the sources come back.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part14_spec (K : Dev nD × Fin 25 → ℕ) (c : Dev nD)
    (Kt : PUnit → sProp 𝕄) :
    iprop(records m K ∗ levAts L lv ∗ (∃ W, owes (c : Thread nD τ) (Ofrom c 12) W)
        ∗ cred (tallyAt (dcell c 0) () N) ∗ atPos ER (dcell c 0) 0 ∅ 0
        ∗ cred (tallyAt (dcell c 1) () N) ∗ atPos ER (dcell c 1) 0 ∅ 0
        ∗ cred (tallyAt (dcell c 2) () N) ∗ atPos ER (dcell c 2) 0 ∅ 0
        ∗ cred (tallyAt (dcell c 4) () N) ∗ atPos ER (dcell c 4) 0 ∅ 0
        ∗ (((∃ W, owes (c : Thread nD τ) (Ofrom c 12) W)
              ∗ atPos ER (dcell c 0) 1 ∅ 0 ∗ dmaPay m c 0
              ∗ atPos ER (dcell c 1) 1 ∅ 0 ∗ dmaPay m c 1
              ∗ atPos ER (dcell c 2) 1 ∅ 0 ∗ dmaPay m c 2
              ∗ atPos ER (dcell c 4) 1 ∅ 0 ∗ dmaPay m c 4)
            -∗ Kt ⟨⟩))
      ⊢ wp frame (wpE (defs₀ (F := F)) 𝒱₀ (c : Thread nD τ) none) Set.univ
          (k0_part14 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10) Kt := by
  rw [k0_part14_eq_skeleton]; unfold k0_part14_skel
  simp only [Prog.lift, Prog.bind_op, Prog.bind_ret, Prog.pure_eq_ret]
  iintro ⟨#HR, #Hlev, ⟨%W, HO⟩, Hc0, Hat0, Hc1, Hat1, Hc2, Hat2, Hc4, Hat4, Hk⟩
  iapply (wp_await m K c 0 _ rfl (dst := sb00) (Ofrom c 12) _ rfl) $$ [Hc0 HO Hat0]
  · isplitr; · iexact HR
    isplitl [Hc0]; · iexact Hc0
    isplitl [HO]; · iexact HO
    isplitr; · iapply (mayWait_from c (.dma (dsem 0)) 12 (pay_above_12 c _)); iexact Hlev
    iexact Hat0
  iintro ⟨HO, Hat0, Hp0⟩
  iapply (wp_await m K c 1 _ rfl (dst := sb01) (Ofrom c 12) _ rfl) $$ [Hc1 HO Hat1]
  · isplitr; · iexact HR
    isplitl [Hc1]; · iexact Hc1
    isplitl [HO]; · iexact HO
    isplitr; · iapply (mayWait_from c (.dma (dsem 1)) 12 (pay_above_12 c _)); iexact Hlev
    iexact Hat1
  iintro ⟨HO, Hat1, Hp1⟩
  iapply (wp_await m K c 2 _ rfl (dst := sb10) (Ofrom c 12) _ rfl) $$ [Hc2 HO Hat2]
  · isplitr; · iexact HR
    isplitl [Hc2]; · iexact Hc2
    isplitl [HO]; · iexact HO
    isplitr; · iapply (mayWait_from c (.dma (dsem 2)) 12 (pay_above_12 c _)); iexact Hlev
    iexact Hat2
  iintro ⟨HO, Hat2, Hp2⟩
  iapply (wp_await m K c 4 _ rfl (dst := sb21) (Ofrom c 12) _ rfl) $$ [Hc4 HO Hat4]
  · isplitr; · iexact HR
    isplitl [Hc4]; · iexact Hc4
    isplitl [HO]; · iexact HO
    isplitr; · iapply (mayWait_from c (.dma (dsem 4)) 12 (pay_above_12 c _)); iexact Hlev
    iexact Hat4
  iintro ⟨HO, Hat4, Hp4⟩
  rw [wp_ret]; imodintro
  iapply Hk
  isplitl [HO]; · iexists _; iexact HO
  isplitl [Hat0]; · iexact Hat0
  isplitl [Hp0]; · iexact Hp0
  isplitl [Hat1]; · iexact Hat1
  isplitl [Hp1]; · iexact Hp1
  isplitl [Hat2]; · iexact Hat2
  isplitl [Hp2]; · iexact Hp2
  isplitl [Hat4]; · iexact Hat4
  iexact Hp4

end Cert.KernelIdealProof

end
-- ==== Proof.Part15.lean ====
/-
  The device waits for five more of its copies to have left: the sources come back.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Local

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part15_spec (K : Dev nD × Fin 25 → ℕ) (c : Dev nD)
    (Kt : PUnit → sProp 𝕄) :
    iprop(records m K ∗ levAts L lv ∗ (∃ W, owes (c : Thread nD τ) (Ofrom c 12) W)
        ∗ cred (tallyAt (dcell c 3) () N) ∗ atPos ER (dcell c 3) 0 ∅ 0
        ∗ cred (tallyAt (dcell c 5) () N) ∗ atPos ER (dcell c 5) 0 ∅ 0
        ∗ cred (tallyAt (dcell c 12) () N) ∗ atPos ER (dcell c 12) 0 ∅ 0
        ∗ cred (tallyAt (dcell c 14) () N) ∗ atPos ER (dcell c 14) 0 ∅ 0
        ∗ cred (tallyAt (dcell c 13) () N) ∗ atPos ER (dcell c 13) 0 ∅ 0
        ∗ (((∃ W, owes (c : Thread nD τ) (Ofrom c 12) W)
              ∗ atPos ER (dcell c 3) 1 ∅ 0 ∗ dmaPay m c 3
              ∗ atPos ER (dcell c 5) 1 ∅ 0 ∗ dmaPay m c 5
              ∗ atPos ER (dcell c 12) 1 ∅ 0 ∗ dmaPay m c 12
              ∗ atPos ER (dcell c 14) 1 ∅ 0 ∗ dmaPay m c 14
              ∗ atPos ER (dcell c 13) 1 ∅ 0 ∗ dmaPay m c 13)
            -∗ Kt ⟨⟩))
      ⊢ wp frame (wpE (defs₀ (F := F)) 𝒱₀ (c : Thread nD τ) none) Set.univ
          (k0_part15 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c) Kt := by
  rw [k0_part15_eq_skeleton]; unfold k0_part15_skel
  simp only [Prog.lift, Prog.bind_op, Prog.bind_ret, Prog.pure_eq_ret]
  iintro ⟨#HR, #Hlev, ⟨%W, HO⟩, Hc3, Hat3, Hc5, Hat5, Hc12, Hat12, Hc14, Hat14, Hc13, Hat13, Hk⟩
  iapply (wp_await m K c 3 _ rfl (dst := cb0) (Ofrom c 12) _ rfl) $$ [Hc3 HO Hat3]
  · isplitr; · iexact HR
    isplitl [Hc3]; · iexact Hc3
    isplitl [HO]; · iexact HO
    isplitr; · iapply (mayWait_from c (.dma (dsem 3)) 12 (pay_above_12 c _)); iexact Hlev
    iexact Hat3
  iintro ⟨HO, Hat3, Hp3⟩
  iapply (wp_await m K c 5 _ rfl (dst := cb1) (Ofrom c 12) _ rfl) $$ [Hc5 HO Hat5]
  · isplitr; · iexact HR
    isplitl [Hc5]; · iexact Hc5
    isplitl [HO]; · iexact HO
    isplitr; · iapply (mayWait_from c (.dma (dsem 5)) 12 (pay_above_12 c _)); iexact Hlev
    iexact Hat5
  iintro ⟨HO, Hat5, Hp5⟩
  iapply (wp_await m K c 12 _ rfl (dst := (oM.slice (Rect.unit (s := S768x768) (k0_off5 c 0#32) S96x768.size (k0_off5_inb c 0)) (fun _ => rfl))) (Ofrom c 12) _ rfl) $$ [Hc12 HO Hat12]
  · isplitr; · iexact HR
    isplitl [Hc12]; · iexact Hc12
    isplitl [HO]; · iexact HO
    isplitr; · iapply (mayWait_from c (.dma (dsem 12)) 12 (pay_above_12 c _)); iexact Hlev
    iexact Hat12
  iintro ⟨HO, Hat12, Hp12⟩
  iapply (wp_await m K c 14 _ rfl (dst := (oM.slice (Rect.unit (s := S768x768) (k0_off5 c 0#32) S96x768.size (k0_off5_inb c 0)) (fun _ => rfl))) (Ofrom c 12) _ rfl) $$ [Hc14 HO Hat14]
  · isplitr; · iexact HR
    isplitl [Hc14]; · iexact Hc14
    isplitl [HO]; · iexact HO
    isplitr; · iapply (mayWait_from c (.dma (dsem 14)) 12 (pay_above_12 c _)); iexact Hlev
    iexact Hat14
  iintro ⟨HO, Hat14, Hp14⟩
  iapply (wp_await m K c 13 _ rfl (dst := (oM.slice (Rect.unit (s := S768x768) (k0_off5 c 96#32) S96x768.size (k0_off5_inb c 1)) (fun _ => rfl))) (Ofrom c 12) _ rfl) $$ [Hc13 HO Hat13]
  · isplitr; · iexact HR
    isplitl [Hc13]; · iexact Hc13
    isplitl [HO]; · iexact HO
    isplitr; · iapply (mayWait_from c (.dma (dsem 13)) 12 (pay_above_12 c _)); iexact Hlev
    iexact Hat13
  iintro ⟨HO, Hat13, Hp13⟩
  rw [wp_ret]; imodintro
  iapply Hk
  isplitl [HO]; · iexists _; iexact HO
  isplitl [Hat3]; · iexact Hat3
  isplitl [Hp3]; · iexact Hp3
  isplitl [Hat5]; · iexact Hat5
  isplitl [Hp5]; · iexact Hp5
  isplitl [Hat12]; · iexact Hat12
  isplitl [Hp12]; · iexact Hp12
  isplitl [Hat14]; · iexact Hat14
  isplitl [Hp14]; · iexact Hp14
  isplitl [Hat13]; · iexact Hat13
  iexact Hp13

end Cert.KernelIdealProof

end
-- ==== Proof.Body.lean ====
/-
  One device's kernel, run from the state the launch deals it to the state the pipeline takes back: the buffers are cut into
  the windows that change hands, the sixteen parts of the body run in order, the windows are joined again and the transfer
  cells closed.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Join
import proofs.«900459_g7700000000000460_dist_mlp2_tp_i_m768_h1536_out768_v7x_i4_f32_1_alg».proof.Proof.Part1
import proofs.«900459_g7700000000000460_dist_mlp2_tp_i_m768_h1536_out768_v7x_i4_f32_1_alg».proof.Proof.Part2
import proofs.«900459_g7700000000000460_dist_mlp2_tp_i_m768_h1536_out768_v7x_i4_f32_1_alg».proof.Proof.Part3
import proofs.«900459_g7700000000000460_dist_mlp2_tp_i_m768_h1536_out768_v7x_i4_f32_1_alg».proof.Proof.Part4
import proofs.«900459_g7700000000000460_dist_mlp2_tp_i_m768_h1536_out768_v7x_i4_f32_1_alg».proof.Proof.Part5
import proofs.«900459_g7700000000000460_dist_mlp2_tp_i_m768_h1536_out768_v7x_i4_f32_1_alg».proof.Proof.Part6
import proofs.«900459_g7700000000000460_dist_mlp2_tp_i_m768_h1536_out768_v7x_i4_f32_1_alg».proof.Proof.Part7
import proofs.«900459_g7700000000000460_dist_mlp2_tp_i_m768_h1536_out768_v7x_i4_f32_1_alg».proof.Proof.Part8
import proofs.«900459_g7700000000000460_dist_mlp2_tp_i_m768_h1536_out768_v7x_i4_f32_1_alg».proof.Proof.Part9
import proofs.«900459_g7700000000000460_dist_mlp2_tp_i_m768_h1536_out768_v7x_i4_f32_1_alg».proof.Proof.Part10
import proofs.«900459_g7700000000000460_dist_mlp2_tp_i_m768_h1536_out768_v7x_i4_f32_1_alg».proof.Proof.Part11
import proofs.«900459_g7700000000000460_dist_mlp2_tp_i_m768_h1536_out768_v7x_i4_f32_1_alg».proof.Proof.Part12
import proofs.«900459_g7700000000000460_dist_mlp2_tp_i_m768_h1536_out768_v7x_i4_f32_1_alg».proof.Proof.Part13
import proofs.«900459_g7700000000000460_dist_mlp2_tp_i_m768_h1536_out768_v7x_i4_f32_1_alg».proof.Proof.Part14
import proofs.«900459_g7700000000000460_dist_mlp2_tp_i_m768_h1536_out768_v7x_i4_f32_1_alg».proof.Proof.Part15

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

variable (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 :=
  iprop(Φ₁ (F := F) c ∗ (dats m ρ 0 c).owesAt () t0_0.succ
    ∗ stg c cc0_stg0_0 (Xin m c) ∗ stg c cc0_stg1_0 (W1in m c) ∗ stg c cc0_stg2_0 (W2in m c) ∗ stg c cc0_stg3_0 (outV m))

omit [FloatOps F] in
theorem barPayR_prv (c : Dev nD) : barPayR (F := F) (prv c)
    = iprop(hole c rl1 ∗ hole c rs0 ∗ hole c rs3 ∗ hole c (oS (prv c) 0) ∗ hole c (oS (prv c) 1) ∗ hole c (oS (opp c) 0)) := by
  unfold barPayR; rw [nxt_prv, prv_prv]
omit [FloatOps F] in
theorem barPayL_nxt (c : Dev nD) : barPayL (F := F) (nxt c)
    = iprop(hole c rl0 ∗ hole c rs2 ∗ hole c rs1 ∗ hole c (oS (nxt c) 0) ∗ hole c (oS (nxt c) 1) ∗ hole c (oS (opp c) 1)) := by
  unfold barPayL; rw [prv_nxt, nxt_nxt]

set_option maxHeartbeats 12800000 in
set_option maxRecDepth 16384 in
theorem sound_body (K : Dev nD × Fin 25 → ℕ) (c : Dev nD) :
    iprop(ghost m K c ∗ cred (tallyAt (barCell c) () 2) ∗ recvCreds (F := F) c ∗ levAts L lv ∗ Pipeline.scopedRest cfg0.spec c
        ∗ (dats m ρ 0 c).owesAt () t0_0.castSucc
        ∗ bufAt c cc0_stg0_0 (Xin m c) ∗ bufAt c cc0_stg1_0 (W1in m c) ∗ bufAt c cc0_stg2_0 (W2in m c) ∗ (∃ f, bufAt (F := F) c cc0_stg3_0 f))
      ⊢ wp frame (wpE (defs₀ (F := F)) 𝒱₀ (c : Thread nD τ) none) Set.univ (cc0_body (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10) (fun _ => bodyPost m ρ c) := by
  rw [cc0_body_eq_skeleton]; unfold cc0_body_skel
  simp only [wp_bind]
  unfold ghost positions payToks
  rw [fin24, sendToks_eq, payToksL_eq, recvCreds_eq, scopedRest0_eq]
  iintro ⟨⟨#HR, ⟨HatB, Hat0, Hat1, Hat2, Hat3, Hat4, Hat5, Hat6, Hat7, Hat8, Hat9, Hat10, Hat11, Hat12, Hat13, Hat14, Hat15, Hat16, Hat17, Hat18, Hat19, Hat20, Hat21, Hat22, Hat23⟩, HtBP, HtBN, ⟨Hts0, Hts1, Hts2, Hts3, Hts4, Hts5, Hts12, Hts13, Hts14, Hts15, Hts16, Hts17⟩,
      ⟨Htr10p, Htr11n, Htr6n, Htr8p, Htr9n, Htr7p, Htr20n, Htr18p, Htr21n, Htr19p, Htr23p, Htr22n⟩⟩, HcB,
    ⟨Hc6, Hc7, Hc8, Hc9, Hc10, Hc11, Hc18, Hc19, Hc20, Hc21, Hc22, Hc23⟩, #Hlev,
    ⟨⟨%fs0, Hsc0⟩, ⟨%fs1, Hsc1⟩, ⟨%fs2, Hsc2⟩, ⟨%fs3, Hsc3⟩, Hsc4, Hsc5, Hsc6⟩, Ho, Hx, Hw1, Hw2, ⟨%f3, Hout⟩⟩
  unfold Dat.owesAt Pipeline.owesWithin
  icases Ho with ⟨%W, %hW, HO⟩
  rw [show (dats m ρ 0 c).owed t0_0.castSucc = O₀ c from rfl]
  -- the buffers cut into the windows that change hands
  ihave Hrs := (split_rs c fs1) $$ Hsc1
  icases Hrs with ⟨Hrs0, Hrs1, Hrs2, Hrs3⟩
  ihave Hrl := (split_rl c fs2) $$ Hsc2
  icases Hrl with ⟨Hrl0, Hrl1⟩
  ihave Hcb := (split_cb c fs3) $$ Hsc3
  icases Hcb with ⟨Hcb0, Hcb1⟩
  ihave Hsb := (split_sb c fs0) $$ Hsc0
  icases Hsb with ⟨Hsb0, Hsb1, Hsb2⟩
  ihave Ho8 := (split_out c f3) $$ Hout
  icases Ho8 with ⟨Ho_c0, Ho_c1, Ho_n0, Ho_n1, Ho_p0, Ho_p1, Ho_o0, Ho_o1⟩
  -- part 1: the handshake
  iapply (part1_spec m K c W _)
  isplitr; · iexact HR
  isplitr; · iexact Hlev
  isplitl [HO]; · iexact HO
  isplitl [HtBP]; · iexact HtBP
  isplitl [HtBN]; · iexact HtBN
  isplitl [Hrl1 Hrs0 Hrs3 Ho_p0 Ho_p1 Ho_o0]
  · rw [barPayR_prv]
    isplitl [Hrl1]; · iexact Hrl1
    isplitl [Hrs0]; · iexact Hrs0
    isplitl [Hrs3]; · iexact Hrs3
    isplitl [Ho_p0]; · iexact Ho_p0
    isplitl [Ho_p1]; · iexact Ho_p1
    iexact Ho_o0
  isplitl [Hrl0 Hrs2 Hrs1 Ho_n0 Ho_n1 Ho_o1]
  · rw [barPayL_nxt]
    isplitl [Hrl0]; · iexact Hrl0
    isplitl [Hrs2]; · iexact Hrs2
    isplitl [Hrs1]; · iexact Hrs1
    isplitl [Ho_n0]; · iexact Ho_n0
    isplitl [Ho_n1]; · iexact Ho_n1
    iexact Ho_o1
  isplitl [HcB]; · iexact HcB
  isplitl [HatB]; · iexact HatB
  iintro %v2 %v13 %v24 ⟨HO, HgR, HgL, HatB⟩
  unfold barPayR barPayL
  icases HgR with ⟨HnRl1, HnRs0, HnRs3, HnO0, HnO1, HnOp0⟩
  icases HgL with ⟨HpRl0, HpRs2, HpRs1, HpO0, HpO1, HpOn1⟩
  -- part 2
  iapply (part2_spec m c v2 _)
  isplitl [Hx]; · iexact Hx
  isplitl [Hw1]; · iexact Hw1
  isplitl [Hw2]; · iexact Hw2
  isplitl [Hsc4]; · iexact Hsc4
  isplitl [Hsc5]; · iexact Hsc5
  isplitl [Hsc6]; · iexact Hsc6
  iintro %v52 ⟨Hx, Hw1, Hw2, Hxb, Hw1b, Hw2b⟩
  -- part 3
  iapply (part3_spec m K c v13 v24 _)
  isplitr; · iexact HR
  isplitl [Hw2b]; · iexact Hw2b
  isplitl [Hsb0]; · iexact Hsb0
  isplitl [HpRl0]; · iexact HpRl0
  isplitl [HnRl1]; · iexact HnRl1
  isplitl [HO]; · iexact HO
  isplitl [Hts0]; · iexact Hts0
  isplitl [Hts1]; · iexact Hts1
  isplitl [Htr10p]; · iexact Htr10p
  isplitl [Htr11n]; · iexact Htr11n
  iintro %v93 ⟨Hw2b, HO, Hc0, Hc1⟩
  -- part 4
  iapply (part4_spec m K c v13 v24 v93 _)
  isplitr; · iexact HR
  isplitl [Hxb]; · iexact Hxb
  isplitl [Hw1b]; · iexact Hw1b
  isplitl [Hw2b]; · iexact Hw2b
  isplitl [Hsb1]; · iexact Hsb1
  isplitl [HnRs0]; · iexact HnRs0
  isplitl [HO]; · iexact HO
  isplitl [Hts2]; · iexact Hts2
  isplitl [Htr6n]; · iexact Htr6n
  iintro ⟨Hxb, Hw1b, Hw2b, Hs11, HO, Hc2⟩
  -- part 5
  iapply (part5_spec m K c v2 v24 _)
  isplitr; · iexact HR
  isplitr; · iexact Hlev
  isplitl [Hw2b]; · iexact Hw2b
  isplitl [Hsb2]; · iexact Hsb2
  isplitl [HpRs2]; · iexact HpRs2
  isplitl [HO]; · iexact HO
  isplitl [Hts4]; · iexact Hts4
  isplitl [Htr8p]; · iexact Htr8p
  isplitl [Hc11]; · iexact Hc11
  isplitl [Hat11]; · iexact Hat11
  isplitl [Hs11]; · iexact Hs11
  iintro ⟨Hw2b, Hs20, HO, Hc4, Hat11, Hrl1v, Hs11⟩
  -- part 6
  iapply (part6_spec m K c v2 v13 _)
  isplitr; · iexact HR
  isplitr; · iexact Hlev
  isplitl [Hrl1v]; · iexact Hrl1v
  isplitl [Hcb0]; · iexact Hcb0
  isplitl [HnRs3]; · iexact HnRs3
  isplitl [HO]; · iexact HO
  isplitl [Hts3]; · iexact Hts3
  isplitl [Htr9n]; · iexact Htr9n
  isplitl [Hc10]; · iexact Hc10
  isplitl [Hat10]; · iexact Hat10
  isplitl [Hs20]; · iexact Hs20
  iintro %Lr %hLr ⟨Hrl1v, HO, Hc3, Hat10, Hrl0v, Hs20⟩
  -- part 7
  iapply (part7_spec m K c v2 v24 Lr hLr _)
  isplitr; · iexact HR
  isplitl [Hcb1]; · iexact Hcb1
  isplitl [HpRs1]; · iexact HpRs1
  isplitl [HO]; · iexact HO
  isplitl [Hts5]; · iexact Hts5
  isplitl [Htr7p]; · iexact Htr7p
  isplitl [Hxb]; · iexact Hxb
  isplitl [Hw1b]; · iexact Hw1b
  isplitl [Hw2b]; · iexact Hw2b
  iintro ⟨Hxb, Hw1b, Hw2b, HO, Hc5⟩
  -- part 8
  iapply (part8_spec m K c v2 _)
  isplitr; · iexact HR
  isplitr; · iexact Hlev
  isplitl [HO]; · iexact HO
  isplitl [Hc6]; · iexact Hc6
  isplitl [Hat6]; · iexact Hat6
  isplitl [Hc7]; · iexact Hc7
  isplitl [Hat7]; · iexact Hat7
  isplitl [Ho_c0]; · iexact Ho_c0
  iintro ⟨HO, Hat6, Hat7, Hrs0v, Hrs1v, HoC0⟩
  -- part 9
  iapply (part9_spec m K c v2 v13 v24 _)
  isplitr; · iexact HR
  isplitr; · iexact Hlev
  isplitl [HoC0]; · iexact HoC0
  isplitl [HnO0]; · iexact HnO0
  isplitl [HpO0]; · iexact HpO0
  isplitl [HO]; · iexact HO
  isplitl [Hts12]; · iexact Hts12
  isplitl [Hts14]; · iexact Hts14
  isplitl [Htr20n]; · iexact Htr20n
  isplitl [Htr18p]; · iexact Htr18p
  isplitl [Hc8]; · iexact Hc8
  isplitl [Hat8]; · iexact Hat8
  iintro ⟨HO, Hc12, Hc14, Hat8, Hrs2v⟩
  -- part 10
  iapply (part10_spec m K c v2 v13 _)
  isplitr; · iexact HR
  isplitr; · iexact Hlev
  isplitl [HO]; · iexact HO
  isplitl [Hc9]; · iexact Hc9
  isplitl [Hat9]; · iexact Hat9
  isplitl [Hrs2v]; · iexact Hrs2v
  isplitl [Ho_c1]; · iexact Ho_c1
  iintro ⟨HO, Hat9, Hrs2v, Hrs3v, HoC1⟩
  -- part 11
  iapply (part11_spec m K c v2 v13 v24 _)
  isplitr; · iexact HR
  isplitr; · iexact Hlev
  isplitl [HoC1]; · iexact HoC1
  isplitl [HnO1]; · iexact HnO1
  isplitl [HpO1]; · iexact HpO1
  isplitl [HO]; · iexact HO
  isplitl [Hts13]; · iexact Hts13
  isplitl [Hts15]; · iexact Hts15
  isplitl [Htr21n]; · iexact Htr21n
  isplitl [Htr19p]; · iexact Htr19p
  isplitl [Hc19]; · iexact Hc19
  isplitl [Hat19]; · iexact Hat19
  iintro ⟨HO, Hc13, Hc15, Hat19, HoN1⟩
  -- part 12
  iapply (part12_spec m K c v2 v13 v24 v52 _)
  isplitr; · iexact HR
  isplitr; · iexact Hlev
  isplitl [HoN1]; · iexact HoN1
  isplitl [HpOn1]; · iexact HpOn1
  isplitl [HnOp0]; · iexact HnOp0
  isplitl [HO]; · iexact HO
  isplitl [Hts16]; · iexact Hts16
  isplitl [Hts17]; · iexact Hts17
  isplitl [Htr23p]; · iexact Htr23p
  isplitl [Htr22n]; · iexact Htr22n
  isplitl [Hc20]; · iexact Hc20
  isplitl [Hat20]; · iexact Hat20
  iintro %v357 %w ⟨HO, Hc16, Hc17, Hat20⟩
  -- part 13
  iapply (part13_spec m K c v2 v357 w _)
  isplitr; · iexact HR
  isplitr; · iexact Hlev
  isplitl [HO]; · iexact HO
  isplitl [Hc18]; · iexact Hc18
  isplitl [Hat18]; · iexact Hat18
  isplitl [Hc21]; · iexact Hc21
  isplitl [Hat21]; · iexact Hat21
  isplitl [Hc22]; · iexact Hc22
  isplitl [Hat22]; · iexact Hat22
  isplitl [Hc23]; · iexact Hc23
  isplitl [Hat23]; · iexact Hat23
  iintro ⟨HO, Hat18, Hp18, Hat21, Hp21, Hat22, Hp22, Hat23, Hp23⟩
  -- part 14
  iapply (part14_spec m K c _)
  isplitr; · iexact HR
  isplitr; · iexact Hlev
  isplitl [HO]; · iexact HO
  isplitl [Hc0]; · iexact Hc0
  isplitl [Hat0]; · iexact Hat0
  isplitl [Hc1]; · iexact Hc1
  isplitl [Hat1]; · iexact Hat1
  isplitl [Hc2]; · iexact Hc2
  isplitl [Hat2]; · iexact Hat2
  isplitl [Hc4]; · iexact Hc4
  isplitl [Hat4]; · iexact Hat4
  iintro ⟨HO, Hat0, Hp0, Hat1, Hp1, Hat2, Hp2, Hat4, Hp4⟩
  -- part 15
  iapply (part15_spec m K c _)
  isplitr; · iexact HR
  isplitr; · iexact Hlev
  isplitl [HO]; · iexact HO
  isplitl [Hc3]; · iexact Hc3
  isplitl [Hat3]; · iexact Hat3
  isplitl [Hc5]; · iexact Hc5
  isplitl [Hat5]; · iexact Hat5
  isplitl [Hc12]; · iexact Hc12
  isplitl [Hat12]; · iexact Hat12
  isplitl [Hc14]; · iexact Hc14
  isplitl [Hat14]; · iexact Hat14
  isplitl [Hc13]; · iexact Hc13
  isplitl [Hat13]; · iexact Hat13
  iintro ⟨HO, Hat3, Hp3, Hat5, Hp5, Hat12, Hp12, Hat14, Hp14, Hat13, Hp13⟩
  -- the last three departures
  simp only [Prog.lift, Prog.bind_op, Prog.bind_ret, Prog.pure_eq_ret]
  icases HO with ⟨%W', HO⟩
  iapply (wp_await m K c 15 _ rfl (dst := (oM.slice (Rect.unit (s := S768x768) (k0_off5 c 96#32) S96x768.size (k0_off5_inb c 1)) (fun _ => rfl))) (Ofrom c 12) _ rfl) $$ [Hc15 HO Hat15]
  · isplitr; · iexact HR
    isplitl [Hc15]; · iexact Hc15
    isplitl [HO]; · iexact HO
    isplitr; · iapply (mayWait_from c (.dma (dsem 15)) 12 (pay_above_12 c _)); iexact Hlev
    iexact Hat15
  iintro ⟨HO, Hat15, Hp15⟩
  rw [wp_ret]; imodintro
  iapply (wp_await m K c 16 _ rfl (dst := (oM.slice (Rect.unit (s := S768x768) (k0_off6 c 1#32 96#32) S96x768.size (k0_off6_inb c 0 1)) (fun _ => rfl))) (Ofrom c 12) _ rfl) $$ [Hc16 HO Hat16]
  · isplitr; · iexact HR
    isplitl [Hc16]; · iexact Hc16
    isplitl [HO]; · iexact HO
    isplitr; · iapply (mayWait_from c (.dma (dsem 16)) 12 (pay_above_12 c _)); iexact Hlev
    iexact Hat16
  iintro ⟨HO, Hat16, Hp16⟩
  rw [wp_ret]; imodintro
  iapply (wp_await m K c 17 _ rfl (dst := (oM.slice (Rect.unit (s := S768x768) (k0_off7 c 0#32) S96x768.size (k0_off7_inb c 0)) (fun _ => rfl))) (Ofrom c 12) _ rfl) $$ [Hc17 HO Hat17]
  · isplitr; · iexact HR
    isplitl [Hc17]; · iexact Hc17
    isplitl [HO]; · iexact HO
    isplitr; · iapply (mayWait_from c (.dma (dsem 17)) 12 (pay_above_12 c _)); iexact Hlev
    iexact Hat17
  iintro ⟨HO, Hat17, Hp17⟩
  rw [wp_ret]; imodintro
  rw [wp_ret]
  -- the transfer cells closed
  imod (close_cells m K c) $$ [Hat0 Hat1 Hat2 Hat3 Hat4 Hat5 Hat6 Hat7 Hat8 Hat9 Hat10 Hat11 Hat12 Hat13 Hat14 Hat15 Hat16 Hat17 Hat18 Hat19 Hat20 Hat21 Hat22 Hat23] with Hz
  · isplitr; · iexact HR
    rw [fin24]
    isplitl [Hat0]; · iexact Hat0
    isplitl [Hat1]; · iexact Hat1
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hat8]; · iexact Hat8
    isplitl [Hat9]; · iexact Hat9
    isplitl [Hat10]; · iexact Hat10
    isplitl [Hat11]; · iexact Hat11
    isplitl [Hat12]; · iexact Hat12
    isplitl [Hat13]; · iexact Hat13
    isplitl [Hat14]; · iexact Hat14
    isplitl [Hat15]; · iexact Hat15
    isplitl [Hat16]; · iexact Hat16
    isplitl [Hat17]; · iexact Hat17
    isplitl [Hat18]; · iexact Hat18
    isplitl [Hat19]; · iexact Hat19
    isplitl [Hat20]; · iexact Hat20
    isplitl [Hat21]; · iexact Hat21
    isplitl [Hat22]; · iexact Hat22
    iexact Hat23
  imodintro
  -- what the landings handed back, by name
  ihave Hp0 := (Entails.of_eq (show dmaPay m c 0 = slot c sb00 fullShare (half0 (PART c (opp c))) from rfl)) $$ Hp0
  ihave Hp1 := (Entails.of_eq (show dmaPay m c 1 = slot c sb01 fullShare (half1 (PART c (opp c))) from rfl)) $$ Hp1
  ihave Hp2 := (Entails.of_eq (show dmaPay m c 2 = slot c sb10 fullShare (half0 (PART c (nxt c))) from rfl)) $$ Hp2
  ihave Hp3 := (Entails.of_eq (show dmaPay m c 3 = slot c cb0 fullShare (COMB0 c) from rfl)) $$ Hp3
  ihave Hp4 := (Entails.of_eq (show dmaPay m c 4 = slot c sb21 fullShare (half1 (PART c (prv c))) from rfl)) $$ Hp4
  ihave Hp5 := (Entails.of_eq (show dmaPay m c 5 = slot c cb1 fullShare (COMB1 c) from rfl)) $$ Hp5
  ihave Hp12 := (Entails.of_eq (show dmaPay m c 12 = slot c (oS c 0) fullShare.left (OUTH c 0) from rfl)) $$ Hp12
  ihave Hp13 := (Entails.of_eq (show dmaPay m c 13 = slot c (oS c 1) fullShare.left (OUTH c 1) from rfl)) $$ Hp13
  ihave Hp14 := (Entails.of_eq (show dmaPay m c 14 = slot c (oS c 0) fullShare.right (OUTH c 0) from rfl)) $$ Hp14
  ihave Hp15 := (Entails.of_eq (show dmaPay m c (15 : Fin 24).val = slot c (oS c 1) fullShare.right (OUTH c 1) from rfl)) $$ Hp15
  ihave Hp16 := (Entails.of_eq (show dmaPay m c (16 : Fin 24).val = slot c (oS (nxt c) 1) fullShare (OUTH (nxt c) 1) from rfl)) $$ Hp16
  ihave Hp17 := (Entails.of_eq (show dmaPay m c (17 : Fin 24).val = slot c (oS (prv c) 0) fullShare (OUTH (prv c) 0) from rfl)) $$ Hp17
  ihave Hp18 := (Entails.of_eq (show dmaPay m c 18 = slot c (oS (nxt c) 0) fullShare (OUTH (nxt c) 0) from rfl)) $$ Hp18
  ihave Hp21 := (Entails.of_eq (show dmaPay m c 21 = slot c (oS (prv c) 1) fullShare (OUTH (prv c) 1) from rfl)) $$ Hp21
  ihave Hp22 := (Entails.of_eq (show dmaPay m c 22 = slot c (oS (opp c) 0) fullShare (OUTH (opp c) 0) from rfl)) $$ Hp22
  ihave Hp23 := (Entails.of_eq (show dmaPay m c 23 = slot c (oS (opp c) 1) fullShare (OUTH (opp c) 1) from rfl)) $$ Hp23
  -- the result's eight half-chunks joined
  ihave HoC0 := (slot_halves c (oS c 0) (OUTH c 0)) $$ [Hp12 Hp14]
  · isplitl [Hp12]; · iexact Hp12
    iexact Hp14
  ihave HoC1 := (slot_halves c (oS c 1) (OUTH c 1)) $$ [Hp13 Hp15]
  · isplitl [Hp13]; · iexact Hp13
    iexact Hp15
  ihave Hout := (join_out c (OUTH)) $$ [HoC0 HoC1 Hp18 Hp16 Hp17 Hp21 Hp22 Hp23]
  · rw [out_blocks c]
    dsimp only
    isplitl [HoC0]; · iexact HoC0
    isplitl [HoC1]; · iexact HoC1
    isplitl [Hp18]; · iexact Hp18
    isplitl [Hp16]; · iexact Hp16
    isplitl [Hp17]; · iexact Hp17
    isplitl [Hp21]; · iexact Hp21
    isplitl [Hp22]; · iexact Hp22
    iexact Hp23
  -- the scratch buffers joined
  ihave Hs0 := (join_sb c _ _ _ _ _ _) $$ [Hp0 Hp1 Hp2 Hs11 Hs20 Hp4]
  · isplitl [Hp0]; · iexact Hp0
    isplitl [Hp1]; · iexact Hp1
    isplitl [Hp2]; · iexact Hp2
    isplitl [Hs11]; · iexact Hs11
    isplitl [Hs20]; · iexact Hs20
    iexact Hp4
  ihave Hs1 := (join_rs c _ _ _ _) $$ [Hrs0v Hrs1v Hrs2v Hrs3v]
  · isplitl [Hrs0v]; · iexact Hrs0v
    isplitl [Hrs1v]; · iexact Hrs1v
    isplitl [Hrs2v]; · iexact Hrs2v
    iexact Hrs3v
  ihave Hs2 := (join_rl c _ _) $$ [Hrl0v Hrl1v]
  · isplitl [Hrl0v]; · iexact Hrl0v
    iexact Hrl1v
  ihave Hs3 := (join_cb c _ _) $$ [Hp3 Hp5]
  · isplitl [Hp3]; · iexact Hp3
    iexact Hp5
  unfold bodyPost Φ₁ Dat.owesAt Pipeline.owesWithin
  rw [show (dats m ρ 0 c).owed t0_0.succ = 0 from rfl, scopedRest0_eq]
  isplitl [Hs0 Hs1 Hs2 Hs3 Hxb Hw1b Hw2b Hz]
  · isplitl [Hs0 Hs1 Hs2 Hs3 Hxb Hw1b Hw2b]
    · isplitl [Hs0]; · iexact Hs0
      isplitl [Hs1]; · iexact Hs1
      isplitl [Hs2]; · iexact Hs2
      isplitl [Hs3]; · iexact Hs3
      isplitl [Hxb]; · iexists _; iexact Hxb
      isplitl [Hw1b]; · iexists _; iexact Hw1b
      iexists _; iexact Hw2b
    iexact Hz
  isplitl [HO]
  · iexists (insert (SemLoc.dma (dsem 17), ()) (insert (SemLoc.dma (dsem 16), ()) (insert (SemLoc.dma (dsem 15), ()) W')))
    isplitr; · ipureintro; exact fun _ _ => Or.inl trivial
    iexact HO
  isplitl [Hx]; · iexists _; isplitr; · (ipureintro; rfl)
                  iexact Hx
  isplitl [Hw1]; · iexists _; isplitr; · (ipureintro; rfl)
                   iexact Hw1
  isplitl [Hw2]; · iexists _; isplitr; · (ipureintro; rfl)
                   iexact Hw2
  iexists _; isplitr; · (ipureintro; rfl)
  iexact Hout

omit [FloatOps F] in
theorem block_in0 (f : (main_arg0 : Ref sig .tc).ty.Contents (Elt F)) :
    ((cfg0.win 0).blk t0_0).view.read (Elt F) f = f :=
  Memref.read_access_unit_zero (Elt F) main_arg0 (off := fun a => (cfg0.win 0).index t0_0 a * (cfg0.win 0).size a)
    (funext fun a => Nat.zero_mul _) (fun a => Pipeline.Clip.inb ((cfg0.win 0).hclip (cfg0.grid.coords t0_0) a)) f
omit [FloatOps F] in
theorem block_in1 (f : (main_arg1 : Ref sig .tc).ty.Contents (Elt F)) :
    ((cfg0.win 1).blk t0_0).view.read (Elt F) f = f :=
  Memref.read_access_unit_zero (Elt F) main_arg1 (off := fun a => (cfg0.win 1).index t0_0 a * (cfg0.win 1).size a)
    (funext fun a => Nat.zero_mul _) (fun a => Pipeline.Clip.inb ((cfg0.win 1).hclip (cfg0.grid.coords t0_0) a)) f
omit [FloatOps F] in
theorem block_in2 (f : (main_arg2 : Ref sig .tc).ty.Contents (Elt F)) :
    ((cfg0.win 2).blk t0_0).view.read (Elt F) f = f :=
  Memref.read_access_unit_zero (Elt F) main_arg2 (off := fun a => (cfg0.win 2).index t0_0 a * (cfg0.win 2).size a)
    (funext fun a => Nat.zero_mul _) (fun a => Pipeline.Clip.inb ((cfg0.win 2).hclip (cfg0.grid.coords t0_0) a)) f

set_option maxRecDepth 4000 in
def bodyPre' (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

set_option maxRecDepth 8000 in
set_option maxHeartbeats 3200000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10) (fun _ => bodyPost m ρ c)
  unfold bodyPre' Φ₀ start
  iintro ⟨⟨⟨⟨%K, Hg⟩, HcB, Hrc, Hlev⟩, Hsr⟩, Ho, ⟨%d0, %g0, %hg0, Hx⟩, ⟨%d1, %g1, %hg1, Hw1⟩, ⟨%d2, %g2, %hg2, Hw2⟩, ⟨%d3, %g3, %hg3, Hout⟩⟩
  have hx : g0 = Xin m c := by
    rw [hg0]; unfold Dat.before; rw [if_pos (fetch0_0 t0_0)]
    exact (show (dats m ρ 0 c).fetched 0 t0_0 d0 = ((cfg0.win 0).blk t0_0).view.read (Elt F) ((dats m ρ 0 c).A 0) from rfl).trans (block_in0 _)
  have hw1 : g1 = W1in m c := by
    rw [hg1]; unfold Dat.before; rw [if_pos (fetch0_1 t0_0)]
    exact (show (dats m ρ 0 c).fetched 1 t0_0 d1 = ((cfg0.win 1).blk t0_0).view.read (Elt F) ((dats m ρ 0 c).A 1) from rfl).trans (block_in1 _)
  have hw2 : g2 = W2in m c := by
    rw [hg2]; unfold Dat.before; rw [if_pos (fetch0_2 t0_0)]
    exact (show (dats m ρ 0 c).fetched 2 t0_0 d2 = ((cfg0.win 2).blk t0_0).view.read (Elt F) ((dats m ρ 0 c).A 2) from rfl).trans (block_in2 _)
  subst hx hw1 hw2
  iapply (sound_body m ρ K c)
  isplitl [Hg]; · iexact Hg
  isplitl [HcB]; · iexact HcB
  isplitl [Hrc]; · iexact Hrc
  isplitl [Hlev]; · iexact Hlev
  isplitl [Hsr]; · iexact Hsr
  isplitl [Ho]; · iexact Ho
  isplitl [Hx]; · iexact Hx
  isplitl [Hw1]; · iexact Hw1
  isplitl [Hw2]; · iexact Hw2
  iexists g3; iexact Hout

/-- info: 'Cert.KernelIdealProof.body_obligation' depends on axioms: [propext, Classical.choice, Quot.sound] -/
#guard_msgs in #print axioms body_obligation

end Cert.KernelIdealProof

end
-- ==== Proof.Launch.lean ====
/-
  The launch of the kernel on the ring of four devices: the ghost state of the protocol dealt to the devices (every cell's
  invariant allocated under one update, each duty's token handed to the device that pays it, the credit for what the
  neighbours owe a device's cells), the side conditions of the pipeline's launch theorem, the run of the whole program
  from each device's body, and the arrays' contents after it.
-/
import proofs.«900459_g7700000000000460_dist_mlp2_tp_i_m768_h1536_out768_v7x_i4_f32_1_alg».proof.Proof.Ghost
import proofs.«900459_g7700000000000460_dist_mlp2_tp_i_m768_h1536_out768_v7x_i4_f32_1_alg».proof.Proof.Gen.KernelIdeal.Frame

noncomputable section

namespace Cert.KernelIdealProof

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's 24 transfer semaphores. -/
abbrev osem : Fin 24 → SemLoc sig := fun i => .dma (dsem i)

theorem ownSemFacts : Pipeline.OwnSemFacts cfg0.spec osem := by decide

theorem share_eq (c : Dev nD) (w : Fin cfg0.W) : (dats m ρ 0 c).share w = fullShare := by unfold Dat.share; split <;> rfl

/-! ## The cells and the tokens of the ring -/

omit [FloatOps F] in
theorem dsem_injective : Function.Injective dsem := fun i j h => Fin.ext (by
  have := congrArg Fin.val h; simp only at this; omega)

theorem kcell_injective : Function.Injective (kcell : Dev nD × Fin 25 → GSem nD τ sig) := by
  rintro ⟨c, k⟩ ⟨c', k'⟩ h
  have hd : ∀ (c : Dev nD) (k : Fin 25), (kcell (c, k)).1.1 = c := fun c k => by
    refine Fin.cases ?_ (fun i => ?_) k <;> rfl
  have h1 : c = c' := by
    have := congrArg (fun g : GSem nD τ sig => g.1.1) h
    rw [hd, hd] at this; exact this
  subst h1
  have h2 : (kcell (c, k)).2 = (kcell (c, k')).2 := congrArg Prod.snd h
  have : k = k' := by
    revert h2
    refine Fin.cases ?_ (fun i => ?_) k <;> refine Fin.cases ?_ (fun i' => ?_) k' <;> intro h2
    · rfl
    · exact absurd h2 (by intro h; cases h)
    · exact absurd h2 (by intro h; cases h)
    · exact congrArg Fin.succ (dsem_injective (SemLoc.dma.inj h2))
  subst this; rfl

def ringCells : Finset (GSem nD τ sig) := Finset.univ.map ⟨kcell, kcell_injective⟩

/-- A device's cells' duty tokens as minted: the barrier cell's `true`, then every cell's `false`. -/
abbrev tokOf (cj : Dev nD × Fin 26) : GSem nD τ sig × ℕ × Bool :=
  Fin.cases (barCell cj.1, 0, true) (fun k : Fin 25 => (kcell (cj.1, k), 0, false)) cj.2

theorem tokOf_injective : Function.Injective (tokOf : Dev nD × Fin 26 → GSem nD τ sig × ℕ × Bool) := by
  rintro ⟨c, j⟩ ⟨c', j'⟩ h
  revert h
  refine Fin.cases ?_ (fun k => ?_) j <;> refine Fin.cases ?_ (fun k' => ?_) j' <;> intro h
  · have h1 : c = c' := congrArg (fun x : GSem nD τ sig × ℕ × Bool => x.1.1.1) h
    subst h1; rfl
  · exact absurd (congrArg (fun x : GSem nD τ sig × ℕ × Bool => x.2.2) h) (show ¬(true = false) by decide)
  · exact absurd (congrArg (fun x : GSem nD τ sig × ℕ × Bool => x.2.2) h) (show ¬(false = true) by decide)
  · have := Prod.mk.inj (kcell_injective (congrArg (fun x : GSem nD τ sig × ℕ × Bool => x.1) h))
    have e1 : c = c' := this.1
    have e2 : k = k' := Fin.ext (congrArg Fin.val this.2)
    rw [e1, e2]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 true ∗ bigSep Finset.univ fun k : Fin 25 => dutyTok ER (kcell (c, k)) 0 false)

/-- What the launch element deals device `c`. -/
def G (c : Dev nD) : sProp 𝕄 :=
  iprop((bigSep Finset.univ fun k : Fin 25 => roundState ER (ringRd m) (kcell (c, k)) 0)
    ∗ (bigSep Finset.univ fun k : Fin 25 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
/-- A conjunction over `Fin (n + 1)`: the first, then the rest. -/
theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin_succ]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every device's cells allocated -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [unscopedSems0_eq, bigSep_fin_succ]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the ring -/

/-- One step round the ring. -/
def ringE : Dev nD ≃ Dev nD := ⟨nxt, prv, prv_nxt, nxt_prv⟩

omit [FloatOps F] in
theorem deal_nxt (Φ : Dev nD → sProp 𝕄) : bigSep Finset.univ Φ ⊢ bigSep Finset.univ fun c => Φ (nxt c) :=
  Entails.of_eq (bigSep_univ_equiv ringE Φ)
omit [FloatOps F] in
theorem deal_prv (Φ : Dev nD → sProp 𝕄) : bigSep Finset.univ Φ ⊢ bigSep Finset.univ fun c => Φ (prv c) :=
  Entails.of_eq (bigSep_univ_equiv ringE.symm Φ)

omit [FloatOps F] in
/-- A barrier cell's token `false` goes to the cell's right neighbour, its token `true` to the left one; a send cell's
    token stays; a receive cell's token goes to the neighbour whose copy pays it. -/
theorem toks_around : (bigSep Finset.univ fun c : Dev nD => (toks c : sProp 𝕄)) ⊢ bigSep Finset.univ fun c : Dev nD => payToks c := by
  have e (c : Dev nD) : (toks c : sProp 𝕄) = iprop(dutyTok ER (barCell c) 0 true ∗ dutyTok ER (barCell c) 0 false ∗ dutyTok ER (dcell c 0) 0 false ∗ dutyTok ER (dcell c 1) 0 false ∗ dutyTok ER (dcell c 2) 0 false ∗ dutyTok ER (dcell c 3) 0 false ∗ dutyTok ER (dcell c 4) 0 false ∗ dutyTok ER (dcell c 5) 0 false ∗ dutyTok ER (dcell c 6) 0 false ∗ dutyTok ER (dcell c 7) 0 false ∗ dutyTok ER (dcell c 8) 0 false ∗ dutyTok ER (dcell c 9) 0 false ∗ dutyTok ER (dcell c 10) 0 false ∗ dutyTok ER (dcell c 11) 0 false ∗ dutyTok ER (dcell c 12) 0 false ∗ dutyTok ER (dcell c 13) 0 false ∗ dutyTok ER (dcell c 14) 0 false ∗ dutyTok ER (dcell c 15) 0 false ∗ dutyTok ER (dcell c 16) 0 false ∗ dutyTok ER (dcell c 17) 0 false ∗ dutyTok ER (dcell c 18) 0 false ∗ dutyTok ER (dcell c 19) 0 false ∗ dutyTok ER (dcell c 20) 0 false ∗ dutyTok ER (dcell c 21) 0 false ∗ dutyTok ER (dcell c 22) 0 false ∗ dutyTok ER (dcell c 23) 0 false) := by
    unfold toks
    rw [bigSep_fin_succ, bigSep_univ_eq_bigSepL (List.finRange 24) (by decide) (by decide)]
    rfl
  have e' (c : Dev nD) : (payToks c : sProp 𝕄) = iprop(dutyTok ER (barCell (prv c)) 0 false ∗ dutyTok ER (barCell (nxt c)) 0 true ∗ (dutyTok ER (dcell c 0) 0 false ∗ dutyTok ER (dcell c 1) 0 false ∗ dutyTok ER (dcell c 2) 0 false ∗ dutyTok ER (dcell c 3) 0 false ∗ dutyTok ER (dcell c 4) 0 false ∗ dutyTok ER (dcell c 5) 0 false ∗ dutyTok ER (dcell c 12) 0 false ∗ dutyTok ER (dcell c 13) 0 false ∗ dutyTok ER (dcell c 14) 0 false ∗ dutyTok ER (dcell c 15) 0 false ∗ dutyTok ER (dcell c 16) 0 false ∗ dutyTok ER (dcell c 17) 0 false) ∗ (dutyTok ER (dcell (prv c) 10) 0 false ∗ dutyTok ER (dcell (nxt c) 11) 0 false ∗ dutyTok ER (dcell (nxt c) 6) 0 false ∗ dutyTok ER (dcell (prv c) 8) 0 false ∗ dutyTok ER (dcell (nxt c) 9) 0 false ∗ dutyTok ER (dcell (prv c) 7) 0 false ∗ dutyTok ER (dcell (nxt c) 20) 0 false ∗ dutyTok ER (dcell (prv c) 18) 0 false ∗ dutyTok ER (dcell (nxt c) 21) 0 false ∗ dutyTok ER (dcell (prv c) 19) 0 false ∗ dutyTok ER (dcell (prv c) 23) 0 false ∗ dutyTok ER (dcell (nxt c) 22) 0 false)) := rfl
  rw [bigSep_congr (s := Finset.univ) fun c _ => e c, bigSep_congr (s := Finset.univ) fun c _ => e' c]
  simp only [bigSep_sep']
  iintro ⟨HbT, HbF, H0, H1, H2, H3, H4, H5, H6, H7, H8, H9, H10, H11, H12, H13, H14, H15, H16, H17, H18, H19, H20, H21, H22, H23⟩
  isplitl [HbF]; · iapply (deal_prv fun d : Dev nD => (dutyTok ER (barCell d) 0 false : sProp 𝕄)); iexact HbF
  isplitl [HbT]; · iapply (deal_nxt fun d : Dev nD => (dutyTok ER (barCell d) 0 true : sProp 𝕄)); iexact HbT
  isplitl [H0 H1 H2 H3 H4 H5 H12 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H12]; · iexact H12
    isplitl [H13]; · iexact H13
    isplitl [H14]; · iexact H14
    isplitl [H15]; · iexact H15
    isplitl [H16]; · iexact H16
    iexact H17
  isplitl [H10]; · iapply (deal_prv fun d : Dev nD => (dutyTok ER (dcell d 10) 0 false : sProp 𝕄)); iexact H10
  isplitl [H11]; · iapply (deal_nxt fun d : Dev nD => (dutyTok ER (dcell d 11) 0 false : sProp 𝕄)); iexact H11
  isplitl [H6]; · iapply (deal_nxt fun d : Dev nD => (dutyTok ER (dcell d 6) 0 false : sProp 𝕄)); iexact H6
  isplitl [H8]; · iapply (deal_prv fun d : Dev nD => (dutyTok ER (dcell d 8) 0 false : sProp 𝕄)); iexact H8
  isplitl [H9]; · iapply (deal_nxt fun d : Dev nD => (dutyTok ER (dcell d 9) 0 false : sProp 𝕄)); iexact H9
  isplitl [H7]; · iapply (deal_prv fun d : Dev nD => (dutyTok ER (dcell d 7) 0 false : sProp 𝕄)); iexact H7
  isplitl [H20]; · iapply (deal_nxt fun d : Dev nD => (dutyTok ER (dcell d 20) 0 false : sProp 𝕄)); iexact H20
  isplitl [H18]; · iapply (deal_prv fun d : Dev nD => (dutyTok ER (dcell d 18) 0 false : sProp 𝕄)); iexact H18
  isplitl [H21]; · iapply (deal_nxt fun d : Dev nD => (dutyTok ER (dcell d 21) 0 false : sProp 𝕄)); iexact H21
  isplitl [H19]; · iapply (deal_prv fun d : Dev nD => (dutyTok ER (dcell d 19) 0 false : sProp 𝕄)); iexact H19
  isplitl [H23]; · iapply (deal_prv fun d : Dev nD => (dutyTok ER (dcell d 23) 0 false : sProp 𝕄)); iexact H23
  iapply (deal_nxt fun d : Dev nD => (dutyTok ER (dcell d 22) 0 false : sProp 𝕄)); iexact H22

/-! ## What each device starts from -/

omit [FloatOps F] in
theorem positions_eq (c : Dev nD) : (positions c : sProp 𝕄) = bigSep Finset.univ fun k : Fin 25 => atPos ER (kcell (c, k)) 0 ∅ 0 := by
  unfold positions; exact (bigSep_fin_succ (fun k : Fin 25 => (atPos ER (kcell (c, k)) 0 ∅ 0 : sProp 𝕄))).symm

theorem ghost_intro (K : Dev nD × Fin 25 → ℕ) (c : Dev nD) :
    iprop(records m K ∗ (bigSep Finset.univ fun k : Fin 25 => atPos ER (kcell (c, k)) 0 ∅ 0) ∗ payToks c) ⊢ G' m c := by
  unfold G' ghost
  rw [positions_eq]
  iintro ⟨#HR, Hp, Ht⟩
  iexists K
  isplitr; · iexact HR
  isplitl [Hp] <;> iassumption

omit [FloatOps F] in
theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (ringRd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (ringRd m) κ (kcell ck) : sProp 𝕄))) $$ HI
  icases HK with ⟨%K, #HI⟩
  ihave Htk := (toks_around (F := F)) $$ Htok
  iapply (bigSep_with_persistent' (R := records m K) fun c _ => ghost_intro m K c)
  isplitr
  · unfold records; isplitl; · iexact HI
    iexact HR
  · iapply (Entails.of_eq (bigSep_sep' Finset.univ (fun c : Dev nD => bigSep Finset.univ fun k : Fin 25 => (atPos ER (kcell (c, k)) 0 ∅ 0 : sProp 𝕄)) payToks).symm)
    isplitl [Hat]; · iexact Hat
    iexact Htk

/-- The global step: every device's own semaphores and barrier semaphore at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What a device owes at launch, term by term: its twelve copies (the last first), then the two barrier signals. -/
theorem O₀_eq : (O₀ : Dev nD → CellTallies nD τ sig Unit) = fun d =>
    (((((((((((((0 + tallyAt (dcell (nxt d) 22) () N) + tallyAt (dcell (prv d) 23) () N) + tallyAt (dcell (prv d) 19) () N) + tallyAt (dcell (nxt d) 21) () N) + tallyAt (dcell (prv d) 18) () N) + tallyAt (dcell (nxt d) 20) () N) + tallyAt (dcell (prv d) 7) () N) + tallyAt (dcell (nxt d) 9) () N) + tallyAt (dcell (prv d) 8) () N) + tallyAt (dcell (nxt d) 6) () N) + tallyAt (dcell (nxt d) 11) () N) + tallyAt (dcell (prv d) 10) () N) + tallyAt (barCell (nxt d)) () 1) + tallyAt (barCell (prv d)) () 1 := funext fun d => rfl

omit [FloatOps F] in
/-- What the others owe device `c`'s cells: two units on its barrier cell (one from each neighbour) and a half-chunk's
    credit on each of its twelve receive cells (from the neighbour whose copy pays it). -/
theorem creds (c : Dev nD) :
    (Pipeline.launchCred O₀ c : sProp 𝕄) ⊢ iprop(cred (tallyAt (barCell c) () 2) ∗ recvCreds c) := by
  have hbar : iprop(cred (tallyAt (barCell c) () 1) ∗ cred (tallyAt (barCell c) () 1)) ⊢ (cred (tallyAt (barCell c) () 2) : sProp 𝕄) := by
    rw [show (tallyAt (barCell c) () 2 : CellTallies nD τ sig Unit) = tallyAt (barCell c) () 1 + tallyAt (barCell c) () 1 from (tallyAt_add _ _ 1 1).symm]
    exact (cred_add _ _).2
  have e : (recvCreds c : sProp 𝕄) = iprop(cred (tallyAt (dcell c 6) () N) ∗ cred (tallyAt (dcell c 7) () N) ∗ cred (tallyAt (dcell c 8) () N) ∗ cred (tallyAt (dcell c 9) () N) ∗ cred (tallyAt (dcell c 10) () N) ∗ cred (tallyAt (dcell c 11) () N) ∗ cred (tallyAt (dcell c 18) () N) ∗ cred (tallyAt (dcell c 19) () N) ∗ cred (tallyAt (dcell c 20) () N) ∗ cred (tallyAt (dcell c 21) () N) ∗ cred (tallyAt (dcell c 22) () N) ∗ cred (tallyAt (dcell c 23) () N)) := rfl
  rw [O₀_eq, e]
  simp only [Pipeline.launchCred_add]
  iintro ⟨⟨⟨⟨⟨⟨⟨⟨⟨⟨⟨⟨⟨⟨Hz, H22⟩, H23⟩, H19⟩, H21⟩, H18⟩, H20⟩, H7⟩, H9⟩, H8⟩, H6⟩, H11⟩, H10⟩, HbN⟩, HbP⟩
  ihave CbN := (Pipeline.launchCred_tallyAt (Val := Elt F) (Name := ℕ) (U := UU) (Lvl := ℕ) (SemLoc.reg barS) nxt prv nxt_prv prv_nxt () 1 c) $$ HbN
  ihave CbP := (Pipeline.launchCred_tallyAt (Val := Elt F) (Name := ℕ) (U := UU) (Lvl := ℕ) (SemLoc.reg barS) prv nxt prv_nxt nxt_prv () 1 c) $$ HbP
  ihave C6 := (Pipeline.launchCred_tallyAt (Val := Elt F) (Name := ℕ) (U := UU) (Lvl := ℕ) (SemLoc.dma (dsem 6)) nxt prv nxt_prv prv_nxt () N c) $$ H6
  ihave C7 := (Pipeline.launchCred_tallyAt (Val := Elt F) (Name := ℕ) (U := UU) (Lvl := ℕ) (SemLoc.dma (dsem 7)) prv nxt prv_nxt nxt_prv () N c) $$ H7
  ihave C8 := (Pipeline.launchCred_tallyAt (Val := Elt F) (Name := ℕ) (U := UU) (Lvl := ℕ) (SemLoc.dma (dsem 8)) prv nxt prv_nxt nxt_prv () N c) $$ H8
  ihave C9 := (Pipeline.launchCred_tallyAt (Val := Elt F) (Name := ℕ) (U := UU) (Lvl := ℕ) (SemLoc.dma (dsem 9)) nxt prv nxt_prv prv_nxt () N c) $$ H9
  ihave C10 := (Pipeline.launchCred_tallyAt (Val := Elt F) (Name := ℕ) (U := UU) (Lvl := ℕ) (SemLoc.dma (dsem 10)) prv nxt prv_nxt nxt_prv () N c) $$ H10
  ihave C11 := (Pipeline.launchCred_tallyAt (Val := Elt F) (Name := ℕ) (U := UU) (Lvl := ℕ) (SemLoc.dma (dsem 11)) nxt prv nxt_prv prv_nxt () N c) $$ H11
  ihave C18 := (Pipeline.launchCred_tallyAt (Val := Elt F) (Name := ℕ) (U := UU) (Lvl := ℕ) (SemLoc.dma (dsem 18)) prv nxt prv_nxt nxt_prv () N c) $$ H18
  ihave C19 := (Pipeline.launchCred_tallyAt (Val := Elt F) (Name := ℕ) (U := UU) (Lvl := ℕ) (SemLoc.dma (dsem 19)) prv nxt prv_nxt nxt_prv () N c) $$ H19
  ihave C20 := (Pipeline.launchCred_tallyAt (Val := Elt F) (Name := ℕ) (U := UU) (Lvl := ℕ) (SemLoc.dma (dsem 20)) nxt prv nxt_prv prv_nxt () N c) $$ H20
  ihave C21 := (Pipeline.launchCred_tallyAt (Val := Elt F) (Name := ℕ) (U := UU) (Lvl := ℕ) (SemLoc.dma (dsem 21)) nxt prv nxt_prv prv_nxt () N c) $$ H21
  ihave C22 := (Pipeline.launchCred_tallyAt (Val := Elt F) (Name := ℕ) (U := UU) (Lvl := ℕ) (SemLoc.dma (dsem 22)) nxt prv nxt_prv prv_nxt () N c) $$ H22
  ihave C23 := (Pipeline.launchCred_tallyAt (Val := Elt F) (Name := ℕ) (U := UU) (Lvl := ℕ) (SemLoc.dma (dsem 23)) prv nxt prv_nxt nxt_prv () N c) $$ H23
  isplitl [CbN CbP]
  · iapply hbar; isplitl [CbN] <;> iassumption
  isplitl [C6]; · iexact C6
  isplitl [C7]; · iexact C7
  isplitl [C8]; · iexact C8
  isplitl [C9]; · iexact C9
  isplitl [C10]; · iexact C10
  isplitl [C11]; · iexact C11
  isplitl [C18]; · iexact C18
  isplitl [C19]; · iexact C19
  isplitl [C20]; · iexact C20
  isplitl [C21]; · iexact C21
  isplitl [C22]; · iexact C22
  iexact C23

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H2, HN⟩
  imodintro
  unfold start G'
  isplitl
  · isplitl [HG]; · iexact HG
    isplitl [H2]; · iexact H2
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl]
  unfold Φ₁ Pipeline.ownSems0
  iintro ⟨Hr, Hz⟩
  isplitr; · iempintro
  isplitl [Hz]; · iexact Hz
  iexact Hr

omit [FloatOps F] in
theorem lvl_recv : ∀ i ∈ recvIdx, 1 ≤ lvl (SemLoc.dma (dsem i) : SemLoc sig) := by decide

omit [FloatOps F] in
/-- Everything a device owes at launch sits at level 1 or above. -/
theorem owed_lvl (c : Dev nD) (g : GSem nD τ sig) (u : Unit) (h : 0 < O₀ c g u) : g.1.2 = .tc ∧ 1 ≤ lvl g.2 := by
  unfold O₀ O₁ at h
  rcases Pipeline.add_pos_cases h with h | h
  · rcases Pipeline.add_pos_cases h with h | h
    · have hm : g ∈ payCells c := owedL_pos h
      clear h
      unfold payCells at hm
      simp only [List.mem_cons, List.not_mem_nil, or_false] at hm
      rcases hm with rfl | rfl | rfl | rfl | rfl | rfl | rfl | rfl | rfl | rfl | rfl | rfl <;> exact ⟨rfl, lvl_recv _ (by decide)⟩
    · rw [tallyAt_apply] at h
      by_cases e : g = barCell (nxt c) ∧ u = ()
      · rw [e.1]; exact ⟨rfl, Nat.le_refl 1⟩
      · rw [if_neg e] at h; exact absurd h (Nat.lt_irrefl 0)
  · rw [tallyAt_apply] at h
    by_cases e : g = barCell (prv c) ∧ u = ()
    · rw [e.1]; exact ⟨rfl, Nat.le_refl 1⟩
    · rw [if_neg e] at h; exact absurd h (Nat.lt_irrefl 0)

theorem waits (c : Dev nD) : (levAts L lv : sProp 𝕄) ⊢ Pipeline.cellsWaits cfgs (dats m ρ) () 0 c :=
  Pipeline.cellsWaits_intro cfgs (dats m ρ) () 0 c fun w s t =>
    Pipeline.mayWait_of_levAts (by rw [L_tc]; exact Finset.mem_singleton_self _) fun g u hg => by
      have hs : lvl (SemLoc.dma (((cfgs 0).win w).sem s)) = 0 := by fin_cases w <;> fin_cases s <;> rfl
      rcases t with ⟨_ | _, ht⟩
      · have hm := owed_lvl c g u hg
        exact ⟨by unfold L; rw [if_pos hm.1]; exact Finset.mem_singleton_self _, by
          show lvl (SemLoc.dma (((cfgs 0).win w).sem s)) < lvl g.2
          rw [hs]; exact hm.2⟩
      · exact absurd hg (Nat.lt_irrefl 0)

/-! ## The run -/

/-- Every window's array ends at what the proof data say. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the compiled mesh of four devices, for any float values, from any memory with zero counters: given each device's
    body, every weakly fair execution of the program — the four kernels handshaking on the barrier semaphore, then
    copying half-chunks round the ring — terminates, and every final state has each window's array at the computed
    contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays after the run -/

/-- The result array after the one point: the write-back of the whole-array block puts what the body left in the staging
    buffer, the finished result, in place of what the array held. -/
theorem final_out (c : Dev nD) : (dats m ρ 0 c).arrAt 3 cfg0.N = outV m := by
  show (dats m ρ 0 c).arrAt 3 ((t0_0 : Fin cfg0.N).val + 1) = _
  rw [Dat.arrAt_succ, flush0_3, if_pos rfl]
  have h := View.read_write_univ (v := ((cfg0.win 3).blk t0_0).view) ((dats m ρ 0 c).arrAt 3 ↑t0_0) ((dats m ρ 0 c).flushed 3 t0_0)
  have h2 := Memref.read_access_unit_zero (Elt F) main_v1 (off := fun a => (cfg0.win 3).index t0_0 a * (cfg0.win 3).size a)
    (funext fun a => Nat.zero_mul _) (fun a => Pipeline.Clip.inb ((cfg0.win 3).hclip (cfg0.grid.coords t0_0) a))
    (View.write (Elt F) ((cfg0.win 3).blk t0_0).view ((dats m ρ 0 c).arrAt 3 ↑t0_0) ((dats m ρ 0 c).flushed 3 t0_0) Finset.univ)
  exact h2.symm.trans (h.trans rfl)

/-- The whole program's run with the arrays named: every device's result array ends as the finished result, its three
    argument arrays as launched. -/
theorem run_vals (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outV m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 3).trans (final_out m ρ c),
      (h c 0).trans ((dats m ρ 0 c).arrAt_in 0 rfl _),
      (h c 1).trans ((dats m ρ 0 c).arrAt_in 1 rfl _),
      (h c 2).trans ((dats m ρ 0 c).arrAt_in 2 rfl _)⟩) (run_main m ρ hbody)

/-- info: 'Cert.KernelIdealProof.run_vals' depends on axioms: [propext, Classical.choice, Quot.sound] -/
#guard_msgs in #print axioms run_vals

end Cert.KernelIdealProof

end
-- ==== Proof.KernelValue.lean ====
/-
  The kernel's values at the extended reals, read at an index. Every float is an extended real, rounding and widening
  are the identity, the maximum with the zero constant is the rectifier, and a matrix product into a zero accumulator
  is the plain sum of products. So device `d`'s partial product for chunk `k` of 192 rows is, at row `p` and column
  `q`, the two-layer perceptron  ∑ h, max (∑ j, x (192 k + p) j · W1_d j h) 0 · W2_d h q  through device `d`'s own
  column block of `W1` and row block of `W2` (`part_at`, `own_at`); a half of a stored partial is its rows 0–95 or
  96–191 (`half0_at`, `half1_at`); and each finished half-chunk, the device's own rows plus one half-chunk received
  directly plus one pair pre-added by a neighbour, is the sum over the four devices of their partial products at
  that row (`outHalf_at`): addition of extended reals is commutative and associative, and `k`, `k − 1`, `k + 1`,
  `k + 2` are the four devices of the ring.
-/
import proofs.«900459_g7700000000000460_dist_mlp2_tp_i_m768_h1536_out768_v7x_i4_f32_1_alg».proof.Proof.Vals
import proofs.«900459_g7700000000000460_dist_mlp2_tp_i_m768_h1536_out768_v7x_i4_f32_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KernelValue

open Cert.KernelIdeal Cert.KernelIdeal.Gen Cert.KernelIdeal.Vals Idealize.ShloMosaic ValueIdx
open scoped BigOperators

/-! ## The two halves of a stored partial -/

/-- Rows 0–95 of a stored partial: the slice at offsets (0,0,0), then the unit axis dropped. -/
theorem half0_at (Pt : FVec Ideal S1x192x768 .bf16) (p : Fin 96) (q : Fin 768) :
    half0 (F := Ideal) Pt (ix2 p q) = Pt (ix3 0 ⟨p.val, by omega⟩ q) := by
  unfold half0
  rw [shapeCast_dropUnit_apply]
  refine extractStridedSlice_apply _ _ _ _ _ fun a => ?_
  match a with
  | ⟨0, _⟩ => rfl
  | ⟨1, _⟩ => show p.val = 0 + p.val; omega
  | ⟨2, _⟩ => show q.val = 0 + q.val; omega

/-- Rows 96–191 of a stored partial: the slice at offsets (0,96,0), then the unit axis dropped. -/
theorem half1_at (Pt : FVec Ideal S1x192x768 .bf16) (p : Fin 96) (q : Fin 768) :
    half1 (F := Ideal) Pt (ix2 p q) = Pt (ix3 0 ⟨96 + p.val, by omega⟩ q) := by
  unfold half1
  rw [shapeCast_dropUnit_apply]
  refine extractStridedSlice_apply _ _ _ _ _ fun a => ?_
  match a with
  | ⟨0, _⟩ => rfl
  | ⟨1, _⟩ => show 96 + p.val = 96 + p.val; rfl
  | ⟨2, _⟩ => show q.val = 0 + q.val; omega

/-! ## The rows a device loads -/

/-- Row `p` of chunk `k` is a row of the whole `x`. -/
theorem row_lt (k : Dev nD) (p : Fin 192) : 192 * k.val + p.val < 768 := by
  have := k.isLt; have := p.isLt; simp only [nD] at *; omega

/-- Chunk `k` of device `d`'s copy of `x`: at the extended reals rounding is the identity, and the load of 192 rows at
    row offset `192 k` reads row `192 k + p`. -/
theorem xrows_at (X : Dev nD → Vec Ideal S768x768 .f32) (d k : Dev nD) (p : Fin 192) (i : Fin 768) :
    xrows (F := Ideal) X d k (ix2 p i)
      = X d (ix2 ⟨192 * k.val + p.val, row_lt k p⟩ i) := by
  unfold xrows xb k0_pay1
  simp only [shapeCast_self]
  refine (View.readAt_apply _ _ _).trans ?_
  show X d ((rowsRect k).toLoadRect.idx (ix2 p i)) = _
  refine congrArg (X d) (funext fun a => Fin.ext ?_)
  match a with
  | ⟨0, _⟩ => show 192 * k.val + 1 * p.val = 192 * k.val + p.val; omega
  | ⟨1, _⟩ => show 0 + 1 * i.val = i.val; omega

/-! ## The two matrix products at an index -/

theorem lhsA_0 (i : S192x1536.Idx) (c : dot_S192x768_S768x1536_S192x1536_1_0_0_1_n_n.contr.Idx) : (dot_S192x768_S768x1536_S192x1536_1_0_0_1_n_n.lhsIdx i c 0).val = (i 0).val := by
  unfold DotDims.lhsIdx
  rw [dif_neg (show ¬(0 : Fin S192x768.rank) ∈ dot_S192x768_S768x1536_S192x1536_1_0_0_1_n_n.lhsBatch by decide),
    dif_pos (show (0 : Fin S192x768.rank) ∈ dot_S192x768_S768x1536_S192x1536_1_0_0_1_n_n.lhsNonContracting by decide)]
  rfl
theorem lhsA_1 (i : S192x1536.Idx) (c : dot_S192x768_S768x1536_S192x1536_1_0_0_1_n_n.contr.Idx) : (dot_S192x768_S768x1536_S192x1536_1_0_0_1_n_n.lhsIdx i c 1).val = (c ⟨0, by decide⟩).val :=
  dot_S192x768_S768x1536_S192x1536_1_0_0_1_n_n.lhsIdx_val_of_single rfl i c
theorem rhsA_0 (i : S192x1536.Idx) (c : dot_S192x768_S768x1536_S192x1536_1_0_0_1_n_n.contr.Idx) : (dot_S192x768_S768x1536_S192x1536_1_0_0_1_n_n.rhsIdx i c 0).val = (c ⟨0, by decide⟩).val :=
  dot_S192x768_S768x1536_S192x1536_1_0_0_1_n_n.rhsIdx_val_of_single rfl i c
theorem rhsA_1 (i : S192x1536.Idx) (c : dot_S192x768_S768x1536_S192x1536_1_0_0_1_n_n.contr.Idx) : (dot_S192x768_S768x1536_S192x1536_1_0_0_1_n_n.rhsIdx i c 1).val = (i 1).val := by
  unfold DotDims.rhsIdx
  rw [dif_neg (show ¬(1 : Fin S768x1536.rank) ∈ dot_S192x768_S768x1536_S192x1536_1_0_0_1_n_n.rhsBatch by decide),
    dif_pos (show (1 : Fin S768x1536.rank) ∈ dot_S192x768_S768x1536_S192x1536_1_0_0_1_n_n.rhsNonContracting by decide)]
  rfl

/-- The first product into a zero accumulator: entry `(p, h)` is `∑ j, a p j * b j h`. -/
theorem mmA_at (a : FVec Ideal S192x768 .bf16) (b : FVec Ideal S768x1536 .bf16) (p : Fin 192) (h : Fin 1536) :
    matmul dot_S192x768_S768x1536_S192x1536_1_0_0_1_n_n none a b (constant S192x1536 .f32 0x00000000#32) (ix2 p h) = ∑ j : Fin 768, a (ix2 p j) * b (ix2 j h) := by
  show FloatOps.matmul dot_S192x768_S768x1536_S192x1536_1_0_0_1_n_n none a b (constant S192x1536 .f32 0x00000000#32) (ix2 p h) = _
  rw [Ideal.matmul_constant_zero_apply, ← Equiv.sum_comp (contrEquiv1 dot_S192x768_S768x1536_S192x1536_1_0_0_1_n_n 768 rfl rfl).symm]
  refine Finset.sum_congr rfl fun j _ => ?_
  have hk := contrEquiv1_symm_val dot_S192x768_S768x1536_S192x1536_1_0_0_1_n_n 768 rfl rfl j
  have el : dot_S192x768_S768x1536_S192x1536_1_0_0_1_n_n.lhsIdx (ix2 p h) ((contrEquiv1 dot_S192x768_S768x1536_S192x1536_1_0_0_1_n_n 768 rfl rfl).symm j) = ix2 p j := funext fun a => Fin.ext (by
    match a with
    | ⟨0, _⟩ => exact lhsA_0 _ _
    | ⟨1, _⟩ => exact (lhsA_1 _ _).trans hk)
  have er : dot_S192x768_S768x1536_S192x1536_1_0_0_1_n_n.rhsIdx (ix2 p h) ((contrEquiv1 dot_S192x768_S768x1536_S192x1536_1_0_0_1_n_n 768 rfl rfl).symm j) = ix2 j h := funext fun a => Fin.ext (by
    match a with
    | ⟨0, _⟩ => exact (rhsA_0 _ _).trans hk
    | ⟨1, _⟩ => exact rhsA_1 _ _)
  rw [el, er]

theorem lhsB_0 (i : S192x768.Idx) (c : dot_S192x1536_S1536x768_S192x768_1_0_0_1_n_n.contr.Idx) : (dot_S192x1536_S1536x768_S192x768_1_0_0_1_n_n.lhsIdx i c 0).val = (i 0).val := by
  unfold DotDims.lhsIdx
  rw [dif_neg (show ¬(0 : Fin S192x1536.rank) ∈ dot_S192x1536_S1536x768_S192x768_1_0_0_1_n_n.lhsBatch by decide),
    dif_pos (show (0 : Fin S192x1536.rank) ∈ dot_S192x1536_S1536x768_S192x768_1_0_0_1_n_n.lhsNonContracting by decide)]
  rfl
theorem lhsB_1 (i : S192x768.Idx) (c : dot_S192x1536_S1536x768_S192x768_1_0_0_1_n_n.contr.Idx) : (dot_S192x1536_S1536x768_S192x768_1_0_0_1_n_n.lhsIdx i c 1).val = (c ⟨0, by decide⟩).val :=
  dot_S192x1536_S1536x768_S192x768_1_0_0_1_n_n.lhsIdx_val_of_single rfl i c
theorem rhsB_0 (i : S192x768.Idx) (c : dot_S192x1536_S1536x768_S192x768_1_0_0_1_n_n.contr.Idx) : (dot_S192x1536_S1536x768_S192x768_1_0_0_1_n_n.rhsIdx i c 0).val = (c ⟨0, by decide⟩).val :=
  dot_S192x1536_S1536x768_S192x768_1_0_0_1_n_n.rhsIdx_val_of_single rfl i c
theorem rhsB_1 (i : S192x768.Idx) (c : dot_S192x1536_S1536x768_S192x768_1_0_0_1_n_n.contr.Idx) : (dot_S192x1536_S1536x768_S192x768_1_0_0_1_n_n.rhsIdx i c 1).val = (i 1).val := by
  unfold DotDims.rhsIdx
  rw [dif_neg (show ¬(1 : Fin S1536x768.rank) ∈ dot_S192x1536_S1536x768_S192x768_1_0_0_1_n_n.rhsBatch by decide),
    dif_pos (show (1 : Fin S1536x768.rank) ∈ dot_S192x1536_S1536x768_S192x768_1_0_0_1_n_n.rhsNonContracting by decide)]
  rfl

/-- The second product into a zero accumulator: entry `(p, q)` is `∑ h, a p h * b h q`. -/
theorem mmB_at (a : FVec Ideal S192x1536 .bf16) (b : FVec Ideal S1536x768 .bf16) (p : Fin 192) (q : Fin 768) :
    matmul dot_S192x1536_S1536x768_S192x768_1_0_0_1_n_n none a b (constant S192x768 .f32 0x00000000#32) (ix2 p q) = ∑ h : Fin 1536, a (ix2 p h) * b (ix2 h q) := by
  show FloatOps.matmul dot_S192x1536_S1536x768_S192x768_1_0_0_1_n_n none a b (constant S192x768 .f32 0x00000000#32) (ix2 p q) = _
  rw [Ideal.matmul_constant_zero_apply, ← Equiv.sum_comp (contrEquiv1 dot_S192x1536_S1536x768_S192x768_1_0_0_1_n_n 1536 rfl rfl).symm]
  refine Finset.sum_congr rfl fun h _ => ?_
  have hk := contrEquiv1_symm_val dot_S192x1536_S1536x768_S192x768_1_0_0_1_n_n 1536 rfl rfl h
  have el : dot_S192x1536_S1536x768_S192x768_1_0_0_1_n_n.lhsIdx (ix2 p q) ((contrEquiv1 dot_S192x1536_S1536x768_S192x768_1_0_0_1_n_n 1536 rfl rfl).symm h) = ix2 p h := funext fun a => Fin.ext (by
    match a with
    | ⟨0, _⟩ => exact lhsB_0 _ _
    | ⟨1, _⟩ => exact (lhsB_1 _ _).trans hk)
  have er : dot_S192x1536_S1536x768_S192x768_1_0_0_1_n_n.rhsIdx (ix2 p q) ((contrEquiv1 dot_S192x1536_S1536x768_S192x768_1_0_0_1_n_n 1536 rfl rfl).symm h) = ix2 h q := funext fun a => Fin.ext (by
    match a with
    | ⟨0, _⟩ => exact (rhsB_0 _ _).trans hk
    | ⟨1, _⟩ => exact rhsB_1 _ _)
  rw [el, er]

/-! ## A device's partial product at an index -/

/-- Entry `(p, q)` of `relu (v · w1) · w2` for a block `v` of 192 rows. -/
def mlpRows (v : Vec Ideal S192x768 .bf16) (w1 : Vec Ideal S768x1536 .bf16) (w2 : Vec Ideal S1536x768 .bf16)
    (p : Fin 192) (q : Fin 768) : EReal :=
  ∑ h : Fin 1536, max (∑ j : Fin 768, v (ix2 p j) * w1 (ix2 j h)) 0 * w2 (ix2 h q)

/-- The unrounded partial product: two products into zero accumulators with the rectifier (the maximum with the
    constant zero) between them; the rounding between them is the identity at the extended reals. -/
theorem pay13_at (v : Vec Ideal S192x768 .bf16) (w1 : Vec Ideal S768x1536 .bf16) (w2 : Vec Ideal S1536x768 .bf16)
    (p : Fin 192) (q : Fin 768) : k0_pay13 (F := Ideal) v w1 w2 (ix2 p q) = mlpRows v w1 w2 p q := by
  unfold k0_pay13 mlpRows
  rw [mmB_at]
  refine Finset.sum_congr rfl fun h _ => ?_
  rw [truncf_apply, maximumf_apply, broadcast_apply, mmA_at]
  show max _ (Ideal.ofBits .f32 0x00000000#32) * _ = _
  rw [Ideal.ofBits_zero_f32]

/-- The stored partial product is the unrounded one, rounded (the identity here) and given a leading unit axis. -/
theorem pay6_at (v : Vec Ideal S192x768 .bf16) (w1 : Vec Ideal S768x1536 .bf16) (w2 : Vec Ideal S1536x768 .bf16)
    (p : Fin 192) (q : Fin 768) : k0_pay6 (F := Ideal) v w1 w2 (ix3 0 p q) = mlpRows v w1 w2 p q := by
  show shapeCast S1x192x768 (truncf .bf16 (k0_pay13 (F := Ideal) v w1 w2) bitsLt_bf16_f32) shapeCasts_S192x768_S1x192x768
      (ix3 0 p q) = _
  refine (shapeCast_addUnit_apply (n := 2) ![192, 768] _ _ _).trans ?_
  have e : (fun a : Fin 2 => (ix3 (0 : Fin 1) p q) a.succ) = ix2 p q := funext fun a => by
    match a with
    | ⟨0, _⟩ => rfl
    | ⟨1, _⟩ => rfl
  rw [e, truncf_apply]
  exact pay13_at v w1 w2 p q

/-- With chunk `k` of device `d`'s `x` as the block of rows and the device's own weight blocks (rounded: the identity),
    the partial product is the specification's perceptron on device `d`'s arguments at row `192 k + p`. -/
theorem mlpRows_xrows (X : Dev nD → Vec Ideal S768x768 .f32) (W1 : Dev nD → Vec Ideal S768x1536 .f32)
    (W2 : Dev nD → Vec Ideal S1536x768 .f32) (d k : Dev nD) (p : Fin 192) (q : Fin 768) :
    mlpRows (xrows (F := Ideal) X d k) (k0_pay2 (W1 d)) (k0_pay4 (W2 d)) p q
      = Cert.Spec.mlpAt (fun r i => X d (ix2 r i)) (fun i h => W1 d (ix2 i h)) (fun h q => W2 d (ix2 h q))
          ⟨192 * k.val + p.val, row_lt k p⟩ q := by
  unfold mlpRows Cert.Spec.mlpAt k0_pay2 k0_pay4
  simp only [shapeCast_self]
  refine Finset.sum_congr rfl fun h _ => ?_
  rw [truncf_apply]
  congr 2
  refine Finset.sum_congr rfl fun j _ => ?_
  rw [xrows_at, truncf_apply]

/-! ## The partials as the specification's terms -/

section Devices

variable (X : Dev nD → Vec Ideal S768x768 .f32) (W1 : Dev nD → Vec Ideal S768x1536 .f32)
  (W2 : Dev nD → Vec Ideal S1536x768 .f32)

/-- A stored partial of device `d` for chunk `k`, at row `p` of the chunk: the perceptron through device `d`'s own
    blocks at row `192 k + p`. -/
theorem part_at (d k : Dev nD) (p : Fin 192) (q : Fin 768) :
    part (F := Ideal) X W1 W2 d k (ix3 0 p q)
      = Cert.Spec.mlpAt (fun r i => X d (ix2 r i)) (fun i h => W1 d (ix2 i h)) (fun h q => W2 d (ix2 h q))
          ⟨192 * k.val + p.val, row_lt k p⟩ q := by
  unfold part
  rw [pay6_at, mlpRows_xrows]

/-- Device `d`'s unrounded partial for its own chunk. -/
theorem own_at (d : Dev nD) (p : Fin 192) (q : Fin 768) :
    own (F := Ideal) X W1 W2 d (ix2 p q)
      = Cert.Spec.mlpAt (fun r i => X d (ix2 r i)) (fun i h => W1 d (ix2 i h)) (fun h q => W2 d (ix2 h q))
          ⟨192 * d.val + p.val, row_lt d p⟩ q := by
  unfold own
  rw [pay13_at, mlpRows_xrows]

/-- Device `d`'s term of the specification: the perceptron through its own blocks, at row `r` and column `q`. -/
def devMlp (d : Dev nD) (r : Fin 768) (q : Fin 768) : EReal :=
  Cert.Spec.mlpAt (fun r i => X d (ix2 r i)) (fun i h => W1 d (ix2 i h)) (fun h q => W2 d (ix2 h q)) r q

theorem lo_lt (k : Dev nD) (p : Fin 96) : 192 * k.val + p.val < 768 := by
  have := k.isLt; have := p.isLt; simp only [nD] at *; omega
theorem hi_lt (k : Dev nD) (p : Fin 96) : 192 * k.val + (96 + p.val) < 768 := by
  have := k.isLt; have := p.isLt; simp only [nD] at *; omega

/-- The lower half of device `d`'s stored partial for chunk `k`, row `p` of the half. -/
theorem half0_part (d k : Dev nD) (p : Fin 96) (q : Fin 768) :
    half0 (part (F := Ideal) X W1 W2 d k) (ix2 p q) = devMlp X W1 W2 d ⟨192 * k.val + p.val, lo_lt k p⟩ q := by
  rw [half0_at, part_at]; rfl

/-- The upper half of it. -/
theorem half1_part (d k : Dev nD) (p : Fin 96) (q : Fin 768) :
    half1 (part (F := Ideal) X W1 W2 d k) (ix2 p q) = devMlp X W1 W2 d ⟨192 * k.val + (96 + p.val), hi_lt k p⟩ q := by
  rw [half1_at, part_at]; rfl

/-! ## The sums -/

/-- A relayed pair: the two half-chunks added; the unit axis added for the store and dropped again by the reader
    cancels. -/
theorem comb1_at (d : Dev nD) (p : Fin 96) (q : Fin 768) :
    comb1 (F := Ideal) X W1 W2 d (ix2 p q)
      = (half0 (part (F := Ideal) X W1 W2 d (prv d)) (ix2 p q) + half0 (part (F := Ideal) X W1 W2 (nxt d) (prv d)) (ix2 p q) : EReal) := by
  unfold comb1 addPay
  rw [shapeCast_shapeCast]
  rfl

theorem comb0_at (d : Dev nD) (p : Fin 96) (q : Fin 768) :
    comb0 (F := Ideal) X W1 W2 d (ix2 p q)
      = (half1 (part (F := Ideal) X W1 W2 d (nxt d)) (ix2 p q) + half1 (part (F := Ideal) X W1 W2 (prv d) (nxt d)) (ix2 p q) : EReal) := by
  unfold comb0 addPay
  rw [shapeCast_shapeCast]
  rfl

/-- The final sum of a lower half: rows 0–95 of the unrounded own partial plus the two received half-chunks;
    widening and rounding are the identity. -/
theorem sum0_at (o : FVec Ideal S192x768 .f32) (a b : FVec Ideal S96x768 .bf16) (p : Fin 96) (q : Fin 768) :
    sum0 (F := Ideal) o a b (ix2 p q) = ((o (ix2 ⟨p.val, by omega⟩ q) + a (ix2 p q)) + b (ix2 p q) : EReal) := by
  unfold sum0
  rw [truncf_apply, addf_apply, addf_apply, extf_apply, extf_apply,
    extractStridedSlice_apply _ _ _ _ (ix2 ⟨p.val, by omega⟩ q) (fun a => by
      match a with
      | ⟨0, _⟩ => show p.val = 0 + p.val; omega
      | ⟨1, _⟩ => show q.val = 0 + q.val; omega)]

/-- The same of an upper half: rows 96–191 of the own partial. -/
theorem sum1_at (o : FVec Ideal S192x768 .f32) (a b : FVec Ideal S96x768 .bf16) (p : Fin 96) (q : Fin 768) :
    sum1 (F := Ideal) o a b (ix2 p q) = ((o (ix2 ⟨96 + p.val, by omega⟩ q) + a (ix2 p q)) + b (ix2 p q) : EReal) := by
  unfold sum1
  rw [truncf_apply, addf_apply, addf_apply, extf_apply, extf_apply,
    extractStridedSlice_apply _ _ _ _ (ix2 ⟨96 + p.val, by omega⟩ q) (fun a => by
      match a with
      | ⟨0, _⟩ => show 96 + p.val = 96 + p.val; rfl
      | ⟨1, _⟩ => show q.val = 0 + q.val; omega)]

/-- Going once round the ring from `k` meets every device once: the lower half's association. -/
theorem sum_ring0 (f : Dev nD → EReal) (k : Dev nD) :
    (f k + f (prv k)) + (f (nxt k) + f (opp k)) = ∑ d : Dev nD, f d := by
  have h4 : ∑ d : Dev nD, f d = f 0 + f 1 + f 2 + f 3 := Fin.sum_univ_four f
  rw [h4]
  obtain rfl | rfl | rfl | rfl : k = 0 ∨ k = 1 ∨ k = 2 ∨ k = 3 := by revert k; decide
  · show (f 0 + f 3) + (f 1 + f 2) = _; ac_rfl
  · show (f 1 + f 0) + (f 2 + f 3) = _; ac_rfl
  · show (f 2 + f 1) + (f 3 + f 0) = _; ac_rfl
  · show (f 3 + f 2) + (f 0 + f 1) = _; ac_rfl

/-- The upper half's association. -/
theorem sum_ring1 (f : Dev nD → EReal) (k : Dev nD) :
    (f k + f (nxt k)) + (f (prv k) + f (opp k)) = ∑ d : Dev nD, f d := by
  have h4 : ∑ d : Dev nD, f d = f 0 + f 1 + f 2 + f 3 := Fin.sum_univ_four f
  rw [h4]
  obtain rfl | rfl | rfl | rfl : k = 0 ∨ k = 1 ∨ k = 2 ∨ k = 3 := by revert k; decide
  · show (f 0 + f 1) + (f 3 + f 2) = _; ac_rfl
  · show (f 1 + f 2) + (f 0 + f 3) = _; ac_rfl
  · show (f 2 + f 3) + (f 1 + f 0) = _; ac_rfl
  · show (f 3 + f 0) + (f 2 + f 1) = _; ac_rfl

/-- What the right neighbour of `k` relays back: the lower halves of chunk `k` of the devices `k + 1` and `k + 2`. -/
theorem comb1_nxt (k : Dev nD) (p : Fin 96) (q : Fin 768) :
    comb1 (F := Ideal) X W1 W2 (nxt k) (ix2 p q)
      = (half0 (part (F := Ideal) X W1 W2 (nxt k) k) (ix2 p q) + half0 (part (F := Ideal) X W1 W2 (opp k) k) (ix2 p q) : EReal) := by
  rw [comb1_at, prv_nxt, nxt_nxt]

/-- What the left neighbour of `k` relays: the upper halves of chunk `k` of the devices `k − 1` and `k − 2`. -/
theorem comb0_prv (k : Dev nD) (p : Fin 96) (q : Fin 768) :
    comb0 (F := Ideal) X W1 W2 (prv k) (ix2 p q)
      = (half1 (part (F := Ideal) X W1 W2 (prv k) k) (ix2 p q) + half1 (part (F := Ideal) X W1 W2 (opp k) k) (ix2 p q) : EReal) := by
  rw [comb0_at, nxt_prv, prv_prv]

/-- The finished lower half of chunk `k`: (own + left neighbour's) + (right neighbour's + opposite's), the four
    devices' terms at row `192 k + p`. -/
theorem out0_at (k : Dev nD) (p : Fin 96) (q : Fin 768) :
    out0 (F := Ideal) X W1 W2 k (ix2 p q) = ∑ d : Dev nD, devMlp X W1 W2 d ⟨192 * k.val + p.val, lo_lt k p⟩ q := by
  unfold out0
  rw [sum0_at, own_at, half0_part, comb1_nxt, half0_part, half0_part]
  exact sum_ring0 (fun d => devMlp X W1 W2 d ⟨192 * k.val + p.val, lo_lt k p⟩ q) k

/-- The finished upper half: (own + right neighbour's) + (left neighbour's + opposite's) at row `192 k + 96 + p`. -/
theorem out1_at (k : Dev nD) (p : Fin 96) (q : Fin 768) :
    out1 (F := Ideal) X W1 W2 k (ix2 p q) = ∑ d : Dev nD, devMlp X W1 W2 d ⟨192 * k.val + (96 + p.val), hi_lt k p⟩ q := by
  unfold out1
  rw [sum1_at, own_at, half1_part, comb0_prv, half1_part, half1_part]
  exact sum_ring1 (fun d => devMlp X W1 W2 d ⟨192 * k.val + (96 + p.val), hi_lt k p⟩ q) k

theorem out_lt (k : Dev nD) (j : Fin 2) (p : Fin 96) : 192 * k.val + 96 * j.val + p.val < 768 := by
  have := k.isLt; have := p.isLt; have := j.isLt; simp only [nD] at *; omega

/-- Each finished half-chunk is the sum over the four devices of their partial products: half `j` of chunk `k`, row
    `p` of the half, is row `192 k + 96 j + p` of `∑ d, relu (x · W1_d) · W2_d`. -/
theorem outHalf_at (k : Dev nD) (j : Fin 2) (p : Fin 96) (q : Fin 768) :
    outHalf (F := Ideal) X W1 W2 k j (ix2 p q)
      = ∑ d : Dev nD, Cert.Spec.mlpAt (fun r i => X d (ix2 r i)) (fun i h => W1 d (ix2 i h)) (fun h q => W2 d (ix2 h q))
          ⟨192 * k.val + 96 * j.val + p.val, out_lt k j p⟩ q := by
  unfold outHalf
  obtain rfl | rfl : j = 0 ∨ j = 1 := by revert j; decide
  · rw [if_pos rfl, out0_at]
    have hr : (⟨192 * k.val + p.val, lo_lt k p⟩ : Fin 768) = ⟨192 * k.val + 96 * (0 : Fin 2).val + p.val, out_lt k 0 p⟩ :=
      Fin.ext (by simp only [Fin.val_zero]; omega)
    rw [hr]; rfl
  · rw [if_neg (by decide), out1_at]
    have hr : (⟨192 * k.val + (96 + p.val), hi_lt k p⟩ : Fin 768) = ⟨192 * k.val + 96 * (1 : Fin 2).val + p.val, out_lt k 1 p⟩ :=
      Fin.ext (by simp only [Fin.val_one]; omega)
    rw [hr]; rfl

end Devices

/--
info: 'Cert.KernelIdeal.KernelValue.outHalf_at' depends on axioms: [propext, Classical.choice, Quot.sound]
-/
#guard_msgs in
#print axioms Cert.KernelIdeal.KernelValue.outHalf_at

end Cert.KernelIdeal.KernelValue

end
-- ==== Proof.Final.lean ====
/-
  The claims assembled. At the extended reals the finished result of the four devices, row `192 k + 96 j + p` being half
  `j` of chunk `k`, is the sum over the devices of their perceptrons through their own blocks of `w1`'s columns and
  `w2`'s rows, and the one-device reference's  relu (x · w1) · w2  is that same sum, its hidden axis of 6144 cut into
  the four blocks of 1536: so every device's result array ends holding the reference's value. The frames are the runs
  with the values dropped.
-/
import proofs.«900459_g7700000000000460_dist_mlp2_tp_i_m768_h1536_out768_v7x_i4_f32_1_alg».proof.Defs
import proofs.«900459_g7700000000000460_dist_mlp2_tp_i_m768_h1536_out768_v7x_i4_f32_1_alg».proof.Proof.Launch
import proofs.«900459_g7700000000000460_dist_mlp2_tp_i_m768_h1536_out768_v7x_i4_f32_1_alg».proof.Proof.KernelValue
import proofs.«900459_g7700000000000460_dist_mlp2_tp_i_m768_h1536_out768_v7x_i4_f32_1_alg».proof.Proof.RefValue
import proofs.«900459_g7700000000000460_dist_mlp2_tp_i_m768_h1536_out768_v7x_i4_f32_1_alg».proof.Proof.Geom
import proofs.«900459_g7700000000000460_dist_mlp2_tp_i_m768_h1536_out768_v7x_i4_f32_1_alg».proof.Proof.Gen.KernelIdeal
import proofs.«900459_g7700000000000460_dist_mlp2_tp_i_m768_h1536_out768_v7x_i4_f32_1_alg».proof.Proof.Gen.ReferenceIdeal
import proofs.«900459_g7700000000000460_dist_mlp2_tp_i_m768_h1536_out768_v7x_i4_f32_1_alg».proof.Proof.Gen.ReferenceIdeal.Run
import proofs.«900459_g7700000000000460_dist_mlp2_tp_i_m768_h1536_out768_v7x_i4_f32_1_alg».proof.Proof.Gen.ReferenceIdeal.Read
import proofs.«900459_g7700000000000460_dist_mlp2_tp_i_m768_h1536_out768_v7x_i4_f32_1_alg».proof.Proof.Gen.Pre_finite_inputs_Kernel
import proofs.«900459_g7700000000000460_dist_mlp2_tp_i_m768_h1536_out768_v7x_i4_f32_1_alg».proof.Proof.Gen.Pre_finite_inputs_ReferenceIdeal

noncomputable section

open Idealize.ShloMosaic Idealize.SL.Sem
open Idealize.ShloMosaic.TcCoe
open Idealize.ShloMosaic.ValueIdx (ix2 eq_ix2)
open Idealize.ShloMosaic.Pipeline (BodyObligation)
open scoped BigOperators

namespace Cert.Proof.Final

open Cert.KernelIdeal Cert.KernelIdeal.Gen Cert.KernelIdeal.Vals Cert.KernelIdealProof

/-! ## The kernel's result is the reference's -/

/-- Where every device holds `x` whole and its own blocks of `w1`'s columns and of `w2`'s rows, the finished result is the
    reference's value: row `r = 192 k + 96 j + p` lies in half `j` of chunk `k`, which is the sum over the four devices of
    their perceptrons at that row, and the reference's entry is that sum, its hidden axis cut into the four blocks. -/
theorem outV_eq_ref (m : (ℓ : Loc Cert.KernelIdeal.nD Cert.KernelIdeal.τ Cert.KernelIdeal.sig) → Buf (Elt Ideal) ℓ)
    (x : (⟨Cert.ReferenceIdeal.S768x768, .f32⟩ : BufTy).Contents (Elt Ideal))
    (w1 : (⟨Cert.ReferenceIdeal.S768x6144, .f32⟩ : BufTy).Contents (Elt Ideal))
    (w2 : (⟨Cert.ReferenceIdeal.S6144x768, .f32⟩ : BufTy).Contents (Elt Ideal))
    (hag : ∀ c : Dev Cert.KernelIdeal.nD,
      m ((c.tc : Thread Cert.KernelIdeal.nD Cert.KernelIdeal.τ).loc Cert.KernelIdeal.main_arg0) = x
      ∧ m ((c.tc : Thread Cert.KernelIdeal.nD Cert.KernelIdeal.τ).loc Cert.KernelIdeal.main_arg1) = Layout.block ⟨2, ![768, 1536]⟩ ⟨2, ![768, 6144]⟩ 1 4 c w1
      ∧ m ((c.tc : Thread Cert.KernelIdeal.nD Cert.KernelIdeal.τ).loc Cert.KernelIdeal.main_arg2) = Layout.block ⟨2, ![1536, 768]⟩ ⟨2, ![6144, 768]⟩ 0 4 c w2) :
    Cert.KernelIdealProof.outV (F := Ideal) m = Cert.ReferenceIdeal.Read.val_main_v4 (F := Ideal) x w1 w2 := by
  funext i
  have h0 : (i 0).val < 768 := (i 0).isLt
  have h1 : (i 1).val < 768 := (i 1).isLt
  have hi : i = ix2 (⟨(i 0).val, h0⟩ : Fin 768) (⟨(i 1).val, h1⟩ : Fin 768) := funext fun a => by
    match a with
    | ⟨0, _⟩ => rfl
    | ⟨1, _⟩ => rfl
  generalize (⟨(i 0).val, h0⟩ : Fin 768) = r at hi
  generalize (⟨(i 1).val, h1⟩ : Fin 768) = q at hi
  subst hi
  refine Eq.trans ?_ (Cert.Proof.RefValue.ref_split x w1 w2 r q).symm
  show outAll (outHalf (Xin m) (W1in m) (W2in m)) (ix2 r q) = _
  unfold outAll
  rw [Cert.KernelIdeal.KernelValue.outHalf_at]
  refine Finset.sum_congr rfl fun d _ => ?_
  unfold Xin W1in W2in
  rw [(hag d).1, (hag d).2.1, (hag d).2.2]
  have hr : r.val < 768 := r.isLt
  exact congrArg₂ (Cert.Spec.mlpAt _ _ _) (Fin.ext (by
    show 192 * (r.val / 192) + 96 * (r.val % 192 / 96) + r.val % 96 = r.val
    omega)) rfl

/-! ## The claims -/

/-- The idealized kernel runs and its argument arrays end unchanged: the run with the arrays named, the result dropped. -/
theorem frame_ki
    (hbody : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      BodyObligation (dats (F := Ideal) m ρ 0 c) (defs₀ (F := Ideal)) 𝒱₀ () Set.univ) :
    Cert.frame_KernelIdeal := fun m ρ _ =>
  (θ_run Cert.KernelIdeal.defs _ _).mono (fun _ h c => (h c).2) (run_vals (F := Ideal) m ρ (hbody m ρ))

/-- The idealization rewrote no operation. -/
theorem preserves : Cert.preserves_Kernel_KernelIdeal := trivial

/-- At the extended reals, from memories where every device holds `x` whole and its blocks of `w1` and `w2`: both programs
    run, the reference's result is `relu (x · w1) · w2`, every device's result array ends holding it, and the arguments of
    both end unchanged. -/
theorem algebraic
    (hbody : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      BodyObligation (dats (F := Ideal) m ρ 0 c) (defs₀ (F := Ideal)) 𝒱₀ () Set.univ) :
    Cert.algebraic_KernelIdeal_ReferenceIdeal := by
  intro m ρ m' ρ' _ hag
  refine ⟨Cert.ReferenceIdeal.Read.val_main_v4 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · rw [← outV_eq_ref m _ _ _ hag]
    exact run_vals (F := Ideal) m ρ (hbody m ρ)
  · exact (θ_run Cert.ReferenceIdeal.defs _ _).mono
      (fun _ h => ⟨(h 0).1.trans (Cert.ReferenceIdeal.Read.val_main_v4_eq _ _ _), (h 0).2⟩)
      (Cert.ReferenceIdeal.Value.run (F := Ideal) m' ρ')

/-- info: 'Cert.Proof.Final.algebraic' depends on axioms: [propext, Classical.choice, Quot.sound] -/
#guard_msgs in #print axioms Cert.Proof.Final.algebraic

end Cert.Proof.Final

end
-- ==== Proof.Bits.Vals.lean ====
/-
  What each buffer of the kernel holds, as pure functions of every device's three argument blocks, at any float
  instance. Device `d` computes, for each chunk `k` of 192 rows of its copy of `x`, the partial product
  `relu (x_k · W1_d) · W2_d` through its own column block of `W1` and row block of `W2`; the four devices' partials of
  chunk `k` are added on device `k` (two of them pre-added by a neighbour on the way), one half of 96 rows at a time, and
  the eight finished half-chunks are then copied to every device.
-/
import proofs.«900459_g7700000000000460_dist_mlp2_tp_i_m768_h1536_out768_v7x_i4_f32_1_alg».proof.Proof.Gen.Kernel.Skeleton
import Idealize.ShloMosaic.Lib.Pipeline.Value
import Idealize.ShloMosaic.Lib.ValueIdx

noncomputable section

namespace Cert.Kernel.Vals

open Cert.Kernel Cert.Kernel.Gen
open Idealize.ShloMosaic

variable {F : FTy → Type} [FloatOps F]

/-! ## The ring of four devices -/

def nxt (c : Dev nD) : Dev nD := ⟨(c.val + 1) % 4, Nat.mod_lt _ (by decide)⟩
def prv (c : Dev nD) : Dev nD := ⟨(c.val + 3) % 4, Nat.mod_lt _ (by decide)⟩
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem nxt_nxt (c : Dev nD) : nxt (nxt c) = opp c := by revert c; decide
theorem prv_prv (c : Dev nD) : prv (prv c) = opp c := by revert c; decide
theorem opp_nxt (c : Dev nD) : opp (nxt c) = prv c := by revert c; decide
theorem opp_prv (c : Dev nD) : opp (prv c) = nxt c := by revert c; decide
theorem opp_opp (c : Dev nD) : opp (opp c) = c := by revert c; decide
theorem nxt_ne_prv (c : Dev nD) : nxt c ≠ prv c := by revert c; decide
theorem nxt_ne (c : Dev nD) : nxt c ≠ c := by revert c; decide
theorem prv_ne (c : Dev nD) : prv c ≠ c := by revert c; decide

/-! ## The values -/

section Values

variable (X : Dev nD → Vec F S768x768 .f32) (W1 : Dev nD → Vec F S768x1536 .f32) (W2 : Dev nD → Vec F S1536x768 .f32)

theorem rows_inb : ∀ k : Dev nD, ∀ a, (![192 * k.val, 0] : Fin 2 → Nat) a + S192x768.size a ≤ S768x768.size a := by decide

/-- The 192 rows of chunk `k`. -/
def rowsRect (k : Dev nD) : Rect S768x768 := Rect.unit (s := S768x768) ![192 * k.val, 0] S192x768.size (rows_inb k)

/-- Device `d`'s copy of `x`, rounded. -/
def xb (d : Dev nD) : FVec F S768x768 .bf16 := k0_pay1 (X d)

/-- Chunk `k` of it, as a load of those rows reads them. -/
def xrows (d k : Dev nD) : Vec F S192x768 .bf16 :=
  (Memref.whole cc0_scratch4 : Memref sig .tc .vmem S768x768 .bf16).view.readAt (Elt F) (rowsRect k).toLoadRect (xb X d)

/-- Device `d`'s partial product for chunk `k`, as stored in a slot of the send buffer. -/
def part (d k : Dev nD) : FVec F S1x192x768 .bf16 := k0_pay6 (xrows X d k) (k0_pay2 (W1 d)) (k0_pay4 (W2 d))

/-- Device `d`'s partial product for its own chunk, kept unrounded. -/
def own (d : Dev nD) : FVec F S192x768 .f32 := k0_pay13 (xrows X d d) (k0_pay2 (W1 d)) (k0_pay4 (W2 d))

theorem slices_lo : S1x192x768.Slices ![0, 0, 0] S1x96x768 := by decide
theorem slices_hi : S1x192x768.Slices ![0, 96, 0] S1x96x768 := by decide

/-- Rows 0–95 of a stored partial. -/
def half0 (Pt : FVec F S1x192x768 .bf16) : FVec F S96x768 .bf16 :=
  shapeCast S96x768 (extractStridedSlice S1x96x768 ![0, 0, 0] Pt slices_lo) shapeCasts_S1x96x768_S96x768
/-- Rows 96–191 of a stored partial. -/
def half1 (Pt : FVec F S1x192x768 .bf16) : FVec F S96x768 .bf16 :=
  shapeCast S96x768 (extractStridedSlice S1x96x768 ![0, 96, 0] Pt slices_hi) shapeCasts_S1x96x768_S96x768

/-- The sum of two half-chunks as a relaying device stores it. -/
def addPay (a b : FVec F S96x768 .bf16) : FVec F S1x96x768 .bf16 :=
  shapeCast S1x96x768 (addf a b) shapeCasts_S96x768_S1x96x768

/-- What device `d` forwards to its right neighbour: the upper half of chunk `d + 1`, its own partial plus its left
    neighbour's. -/
def comb0 (d : Dev nD) : FVec F S96x768 .bf16 :=
  shapeCast S96x768 (addPay (half1 (part X W1 W2 d (nxt d))) (half1 (part X W1 W2 (prv d) (nxt d)))) shapeCasts_S1x96x768_S96x768
/-- What device `d` forwards to its left neighbour: the lower half of chunk `d − 1`, its own partial plus its right
    neighbour's. -/
def comb1 (d : Dev nD) : FVec F S96x768 .bf16 :=
  shapeCast S96x768 (addPay (half0 (part X W1 W2 d (prv d))) (half0 (part X W1 W2 (nxt d) (prv d)))) shapeCasts_S1x96x768_S96x768

/-- The final three-way sum of a lower half: own rows 0–95 plus two received half-chunks. -/
def sum0 (o : FVec F S192x768 .f32) (a b : FVec F S96x768 .bf16) : FVec F S96x768 .bf16 :=
  truncf .bf16 (addf (addf (extractStridedSlice S96x768 ![0, 0] o slices_S192x768_o0_0_S96x768) (extf .f32 a bitsLt_bf16_f32))
    (extf .f32 b bitsLt_bf16_f32)) bitsLt_bf16_f32
/-- The same of an upper half: own rows 96–191. -/
def sum1 (o : FVec F S192x768 .f32) (a b : FVec F S96x768 .bf16) : FVec F S96x768 .bf16 :=
  truncf .bf16 (addf (addf (extractStridedSlice S96x768 ![96, 0] o slices_S192x768_o96_0_S96x768) (extf .f32 a bitsLt_bf16_f32))
    (extf .f32 b bitsLt_bf16_f32)) bitsLt_bf16_f32

/-- The finished lower half of chunk `k`, as device `k` stores it. -/
def out0 (k : Dev nD) : FVec F S96x768 .bf16 :=
  sum0 (own X W1 W2 k) (half0 (part X W1 W2 (prv k) k)) (comb1 X W1 W2 (nxt k))
/-- The finished upper half of chunk `k`. -/
def out1 (k : Dev nD) : FVec F S96x768 .bf16 :=
  sum1 (own X W1 W2 k) (half1 (part X W1 W2 (nxt k) k)) (comb0 X W1 W2 (prv k))

/-- Half `j` of chunk `k`. -/
def outHalf (k : Dev nD) (j : Fin 2) : FVec F S96x768 .bf16 := if j = 0 then out0 X W1 W2 k else out1 X W1 W2 k

end Values

/-! ## The printed payloads are these functions -/

theorem pay5_eq (v55 : Vec F S192x768 .bf16) (v56 : Vec F S768x1536 .bf16) (v67 : Vec F S1536x768 .bf16) :
    k0_pay5 (k0_pay3 v55 v56) (Scalar.ofBits .f32 0x00000000#32) v67 = k0_pay6 v55 v56 v67 := rfl
theorem pay8_eq (v119 : Vec F S192x768 .bf16) (v120 : Vec F S768x1536 .bf16) (v125 : Vec F S1536x768 .bf16) :
    k0_pay8 (k0_pay7 v119 v120) v125 = k0_pay6 v119 v120 v125 := rfl
theorem pay10_eq (L1 L2 : Vec F S1x96x768 .bf16) :
    k0_pay10 (k0_pay9 L1) L2 = addPay (shapeCast S96x768 L1 shapeCasts_S1x96x768_S96x768) (shapeCast S96x768 L2 shapeCasts_S1x96x768_S96x768) := rfl
theorem pay12_eq (L1 L2 : Vec F S1x96x768 .bf16) :
    k0_pay12 (k0_pay11 L1) L2 = addPay (shapeCast S96x768 L1 shapeCasts_S1x96x768_S96x768) (shapeCast S96x768 L2 shapeCasts_S1x96x768_S96x768) := rfl
theorem pay14_eq (o : FVec F S192x768 .f32) (L1 L2 : Vec F S1x96x768 .bf16) :
    k0_pay14 o L1 L2 = sum0 o (shapeCast S96x768 L1 shapeCasts_S1x96x768_S96x768) (shapeCast S96x768 L2 shapeCasts_S1x96x768_S96x768) := rfl
theorem pay15_eq (o : FVec F S192x768 .f32) (L1 L2 : Vec F S1x96x768 .bf16) :
    k0_pay15 o L1 L2 = sum1 o (shapeCast S96x768 L1 shapeCasts_S1x96x768_S96x768) (shapeCast S96x768 L2 shapeCasts_S1x96x768_S96x768) := rfl

end Cert.Kernel.Vals

end
-- ==== Proof.Bits.Proto.lean ====
/-
  The protocol of the kernel on the ring of four devices, at any float instance: the memory regions that change hands,
  the semaphore cells with what each landing hands its waiter, what each device owes at launch and the levels that
  order the waits.

  Every device first signals both neighbours' barrier semaphore and waits for two units; a signal hands the neighbour
  the regions of the signaller's buffers that the neighbour will copy into. Then twelve remote copies of one half-chunk
  ([96, 768]) each: a copy pays the sender's send cell (the source comes back) and the receiver's receive cell (the
  destination, holding what was copied).
-/
import proofs.«900459_g7700000000000460_dist_mlp2_tp_i_m768_h1536_out768_v7x_i4_f32_1_alg».proof.Proof.Bits.Vals
import proofs.«900459_g7700000000000460_dist_mlp2_tp_i_m768_h1536_out768_v7x_i4_f32_1_alg».proof.Proof.Gen.Kernel.Launch
import proofs.«900459_g7700000000000460_dist_mlp2_tp_i_m768_h1536_out768_v7x_i4_f32_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The device chains of the program -/

theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = prv c := by decide +kernel
theorem dev4_eq : ∀ c : Dev nD, (⟨k0_dev4 c, k0_dev4_lt c⟩ : Dev nD) = nxt c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = prv c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = prv c := by decide +kernel
theorem dev9_eq : ∀ c : Dev nD, (⟨k0_dev9 c, k0_dev9_lt c⟩ : Dev nD) = nxt c := by decide +kernel
theorem dev10_eq : ∀ c : Dev nD, (⟨k0_dev10 c, k0_dev10_lt c⟩ : Dev nD) = prv c := by decide +kernel
theorem dev11_eq : ∀ c : Dev nD, (⟨k0_dev11 c, k0_dev11_lt c⟩ : Dev nD) = nxt c := by decide +kernel
theorem dev12_eq : ∀ c : Dev nD, (⟨k0_dev12 c, k0_dev12_lt c⟩ : Dev nD) = prv c := by decide +kernel
theorem dev13_eq : ∀ c : Dev nD, (⟨k0_dev13 c, k0_dev13_lt c⟩ : Dev nD) = prv c := by decide +kernel
theorem dev14_eq : ∀ c : Dev nD, (⟨k0_dev14 c, k0_dev14_lt c⟩ : Dev nD) = nxt c := by decide +kernel

/-- The row offsets of the program in closed form: the rows of a chunk, of a half-chunk. -/
theorem off1_eq : ∀ c : Dev nD, ∀ r : Fin 2, k0_off1 c (BitVec.ofNat 32 (1 + r.val)) = ![192 * ((c.val + 1 + r.val) % 4), 0] := by decide +kernel
theorem off2_eq : ∀ c : Dev nD, k0_off2 c = ![192 * ((c.val + 3) % 4), 0] := by decide +kernel
theorem off6_eq : ∀ c : Dev nD, ∀ r₁ r₂ : Fin 2, k0_off6 c (BitVec.ofNat 32 (1 + r₁.val)) (BitVec.ofNat 32 (96 * r₂.val)) = ![192 * ((c.val + 1 + r₁.val) % 4) + 96 * r₂.val, 0] := by decide +kernel
theorem off7_eq : ∀ c : Dev nD, ∀ r : Fin 2, k0_off7 c (BitVec.ofNat 32 (96 * r.val)) = ![192 * ((c.val + 3) % 4) + 96 * r.val, 0] := by decide +kernel

/-! ## The memrefs, as the program names them -/

abbrev xM : Memref sig .tc .vmem S768x768 .f32 := Memref.whole cc0_stg0_0
abbrev w1M : Memref sig .tc .vmem S768x1536 .f32 := Memref.whole cc0_stg1_0
abbrev w2M : Memref sig .tc .vmem S1536x768 .f32 := Memref.whole cc0_stg2_0
abbrev oM : Memref sig .tc .vmem S768x768 .bf16 := Memref.whole cc0_stg3_0
abbrev sbM : Memref sig .tc .vmem S3x192x768 .bf16 := Memref.whole cc0_scratch0
abbrev rsM : Memref sig .tc .vmem S4x96x768 .bf16 := Memref.whole cc0_scratch1
abbrev rlM : Memref sig .tc .vmem S2x96x768 .bf16 := Memref.whole cc0_scratch2
abbrev cbM : Memref sig .tc .vmem S2x96x768 .bf16 := Memref.whole cc0_scratch3
abbrev xbM : Memref sig .tc .vmem S768x768 .bf16 := Memref.whole cc0_scratch4
abbrev w1bM : Memref sig .tc .vmem S768x1536 .bf16 := Memref.whole cc0_scratch5
abbrev w2bM : Memref sig .tc .vmem S1536x768 .bf16 := Memref.whole cc0_scratch6

/-- The half-chunk windows the copies go through: halves of the send buffer's slots, -/
abbrev sb00 : Memref sig .tc .vmem S96x768 .bf16 := (sbM.slice (Rect.unit (s := S3x192x768) ![0, 0, 0] S1x96x768.size inb_S3x192x768_S1x96x768_0_0_0) (fun _ => rfl)).squeeze S96x768 squeezes_S1x96x768_S96x768
abbrev sb01 : Memref sig .tc .vmem S96x768 .bf16 := (sbM.slice (Rect.unit (s := S3x192x768) ![0, 96, 0] S1x96x768.size inb_S3x192x768_S1x96x768_0_96_0) (fun _ => rfl)).squeeze S96x768 squeezes_S1x96x768_S96x768
abbrev sb10 : Memref sig .tc .vmem S96x768 .bf16 := (sbM.slice (Rect.unit (s := S3x192x768) ![1, 0, 0] S1x96x768.size inb_S3x192x768_S1x96x768_1_0_0) (fun _ => rfl)).squeeze S96x768 squeezes_S1x96x768_S96x768
abbrev sb11 : Memref sig .tc .vmem S96x768 .bf16 := (sbM.slice (Rect.unit (s := S3x192x768) ![1, 96, 0] S1x96x768.size inb_S3x192x768_S1x96x768_1_96_0) (fun _ => rfl)).squeeze S96x768 squeezes_S1x96x768_S96x768
abbrev sb20 : Memref sig .tc .vmem S96x768 .bf16 := (sbM.slice (Rect.unit (s := S3x192x768) ![2, 0, 0] S1x96x768.size inb_S3x192x768_S1x96x768_2_0_0) (fun _ => rfl)).squeeze S96x768 squeezes_S1x96x768_S96x768
abbrev sb21 : Memref sig .tc .vmem S96x768 .bf16 := (sbM.slice (Rect.unit (s := S3x192x768) ![2, 96, 0] S1x96x768.size inb_S3x192x768_S1x96x768_2_96_0) (fun _ => rfl)).squeeze S96x768 squeezes_S1x96x768_S96x768
/-- the four receive slots, -/
abbrev rs0 : Memref sig .tc .vmem S96x768 .bf16 := (rsM.slice (Rect.unit (s := S4x96x768) ![0, 0, 0] S1x96x768.size inb_S4x96x768_S1x96x768_0_0_0) (fun _ => rfl)).squeeze S96x768 squeezes_S1x96x768_S96x768
abbrev rs1 : Memref sig .tc .vmem S96x768 .bf16 := (rsM.slice (Rect.unit (s := S4x96x768) ![1, 0, 0] S1x96x768.size inb_S4x96x768_S1x96x768_1_0_0) (fun _ => rfl)).squeeze S96x768 squeezes_S1x96x768_S96x768
abbrev rs2 : Memref sig .tc .vmem S96x768 .bf16 := (rsM.slice (Rect.unit (s := S4x96x768) ![2, 0, 0] S1x96x768.size inb_S4x96x768_S1x96x768_2_0_0) (fun _ => rfl)).squeeze S96x768 squeezes_S1x96x768_S96x768
abbrev rs3 : Memref sig .tc .vmem S96x768 .bf16 := (rsM.slice (Rect.unit (s := S4x96x768) ![3, 0, 0] S1x96x768.size inb_S4x96x768_S1x96x768_3_0_0) (fun _ => rfl)).squeeze S96x768 squeezes_S1x96x768_S96x768
/-- the two relay slots, the two slots of pre-added halves, -/
abbrev rl0 : Memref sig .tc .vmem S96x768 .bf16 := (rlM.slice (Rect.unit (s := S2x96x768) ![0, 0, 0] S1x96x768.size inb_S2x96x768_S1x96x768_0_0_0) (fun _ => rfl)).squeeze S96x768 squeezes_S1x96x768_S96x768
abbrev rl1 : Memref sig .tc .vmem S96x768 .bf16 := (rlM.slice (Rect.unit (s := S2x96x768) ![1, 0, 0] S1x96x768.size inb_S2x96x768_S1x96x768_1_0_0) (fun _ => rfl)).squeeze S96x768 squeezes_S1x96x768_S96x768
abbrev cb0 : Memref sig .tc .vmem S96x768 .bf16 := (cbM.slice (Rect.unit (s := S2x96x768) ![0, 0, 0] S1x96x768.size inb_S2x96x768_S1x96x768_0_0_0) (fun _ => rfl)).squeeze S96x768 squeezes_S1x96x768_S96x768
abbrev cb1 : Memref sig .tc .vmem S96x768 .bf16 := (cbM.slice (Rect.unit (s := S2x96x768) ![1, 0, 0] S1x96x768.size inb_S2x96x768_S1x96x768_1_0_0) (fun _ => rfl)).squeeze S96x768 squeezes_S1x96x768_S96x768

theorem orow_inb : ∀ (k : Dev nD) (j : Fin 2), ∀ a, (![192 * k.val + 96 * j.val, 0] : Fin 2 → Nat) a + S96x768.size a ≤ S768x768.size a := by decide
/-- and half `j` of chunk `k` of the result: rows `192 k + 96 j …`. -/
abbrev oS (k : Dev nD) (j : Fin 2) : Memref sig .tc .vmem S96x768 .bf16 :=
  oM.slice (Rect.unit (s := S768x768) ![192 * k.val + 96 * j.val, 0] S96x768.size (orow_inb k j)) (fun _ => rfl)

/-! ## Regions and what they hold -/

/-- Device `c` holds the window `M` at share `q`, and a read through it gives `V`. -/
def slot (c : Dev nD) (M : Memref sig .tc .vmem S96x768 .bf16) (q : PosShare TreeShare) (V : FVec F S96x768 .bf16) : sProp 𝕄 :=
  iprop(∃ f : Buf (Elt F) (M.view.loc (c : Thread nD τ)), ⌜M.view.read (Elt F) f = V⌝ ∗ (M.view.loc (c : Thread nD τ) ↦[M.view.set]{q} f))

/-- Device `c`'s window `M` whole, at some contents: what a device hands the neighbour that will copy into it. -/
def hole (c : Dev nD) (M : Memref sig .tc .vmem S96x768 .bf16) : sProp 𝕄 :=
  iprop(∃ f : Buf (Elt F) (M.view.loc (c : Thread nD τ)), (M.view.loc (c : Thread nD τ) ↦[M.view.set]{fullShare} f))

omit [FloatOps F] in
instance slot_storable (c : Dev nD) (M) (q) (V : FVec F S96x768 .bf16) : BI.Storable (upEmb : UEmb _ 𝕄) (slot (F := F) c M q V) := by unfold slot; infer_instance
omit [FloatOps F] in
instance hole_storable (c : Dev nD) (M) : BI.Storable (upEmb : UEmb _ 𝕄) (hole (F := F) c M) := by unfold hole; infer_instance

/-! ## The argument blocks as launched, and the values over them -/

def Xin (d : Dev nD) : Vec F S768x768 .f32 := m ((d : Thread nD τ).loc main_arg0)
def W1in (d : Dev nD) : Vec F S768x1536 .f32 := m ((d : Thread nD τ).loc main_arg1)
def W2in (d : Dev nD) : Vec F S1536x768 .f32 := m ((d : Thread nD τ).loc main_arg2)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)

/-! ## The schedule -/

abbrev barS : Sem sig := (SemArray.scalar (sig.barrier 0 rfl) : Sems sig S_).sem
abbrev barCell (c : Dev nD) : GSem nD τ sig := ((c : Thread nD τ), .reg barS)
/-- The kernel's `i`-th own DMA semaphore (of 24: six send and six receive cells of the reduction, six and six of the
    final exchange), on device `c`. -/
abbrev dsem (i : Fin 24) : DmaSem sig := ⟨4 + i.val, by have := i.isLt; show 4 + i.val < 28; omega⟩
abbrev dcell (c : Dev nD) (i : Fin 24) : GSem nD τ sig := ((c : Thread nD τ), .dma (dsem i))

/-- One half-chunk's credit. -/
abbrev N : ℕ := (rs0 : Memref sig .tc .vmem S96x768 .bf16).view.dmaCredit
theorem N_pos : 0 < N := View.dmaCredit_pos _ (by decide)

/-- What the landing on device `c`'s `i`-th cell hands `c`: for a send cell the source back, for a receive cell the
    window holding what was copied. -/
def dmaPay (c : Dev nD) (i : ℕ) : sProp 𝕄 :=
  match i with
  | 0 => slot c sb00 fullShare (half0 (PART c (opp c)))
  | 1 => slot c sb01 fullShare (half1 (PART c (opp c)))
  | 2 => slot c sb10 fullShare (half0 (PART c (nxt c)))
  | 3 => slot c cb0 fullShare (COMB0 c)
  | 4 => slot c sb21 fullShare (half1 (PART c (prv c)))
  | 5 => slot c cb1 fullShare (COMB1 c)
  | 6 => slot c rs0 fullShare (half0 (PART (prv c) c))
  | 7 => slot c rs1 fullShare (COMB1 (nxt c))
  | 8 => slot c rs2 fullShare (half1 (PART (nxt c) c))
  | 9 => slot c rs3 fullShare (COMB0 (prv c))
  | 10 => slot c rl0 fullShare (half0 (PART (nxt c) (prv c)))
  | 11 => slot c rl1 fullShare (half1 (PART (prv c) (nxt c)))
  | 12 => slot c (oS c 0) fullShare.left (OUTH c 0)
  | 13 => slot c (oS c 1) fullShare.left (OUTH c 1)
  | 14 => slot c (oS c 0) fullShare.right (OUTH c 0)
  | 15 => slot c (oS c 1) fullShare.right (OUTH c 1)
  | 16 => slot c (oS (nxt c) 1) fullShare (OUTH (nxt c) 1)
  | 17 => slot c (oS (prv c) 0) fullShare (OUTH (prv c) 0)
  | 18 => slot c (oS (nxt c) 0) fullShare (OUTH (nxt c) 0)
  | 19 => slot c (oS (nxt c) 1) fullShare (OUTH (nxt c) 1)
  | 20 => slot c (oS (prv c) 0) fullShare (OUTH (prv c) 0)
  | 21 => slot c (oS (prv c) 1) fullShare (OUTH (prv c) 1)
  | 22 => slot c (oS (opp c) 0) fullShare (OUTH (opp c) 0)
  | 23 => slot c (oS (opp c) 1) fullShare (OUTH (opp c) 1)
  | _ => iprop(emp)

/-- What the right neighbour's signal hands `c`: the windows of the right neighbour that `c` copies into. -/
def barPayR (c : Dev nD) : sProp 𝕄 :=
  iprop(hole (nxt c) rl1 ∗ hole (nxt c) rs0 ∗ hole (nxt c) rs3 ∗ hole (nxt c) (oS c 0) ∗ hole (nxt c) (oS c 1) ∗ hole (nxt c) (oS (prv c) 0))
/-- What the left neighbour's signal hands `c`. -/
def barPayL (c : Dev nD) : sProp 𝕄 :=
  iprop(hole (prv c) rl0 ∗ hole (prv c) rs2 ∗ hole (prv c) rs1 ∗ hole (prv c) (oS c 0) ∗ hole (prv c) (oS c 1) ∗ hole (prv c) (oS (nxt c) 1))

/-- One round per cell. A barrier cell has two duties of one unit: `false`, paid by the right neighbour, and `true`, paid
    by the left one. Each of the 24 transfer cells has the one duty `false` of a half-chunk's credit. -/
def ringRd : Rounds.Schedule (GSem nD τ sig) Bool 𝕄 where
  duties g r := if r = 0 ∧ g.1.2 = .tc then (match g.2 with
    | .reg s => if s = barS then Finset.univ else ∅
    | .dma s => if 4 ≤ s.val then {false} else ∅) else ∅
  unitless _ := False
  amount g _ _ := match g.2 with | .reg _ => 1 | .dma _ => N
  payload g _ d := match g.2 with
    | .reg _ => if d then barPayL g.1.1 else barPayR g.1.1
    | .dma s => dmaPay m g.1.1 (s.val - 4)
  amount_pos g _ _ _ := by
    cases g.2 with
    | reg _ => exact Nat.one_pos
    | dma _ => exact N_pos

instance ringRd_payload_storable (g : GSem nD τ sig) (r : ℕ) (d : Bool) :
    BI.Storable (upEmb : UEmb _ 𝕄) ((ringRd (F := F) m).payload g r d) := by
  show BI.Storable upEmb (match g.2 with
    | .reg _ => if d then barPayL g.1.1 else barPayR g.1.1
    | .dma s => dmaPay m g.1.1 (s.val - 4))
  cases g.2 with
  | reg _ => dsimp only; unfold barPayL barPayR; split <;> infer_instance
  | dma s => dsimp only; unfold dmaPay; split <;> infer_instance

section Sched
variable (c : Dev nD)

theorem duties_bar : (ringRd (F := F) m).duties (barCell c) 0 = Finset.univ := by
  dsimp only [ringRd]; rw [if_pos ⟨rfl, rfl⟩, if_pos rfl]
theorem duties_dma (i : Fin 24) : (ringRd (F := F) m).duties (dcell c i) 0 = {false} := by
  dsimp only [ringRd]; rw [if_pos ⟨rfl, rfl⟩, if_pos (Nat.le_add_right 4 i.val)]
theorem duties_later (g : GSem nD τ sig) : ∀ r, 1 ≤ r → (ringRd (F := F) m).duties g r = ∅ :=
  fun r hr => by dsimp only [ringRd]; rw [if_neg fun h => by omega]

theorem amount_bar (d : Bool) : (ringRd (F := F) m).amount (barCell c) 0 d = 1 := rfl
theorem amount_dma (i : Fin 24) (d : Bool) : (ringRd (F := F) m).amount (dcell c i) 0 d = N := rfl

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (i : Fin 24) : (ringRd (F := F) m).expect (dcell c i) 0 = N := by
  unfold Schedule.expect Schedule.amountOf; rw [duties_dma, Finset.sum_singleton, amount_dma]

theorem payload_bar_true : (ringRd (F := F) m).payload (barCell c) 0 true = barPayL c := rfl
theorem payload_bar_false : (ringRd (F := F) m).payload (barCell c) 0 false = barPayR c := rfl
theorem payload_dma (i : Fin 24) (d : Bool) : (ringRd (F := F) m).payload (dcell c i) 0 d = dmaPay m c i.val := by
  show dmaPay m c (4 + i.val - 4) = _; rw [Nat.add_sub_cancel_left]

/-- The whole of the barrier cell's round: what both neighbours hand over. -/
theorem rest_bar : bigSep ((ringRd (F := F) m).duties (barCell c) 0 \ ∅) (fun d => (ringRd (F := F) m).payload (barCell c) 0 d) = iprop(barPayR c ∗ barPayL c) := by
  rw [Finset.sdiff_empty, duties_bar, bigSep_univ_eq_bigSepL [false, true] (by decide) (by decide), bigSepL_cons_cons, bigSepL_singleton,
    payload_bar_false, payload_bar_true]
  rfl
theorem rest_dma (i : Fin 24) : bigSep ((ringRd (F := F) m).duties (dcell c i) 0 \ ∅) (fun d => (ringRd (F := F) m).payload (dcell c i) 0 d) = dmaPay m c i.val := by
  rw [Finset.sdiff_empty, duties_dma, bigSep_singleton, payload_dma]

end Sched

end Cert.KernelProof

end
-- ==== Proof.Bits.Steps.lean ====
/-
  The rules of the rounds discipline at this kernel's cells: what each device owes, the levels that order the waits, the
  persistent records every device reads, and one lemma each for a remote copy of a half-chunk and for a wait on one of a
  device's transfer cells.
-/
import proofs.«900459_g7700000000000460_dist_mlp2_tp_i_m768_h1536_out768_v7x_i4_f32_1_alg».proof.Proof.Bits.Proto

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device owes -/

/-- The receive cells device `c`'s twelve copies pay, in program order. -/
def payCells (c : Dev nD) : List (GSem nD τ sig) :=
  [dcell (prv c) 10, dcell (nxt c) 11, dcell (nxt c) 6, dcell (prv c) 8, dcell (nxt c) 9, dcell (prv c) 7,
   dcell (nxt c) 20, dcell (prv c) 18, dcell (nxt c) 21, dcell (prv c) 19, dcell (prv c) 23, dcell (nxt c) 22]

/-- A half-chunk's credit on each cell of a list (the last cell of the list outermost). -/
def owedL (l : List (GSem nD τ sig)) : CellTallies nD τ sig Unit := l.foldr (fun g acc => acc + tallyAt g () N) 0

/-- What `c` owes once its first `n` copies are under way. -/
def Ofrom (c : Dev nD) (n : ℕ) : CellTallies nD τ sig Unit := owedL ((payCells c).drop n)

/-- At launch: the twelve copies, a unit to the right neighbour's barrier cell and a unit to the left one's (the first
    signal, to the left, peels the last summand). -/
def O₁ (c : Dev nD) : CellTallies nD τ sig Unit := Ofrom c 0 + tallyAt (barCell (nxt c)) () 1
def O₀ (c : Dev nD) : CellTallies nD τ sig Unit := O₁ c + tallyAt (barCell (prv c)) () 1

theorem owedL_pos {l : List (GSem nD τ sig)} {g : GSem nD τ sig} {u : Unit} (h : 0 < owedL l g u) : g ∈ l := by
  induction l with
  | nil => exact absurd h (Nat.lt_irrefl 0)
  | cons a l ih =>
    rcases Pipeline.add_pos_cases (show 0 < (owedL l + tallyAt a () N) g u from h) with h' | h'
    · exact List.mem_cons_of_mem _ (ih h')
    · rw [tallyAt_apply] at h'
      by_cases e : g = a ∧ u = ()
      · rw [e.1]; exact List.mem_cons_self
      · rw [if_neg e] at h'; exact absurd h' (Nat.lt_irrefl 0)

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The receive cells in the order a device waits on them; the barrier cell below them all; everything else (staging and
    send cells, waited while owing nothing that matters) at the bottom. -/
def lvl : SemLoc sig → ℕ
  | .reg _ => 1
  | .dma s => match s.val with
    | 15 => 2 | 14 => 3 | 10 => 4 | 11 => 5 | 12 => 6 | 13 => 7
    | 23 => 8 | 24 => 9 | 22 => 10 | 25 => 10 | 27 => 11 | 26 => 12
    | _ => 0
def lv (g : GSem nD τ sig) (_ : Unit) : ℕ := lvl g.2

omit [FloatOps F] in
/-- A wait on `sm` is allowed while owing the copies from the `n`-th on, when `sm` lies below all their cells. -/
theorem mayWait_from (c : Dev nD) (sm : SemLoc sig) (n : ℕ)
    (h : ∀ g ∈ (payCells c).drop n, g.1.2 = .tc ∧ lvl sm < lvl g.2) :
    (levAts L lv : sProp 𝕄) ⊢ MayWait (c : Thread nD τ) sm () (Ofrom c n) :=
  Pipeline.mayWait_of_levAts (by rw [L_tc]; exact Finset.mem_singleton_self _) fun g u hg => by
    have hm := h g (owedL_pos hg)
    exact ⟨by unfold L; rw [if_pos hm.1]; exact Finset.mem_singleton_self _, hm.2⟩

/-! ## The records every device reads -/

/-- The cells of device `c`: the barrier cell, then the 24 transfer cells. -/
abbrev kcell (ck : Dev nD × Fin 25) : GSem nD τ sig := Fin.cases (barCell ck.1) (fun i => dcell ck.1 i) ck.2

/-- Every cell's invariant at its name, and that its round 0 is reached. -/
def records (K : Dev nD × Fin 25 → ℕ) : sProp 𝕄 :=
  iprop((bigSep Finset.univ fun ck : Dev nD × Fin 25 => cellInv ER (ringRd m) (K ck) (kcell ck))
    ∗ bigSep Finset.univ fun ck : Dev nD × Fin 25 => reached ER (kcell ck) 0)

instance records_persistent (K : Dev nD × Fin 25 → ℕ) : BI.Persistent (records m K) := by unfold records; infer_instance

theorem inv_at (K : Dev nD × Fin 25 → ℕ) (ck : Dev nD × Fin 25) : records m K ⊢ cellInv ER (ringRd m) (K ck) (kcell ck) := by
  unfold records; iintro ⟨H, -⟩
  iapply (show (bigSep Finset.univ fun ck : Dev nD × Fin 25 => (cellInv ER (ringRd m) (K ck) (kcell ck) : sProp 𝕄)) ⊢ cellInv ER (ringRd m) (K ck) (kcell ck) from
    bigSep_elim (Finset.mem_univ ck)) $$ H
omit [FloatOps F] in
theorem reached_at (ck : Dev nD × Fin 25) :
    (bigSep Finset.univ fun ck : Dev nD × Fin 25 => (reached ER (kcell ck) 0 : sProp 𝕄)) ⊢ reached ER (kcell ck) 0 :=
  bigSep_elim (Finset.mem_univ ck)
theorem inv_bar (K : Dev nD × Fin 25 → ℕ) (c : Dev nD) : records m K ⊢ cellInv ER (ringRd m) (K (c, 0)) (barCell c) := inv_at m K (c, 0)
theorem inv_dma (K : Dev nD × Fin 25 → ℕ) (c : Dev nD) (i : Fin 24) : records m K ⊢ cellInv ER (ringRd m) (K (c, i.succ)) (dcell c i) := inv_at m K (c, i.succ)
theorem reached_bar (K : Dev nD × Fin 25 → ℕ) (c : Dev nD) : records m K ⊢ reached ER (barCell c) 0 := by
  unfold records; iintro ⟨-, H⟩; iapply (reached_at (F := F) (c, 0)) $$ H
theorem reached_dma (K : Dev nD × Fin 25 → ℕ) (c : Dev nD) (i : Fin 24) : records m K ⊢ reached ER (dcell c i) 0 := by
  unfold records; iintro ⟨-, H⟩; iapply (reached_at (F := F) (c, i.succ)) $$ H

abbrev 𝒱₀ : Variants := Variants.none

/-! ## A remote copy of a half-chunk -/

set_option maxHeartbeats 1600000 in
/-- Device `c` copies the window `src` (held at share `q`, reading `V`) into device `t`'s window `dst`: its send cell
    `is` and `t`'s receive cell `ir` are paid, the source comes back with the first, the destination holding `V` with
    the second. -/
theorem wp_copy (K : Dev nD × Fin 25 → ℕ) (c t t' : Dev nD) (ht : t' = t) (is ir : Fin 24) (sS sR : DmaSem sig) (hS : sS = dsem is) (hR : sR = dsem ir)
    {src dst : Memref sig .tc .vmem S96x768 .bf16} {hsc : (dst : Memref sig (Dev.tc t' : Thread nD τ).2.kind .vmem S96x768 .bf16).view.ref.isScScratch = false}
    {hsrc : src.view.WordExact} {hdst : dst.view.WordExact}
    {hsem : DmaTarget.Typed .vmem (.dma sR) (.remote (Dev.tc t' : Thread nD τ) dst (.dma sS) hsc)}
    {α : Type} {Q : α → sProp 𝕄} {k : PUnit → Prog (TpuEff nD τ sig (Elt F) Λ₀ .tc) α}
    (q : PosShare TreeShare) (V : FVec F S96x768 .bf16)
    (fs : Buf (Elt F) (src.view.loc (c : Thread nD τ))) (fd : Buf (Elt F) (dst.view.loc (t : Thread nD τ)))
    (O : CellTallies nD τ sig Unit) (W : Waits sig Unit)
    (hN : dst.view.amount (.dma (dsem ir)) = N)
    (hV : src.view.read (Elt F) fs = V)
    (hp₁ : dmaPay m c is.val = slot c src q V) (hp₂ : dmaPay m t ir.val = slot t dst fullShare V) :
    iprop(records m K
        ∗ (src.view.loc (c : Thread nD τ) ↦[src.view.set]{q} fs) ∗ (dst.view.loc (t : Thread nD τ) ↦[dst.view.set]{fullShare} fd)
        ∗ owes (c : Thread nD τ) (O + tallyAt (dcell t ir) () N) W
        ∗ dutyTok ER (dcell c is) 0 false ∗ dutyTok ER (dcell t ir) 0 false)
      ⊢ iprop(((cred (tallyAt (dcell c is) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t' : Thread nD τ) dst (.dma sS) hsc) (.dma sR) hsrc hdst hsem) k) Q) := by
  subst ht hS hR
  iintro ⟨#HR, Hs, Hd, HO, Ht₁, Ht₂⟩
  iapply (Rounds.wp_send_pointsTo 𝒱₀ ER (ringRd m) (c : Thread nD τ) none (c' := (t' : Thread nD τ)) (src := src) (dst := dst) (sS := .dma (dsem is)) (sem := .dma (dsem ir)) (κ₁ := K (c, is.succ)) (κ₂ := K (t', ir.succ))
    (r₁ := 0) (r₂ := 0) (d₁ := false) (d₂ := false) (fd := fd) (fs := fs) (q := q)
    (by rw [duties_dma]; exact Finset.mem_singleton_self _) (by rw [duties_dma]; exact Finset.mem_singleton_self _)
    () () N hN (amount_dma m c is false) (amount_dma m t' ir false) O rfl (W := W)
    (by rw [payload_dma, hp₁]; unfold slot; iintro H; iexists fs; isplitr; · ipureintro; exact hV
        iexact H)
    (by rw [payload_dma, hp₂]; unfold slot; iintro H
        iexists (dst.view.write (Elt F) fd (src.view.read (Elt F) fs) Finset.univ)
        isplitr; · (ipureintro; exact (View.read_write_univ _ _).trans hV)
        iexact H)) $$ [Hs Hd HO Ht₁ Ht₂]
  isplitr; · iapply (inv_dma m K c is); iexact HR
  isplitr; · iapply (inv_dma m K t' ir); iexact HR
  isplitl [Hs]; · iexact Hs
  isplitl [Hd]; · iexact Hd
  isplitl [HO]; · iexact HO
  isplitl [Ht₁]; · iexact Ht₁
  isplitr; · iapply (reached_dma m K c is); iexact HR
  isplitl [Ht₂]; · iexact Ht₂
  iapply (reached_dma m K t' ir); iexact HR

/-! ## A wait on one of a device's transfer cells -/

set_option maxHeartbeats 1600000 in
/-- Device `c` waits for the one landing of its cell `i`: what the landing hands it comes back. -/
theorem wp_await (K : Dev nD × Fin 25 → ℕ) (c : Dev nD) (i : Fin 24) (s : DmaSem sig) (hs : s = dsem i)
    {src dst : Memref sig .tc .vmem S96x768 .bf16} {hsrc : src.view.WordExact} {hdst : dst.view.WordExact}
    {α : Type} {Q : α → sProp 𝕄} {k : PUnit → Prog (TpuEff nD τ sig (Elt F) Λ₀ .tc) α}
    (O : CellTallies nD τ sig Unit) (W : Waits sig Unit) (hN : dst.view.dmaCredit = N) :
    iprop(records m K ∗ cred (tallyAt (dcell c i) () N) ∗ owes (c : Thread nD τ) O W
        ∗ MayWait (c : Thread nD τ) (.dma (dsem i)) () O ∗ atPos ER (dcell c i) 0 ∅ 0)
      ⊢ iprop(((owes (c : Thread nD τ) O (insert (SemLoc.dma (dsem i), ()) W) ∗ atPos ER (dcell c i) 1 ∅ 0 ∗ dmaPay m c i.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  iintro ⟨#HR, Hc, HO, Hmw, Hat⟩ Hk
  iapply (Rounds.wp_wait_rest_token 𝒱₀ ER (ringRd m) (c : Thread nD τ) none (κ := K (c, i.succ))
      (wpE_waitDma2_eq 𝒱₀ (c : Thread nD τ) none Set.univ) (Set.mem_univ _) () (O := O) (W := W) (R := 0) (m := 0) (T := ∅)
      (by rw [Nat.zero_add, expect_dma, hN])) $$ [Hc HO Hmw Hat]
  · isplitr; · iapply (inv_dma m K c i); iexact HR
    isplitl [Hc]; · rw [hN]; iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_dma m c i)); iexact Hpay

end Cert.KernelProof

end
-- ==== Proof.Bits.OutAll.lean ====
/-
  The finished result as one array: row `ρ` of the [768, 768] result lies in chunk `ρ / 192`, half `ρ % 192 / 96`, at row
  `ρ % 96` of that half-chunk.
-/
import proofs.«900459_g7700000000000460_dist_mlp2_tp_i_m768_h1536_out768_v7x_i4_f32_1_alg».proof.Proof.Bits.Vals

noncomputable section

namespace Cert.Kernel.Vals

open Cert.Kernel Idealize.ShloMosaic

variable {F : FTy → Type} [FloatOps F]

/-- The [768, 768] array whose half-chunk `(k, j)` is `V k j`. -/
def outAll (V : Dev nD → Fin 2 → FVec F S96x768 .bf16) : Vec F S768x768 .bf16 := fun i =>
  V ⟨(i 0).val / 192, by have h : (i 0).val < 768 := (i 0).isLt; show (i 0).val / 192 < 4; omega⟩ ⟨(i 0).val % 192 / 96, by omega⟩
    (ValueIdx.ix2 ⟨(i 0).val % 96, Nat.mod_lt _ (by decide)⟩ ⟨(i 1).val, (i 1).isLt⟩)

end Cert.Kernel.Vals

end
-- ==== Proof.Bits.Ghost.lean ====
/-
  What each device holds between the launch and the end of its kernel: the ghost state of the protocol it starts from, the
  pipeline's proof data (what each window's staging buffer holds after the body) and the assertions before and after the
  one grid point.
-/
import proofs.«900459_g7700000000000460_dist_mlp2_tp_i_m768_h1536_out768_v7x_i4_f32_1_alg».proof.Proof.Bits.Steps
import proofs.«900459_g7700000000000460_dist_mlp2_tp_i_m768_h1536_out768_v7x_i4_f32_1_alg».proof.Proof.Bits.OutAll

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state a device starts from -/

/-- A device's send cells and its receive cells, by index among its 24 transfer cells. -/
def sendIdx : List (Fin 24) := [0, 1, 2, 3, 4, 5, 12, 13, 14, 15, 16, 17]
def recvIdx : List (Fin 24) := [6, 7, 8, 9, 10, 11, 18, 19, 20, 21, 22, 23]

/-- The tokens of the duties device `c` pays: the left neighbour's barrier duty `false` (`c` is its right neighbour), the
    right neighbour's barrier duty `true`, its own twelve send duties, and the twelve receive duties its copies pay. -/
def payToks (c : Dev nD) : sProp 𝕄 :=
  iprop(dutyTok ER (barCell (prv c)) 0 false ∗ dutyTok ER (barCell (nxt c)) 0 true
    ∗ bigSepL sendIdx (fun i => dutyTok ER (dcell c i) 0 false) ∗ bigSepL (payCells c) (fun g => dutyTok ER g 0 false))

/-- Its positions: round 0 of each of its own 25 cells, nothing consumed. -/
def positions (c : Dev nD) : sProp 𝕄 :=
  iprop(atPos ER (barCell c) 0 ∅ 0 ∗ bigSep Finset.univ fun i : Fin 24 => atPos ER (dcell c i) 0 ∅ 0)

def ghost (K : Dev nD × Fin 25 → ℕ) (c : Dev nD) : sProp 𝕄 := iprop(records m K ∗ positions c ∗ payToks c)

/-- The credit of its twelve receive cells. -/
def recvCreds (c : Dev nD) : sProp 𝕄 := bigSepL recvIdx fun i => cred (tallyAt (dcell c i) () N)

/-- What device `c`'s body starts from, beside the buffers. -/
def start (c : Dev nD) : sProp 𝕄 :=
  iprop((∃ K, ghost m K c) ∗ cred (tallyAt (barCell c) () 2) ∗ recvCreds c ∗ levAts L lv)

/-! ## The pipeline's proof data -/

/-- The finished result: half-chunk `(k, j)` as device `k` computed it. -/
def outV : Vec F S768x768 .bf16 := outAll (outHalf (Xin m) (W1in m) (W2in m))

/-- Before the point: the start state and the seven scratch buffers at some contents. -/
def Φ₀ (c : Dev nD) : sProp 𝕄 := iprop(start m c ∗ Pipeline.scopedRest cfg0.spec c)
/-- After it: the scratch buffers again, the 24 transfer cells closed at zero. -/
def Φ₁ (c : Dev nD) : sProp 𝕄 :=
  iprop(Pipeline.scopedRest cfg0.spec c ∗ bigSep Finset.univ fun i : Fin 24 => semVal (dcell c i) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xin m c
    | ⟨1, _⟩ => W1in m c
    | ⟨2, _⟩ => W2in m c
    | ⟨3, _⟩ => outV m
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelProof

end
-- ==== Proof.Bits.Geom.lean ====
/-
  The geometry of the kernel's buffers, at any float instance: which elements of a scratch buffer each half-chunk window
  covers, that the windows of one buffer are pairwise disjoint and together make up the buffer, which window a load or a
  store through a rectangle of the buffer falls in, and what a window reads after such a store. Every index set is
  described by coordinates: an index of a buffer of shape `[n₀, n₁, n₂]` is in the unit-stride rectangle at offsets
  `o` of sizes `z` exactly when `oₐ ≤ iₐ < oₐ + zₐ` on each axis.
-/
import proofs.«900459_g7700000000000460_dist_mlp2_tp_i_m768_h1536_out768_v7x_i4_f32_1_alg».proof.Proof.Bits.Proto
import proofs.«900459_g7700000000000460_dist_mlp2_tp_i_m768_h1536_out768_v7x_i4_f32_1_alg».proof.Proof.Bits.OutAll

noncomputable section

namespace Cert.KernelProof

open Cert.Kernel Cert.Kernel.Gen Cert.Kernel.Vals

open Idealize.ShloMosaic
open Idealize.ShloMosaic.TcCoe
open Idealize.ShloMosaic.ValueIdx (ix2)

variable {F : FTy → Type} [FloatOps F]

/-! ## Whole buffers

  A load through the rectangle of a buffer's own sizes at zero offsets reads the buffer's contents, and an unmasked
  store through it leaves the payload. -/

theorem zero2 : (![0, 0] : Fin 2 → Nat) = fun _ => 0 := by
  funext a; match a with | ⟨0, _⟩ => rfl | ⟨1, _⟩ => rfl

theorem xM_readAt (f : xM.view.ty.Contents (Elt F)) :
    xM.view.readAt (Elt F) (Rect.unit (s := S768x768) ![0, 0] S768x768.size inb_S768x768_S768x768_0_0).toLoadRect f = f :=
  Memref.readAt_unit_zero (Elt F) cc0_stg0_0 zero2 _ f
theorem w1M_readAt (f : w1M.view.ty.Contents (Elt F)) :
    w1M.view.readAt (Elt F) (Rect.unit (s := S768x1536) ![0, 0] S768x1536.size inb_S768x1536_S768x1536_0_0).toLoadRect f = f :=
  Memref.readAt_unit_zero (Elt F) cc0_stg1_0 zero2 _ f
theorem w2M_readAt (f : w2M.view.ty.Contents (Elt F)) :
    w2M.view.readAt (Elt F) (Rect.unit (s := S1536x768) ![0, 0] S1536x768.size inb_S1536x768_S1536x768_0_0).toLoadRect f = f :=
  Memref.readAt_unit_zero (Elt F) cc0_stg2_0 zero2 _ f
theorem xbM_readAt (f : xbM.view.ty.Contents (Elt F)) :
    xbM.view.readAt (Elt F) (Rect.unit (s := S768x768) ![0, 0] S768x768.size inb_S768x768_S768x768_0_0).toLoadRect f = f :=
  Memref.readAt_unit_zero (Elt F) cc0_scratch4 zero2 _ f
theorem w1bM_readAt (f : w1bM.view.ty.Contents (Elt F)) :
    w1bM.view.readAt (Elt F) (Rect.unit (s := S768x1536) ![0, 0] S768x1536.size inb_S768x1536_S768x1536_0_0).toLoadRect f = f :=
  Memref.readAt_unit_zero (Elt F) cc0_scratch5 zero2 _ f
theorem w2bM_readAt (f : w2bM.view.ty.Contents (Elt F)) :
    w2bM.view.readAt (Elt F) (Rect.unit (s := S1536x768) ![0, 0] S1536x768.size inb_S1536x768_S1536x768_0_0).toLoadRect f = f :=
  Memref.readAt_unit_zero (Elt F) cc0_scratch6 zero2 _ f

theorem xbM_write (f w : xbM.view.ty.Contents (Elt F)) :
    (xbM.access (Rect.unit (s := S768x768) ![0, 0] S768x768.size inb_S768x768_S768x768_0_0)).write (Elt F) f w Finset.univ = w :=
  Memref.write_access_unit_zero_univ (Elt F) cc0_scratch4 zero2 _ f w
theorem w1bM_write (f w : w1bM.view.ty.Contents (Elt F)) :
    (w1bM.access (Rect.unit (s := S768x1536) ![0, 0] S768x1536.size inb_S768x1536_S768x1536_0_0)).write (Elt F) f w Finset.univ = w :=
  Memref.write_access_unit_zero_univ (Elt F) cc0_scratch5 zero2 _ f w
theorem w2bM_write (f w : w2bM.view.ty.Contents (Elt F)) :
    (w2bM.access (Rect.unit (s := S1536x768) ![0, 0] S1536x768.size inb_S1536x768_S1536x768_0_0)).write (Elt F) f w Finset.univ = w :=
  Memref.write_access_unit_zero_univ (Elt F) cc0_scratch6 zero2 _ f w

/-- The whole-buffer rectangle's elements are all of them (what a whole load reads and a whole store touches). -/
theorem xbM_setOn : (xbM.access (Rect.unit (s := S768x768) ![0, 0] S768x768.size inb_S768x768_S768x768_0_0)).setOn Finset.univ ⊆ xbM.view.set :=
  View.set_slice_subset _ _
theorem w1bM_setOn : (w1bM.access (Rect.unit (s := S768x1536) ![0, 0] S768x1536.size inb_S768x1536_S768x1536_0_0)).setOn Finset.univ ⊆ w1bM.view.set :=
  View.set_slice_subset _ _
theorem w2bM_setOn : (w2bM.access (Rect.unit (s := S1536x768) ![0, 0] S1536x768.size inb_S1536x768_S1536x768_0_0)).setOn Finset.univ ⊆ w2bM.view.set :=
  View.set_slice_subset _ _

/-! ## A slot's load is the window's read; a landed copy is read back

  The window of a slot is the squeeze of the slice of the buffer at the slot's rectangle, so what it reads is the
  vector a load through the buffer at that rectangle reads, with the unit axis dropped. -/

theorem rs0_load (f : rsM.view.ty.Contents (Elt F)) :
    shapeCast S96x768 (rsM.view.readAt (Elt F) (Rect.unit (s := S4x96x768) ![0, 0, 0] S1x96x768.size inb_S4x96x768_S1x96x768_0_0_0).toLoadRect f) shapeCasts_S1x96x768_S96x768
      = rs0.view.read (Elt F) f := rfl
theorem rs1_load (f : rsM.view.ty.Contents (Elt F)) :
    shapeCast S96x768 (rsM.view.readAt (Elt F) (Rect.unit (s := S4x96x768) ![1, 0, 0] S1x96x768.size inb_S4x96x768_S1x96x768_1_0_0).toLoadRect f) shapeCasts_S1x96x768_S96x768
      = rs1.view.read (Elt F) f := rfl
theorem rs2_load (f : rsM.view.ty.Contents (Elt F)) :
    shapeCast S96x768 (rsM.view.readAt (Elt F) (Rect.unit (s := S4x96x768) ![2, 0, 0] S1x96x768.size inb_S4x96x768_S1x96x768_2_0_0).toLoadRect f) shapeCasts_S1x96x768_S96x768
      = rs2.view.read (Elt F) f := rfl
theorem rs3_load (f : rsM.view.ty.Contents (Elt F)) :
    shapeCast S96x768 (rsM.view.readAt (Elt F) (Rect.unit (s := S4x96x768) ![3, 0, 0] S1x96x768.size inb_S4x96x768_S1x96x768_3_0_0).toLoadRect f) shapeCasts_S1x96x768_S96x768
      = rs3.view.read (Elt F) f := rfl
theorem rl0_load (f : rlM.view.ty.Contents (Elt F)) :
    shapeCast S96x768 (rlM.view.readAt (Elt F) (Rect.unit (s := S2x96x768) ![0, 0, 0] S1x96x768.size inb_S2x96x768_S1x96x768_0_0_0).toLoadRect f) shapeCasts_S1x96x768_S96x768
      = rl0.view.read (Elt F) f := rfl
theorem rl1_load (f : rlM.view.ty.Contents (Elt F)) :
    shapeCast S96x768 (rlM.view.readAt (Elt F) (Rect.unit (s := S2x96x768) ![1, 0, 0] S1x96x768.size inb_S2x96x768_S1x96x768_1_0_0).toLoadRect f) shapeCasts_S1x96x768_S96x768
      = rl1.view.read (Elt F) f := rfl
theorem cb0_load (f : cbM.view.ty.Contents (Elt F)) :
    shapeCast S96x768 (cbM.view.readAt (Elt F) (Rect.unit (s := S2x96x768) ![0, 0, 0] S1x96x768.size inb_S2x96x768_S1x96x768_0_0_0).toLoadRect f) shapeCasts_S1x96x768_S96x768
      = cb0.view.read (Elt F) f := rfl
theorem cb1_load (f : cbM.view.ty.Contents (Elt F)) :
    shapeCast S96x768 (cbM.view.readAt (Elt F) (Rect.unit (s := S2x96x768) ![1, 0, 0] S1x96x768.size inb_S2x96x768_S1x96x768_1_0_0).toLoadRect f) shapeCasts_S1x96x768_S96x768
      = cb1.view.read (Elt F) f := rfl
theorem sb00_load (f : sbM.view.ty.Contents (Elt F)) :
    shapeCast S96x768 (sbM.view.readAt (Elt F) (Rect.unit (s := S3x192x768) ![0, 0, 0] S1x96x768.size inb_S3x192x768_S1x96x768_0_0_0).toLoadRect f) shapeCasts_S1x96x768_S96x768
      = sb00.view.read (Elt F) f := rfl
theorem sb01_load (f : sbM.view.ty.Contents (Elt F)) :
    shapeCast S96x768 (sbM.view.readAt (Elt F) (Rect.unit (s := S3x192x768) ![0, 96, 0] S1x96x768.size inb_S3x192x768_S1x96x768_0_96_0).toLoadRect f) shapeCasts_S1x96x768_S96x768
      = sb01.view.read (Elt F) f := rfl
theorem sb10_load (f : sbM.view.ty.Contents (Elt F)) :
    shapeCast S96x768 (sbM.view.readAt (Elt F) (Rect.unit (s := S3x192x768) ![1, 0, 0] S1x96x768.size inb_S3x192x768_S1x96x768_1_0_0).toLoadRect f) shapeCasts_S1x96x768_S96x768
      = sb10.view.read (Elt F) f := rfl
theorem sb11_load (f : sbM.view.ty.Contents (Elt F)) :
    shapeCast S96x768 (sbM.view.readAt (Elt F) (Rect.unit (s := S3x192x768) ![1, 96, 0] S1x96x768.size inb_S3x192x768_S1x96x768_1_96_0).toLoadRect f) shapeCasts_S1x96x768_S96x768
      = sb11.view.read (Elt F) f := rfl
theorem sb20_load (f : sbM.view.ty.Contents (Elt F)) :
    shapeCast S96x768 (sbM.view.readAt (Elt F) (Rect.unit (s := S3x192x768) ![2, 0, 0] S1x96x768.size inb_S3x192x768_S1x96x768_2_0_0).toLoadRect f) shapeCasts_S1x96x768_S96x768
      = sb20.view.read (Elt F) f := rfl
theorem sb21_load (f : sbM.view.ty.Contents (Elt F)) :
    shapeCast S96x768 (sbM.view.readAt (Elt F) (Rect.unit (s := S3x192x768) ![2, 96, 0] S1x96x768.size inb_S3x192x768_S1x96x768_2_96_0).toLoadRect f) shapeCasts_S1x96x768_S96x768
      = sb21.view.read (Elt F) f := rfl

/-- What was copied into a window, unmasked, is what the window then reads. -/
theorem win_read_write (dst : Memref sig .tc .vmem S96x768 .bf16) (fd : dst.view.ty.Contents (Elt F)) (v : FVec F S96x768 .bf16) :
    dst.view.read (Elt F) (dst.view.write (Elt F) fd v Finset.univ) = v :=
  View.read_write_univ fd v

/-! ## Index sets by coordinates -/

/-- The window of a whole buffer at a rectangle (the squeeze of the buffer's slice there) covers the rectangle's indices. -/
theorem win_set {κ : Kind} (b : Ref sig κ) (r : Rect b.ty.shape) (hr : ∀ a, r.stride a = 1) (s' : Shape)
    (hq : r.shape.Squeezes s') : (((Memref.whole b).slice r hr).squeeze s' hq).view.set = r.set := by
  rw [Memref.set_view_squeeze]; exact View.set_slice_whole b r

theorem mem_win {κ : Kind} (b : Ref sig κ) (r : Rect b.ty.shape) (hr : ∀ a, r.stride a = 1) (s' : Shape)
    (hq : r.shape.Squeezes s') (i : b.ty.shape.Idx) :
    i ∈ (((Memref.whole b).slice r hr).squeeze s' hq).view.set ↔ i ∈ r.set := by rw [win_set]

/-- An index of a rank-3 shape is in the unit-stride rectangle at offsets `o` of sizes `z` exactly when each of its
    coordinates is in `[oₐ, oₐ + zₐ)`. -/
theorem mem_unit3 {d : Fin 3 → Nat} (o0 o1 o2 z0 z1 z2 : Nat)
    (inb : ∀ a, (![o0, o1, o2] : Fin 3 → Nat) a + (![z0, z1, z2] : Fin 3 → Nat) a ≤ (⟨3, d⟩ : Shape).size a)
    (i : (⟨3, d⟩ : Shape).Idx) :
    i ∈ (Rect.unit (s := ⟨3, d⟩) ![o0, o1, o2] ![z0, z1, z2] inb).set ↔
      (o0 ≤ (i 0).val ∧ (i 0).val < o0 + z0) ∧ (o1 ≤ (i 1).val ∧ (i 1).val < o1 + z1) ∧ (o2 ≤ (i 2).val ∧ (i 2).val < o2 + z2) := by
  rw [Rect.mem_set_unit]
  exact ⟨fun h => ⟨h 0, h 1, h 2⟩, fun ⟨h0, h1, h2⟩ a => by
    match a with | ⟨0, _⟩ => exact h0 | ⟨1, _⟩ => exact h1 | ⟨2, _⟩ => exact h2⟩

/-- The same at rank 2. -/
theorem mem_unit2 {d : Fin 2 → Nat} (o0 o1 z0 z1 : Nat)
    (inb : ∀ a, (![o0, o1] : Fin 2 → Nat) a + (![z0, z1] : Fin 2 → Nat) a ≤ (⟨2, d⟩ : Shape).size a)
    (i : (⟨2, d⟩ : Shape).Idx) :
    i ∈ (Rect.unit (s := ⟨2, d⟩) ![o0, o1] ![z0, z1] inb).set ↔
      (o0 ≤ (i 0).val ∧ (i 0).val < o0 + z0) ∧ (o1 ≤ (i 1).val ∧ (i 1).val < o1 + z1) := by
  rw [Rect.mem_set_unit]
  exact ⟨fun h => ⟨h 0, h 1⟩, fun ⟨h0, h1⟩ a => by
    match a with | ⟨0, _⟩ => exact h0 | ⟨1, _⟩ => exact h1⟩

/-! ### Each window by coordinates: slot `k` on the leading axis, rows `h … h + 95` of the slot, every column -/

theorem mem_sb00 (i : S3x192x768.Idx) : i ∈ sb00.view.set ↔ (i 0).val = 0 ∧ 0 ≤ (i 1).val ∧ (i 1).val < 96 := by
  have h2 : (i 2).val < 768 := (i 2).isLt
  refine (mem_win cc0_scratch0 _ _ _ _ i).trans ((mem_unit3 0 0 0 1 96 768 inb_S3x192x768_S1x96x768_0_0_0 i).trans ?_)
  omega
theorem mem_sb01 (i : S3x192x768.Idx) : i ∈ sb01.view.set ↔ (i 0).val = 0 ∧ 96 ≤ (i 1).val ∧ (i 1).val < 192 := by
  have h2 : (i 2).val < 768 := (i 2).isLt
  refine (mem_win cc0_scratch0 _ _ _ _ i).trans ((mem_unit3 0 96 0 1 96 768 inb_S3x192x768_S1x96x768_0_96_0 i).trans ?_)
  omega
theorem mem_sb10 (i : S3x192x768.Idx) : i ∈ sb10.view.set ↔ (i 0).val = 1 ∧ 0 ≤ (i 1).val ∧ (i 1).val < 96 := by
  have h2 : (i 2).val < 768 := (i 2).isLt
  refine (mem_win cc0_scratch0 _ _ _ _ i).trans ((mem_unit3 1 0 0 1 96 768 inb_S3x192x768_S1x96x768_1_0_0 i).trans ?_)
  omega
theorem mem_sb11 (i : S3x192x768.Idx) : i ∈ sb11.view.set ↔ (i 0).val = 1 ∧ 96 ≤ (i 1).val ∧ (i 1).val < 192 := by
  have h2 : (i 2).val < 768 := (i 2).isLt
  refine (mem_win cc0_scratch0 _ _ _ _ i).trans ((mem_unit3 1 96 0 1 96 768 inb_S3x192x768_S1x96x768_1_96_0 i).trans ?_)
  omega
theorem mem_sb20 (i : S3x192x768.Idx) : i ∈ sb20.view.set ↔ (i 0).val = 2 ∧ 0 ≤ (i 1).val ∧ (i 1).val < 96 := by
  have h2 : (i 2).val < 768 := (i 2).isLt
  refine (mem_win cc0_scratch0 _ _ _ _ i).trans ((mem_unit3 2 0 0 1 96 768 inb_S3x192x768_S1x96x768_2_0_0 i).trans ?_)
  omega
theorem mem_sb21 (i : S3x192x768.Idx) : i ∈ sb21.view.set ↔ (i 0).val = 2 ∧ 96 ≤ (i 1).val ∧ (i 1).val < 192 := by
  have h2 : (i 2).val < 768 := (i 2).isLt
  refine (mem_win cc0_scratch0 _ _ _ _ i).trans ((mem_unit3 2 96 0 1 96 768 inb_S3x192x768_S1x96x768_2_96_0 i).trans ?_)
  omega
theorem mem_rs0 (i : S4x96x768.Idx) : i ∈ rs0.view.set ↔ (i 0).val = 0 ∧ 0 ≤ (i 1).val ∧ (i 1).val < 96 := by
  have h2 : (i 2).val < 768 := (i 2).isLt
  refine (mem_win cc0_scratch1 _ _ _ _ i).trans ((mem_unit3 0 0 0 1 96 768 inb_S4x96x768_S1x96x768_0_0_0 i).trans ?_)
  omega
theorem mem_rs1 (i : S4x96x768.Idx) : i ∈ rs1.view.set ↔ (i 0).val = 1 ∧ 0 ≤ (i 1).val ∧ (i 1).val < 96 := by
  have h2 : (i 2).val < 768 := (i 2).isLt
  refine (mem_win cc0_scratch1 _ _ _ _ i).trans ((mem_unit3 1 0 0 1 96 768 inb_S4x96x768_S1x96x768_1_0_0 i).trans ?_)
  omega
theorem mem_rs2 (i : S4x96x768.Idx) : i ∈ rs2.view.set ↔ (i 0).val = 2 ∧ 0 ≤ (i 1).val ∧ (i 1).val < 96 := by
  have h2 : (i 2).val < 768 := (i 2).isLt
  refine (mem_win cc0_scratch1 _ _ _ _ i).trans ((mem_unit3 2 0 0 1 96 768 inb_S4x96x768_S1x96x768_2_0_0 i).trans ?_)
  omega
theorem mem_rs3 (i : S4x96x768.Idx) : i ∈ rs3.view.set ↔ (i 0).val = 3 ∧ 0 ≤ (i 1).val ∧ (i 1).val < 96 := by
  have h2 : (i 2).val < 768 := (i 2).isLt
  refine (mem_win cc0_scratch1 _ _ _ _ i).trans ((mem_unit3 3 0 0 1 96 768 inb_S4x96x768_S1x96x768_3_0_0 i).trans ?_)
  omega
theorem mem_rl0 (i : S2x96x768.Idx) : i ∈ rl0.view.set ↔ (i 0).val = 0 ∧ 0 ≤ (i 1).val ∧ (i 1).val < 96 := by
  have h2 : (i 2).val < 768 := (i 2).isLt
  refine (mem_win cc0_scratch2 _ _ _ _ i).trans ((mem_unit3 0 0 0 1 96 768 inb_S2x96x768_S1x96x768_0_0_0 i).trans ?_)
  omega
theorem mem_rl1 (i : S2x96x768.Idx) : i ∈ rl1.view.set ↔ (i 0).val = 1 ∧ 0 ≤ (i 1).val ∧ (i 1).val < 96 := by
  have h2 : (i 2).val < 768 := (i 2).isLt
  refine (mem_win cc0_scratch2 _ _ _ _ i).trans ((mem_unit3 1 0 0 1 96 768 inb_S2x96x768_S1x96x768_1_0_0 i).trans ?_)
  omega
theorem mem_cb0 (i : S2x96x768.Idx) : i ∈ cb0.view.set ↔ (i 0).val = 0 ∧ 0 ≤ (i 1).val ∧ (i 1).val < 96 := by
  have h2 : (i 2).val < 768 := (i 2).isLt
  refine (mem_win cc0_scratch3 _ _ _ _ i).trans ((mem_unit3 0 0 0 1 96 768 inb_S2x96x768_S1x96x768_0_0_0 i).trans ?_)
  omega
theorem mem_cb1 (i : S2x96x768.Idx) : i ∈ cb1.view.set ↔ (i 0).val = 1 ∧ 0 ≤ (i 1).val ∧ (i 1).val < 96 := by
  have h2 : (i 2).val < 768 := (i 2).isLt
  refine (mem_win cc0_scratch3 _ _ _ _ i).trans ((mem_unit3 1 0 0 1 96 768 inb_S2x96x768_S1x96x768_1_0_0 i).trans ?_)
  omega

/-! ### The windows of one buffer are pairwise disjoint: two windows differ in the slot or in the half of the slot -/

theorem disj_sb00_sb01 : Disjoint sb00.view.set sb01.view.set :=
  Finset.disjoint_left.mpr fun i h1 h2 => by
    have h1 := (mem_sb00 i).mp h1; have h2 := (mem_sb01 i).mp h2; omega
theorem disj_sb00_sb10 : Disjoint sb00.view.set sb10.view.set :=
  Finset.disjoint_left.mpr fun i h1 h2 => by
    have h1 := (mem_sb00 i).mp h1; have h2 := (mem_sb10 i).mp h2; omega
theorem disj_sb00_sb11 : Disjoint sb00.view.set sb11.view.set :=
  Finset.disjoint_left.mpr fun i h1 h2 => by
    have h1 := (mem_sb00 i).mp h1; have h2 := (mem_sb11 i).mp h2; omega
theorem disj_sb00_sb20 : Disjoint sb00.view.set sb20.view.set :=
  Finset.disjoint_left.mpr fun i h1 h2 => by
    have h1 := (mem_sb00 i).mp h1; have h2 := (mem_sb20 i).mp h2; omega
theorem disj_sb00_sb21 : Disjoint sb00.view.set sb21.view.set :=
  Finset.disjoint_left.mpr fun i h1 h2 => by
    have h1 := (mem_sb00 i).mp h1; have h2 := (mem_sb21 i).mp h2; omega
theorem disj_sb01_sb10 : Disjoint sb01.view.set sb10.view.set :=
  Finset.disjoint_left.mpr fun i h1 h2 => by
    have h1 := (mem_sb01 i).mp h1; have h2 := (mem_sb10 i).mp h2; omega
theorem disj_sb01_sb11 : Disjoint sb01.view.set sb11.view.set :=
  Finset.disjoint_left.mpr fun i h1 h2 => by
    have h1 := (mem_sb01 i).mp h1; have h2 := (mem_sb11 i).mp h2; omega
theorem disj_sb01_sb20 : Disjoint sb01.view.set sb20.view.set :=
  Finset.disjoint_left.mpr fun i h1 h2 => by
    have h1 := (mem_sb01 i).mp h1; have h2 := (mem_sb20 i).mp h2; omega
theorem disj_sb01_sb21 : Disjoint sb01.view.set sb21.view.set :=
  Finset.disjoint_left.mpr fun i h1 h2 => by
    have h1 := (mem_sb01 i).mp h1; have h2 := (mem_sb21 i).mp h2; omega
theorem disj_sb10_sb11 : Disjoint sb10.view.set sb11.view.set :=
  Finset.disjoint_left.mpr fun i h1 h2 => by
    have h1 := (mem_sb10 i).mp h1; have h2 := (mem_sb11 i).mp h2; omega
theorem disj_sb10_sb20 : Disjoint sb10.view.set sb20.view.set :=
  Finset.disjoint_left.mpr fun i h1 h2 => by
    have h1 := (mem_sb10 i).mp h1; have h2 := (mem_sb20 i).mp h2; omega
theorem disj_sb10_sb21 : Disjoint sb10.view.set sb21.view.set :=
  Finset.disjoint_left.mpr fun i h1 h2 => by
    have h1 := (mem_sb10 i).mp h1; have h2 := (mem_sb21 i).mp h2; omega
theorem disj_sb11_sb20 : Disjoint sb11.view.set sb20.view.set :=
  Finset.disjoint_left.mpr fun i h1 h2 => by
    have h1 := (mem_sb11 i).mp h1; have h2 := (mem_sb20 i).mp h2; omega
theorem disj_sb11_sb21 : Disjoint sb11.view.set sb21.view.set :=
  Finset.disjoint_left.mpr fun i h1 h2 => by
    have h1 := (mem_sb11 i).mp h1; have h2 := (mem_sb21 i).mp h2; omega
theorem disj_sb20_sb21 : Disjoint sb20.view.set sb21.view.set :=
  Finset.disjoint_left.mpr fun i h1 h2 => by
    have h1 := (mem_sb20 i).mp h1; have h2 := (mem_sb21 i).mp h2; omega
theorem disj_rs0_rs1 : Disjoint rs0.view.set rs1.view.set :=
  Finset.disjoint_left.mpr fun i h1 h2 => by
    have h1 := (mem_rs0 i).mp h1; have h2 := (mem_rs1 i).mp h2; omega
theorem disj_rs0_rs2 : Disjoint rs0.view.set rs2.view.set :=
  Finset.disjoint_left.mpr fun i h1 h2 => by
    have h1 := (mem_rs0 i).mp h1; have h2 := (mem_rs2 i).mp h2; omega
theorem disj_rs0_rs3 : Disjoint rs0.view.set rs3.view.set :=
  Finset.disjoint_left.mpr fun i h1 h2 => by
    have h1 := (mem_rs0 i).mp h1; have h2 := (mem_rs3 i).mp h2; omega
theorem disj_rs1_rs2 : Disjoint rs1.view.set rs2.view.set :=
  Finset.disjoint_left.mpr fun i h1 h2 => by
    have h1 := (mem_rs1 i).mp h1; have h2 := (mem_rs2 i).mp h2; omega
theorem disj_rs1_rs3 : Disjoint rs1.view.set rs3.view.set :=
  Finset.disjoint_left.mpr fun i h1 h2 => by
    have h1 := (mem_rs1 i).mp h1; have h2 := (mem_rs3 i).mp h2; omega
theorem disj_rs2_rs3 : Disjoint rs2.view.set rs3.view.set :=
  Finset.disjoint_left.mpr fun i h1 h2 => by
    have h1 := (mem_rs2 i).mp h1; have h2 := (mem_rs3 i).mp h2; omega
theorem disj_rl0_rl1 : Disjoint rl0.view.set rl1.view.set :=
  Finset.disjoint_left.mpr fun i h1 h2 => by
    have h1 := (mem_rl0 i).mp h1; have h2 := (mem_rl1 i).mp h2; omega
theorem disj_cb0_cb1 : Disjoint cb0.view.set cb1.view.set :=
  Finset.disjoint_left.mpr fun i h1 h2 => by
    have h1 := (mem_cb0 i).mp h1; have h2 := (mem_cb1 i).mp h2; omega

/-! ### and together they are the whole buffer: every index has a slot and its row lies in one half -/

theorem sb_cover : (Finset.univ : Finset sbM.view.ty.Idx) = sb00.view.set ∪ sb01.view.set ∪ sb10.view.set ∪ sb11.view.set ∪ sb20.view.set ∪ sb21.view.set :=
  (Finset.eq_univ_of_forall fun i => by
    have h0 : ((i : S3x192x768.Idx) 0).val < 3 := (i 0).isLt
    have h1 : ((i : S3x192x768.Idx) 1).val < 192 := (i 1).isLt
    simp only [Finset.mem_union]
    rw [mem_sb00 i, mem_sb01 i, mem_sb10 i, mem_sb11 i, mem_sb20 i, mem_sb21 i]
    omega).symm
theorem rs_cover : (Finset.univ : Finset rsM.view.ty.Idx) = rs0.view.set ∪ rs1.view.set ∪ rs2.view.set ∪ rs3.view.set :=
  (Finset.eq_univ_of_forall fun i => by
    have h0 : ((i : S4x96x768.Idx) 0).val < 4 := (i 0).isLt
    have h1 : ((i : S4x96x768.Idx) 1).val < 96 := (i 1).isLt
    simp only [Finset.mem_union]
    rw [mem_rs0 i, mem_rs1 i, mem_rs2 i, mem_rs3 i]
    omega).symm
theorem rl_cover : (Finset.univ : Finset rlM.view.ty.Idx) = rl0.view.set ∪ rl1.view.set :=
  (Finset.eq_univ_of_forall fun i => by
    have h0 : ((i : S2x96x768.Idx) 0).val < 2 := (i 0).isLt
    have h1 : ((i : S2x96x768.Idx) 1).val < 96 := (i 1).isLt
    simp only [Finset.mem_union]
    rw [mem_rl0 i, mem_rl1 i]
    omega).symm
theorem cb_cover : (Finset.univ : Finset cbM.view.ty.Idx) = cb0.view.set ∪ cb1.view.set :=
  (Finset.eq_univ_of_forall fun i => by
    have h0 : ((i : S2x96x768.Idx) 0).val < 2 := (i 0).isLt
    have h1 : ((i : S2x96x768.Idx) 1).val < 96 := (i 1).isLt
    simp only [Finset.mem_union]
    rw [mem_cb0 i, mem_cb1 i]
    omega).symm

/-! ### What a store or a load through a rectangle of the buffer touches

  An access through a rectangle of a whole buffer touches the rectangle's indices. A slot of the send buffer is its
  two halves; a slot of the other buffers is one window. -/

theorem mem_access_whole {κ : Kind} (b : Ref sig κ) (r : Rect b.ty.shape) (i : b.ty.shape.Idx) :
    i ∈ ((Memref.whole b).access r).setOn Finset.univ ↔ i ∈ r.set := by
  rw [View.setOn_univ]
  show i ∈ ((View.whole b).slice r).set ↔ _
  rw [View.set_slice_whole]

theorem mem_load_whole {κ : Kind} (b : Ref sig κ) (r : LoadRect b.ty.shape) (i : b.ty.shape.Idx) :
    i ∈ (Memref.whole b).view.setOn r.set ↔ i ∈ r.set := by
  show i ∈ r.set.map (Function.Embedding.refl _) ↔ _
  rw [Finset.map_refl]

theorem sb_store0_sub :
    (sbM.access (Rect.unit (s := S3x192x768) ![0, 0, 0] S1x192x768.size inb_S3x192x768_S1x192x768_0_0_0)).setOn Finset.univ
      ⊆ sb00.view.set ∪ sb01.view.set := fun i hi => by
  have hi := (mem_unit3 0 0 0 1 192 768 inb_S3x192x768_S1x192x768_0_0_0 i).mp ((mem_access_whole cc0_scratch0 _ i).mp hi)
  refine Finset.mem_union.mpr ?_
  rw [mem_sb00 i, mem_sb01 i]
  omega
theorem sb_load0_sub :
    sbM.view.setOn (Rect.unit (s := S3x192x768) ![0, 0, 0] S1x192x768.size inb_S3x192x768_S1x192x768_0_0_0).toLoadRect.set
      ⊆ sb00.view.set ∪ sb01.view.set := fun i hi => by
  have hi := (mem_unit3 0 0 0 1 192 768 inb_S3x192x768_S1x192x768_0_0_0 i).mp ((mem_load_whole cc0_scratch0 _ i).mp hi)
  refine Finset.mem_union.mpr ?_
  rw [mem_sb00 i, mem_sb01 i]
  omega
theorem sb_store1_sub :
    (sbM.access (Rect.unit (s := S3x192x768) ![1, 0, 0] S1x192x768.size inb_S3x192x768_S1x192x768_1_0_0)).setOn Finset.univ
      ⊆ sb10.view.set ∪ sb11.view.set := fun i hi => by
  have hi := (mem_unit3 1 0 0 1 192 768 inb_S3x192x768_S1x192x768_1_0_0 i).mp ((mem_access_whole cc0_scratch0 _ i).mp hi)
  refine Finset.mem_union.mpr ?_
  rw [mem_sb10 i, mem_sb11 i]
  omega
theorem sb_load1_sub :
    sbM.view.setOn (Rect.unit (s := S3x192x768) ![1, 0, 0] S1x192x768.size inb_S3x192x768_S1x192x768_1_0_0).toLoadRect.set
      ⊆ sb10.view.set ∪ sb11.view.set := fun i hi => by
  have hi := (mem_unit3 1 0 0 1 192 768 inb_S3x192x768_S1x192x768_1_0_0 i).mp ((mem_load_whole cc0_scratch0 _ i).mp hi)
  refine Finset.mem_union.mpr ?_
  rw [mem_sb10 i, mem_sb11 i]
  omega
theorem sb_store2_sub :
    (sbM.access (Rect.unit (s := S3x192x768) ![2, 0, 0] S1x192x768.size inb_S3x192x768_S1x192x768_2_0_0)).setOn Finset.univ
      ⊆ sb20.view.set ∪ sb21.view.set := fun i hi => by
  have hi := (mem_unit3 2 0 0 1 192 768 inb_S3x192x768_S1x192x768_2_0_0 i).mp ((mem_access_whole cc0_scratch0 _ i).mp hi)
  refine Finset.mem_union.mpr ?_
  rw [mem_sb20 i, mem_sb21 i]
  omega
theorem sb_load2_sub :
    sbM.view.setOn (Rect.unit (s := S3x192x768) ![2, 0, 0] S1x192x768.size inb_S3x192x768_S1x192x768_2_0_0).toLoadRect.set
      ⊆ sb20.view.set ∪ sb21.view.set := fun i hi => by
  have hi := (mem_unit3 2 0 0 1 192 768 inb_S3x192x768_S1x192x768_2_0_0 i).mp ((mem_load_whole cc0_scratch0 _ i).mp hi)
  refine Finset.mem_union.mpr ?_
  rw [mem_sb20 i, mem_sb21 i]
  omega

theorem sb00_store_sub :
    (sbM.access (Rect.unit (s := S3x192x768) ![0, 0, 0] S1x96x768.size inb_S3x192x768_S1x96x768_0_0_0)).setOn Finset.univ ⊆ sb00.view.set :=
  fun i hi => (mem_win cc0_scratch0 _ _ _ _ i).mpr ((mem_access_whole cc0_scratch0 _ i).mp hi)
theorem sb01_store_sub :
    (sbM.access (Rect.unit (s := S3x192x768) ![0, 96, 0] S1x96x768.size inb_S3x192x768_S1x96x768_0_96_0)).setOn Finset.univ ⊆ sb01.view.set :=
  fun i hi => (mem_win cc0_scratch0 _ _ _ _ i).mpr ((mem_access_whole cc0_scratch0 _ i).mp hi)
theorem sb10_store_sub :
    (sbM.access (Rect.unit (s := S3x192x768) ![1, 0, 0] S1x96x768.size inb_S3x192x768_S1x96x768_1_0_0)).setOn Finset.univ ⊆ sb10.view.set :=
  fun i hi => (mem_win cc0_scratch0 _ _ _ _ i).mpr ((mem_access_whole cc0_scratch0 _ i).mp hi)
theorem sb11_store_sub :
    (sbM.access (Rect.unit (s := S3x192x768) ![1, 96, 0] S1x96x768.size inb_S3x192x768_S1x96x768_1_96_0)).setOn Finset.univ ⊆ sb11.view.set :=
  fun i hi => (mem_win cc0_scratch0 _ _ _ _ i).mpr ((mem_access_whole cc0_scratch0 _ i).mp hi)
theorem sb20_store_sub :
    (sbM.access (Rect.unit (s := S3x192x768) ![2, 0, 0] S1x96x768.size inb_S3x192x768_S1x96x768_2_0_0)).setOn Finset.univ ⊆ sb20.view.set :=
  fun i hi => (mem_win cc0_scratch0 _ _ _ _ i).mpr ((mem_access_whole cc0_scratch0 _ i).mp hi)
theorem sb21_store_sub :
    (sbM.access (Rect.unit (s := S3x192x768) ![2, 96, 0] S1x96x768.size inb_S3x192x768_S1x96x768_2_96_0)).setOn Finset.univ ⊆ sb21.view.set :=
  fun i hi => (mem_win cc0_scratch0 _ _ _ _ i).mpr ((mem_access_whole cc0_scratch0 _ i).mp hi)
theorem rs0_store_sub :
    (rsM.access (Rect.unit (s := S4x96x768) ![0, 0, 0] S1x96x768.size inb_S4x96x768_S1x96x768_0_0_0)).setOn Finset.univ ⊆ rs0.view.set :=
  fun i hi => (mem_win cc0_scratch1 _ _ _ _ i).mpr ((mem_access_whole cc0_scratch1 _ i).mp hi)
theorem rs1_store_sub :
    (rsM.access (Rect.unit (s := S4x96x768) ![1, 0, 0] S1x96x768.size inb_S4x96x768_S1x96x768_1_0_0)).setOn Finset.univ ⊆ rs1.view.set :=
  fun i hi => (mem_win cc0_scratch1 _ _ _ _ i).mpr ((mem_access_whole cc0_scratch1 _ i).mp hi)
theorem rs2_store_sub :
    (rsM.access (Rect.unit (s := S4x96x768) ![2, 0, 0] S1x96x768.size inb_S4x96x768_S1x96x768_2_0_0)).setOn Finset.univ ⊆ rs2.view.set :=
  fun i hi => (mem_win cc0_scratch1 _ _ _ _ i).mpr ((mem_access_whole cc0_scratch1 _ i).mp hi)
theorem rs3_store_sub :
    (rsM.access (Rect.unit (s := S4x96x768) ![3, 0, 0] S1x96x768.size inb_S4x96x768_S1x96x768_3_0_0)).setOn Finset.univ ⊆ rs3.view.set :=
  fun i hi => (mem_win cc0_scratch1 _ _ _ _ i).mpr ((mem_access_whole cc0_scratch1 _ i).mp hi)
theorem rl0_store_sub :
    (rlM.access (Rect.unit (s := S2x96x768) ![0, 0, 0] S1x96x768.size inb_S2x96x768_S1x96x768_0_0_0)).setOn Finset.univ ⊆ rl0.view.set :=
  fun i hi => (mem_win cc0_scratch2 _ _ _ _ i).mpr ((mem_access_whole cc0_scratch2 _ i).mp hi)
theorem rl1_store_sub :
    (rlM.access (Rect.unit (s := S2x96x768) ![1, 0, 0] S1x96x768.size inb_S2x96x768_S1x96x768_1_0_0)).setOn Finset.univ ⊆ rl1.view.set :=
  fun i hi => (mem_win cc0_scratch2 _ _ _ _ i).mpr ((mem_access_whole cc0_scratch2 _ i).mp hi)
theorem cb0_store_sub :
    (cbM.access (Rect.unit (s := S2x96x768) ![0, 0, 0] S1x96x768.size inb_S2x96x768_S1x96x768_0_0_0)).setOn Finset.univ ⊆ cb0.view.set :=
  fun i hi => (mem_win cc0_scratch3 _ _ _ _ i).mpr ((mem_access_whole cc0_scratch3 _ i).mp hi)
theorem cb1_store_sub :
    (cbM.access (Rect.unit (s := S2x96x768) ![1, 0, 0] S1x96x768.size inb_S2x96x768_S1x96x768_1_0_0)).setOn Finset.univ ⊆ cb1.view.set :=
  fun i hi => (mem_win cc0_scratch3 _ _ _ _ i).mpr ((mem_access_whole cc0_scratch3 _ i).mp hi)

theorem sb00_load_sub :
    sbM.view.setOn (Rect.unit (s := S3x192x768) ![0, 0, 0] S1x96x768.size inb_S3x192x768_S1x96x768_0_0_0).toLoadRect.set ⊆ sb00.view.set :=
  fun i hi => (mem_win cc0_scratch0 _ _ _ _ i).mpr ((mem_load_whole cc0_scratch0 _ i).mp hi)
theorem sb01_load_sub :
    sbM.view.setOn (Rect.unit (s := S3x192x768) ![0, 96, 0] S1x96x768.size inb_S3x192x768_S1x96x768_0_96_0).toLoadRect.set ⊆ sb01.view.set :=
  fun i hi => (mem_win cc0_scratch0 _ _ _ _ i).mpr ((mem_load_whole cc0_scratch0 _ i).mp hi)
theorem sb10_load_sub :
    sbM.view.setOn (Rect.unit (s := S3x192x768) ![1, 0, 0] S1x96x768.size inb_S3x192x768_S1x96x768_1_0_0).toLoadRect.set ⊆ sb10.view.set :=
  fun i hi => (mem_win cc0_scratch0 _ _ _ _ i).mpr ((mem_load_whole cc0_scratch0 _ i).mp hi)
theorem sb11_load_sub :
    sbM.view.setOn (Rect.unit (s := S3x192x768) ![1, 96, 0] S1x96x768.size inb_S3x192x768_S1x96x768_1_96_0).toLoadRect.set ⊆ sb11.view.set :=
  fun i hi => (mem_win cc0_scratch0 _ _ _ _ i).mpr ((mem_load_whole cc0_scratch0 _ i).mp hi)
theorem sb20_load_sub :
    sbM.view.setOn (Rect.unit (s := S3x192x768) ![2, 0, 0] S1x96x768.size inb_S3x192x768_S1x96x768_2_0_0).toLoadRect.set ⊆ sb20.view.set :=
  fun i hi => (mem_win cc0_scratch0 _ _ _ _ i).mpr ((mem_load_whole cc0_scratch0 _ i).mp hi)
theorem sb21_load_sub :
    sbM.view.setOn (Rect.unit (s := S3x192x768) ![2, 96, 0] S1x96x768.size inb_S3x192x768_S1x96x768_2_96_0).toLoadRect.set ⊆ sb21.view.set :=
  fun i hi => (mem_win cc0_scratch0 _ _ _ _ i).mpr ((mem_load_whole cc0_scratch0 _ i).mp hi)
theorem rs0_load_sub :
    rsM.view.setOn (Rect.unit (s := S4x96x768) ![0, 0, 0] S1x96x768.size inb_S4x96x768_S1x96x768_0_0_0).toLoadRect.set ⊆ rs0.view.set :=
  fun i hi => (mem_win cc0_scratch1 _ _ _ _ i).mpr ((mem_load_whole cc0_scratch1 _ i).mp hi)
theorem rs1_load_sub :
    rsM.view.setOn (Rect.unit (s := S4x96x768) ![1, 0, 0] S1x96x768.size inb_S4x96x768_S1x96x768_1_0_0).toLoadRect.set ⊆ rs1.view.set :=
  fun i hi => (mem_win cc0_scratch1 _ _ _ _ i).mpr ((mem_load_whole cc0_scratch1 _ i).mp hi)
theorem rs2_load_sub :
    rsM.view.setOn (Rect.unit (s := S4x96x768) ![2, 0, 0] S1x96x768.size inb_S4x96x768_S1x96x768_2_0_0).toLoadRect.set ⊆ rs2.view.set :=
  fun i hi => (mem_win cc0_scratch1 _ _ _ _ i).mpr ((mem_load_whole cc0_scratch1 _ i).mp hi)
theorem rs3_load_sub :
    rsM.view.setOn (Rect.unit (s := S4x96x768) ![3, 0, 0] S1x96x768.size inb_S4x96x768_S1x96x768_3_0_0).toLoadRect.set ⊆ rs3.view.set :=
  fun i hi => (mem_win cc0_scratch1 _ _ _ _ i).mpr ((mem_load_whole cc0_scratch1 _ i).mp hi)
theorem rl0_load_sub :
    rlM.view.setOn (Rect.unit (s := S2x96x768) ![0, 0, 0] S1x96x768.size inb_S2x96x768_S1x96x768_0_0_0).toLoadRect.set ⊆ rl0.view.set :=
  fun i hi => (mem_win cc0_scratch2 _ _ _ _ i).mpr ((mem_load_whole cc0_scratch2 _ i).mp hi)
theorem rl1_load_sub :
    rlM.view.setOn (Rect.unit (s := S2x96x768) ![1, 0, 0] S1x96x768.size inb_S2x96x768_S1x96x768_1_0_0).toLoadRect.set ⊆ rl1.view.set :=
  fun i hi => (mem_win cc0_scratch2 _ _ _ _ i).mpr ((mem_load_whole cc0_scratch2 _ i).mp hi)
theorem cb0_load_sub :
    cbM.view.setOn (Rect.unit (s := S2x96x768) ![0, 0, 0] S1x96x768.size inb_S2x96x768_S1x96x768_0_0_0).toLoadRect.set ⊆ cb0.view.set :=
  fun i hi => (mem_win cc0_scratch3 _ _ _ _ i).mpr ((mem_load_whole cc0_scratch3 _ i).mp hi)
theorem cb1_load_sub :
    cbM.view.setOn (Rect.unit (s := S2x96x768) ![1, 0, 0] S1x96x768.size inb_S2x96x768_S1x96x768_1_0_0).toLoadRect.set ⊆ cb1.view.set :=
  fun i hi => (mem_win cc0_scratch3 _ _ _ _ i).mpr ((mem_load_whole cc0_scratch3 _ i).mp hi)

/-! ## What a window reads after a store of its slot

  A slot of the send buffer is stored whole (`[1, 192, 768]`); its lower window then reads rows 0–95 of the payload and
  its upper window rows 96–191: the window's index `(0, p, q)` is the store's index `(0, h + p, q)`. A slot of the
  buffer of pre-added halves is stored through the window's own rectangle, so the window reads the payload. -/

/-- Reading through one rectangle of a view what an unmasked store through another rectangle left, when every index
    `j` of the first is the index `k j` of the second: the payload at `k j`. -/
theorem read_slice_write_slice_sub {κ : Kind} {sp : Space} {s : Shape} {e : EltTy} {Val : EltTy → Type} (v : View sig κ sp s e) (R r : Rect s)
    (f : v.ty.Contents Val) (w : R.shape.Idx → Val e) (k : r.shape.Idx → R.shape.Idx) (hk : ∀ j, r.emb j = R.emb (k j)) :
    (v.slice r).read Val ((v.slice R).write Val f w Finset.univ) = fun j => w (k j) :=
  funext fun j => by
    show v.read Val _ (r.emb j) = _
    rw [hk j]
    exact View.read_slice_write_emb R f w (Finset.mem_univ _)

theorem sb00_read_store (f : sbM.view.ty.Contents (Elt F)) (w : FVec F S1x192x768 .bf16) :
    sb00.view.read (Elt F) ((sbM.access (Rect.unit (s := S3x192x768) ![0, 0, 0] S1x192x768.size inb_S3x192x768_S1x192x768_0_0_0)).write (Elt F) f w Finset.univ)
      = half0 w :=
  (sb00_load _).symm.trans (congrArg (fun v => shapeCast S96x768 v shapeCasts_S1x96x768_S96x768)
    (read_slice_write_slice_sub sbM.view (Rect.unit (s := S3x192x768) ![0, 0, 0] S1x192x768.size inb_S3x192x768_S1x192x768_0_0_0) (Rect.unit (s := S3x192x768) ![0, 0, 0] S1x96x768.size inb_S3x192x768_S1x96x768_0_0_0) f w
      (fun j a => ⟨(![0, 0, 0] : Fin 3 → Nat) a + (j (a.cast slices_lo.1.symm)).val,
        Nat.lt_of_lt_of_le (Nat.add_lt_add_left (j _).isLt _) (slices_lo.2 a)⟩)
      (fun j => funext fun a => Fin.ext (by
        match a with
        | ⟨0, _⟩ => show 0 + 1 * (j 0).val = 0 + 1 * (0 + (j 0).val); omega
        | ⟨1, _⟩ => show 0 + 1 * (j 1).val = 0 + 1 * (0 + (j 1).val); omega
        | ⟨2, _⟩ => show 0 + 1 * (j 2).val = 0 + 1 * (0 + (j 2).val); omega))))
theorem sb01_read_store (f : sbM.view.ty.Contents (Elt F)) (w : FVec F S1x192x768 .bf16) :
    sb01.view.read (Elt F) ((sbM.access (Rect.unit (s := S3x192x768) ![0, 0, 0] S1x192x768.size inb_S3x192x768_S1x192x768_0_0_0)).write (Elt F) f w Finset.univ)
      = half1 w :=
  (sb01_load _).symm.trans (congrArg (fun v => shapeCast S96x768 v shapeCasts_S1x96x768_S96x768)
    (read_slice_write_slice_sub sbM.view (Rect.unit (s := S3x192x768) ![0, 0, 0] S1x192x768.size inb_S3x192x768_S1x192x768_0_0_0) (Rect.unit (s := S3x192x768) ![0, 96, 0] S1x96x768.size inb_S3x192x768_S1x96x768_0_96_0) f w
      (fun j a => ⟨(![0, 96, 0] : Fin 3 → Nat) a + (j (a.cast slices_hi.1.symm)).val,
        Nat.lt_of_lt_of_le (Nat.add_lt_add_left (j _).isLt _) (slices_hi.2 a)⟩)
      (fun j => funext fun a => Fin.ext (by
        match a with
        | ⟨0, _⟩ => show 0 + 1 * (j 0).val = 0 + 1 * (0 + (j 0).val); omega
        | ⟨1, _⟩ => show 96 + 1 * (j 1).val = 0 + 1 * (96 + (j 1).val); omega
        | ⟨2, _⟩ => show 0 + 1 * (j 2).val = 0 + 1 * (0 + (j 2).val); omega))))
theorem sb10_read_store (f : sbM.view.ty.Contents (Elt F)) (w : FVec F S1x192x768 .bf16) :
    sb10.view.read (Elt F) ((sbM.access (Rect.unit (s := S3x192x768) ![1, 0, 0] S1x192x768.size inb_S3x192x768_S1x192x768_1_0_0)).write (Elt F) f w Finset.univ)
      = half0 w :=
  (sb10_load _).symm.trans (congrArg (fun v => shapeCast S96x768 v shapeCasts_S1x96x768_S96x768)
    (read_slice_write_slice_sub sbM.view (Rect.unit (s := S3x192x768) ![1, 0, 0] S1x192x768.size inb_S3x192x768_S1x192x768_1_0_0) (Rect.unit (s := S3x192x768) ![1, 0, 0] S1x96x768.size inb_S3x192x768_S1x96x768_1_0_0) f w
      (fun j a => ⟨(![0, 0, 0] : Fin 3 → Nat) a + (j (a.cast slices_lo.1.symm)).val,
        Nat.lt_of_lt_of_le (Nat.add_lt_add_left (j _).isLt _) (slices_lo.2 a)⟩)
      (fun j => funext fun a => Fin.ext (by
        match a with
        | ⟨0, _⟩ => show 1 + 1 * (j 0).val = 1 + 1 * (0 + (j 0).val); omega
        | ⟨1, _⟩ => show 0 + 1 * (j 1).val = 0 + 1 * (0 + (j 1).val); omega
        | ⟨2, _⟩ => show 0 + 1 * (j 2).val = 0 + 1 * (0 + (j 2).val); omega))))
theorem sb11_read_store (f : sbM.view.ty.Contents (Elt F)) (w : FVec F S1x192x768 .bf16) :
    sb11.view.read (Elt F) ((sbM.access (Rect.unit (s := S3x192x768) ![1, 0, 0] S1x192x768.size inb_S3x192x768_S1x192x768_1_0_0)).write (Elt F) f w Finset.univ)
      = half1 w :=
  (sb11_load _).symm.trans (congrArg (fun v => shapeCast S96x768 v shapeCasts_S1x96x768_S96x768)
    (read_slice_write_slice_sub sbM.view (Rect.unit (s := S3x192x768) ![1, 0, 0] S1x192x768.size inb_S3x192x768_S1x192x768_1_0_0) (Rect.unit (s := S3x192x768) ![1, 96, 0] S1x96x768.size inb_S3x192x768_S1x96x768_1_96_0) f w
      (fun j a => ⟨(![0, 96, 0] : Fin 3 → Nat) a + (j (a.cast slices_hi.1.symm)).val,
        Nat.lt_of_lt_of_le (Nat.add_lt_add_left (j _).isLt _) (slices_hi.2 a)⟩)
      (fun j => funext fun a => Fin.ext (by
        match a with
        | ⟨0, _⟩ => show 1 + 1 * (j 0).val = 1 + 1 * (0 + (j 0).val); omega
        | ⟨1, _⟩ => show 96 + 1 * (j 1).val = 0 + 1 * (96 + (j 1).val); omega
        | ⟨2, _⟩ => show 0 + 1 * (j 2).val = 0 + 1 * (0 + (j 2).val); omega))))
theorem sb20_read_store (f : sbM.view.ty.Contents (Elt F)) (w : FVec F S1x192x768 .bf16) :
    sb20.view.read (Elt F) ((sbM.access (Rect.unit (s := S3x192x768) ![2, 0, 0] S1x192x768.size inb_S3x192x768_S1x192x768_2_0_0)).write (Elt F) f w Finset.univ)
      = half0 w :=
  (sb20_load _).symm.trans (congrArg (fun v => shapeCast S96x768 v shapeCasts_S1x96x768_S96x768)
    (read_slice_write_slice_sub sbM.view (Rect.unit (s := S3x192x768) ![2, 0, 0] S1x192x768.size inb_S3x192x768_S1x192x768_2_0_0) (Rect.unit (s := S3x192x768) ![2, 0, 0] S1x96x768.size inb_S3x192x768_S1x96x768_2_0_0) f w
      (fun j a => ⟨(![0, 0, 0] : Fin 3 → Nat) a + (j (a.cast slices_lo.1.symm)).val,
        Nat.lt_of_lt_of_le (Nat.add_lt_add_left (j _).isLt _) (slices_lo.2 a)⟩)
      (fun j => funext fun a => Fin.ext (by
        match a with
        | ⟨0, _⟩ => show 2 + 1 * (j 0).val = 2 + 1 * (0 + (j 0).val); omega
        | ⟨1, _⟩ => show 0 + 1 * (j 1).val = 0 + 1 * (0 + (j 1).val); omega
        | ⟨2, _⟩ => show 0 + 1 * (j 2).val = 0 + 1 * (0 + (j 2).val); omega))))
theorem sb21_read_store (f : sbM.view.ty.Contents (Elt F)) (w : FVec F S1x192x768 .bf16) :
    sb21.view.read (Elt F) ((sbM.access (Rect.unit (s := S3x192x768) ![2, 0, 0] S1x192x768.size inb_S3x192x768_S1x192x768_2_0_0)).write (Elt F) f w Finset.univ)
      = half1 w :=
  (sb21_load _).symm.trans (congrArg (fun v => shapeCast S96x768 v shapeCasts_S1x96x768_S96x768)
    (read_slice_write_slice_sub sbM.view (Rect.unit (s := S3x192x768) ![2, 0, 0] S1x192x768.size inb_S3x192x768_S1x192x768_2_0_0) (Rect.unit (s := S3x192x768) ![2, 96, 0] S1x96x768.size inb_S3x192x768_S1x96x768_2_96_0) f w
      (fun j a => ⟨(![0, 96, 0] : Fin 3 → Nat) a + (j (a.cast slices_hi.1.symm)).val,
        Nat.lt_of_lt_of_le (Nat.add_lt_add_left (j _).isLt _) (slices_hi.2 a)⟩)
      (fun j => funext fun a => Fin.ext (by
        match a with
        | ⟨0, _⟩ => show 2 + 1 * (j 0).val = 2 + 1 * (0 + (j 0).val); omega
        | ⟨1, _⟩ => show 96 + 1 * (j 1).val = 0 + 1 * (96 + (j 1).val); omega
        | ⟨2, _⟩ => show 0 + 1 * (j 2).val = 0 + 1 * (0 + (j 2).val); omega))))

theorem cb0_read_store (f : cbM.view.ty.Contents (Elt F)) (w : FVec F S1x96x768 .bf16) :
    cb0.view.read (Elt F) ((cbM.access (Rect.unit (s := S2x96x768) ![0, 0, 0] S1x96x768.size inb_S2x96x768_S1x96x768_0_0_0)).write (Elt F) f w Finset.univ)
      = shapeCast S96x768 w shapeCasts_S1x96x768_S96x768 :=
  (cb0_load _).symm.trans (congrArg (fun v => shapeCast S96x768 v shapeCasts_S1x96x768_S96x768)
    (View.read_write_univ (v := cbM.access (Rect.unit (s := S2x96x768) ![0, 0, 0] S1x96x768.size inb_S2x96x768_S1x96x768_0_0_0)) f w))
theorem cb1_read_store (f : cbM.view.ty.Contents (Elt F)) (w : FVec F S1x96x768 .bf16) :
    cb1.view.read (Elt F) ((cbM.access (Rect.unit (s := S2x96x768) ![1, 0, 0] S1x96x768.size inb_S2x96x768_S1x96x768_1_0_0)).write (Elt F) f w Finset.univ)
      = shapeCast S96x768 w shapeCasts_S1x96x768_S96x768 :=
  (cb1_load _).symm.trans (congrArg (fun v => shapeCast S96x768 v shapeCasts_S1x96x768_S96x768)
    (View.read_write_univ (v := cbM.access (Rect.unit (s := S2x96x768) ![1, 0, 0] S1x96x768.size inb_S2x96x768_S1x96x768_1_0_0)) f w))

/-! ## The result buffer in eight blocks of 96 rows

  Half `j` of chunk `k` of the `[768, 768]` result is rows `192 k + 96 j … 192 k + 96 j + 95`, every column. A row `ρ`
  lies in exactly one block: chunk `ρ / 192`, half `ρ % 192 / 96`. -/

theorem mem_oS (k : Dev nD) (j : Fin 2) (i : S768x768.Idx) :
    i ∈ (oS k j).view.set ↔ 192 * k.val + 96 * j.val ≤ (i 0).val ∧ (i 0).val < 192 * k.val + 96 * j.val + 96 := by
  have h1 : (i 1).val < 768 := (i 1).isLt
  refine (show i ∈ (oS k j).view.set ↔ i ∈ (Rect.unit (s := S768x768) ![192 * k.val + 96 * j.val, 0] S96x768.size (orow_inb k j)).set from by
      rw [show (oS k j).view.set = _ from View.set_slice_whole cc0_stg3_0 _]).trans
    ((mem_unit2 (192 * k.val + 96 * j.val) 0 96 768 (orow_inb k j) i).trans ?_)
  omega

/-- The blocks, as a family over (chunk, half). -/
abbrev oSet (p : Dev nD × Fin 2) : Finset oM.view.ty.Idx := (oS p.1 p.2).view.set

/-- Two different blocks share no row. -/
theorem oS_disjoint (p p' : Dev nD × Fin 2) (h : p ≠ p') : Disjoint (oSet p) (oSet p') :=
  Finset.disjoint_left.mpr fun i h1 h2 => h (by
    have h1 := (mem_oS p.1 p.2 i).mp h1
    have h2 := (mem_oS p'.1 p'.2 i).mp h2
    have := p.2.isLt; have := p'.2.isLt
    exact Prod.ext (Fin.ext (by omega)) (Fin.ext (by omega)))

theorem oS_pairwise : ∀ t ∈ (Finset.univ : Finset (Dev nD × Fin 2)), ∀ t' ∈ (Finset.univ : Finset (Dev nD × Fin 2)),
    t ≠ t' → Disjoint (oSet t) (oSet t') := fun t _ t' _ h => oS_disjoint t t' h

/-- Every row is in a block: row `ρ` in chunk `ρ / 192`, half `ρ % 192 / 96`. -/
theorem oS_mem (i : S768x768.Idx) : i ∈ (Finset.univ : Finset (Dev nD × Fin 2)).biUnion oSet := by
  have h0 : (i 0).val < 768 := (i 0).isLt
  have hk : (i 0).val / 192 < 4 := by omega
  have hj : (i 0).val % 192 / 96 < 2 := by omega
  refine Finset.mem_biUnion.mpr ⟨(⟨_, hk⟩, ⟨_, hj⟩), Finset.mem_univ _, ?_⟩
  exact (mem_oS ⟨_, hk⟩ ⟨_, hj⟩ i).mpr
    ⟨by show 192 * ((i 0).val / 192) + 96 * ((i 0).val % 192 / 96) ≤ (i 0).val; omega,
     by show (i 0).val < 192 * ((i 0).val / 192) + 96 * ((i 0).val % 192 / 96) + 96; omega⟩

theorem oS_cover : (Finset.univ : Finset oM.view.ty.Idx) = (Finset.univ : Finset (Dev nD × Fin 2)).biUnion oSet :=
  (Finset.eq_univ_of_forall fun i => oS_mem i).symm

/-- A store of a block touches the block, a load of it reads inside it, -/
theorem oS_store_sub (k : Dev nD) (j : Fin 2) :
    (oM.access (Rect.unit (s := S768x768) ![192 * k.val + 96 * j.val, 0] S96x768.size (orow_inb k j))).setOn Finset.univ ⊆ (oS k j).view.set :=
  fun _ hi => hi
theorem oS_load_sub (k : Dev nD) (j : Fin 2) :
    oM.view.setOn (Rect.unit (s := S768x768) ![192 * k.val + 96 * j.val, 0] S96x768.size (orow_inb k j)).toLoadRect.set ⊆ (oS k j).view.set :=
  fun i hi => by
    rw [show (oS k j).view.set = _ from View.set_slice_whole cc0_stg3_0 _]
    exact (mem_load_whole cc0_stg3_0 _ i).mp hi
/-- and after the store the block reads the payload. -/
theorem oS_read_store (k : Dev nD) (j : Fin 2) (f : oM.view.ty.Contents (Elt F)) (w : FVec F S96x768 .bf16) :
    (oS k j).view.read (Elt F) ((oM.access (Rect.unit (s := S768x768) ![192 * k.val + 96 * j.val, 0] S96x768.size (orow_inb k j))).write (Elt F) f w Finset.univ) = w :=
  View.read_write_univ (v := oM.access (Rect.unit (s := S768x768) ![192 * k.val + 96 * j.val, 0] S96x768.size (orow_inb k j))) f w

/-- Row `192 k + 96 j + p` of the assembled array is row `p` of block `(k, j)`. -/
theorem outAll_at (V : Dev nD → Fin 2 → FVec F S96x768 .bf16) (k : Dev nD) (j : Fin 2) (p : Fin 96) (q : Fin 768) :
    outAll V (ix2 ⟨192 * k.val + 96 * j.val + p.val, by have hk : k.val < 4 := k.isLt; have := j.isLt; have := p.isLt; show _ < 768; omega⟩ q) = V k j (ix2 p q) := by
  have hk : k.val < 4 := k.isLt
  have hj := j.isLt
  have hp := p.isLt
  have e1 : (192 * k.val + 96 * j.val + p.val) / 192 = k.val := by omega
  have e2 : (192 * k.val + 96 * j.val + p.val) % 192 / 96 = j.val := by omega
  have e3 : (192 * k.val + 96 * j.val + p.val) % 96 = p.val := by omega
  unfold outAll
  exact congr (congr (congrArg V (Fin.ext e1)) (Fin.ext e2)) (congrArg (fun a => ix2 a q) (Fin.ext e3))

/-- Contents of the result buffer whose eight blocks read `V k j` are the assembled array: the element at row `ρ` is
    read by block `(ρ / 192, ρ % 192 / 96)` at its row `ρ % 96`. -/
theorem eq_outAll (g : oM.view.ty.Contents (Elt F)) (V : Dev nD → Fin 2 → FVec F S96x768 .bf16)
    (h : ∀ k j, (oS k j).view.read (Elt F) g = V k j) : g = outAll V := by
  funext i
  have hi0 : ((i : S768x768.Idx) 0).val < 768 := (i 0).isLt
  let k : Dev nD := ⟨((i : S768x768.Idx) 0).val / 192, by show _ < 4; omega⟩
  let j : Fin 2 := ⟨((i : S768x768.Idx) 0).val % 192 / 96, by omega⟩
  let x : S96x768.Idx := ix2 ⟨((i : S768x768.Idx) 0).val % 96, Nat.mod_lt _ (by decide)⟩ ⟨((i : S768x768.Idx) 1).val, (i 1).isLt⟩
  have e : (Rect.unit (s := S768x768) ![192 * k.val + 96 * j.val, 0] S96x768.size (orow_inb k j)).emb x = i :=
    funext fun a => Fin.ext (by
      match a with
      | ⟨0, _⟩ =>
        show 192 * (((i : S768x768.Idx) 0).val / 192) + 96 * (((i : S768x768.Idx) 0).val % 192 / 96) + 1 * (((i : S768x768.Idx) 0).val % 96) = ((i : S768x768.Idx) 0).val
        omega
      | ⟨1, _⟩ => show 0 + 1 * ((i : S768x768.Idx) 1).val = ((i : S768x768.Idx) 1).val; omega)
  calc g i = g ((Rect.unit (s := S768x768) ![192 * k.val + 96 * j.val, 0] S96x768.size (orow_inb k j)).emb x) := by rw [e]
    _ = (oS k j).view.read (Elt F) g x := rfl
    _ = V k j x := congrFun (h k j) x

/-- info: 'Cert.KernelProof.eq_outAll' depends on axioms: [propext, Classical.choice, Quot.sound] -/
#guard_msgs in #print axioms Cert.KernelProof.eq_outAll
/-- info: 'Cert.KernelProof.sb_cover' depends on axioms: [propext, Classical.choice, Quot.sound] -/
#guard_msgs in #print axioms Cert.KernelProof.sb_cover

end Cert.KernelProof

end
-- ==== Proof.Bits.Local.lean ====
/-
  Two restatements of the load and store rules that name what is read and what is left, so that a run keeps the values in
  closed form; and the bound on the levels of the cells a device still pays.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

/-- A load whose value is known: the program continues at that value. -/
theorem wp_load_eq {cs : CoreSpace} {s : Shape} {e : EltTy} (c : Thread nD τ) {mr : Memref sig c.2.kind cs s e} {r : LoadRect s} {hl : mr.view.LoadsAt r}
    {α : Type} {Q : α → sProp 𝕄} {k : (r.shape.Idx → Elt F e) → Prog (TpuEff nD τ sig (Elt F) Λ₀ c.2) α}
    {S : Finset (Idx (mr.view.loc c))} {q : PosShare TreeShare} {f : Buf (Elt F) (mr.view.loc c)}
    (hS : mr.view.setOn r.set ⊆ S) (v : r.shape.Idx → Elt F e) (hv : mr.view.readAt (Elt F) r f = v) :
    (mr.view.loc c ↦[S]{q} f)
      ⊢ iprop(((mr.view.loc c ↦[S]{q} f) -∗ wp frame (wpE (defs₀ (F := F)) 𝒱₀ c none) Set.univ (k v) Q)
        -∗ wp frame (wpE (defs₀ (F := F)) 𝒱₀ c none) Set.univ (.op (.load mr r hl) k) Q) := by
  subst hv; exact wp_load 𝒱₀ c none Set.univ hS

/-- A store whose result is known. -/
theorem wp_store_eq {cs : CoreSpace} {s : Shape} {e : EltTy} (c : Thread nD τ) {mr : Memref sig c.2.kind cs s e} {r : Rect s} {w : r.shape.Idx → Elt F e} {Mk : Finset r.shape.Idx}
    {hx : (mr.access r).Stores Mk} {hm : Mk = Finset.univ ∨ ∀ a, r.stride a = 1}
    {α : Type} {Q : α → sProp 𝕄} {k : PUnit → Prog (TpuEff nD τ sig (Elt F) Λ₀ c.2) α}
    {S : Finset (Idx ((mr.access r).loc c))} {f : Buf (Elt F) ((mr.access r).loc c)}
    (hS : (mr.access r).setOn Mk ⊆ S) (g : Buf (Elt F) ((mr.access r).loc c)) (hg : (mr.access r).write (Elt F) f w Mk = g) :
    ((mr.access r).loc c ↦[S]{fullShare} f)
      ⊢ iprop((((mr.access r).loc c ↦[S]{fullShare} g) -∗ wp frame (wpE (defs₀ (F := F)) 𝒱₀ c none) Set.univ (k ⟨⟩) Q)
        -∗ wp frame (wpE (defs₀ (F := F)) 𝒱₀ c none) Set.univ (.op (.store mr r w Mk hx hm) k) Q) := by
  subst hg; exact wp_store 𝒱₀ c none Set.univ hS

/-- Every cell device `c`'s copies pay from some copy on is a TensorCore cell above a level: by cases on the list. -/
macro "pay_above" : tactic => `(tactic| (
  intro g hg
  simp only [payCells, List.drop_succ_cons, List.drop_zero, List.mem_cons, List.not_mem_nil, or_false] at hg
  (try casesm* _ ∨ _) <;> subst_vars <;> exact ⟨rfl, by dsimp only; decide⟩))

omit [FloatOps F] in
theorem pay_above_0 (c : Dev nD) : ∀ g ∈ (payCells c).drop 0, g.1.2 = .tc ∧ 1 < lvl g.2 := by pay_above
omit [FloatOps F] in
theorem pay_above_4 (c : Dev nD) : ∀ g ∈ (payCells c).drop 4, g.1.2 = .tc ∧ 2 < lvl g.2 := by pay_above
omit [FloatOps F] in
theorem pay_above_5 (c : Dev nD) : ∀ g ∈ (payCells c).drop 5, g.1.2 = .tc ∧ 3 < lvl g.2 := by pay_above
omit [FloatOps F] in
theorem pay_above_6 (c : Dev nD) : ∀ g ∈ (payCells c).drop 6, g.1.2 = .tc ∧ 5 < lvl g.2 := by pay_above
omit [FloatOps F] in
theorem pay_above_8 (c : Dev nD) : ∀ g ∈ (payCells c).drop 8, g.1.2 = .tc ∧ 7 < lvl g.2 := by pay_above
omit [FloatOps F] in
theorem pay_above_10 (c : Dev nD) : ∀ g ∈ (payCells c).drop 10, g.1.2 = .tc ∧ 8 < lvl g.2 := by pay_above
omit [FloatOps F] in
theorem pay_above_11 (c : Dev nD) : ∀ g ∈ (payCells c).drop 11, g.1.2 = .tc ∧ 9 < lvl g.2 := by pay_above
omit [FloatOps F] in
theorem pay_above_12 (c : Dev nD) (k : ℕ) : ∀ g ∈ (payCells c).drop 12, g.1.2 = .tc ∧ k < lvl g.2 := by
  intro g hg; simp only [payCells, List.drop_succ_cons, List.drop_zero, List.not_mem_nil] at hg

/-- Device `c` holds its buffer `b` whole at `f`. -/
abbrev bufAt (c : Dev nD) (b : Ref sig .tc) (f : Buf (Elt F) ((c : Thread nD τ).loc b)) : sProp 𝕄 :=
  (((c : Thread nD τ).loc b) ↦{fullShare} f)

/-! ## The rows of a chunk, as the program's loads spell them -/

theorem off1_opp : ∀ c : Dev nD, k0_off1 c 2#32 = ![192 * (opp c).val, 0] := by decide +kernel
theorem off1_nxt : ∀ c : Dev nD, k0_off1 c 1#32 = ![192 * (nxt c).val, 0] := by decide +kernel
theorem off2_prv : ∀ c : Dev nD, k0_off2 c = ![192 * (prv c).val, 0] := by decide +kernel

theorem xrows_opp (X : Dev nD → Vec F S768x768 .f32) (c : Dev nD) :
    xbM.view.readAt (Elt F) (Rect.unit (s := S768x768) (k0_off1 c 2#32) S192x768.size (k0_off1_inb c 1)).toLoadRect (k0_pay1 (X c)) = xrows X c (opp c) :=
  View.readAt_unit_congr _ (off1_opp c) _ _ _
theorem xrows_nxt (X : Dev nD → Vec F S768x768 .f32) (c : Dev nD) :
    xbM.view.readAt (Elt F) (Rect.unit (s := S768x768) (k0_off1 c 1#32) S192x768.size (k0_off1_inb c 0)).toLoadRect (k0_pay1 (X c)) = xrows X c (nxt c) :=
  View.readAt_unit_congr _ (off1_nxt c) _ _ _
theorem xrows_prv (X : Dev nD → Vec F S768x768 .f32) (c : Dev nD) :
    xbM.view.readAt (Elt F) (Rect.unit (s := S768x768) (k0_off2 c) S192x768.size (k0_off2_inb c)).toLoadRect (k0_pay1 (X c)) = xrows X c (prv c) :=
  View.readAt_unit_congr _ (off2_prv c) _ _ _
theorem xrows_own (X : Dev nD → Vec F S768x768 .f32) (c : Dev nD) :
    xbM.view.readAt (Elt F) (Rect.unit (s := S768x768) (k0_off3 c) S192x768.size (k0_off3_inb c)).toLoadRect (k0_pay1 (X c)) = xrows X c c :=
  View.readAt_unit_congr _ (k0_off3_eq c) _ _ _

end Cert.KernelProof

end
-- ==== Proof.Bits.Join.lean ====
/-
  Splitting a device's buffers into the windows that change hands, joining them again, and the bookkeeping of the 24
  transfer cells taken one by one.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

/-! ## Conjunctions over the cells, unfolded -/

omit [FloatOps F] in
theorem fin24 (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  rw [bigSep_univ_eq_bigSepL [0, 1, 2, 3, 4, 5, 6, 7, 8, 9, 10, 11, 12, 13, 14, 15, 16, 17, 18, 19, 20, 21, 22, 23] (by decide) (by decide)]
  rfl

omit [FloatOps F] in
theorem sendToks_eq (c : Dev nD) : (bigSepL sendIdx (fun i => (dutyTok ER (dcell c i) 0 false : sProp 𝕄)))
    = iprop(dutyTok ER (dcell c 0) 0 false ∗ dutyTok ER (dcell c 1) 0 false ∗ dutyTok ER (dcell c 2) 0 false ∗ dutyTok ER (dcell c 3) 0 false ∗ dutyTok ER (dcell c 4) 0 false ∗ dutyTok ER (dcell c 5) 0 false ∗ dutyTok ER (dcell c 12) 0 false ∗ dutyTok ER (dcell c 13) 0 false ∗ dutyTok ER (dcell c 14) 0 false ∗ dutyTok ER (dcell c 15) 0 false ∗ dutyTok ER (dcell c 16) 0 false ∗ dutyTok ER (dcell c 17) 0 false) := by
  rfl

omit [FloatOps F] in
theorem payToksL_eq (c : Dev nD) : (bigSepL (payCells c) (fun g => (dutyTok ER g 0 false : sProp 𝕄)))
    = iprop(dutyTok ER (dcell (prv c) 10) 0 false ∗ dutyTok ER (dcell (nxt c) 11) 0 false ∗ dutyTok ER (dcell (nxt c) 6) 0 false
        ∗ dutyTok ER (dcell (prv c) 8) 0 false ∗ dutyTok ER (dcell (nxt c) 9) 0 false ∗ dutyTok ER (dcell (prv c) 7) 0 false
        ∗ dutyTok ER (dcell (nxt c) 20) 0 false ∗ dutyTok ER (dcell (prv c) 18) 0 false ∗ dutyTok ER (dcell (nxt c) 21) 0 false
        ∗ dutyTok ER (dcell (prv c) 19) 0 false ∗ dutyTok ER (dcell (prv c) 23) 0 false ∗ dutyTok ER (dcell (nxt c) 22) 0 false) := by
  rfl

omit [FloatOps F] in
theorem recvCreds_eq (c : Dev nD) : (recvCreds c : sProp 𝕄)
    = iprop(cred (tallyAt (dcell c 6) () N) ∗ cred (tallyAt (dcell c 7) () N) ∗ cred (tallyAt (dcell c 8) () N) ∗ cred (tallyAt (dcell c 9) () N) ∗ cred (tallyAt (dcell c 10) () N) ∗ cred (tallyAt (dcell c 11) () N) ∗ cred (tallyAt (dcell c 18) () N) ∗ cred (tallyAt (dcell c 19) () N) ∗ cred (tallyAt (dcell c 20) () N) ∗ cred (tallyAt (dcell c 21) () N) ∗ cred (tallyAt (dcell c 22) () N) ∗ cred (tallyAt (dcell c 23) () N)) := by
  rfl

omit [FloatOps F] in
/-- The eight half-chunks of the result, counted from device `c`. -/
theorem out_blocks (c : Dev nD) (Φ : Dev nD × Fin 2 → sProp 𝕄) :
    bigSep Finset.univ Φ = iprop(Φ (c, 0) ∗ Φ (c, 1) ∗ Φ (nxt c, 0) ∗ Φ (nxt c, 1) ∗ Φ (prv c, 0) ∗ Φ (prv c, 1) ∗ Φ (opp c, 0) ∗ Φ (opp c, 1)) := by
  rw [bigSep_univ_eq_bigSepL [(c, 0), (c, 1), (nxt c, 0), (nxt c, 1), (prv c, 0), (prv c, 1), (opp c, 0), (opp c, 1)]
    (by revert c; decide) (by revert c; decide)]
  rfl

/-! ## Splitting -/

omit [FloatOps F] in
theorem split_rs (c : Dev nD) (f : Buf (Elt F) ((c : Thread nD τ).loc cc0_scratch1)) :
    bufAt c cc0_scratch1 f ⊢ iprop(hole (F := F) c rs0 ∗ hole (F := F) c rs1 ∗ hole (F := F) c rs2 ∗ hole (F := F) c rs3) := by
  unfold hole
  have d3 : Disjoint (rs0.view.set ∪ rs1.view.set ∪ rs2.view.set) rs3.view.set :=
    Finset.disjoint_union_left.mpr ⟨Finset.disjoint_union_left.mpr ⟨disj_rs0_rs3, disj_rs1_rs3⟩, disj_rs2_rs3⟩
  have d2 : Disjoint (rs0.view.set ∪ rs1.view.set) rs2.view.set :=
    Finset.disjoint_union_left.mpr ⟨disj_rs0_rs2, disj_rs1_rs2⟩
  iintro H
  ihave H := (Entails.of_eq (congrArg (fun S => (rsM.view.loc (c : Thread nD τ) ↦[S]{fullShare} f : sProp 𝕄)) rs_cover)) $$ H
  ihave H := (pointsTo_union d3).1 $$ H
  icases H with ⟨H, H3⟩
  ihave H := (pointsTo_union d2).1 $$ H
  icases H with ⟨H, H2⟩
  ihave H := (pointsTo_union disj_rs0_rs1).1 $$ H
  icases H with ⟨H0, H1⟩
  isplitl [H0]; · iexists f; iexact H0
  isplitl [H1]; · iexists f; iexact H1
  isplitl [H2]; · iexists f; iexact H2
  iexists f; iexact H3
omit [FloatOps F] in
theorem split_rl (c : Dev nD) (f : Buf (Elt F) ((c : Thread nD τ).loc cc0_scratch2)) :
    bufAt c cc0_scratch2 f ⊢ iprop(hole (F := F) c rl0 ∗ hole (F := F) c rl1) := by
  unfold hole
  iintro H
  ihave H := (Entails.of_eq (congrArg (fun S => (rlM.view.loc (c : Thread nD τ) ↦[S]{fullShare} f : sProp 𝕄)) rl_cover)) $$ H
  ihave H := (pointsTo_union disj_rl0_rl1).1 $$ H
  icases H with ⟨H0, H1⟩
  isplitl [H0]; · iexists f; iexact H0
  iexists f; iexact H1
omit [FloatOps F] in
theorem split_cb (c : Dev nD) (f : Buf (Elt F) ((c : Thread nD τ).loc cc0_scratch3)) :
    bufAt c cc0_scratch3 f ⊢ iprop((∃ f, (cbM.view.loc (c : Thread nD τ) ↦[cb0.view.set]{fullShare} f : sProp 𝕄))
      ∗ (∃ f, (cbM.view.loc (c : Thread nD τ) ↦[cb1.view.set]{fullShare} f : sProp 𝕄))) := by
  iintro H
  ihave H := (Entails.of_eq (congrArg (fun S => (cbM.view.loc (c : Thread nD τ) ↦[S]{fullShare} f : sProp 𝕄)) cb_cover)) $$ H
  ihave H := (pointsTo_union disj_cb0_cb1).1 $$ H
  icases H with ⟨H0, H1⟩
  isplitl [H0]; · iexists f; iexact H0
  iexists f; iexact H1
omit [FloatOps F] in
theorem split_sb (c : Dev nD) (f : Buf (Elt F) ((c : Thread nD τ).loc cc0_scratch0)) :
    bufAt c cc0_scratch0 f ⊢ iprop((∃ f, (sbM.view.loc (c : Thread nD τ) ↦[sb00.view.set ∪ sb01.view.set]{fullShare} f : sProp 𝕄))
      ∗ (∃ f, (sbM.view.loc (c : Thread nD τ) ↦[sb10.view.set ∪ sb11.view.set]{fullShare} f : sProp 𝕄))
      ∗ (∃ f, (sbM.view.loc (c : Thread nD τ) ↦[sb20.view.set ∪ sb21.view.set]{fullShare} f : sProp 𝕄))) := by
  have e : (Finset.univ : Finset sbM.view.ty.Idx)
      = (sb00.view.set ∪ sb01.view.set) ∪ ((sb10.view.set ∪ sb11.view.set) ∪ (sb20.view.set ∪ sb21.view.set)) := by
    rw [sb_cover]; simp only [Finset.union_assoc]
  have d1 : Disjoint (sb00.view.set ∪ sb01.view.set) ((sb10.view.set ∪ sb11.view.set) ∪ (sb20.view.set ∪ sb21.view.set)) :=
    Finset.disjoint_union_left.mpr
      ⟨Finset.disjoint_union_right.mpr ⟨Finset.disjoint_union_right.mpr ⟨disj_sb00_sb10, disj_sb00_sb11⟩, Finset.disjoint_union_right.mpr ⟨disj_sb00_sb20, disj_sb00_sb21⟩⟩,
       Finset.disjoint_union_right.mpr ⟨Finset.disjoint_union_right.mpr ⟨disj_sb01_sb10, disj_sb01_sb11⟩, Finset.disjoint_union_right.mpr ⟨disj_sb01_sb20, disj_sb01_sb21⟩⟩⟩
  have d2 : Disjoint (sb10.view.set ∪ sb11.view.set) (sb20.view.set ∪ sb21.view.set) :=
    Finset.disjoint_union_left.mpr
      ⟨Finset.disjoint_union_right.mpr ⟨disj_sb10_sb20, disj_sb10_sb21⟩, Finset.disjoint_union_right.mpr ⟨disj_sb11_sb20, disj_sb11_sb21⟩⟩
  iintro H
  ihave H := (Entails.of_eq (congrArg (fun S => (sbM.view.loc (c : Thread nD τ) ↦[S]{fullShare} f : sProp 𝕄)) e)) $$ H
  ihave H := (pointsTo_union d1).1 $$ H
  icases H with ⟨H0, H⟩
  ihave H := (pointsTo_union d2).1 $$ H
  icases H with ⟨H1, H2⟩
  isplitl [H0]; · iexists f; iexact H0
  isplitl [H1]; · iexists f; iexact H1
  iexists f; iexact H2
omit [FloatOps F] in
/-- The result buffer in its eight half-chunks: the two of the device's own chunk as the regions its stores go into, the
    other six as windows to hand to the neighbours. -/
theorem split_out (c : Dev nD) (f : Buf (Elt F) ((c : Thread nD τ).loc cc0_stg3_0)) :
    bufAt c cc0_stg3_0 f ⊢ iprop((∃ f, (oM.view.loc (c : Thread nD τ) ↦[(oS c 0).view.set]{fullShare} f : sProp 𝕄))
      ∗ (∃ f, (oM.view.loc (c : Thread nD τ) ↦[(oS c 1).view.set]{fullShare} f : sProp 𝕄))
      ∗ hole (F := F) c (oS (nxt c) 0) ∗ hole (F := F) c (oS (nxt c) 1) ∗ hole (F := F) c (oS (prv c) 0) ∗ hole (F := F) c (oS (prv c) 1)
      ∗ hole (F := F) c (oS (opp c) 0) ∗ hole (F := F) c (oS (opp c) 1)) := by
  unfold hole
  iintro H
  ihave H := (Entails.of_eq (congrArg (fun S => (oM.view.loc (c : Thread nD τ) ↦[S]{fullShare} f : sProp 𝕄)) oS_cover)) $$ H
  ihave H := (Entails.of_eq (pointsTo_biUnion (q := fullShare) (f := f) (Finset.univ : Finset (Dev nD × Fin 2)) oSet oS_pairwise)) $$ H
  ihave H := (Entails.of_eq (out_blocks c fun t => (oM.view.loc (c : Thread nD τ) ↦[oSet t]{fullShare} f : sProp 𝕄))) $$ H
  icases H with ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

/-! ## Joining -/

omit [FloatOps F] in
/-- Two half shares of one window reading the same value are the window whole. -/
theorem slot_halves (c : Dev nD) (M : Memref sig .tc .vmem S96x768 .bf16) (V : FVec F S96x768 .bf16) :
    iprop(slot c M fullShare.left V ∗ slot c M fullShare.right V) ⊢ slot c M fullShare V := by
  unfold slot
  have core (f1 f2 : Buf (Elt F) (M.view.loc (c : Thread nD τ))) :
      iprop((M.view.loc (c : Thread nD τ) ↦[M.view.set]{fullShare.left} f1) ∗ (M.view.loc (c : Thread nD τ) ↦[M.view.set]{fullShare.right} f2))
        ⊢ (M.view.loc (c : Thread nD τ) ↦[M.view.set]{fullShare} f1 : sProp 𝕄) :=
    Idealize.SL.BI.Laws.pure_elim _ pointsTo_agree fun hag => by
      rw [pointsTo_congr (f := f2) (g := f1) fun i hi => ((hag i (Finset.mem_inter.mpr ⟨hi, hi⟩)).1).symm]
      exact (pointsTo_share (PosShare.mem_left_op_right fullShare)).2
  iintro ⟨⟨%f1, %h1, H1⟩, ⟨%f2, %h2, H2⟩⟩
  iexists f1
  isplitr; · ipureintro; exact h1
  iapply (core f1 f2)
  isplitl [H1] <;> iassumption

omit [FloatOps F] in
/-- Contents of the result buffer whose eight blocks read `V k j` are the assembled array (at any float type): the element
    at row `ρ` is read by block `(ρ / 192, ρ % 192 / 96)` at its row `ρ % 96`. -/
theorem eq_outAll_any (g : oM.view.ty.Contents (Elt F)) (V : Dev nD → Fin 2 → FVec F S96x768 .bf16)
    (h : ∀ k j, (oS k j).view.read (Elt F) g = V k j) : g = outAll V := by
  funext i
  have hi0 : ((i : S768x768.Idx) 0).val < 768 := (i 0).isLt
  let k : Dev nD := ⟨((i : S768x768.Idx) 0).val / 192, by show _ < 4; omega⟩
  let j : Fin 2 := ⟨((i : S768x768.Idx) 0).val % 192 / 96, by omega⟩
  let x : S96x768.Idx := Idealize.ShloMosaic.ValueIdx.ix2 ⟨((i : S768x768.Idx) 0).val % 96, Nat.mod_lt _ (by decide)⟩ ⟨((i : S768x768.Idx) 1).val, (i 1).isLt⟩
  have e : (Rect.unit (s := S768x768) ![192 * k.val + 96 * j.val, 0] S96x768.size (orow_inb k j)).emb x = i :=
    funext fun a => Fin.ext (by
      match a with
      | ⟨0, _⟩ =>
        show 192 * (((i : S768x768.Idx) 0).val / 192) + 96 * (((i : S768x768.Idx) 0).val % 192 / 96) + 1 * (((i : S768x768.Idx) 0).val % 96) = ((i : S768x768.Idx) 0).val
        omega
      | ⟨1, _⟩ => show 0 + 1 * ((i : S768x768.Idx) 1).val = ((i : S768x768.Idx) 1).val; omega)
  calc g i = g ((Rect.unit (s := S768x768) ![192 * k.val + 96 * j.val, 0] S96x768.size (orow_inb k j)).emb x) := by rw [e]
    _ = (oS k j).view.read (Elt F) g x := rfl
    _ = V k j x := congrFun (h k j) x

omit [FloatOps F] in
/-- The eight half-chunks, each holding its value, are the whole result. -/
theorem join_out (c : Dev nD) (V : Dev nD → Fin 2 → FVec F S96x768 .bf16) :
    (bigSep Finset.univ fun t : Dev nD × Fin 2 => slot c (oS t.1 t.2) fullShare (V t.1 t.2)) ⊢ bufAt c cc0_stg3_0 (outAll V) := by
  unfold slot
  have hne : ∀ i : Dev nD × Fin 2, Nonempty (Buf (Elt F) (oM.view.loc (c : Thread nD τ))) := fun _ =>
    ⟨fun _ => V 0 0 (Idealize.ShloMosaic.ValueIdx.ix2 ⟨0, by decide⟩ ⟨0, by decide⟩)⟩
  iintro H
  ihave H := (@BI.bigSep_exists_pi _ _ _ _ _ hne Finset.univ (fun (t : Dev nD × Fin 2) (f : Buf (Elt F) (oM.view.loc (c : Thread nD τ))) =>
    (iprop(⌜(oS t.1 t.2).view.read (Elt F) f = V t.1 t.2⌝ ∗ (oM.view.loc (c : Thread nD τ) ↦[oSet t]{fullShare} f)) : sProp 𝕄))) $$ H
  icases H with ⟨%fs, H⟩
  ihave H := (bigSep_pure_sep Finset.univ (fun t : Dev nD × Fin 2 => (oS t.1 t.2).view.read (Elt F) (fs t) = V t.1 t.2)
    (fun t => (oM.view.loc (c : Thread nD τ) ↦[oSet t]{fullShare} fs t : sProp 𝕄))) $$ H
  icases H with ⟨%hV, H⟩
  ihave H := (pointsTo_biUnion_join (q := fullShare) (Finset.univ : Finset (Dev nD × Fin 2)) oSet fs (fs (c, 0)) oS_pairwise) $$ H
  icases H with ⟨%g, %hg, H⟩
  have hgo : g = outAll V := eq_outAll_any g V fun k j =>
    (View.read_congr (v := (oS k j).view) fun i hi => hg (k, j) (Finset.mem_univ _) i hi).trans (hV (k, j) (Finset.mem_univ _))
  subst hgo
  iapply (Entails.of_eq (congrArg (fun S => (oM.view.loc (c : Thread nD τ) ↦[S]{fullShare} outAll V : sProp 𝕄)) oS_cover.symm))
  iexact H

omit [FloatOps F] in
theorem join_sb (c : Dev nD) (V1 V2 V3 V4 V5 V6 : FVec F S96x768 .bf16) :
    iprop(slot c sb00 fullShare V1 ∗ slot c sb01 fullShare V2 ∗ slot c sb10 fullShare V3 ∗ slot c sb11 fullShare V4 ∗ slot c sb20 fullShare V5 ∗ slot c sb21 fullShare V6)
      ⊢ iprop(∃ f, bufAt (F := F) c cc0_scratch0 f) := by
  unfold slot
  have d1 : Disjoint (sb00.view.set ∪ sb01.view.set) sb10.view.set := Finset.disjoint_union_left.mpr ⟨disj_sb00_sb10, disj_sb01_sb10⟩
  have d2 : Disjoint (sb00.view.set ∪ sb01.view.set ∪ sb10.view.set) sb11.view.set :=
    Finset.disjoint_union_left.mpr ⟨Finset.disjoint_union_left.mpr ⟨disj_sb00_sb11, disj_sb01_sb11⟩, disj_sb10_sb11⟩
  have d3 : Disjoint (sb00.view.set ∪ sb01.view.set ∪ sb10.view.set ∪ sb11.view.set) sb20.view.set :=
    Finset.disjoint_union_left.mpr ⟨Finset.disjoint_union_left.mpr ⟨Finset.disjoint_union_left.mpr ⟨disj_sb00_sb20, disj_sb01_sb20⟩, disj_sb10_sb20⟩, disj_sb11_sb20⟩
  have d4 : Disjoint (sb00.view.set ∪ sb01.view.set ∪ sb10.view.set ∪ sb11.view.set ∪ sb20.view.set) sb21.view.set :=
    Finset.disjoint_union_left.mpr ⟨Finset.disjoint_union_left.mpr ⟨Finset.disjoint_union_left.mpr ⟨Finset.disjoint_union_left.mpr ⟨disj_sb00_sb21, disj_sb01_sb21⟩, disj_sb10_sb21⟩, disj_sb11_sb21⟩, disj_sb20_sb21⟩
  iintro ⟨⟨%f0, %h0, H0⟩, ⟨%f1, %h1, H1⟩, ⟨%f2, %h2, H2⟩, ⟨%f3, %h3, H3⟩, ⟨%f4, %h4, H4⟩, ⟨%f5, %h5, H5⟩⟩
  ihave H := (pointsTo_join (ℓ := sbM.view.loc (c : Thread nD τ)) (f := f0) (g := f1) disj_sb00_sb01) $$ [H0 H1]
  · isplitl [H0] <;> iassumption
  ihave H := (pointsTo_join (ℓ := sbM.view.loc (c : Thread nD τ)) (g := f2) d1) $$ [H H2]
  · isplitl [H] <;> iassumption
  ihave H := (pointsTo_join (ℓ := sbM.view.loc (c : Thread nD τ)) (g := f3) d2) $$ [H H3]
  · isplitl [H] <;> iassumption
  ihave H := (pointsTo_join (ℓ := sbM.view.loc (c : Thread nD τ)) (g := f4) d3) $$ [H H4]
  · isplitl [H] <;> iassumption
  ihave H := (pointsTo_join (ℓ := sbM.view.loc (c : Thread nD τ)) (g := f5) d4) $$ [H H5]
  · isplitl [H] <;> iassumption
  iexists _
  iapply (Entails.of_eq (congrArg (fun S => (sbM.view.loc (c : Thread nD τ) ↦[S]{fullShare} _ : sProp 𝕄)) sb_cover.symm))
  iexact H
omit [FloatOps F] in
theorem join_rs (c : Dev nD) (V1 V2 V3 V4 : FVec F S96x768 .bf16) :
    iprop(slot c rs0 fullShare V1 ∗ slot c rs1 fullShare V2 ∗ slot c rs2 fullShare V3 ∗ slot c rs3 fullShare V4)
      ⊢ iprop(∃ f, bufAt (F := F) c cc0_scratch1 f) := by
  unfold slot
  have d2 : Disjoint (rs0.view.set ∪ rs1.view.set) rs2.view.set := Finset.disjoint_union_left.mpr ⟨disj_rs0_rs2, disj_rs1_rs2⟩
  have d3 : Disjoint (rs0.view.set ∪ rs1.view.set ∪ rs2.view.set) rs3.view.set :=
    Finset.disjoint_union_left.mpr ⟨Finset.disjoint_union_left.mpr ⟨disj_rs0_rs3, disj_rs1_rs3⟩, disj_rs2_rs3⟩
  iintro ⟨⟨%f0, %h0, H0⟩, ⟨%f1, %h1, H1⟩, ⟨%f2, %h2, H2⟩, ⟨%f3, %h3, H3⟩⟩
  ihave H := (pointsTo_join (ℓ := rsM.view.loc (c : Thread nD τ)) (f := f0) (g := f1) disj_rs0_rs1) $$ [H0 H1]
  · isplitl [H0] <;> iassumption
  ihave H := (pointsTo_join (ℓ := rsM.view.loc (c : Thread nD τ)) (g := f2) d2) $$ [H H2]
  · isplitl [H] <;> iassumption
  ihave H := (pointsTo_join (ℓ := rsM.view.loc (c : Thread nD τ)) (g := f3) d3) $$ [H H3]
  · isplitl [H] <;> iassumption
  iexists _
  iapply (Entails.of_eq (congrArg (fun S => (rsM.view.loc (c : Thread nD τ) ↦[S]{fullShare} _ : sProp 𝕄)) rs_cover.symm))
  iexact H
omit [FloatOps F] in
theorem join_rl (c : Dev nD) (V1 V2 : FVec F S96x768 .bf16) :
    iprop(slot c rl0 fullShare V1 ∗ slot c rl1 fullShare V2) ⊢ iprop(∃ f, bufAt (F := F) c cc0_scratch2 f) := by
  unfold slot
  iintro ⟨⟨%f0, %h0, H0⟩, ⟨%f1, %h1, H1⟩⟩
  ihave H := (pointsTo_join (ℓ := rlM.view.loc (c : Thread nD τ)) (f := f0) (g := f1) disj_rl0_rl1) $$ [H0 H1]
  · isplitl [H0] <;> iassumption
  iexists _
  iapply (Entails.of_eq (congrArg (fun S => (rlM.view.loc (c : Thread nD τ) ↦[S]{fullShare} _ : sProp 𝕄)) rl_cover.symm))
  iexact H
omit [FloatOps F] in
theorem join_cb (c : Dev nD) (V1 V2 : FVec F S96x768 .bf16) :
    iprop(slot c cb0 fullShare V1 ∗ slot c cb1 fullShare V2) ⊢ iprop(∃ f, bufAt (F := F) c cc0_scratch3 f) := by
  unfold slot
  iintro ⟨⟨%f0, %h0, H0⟩, ⟨%f1, %h1, H1⟩⟩
  ihave H := (pointsTo_join (ℓ := cbM.view.loc (c : Thread nD τ)) (f := f0) (g := f1) disj_cb0_cb1) $$ [H0 H1]
  · isplitl [H0] <;> iassumption
  iexists _
  iapply (Entails.of_eq (congrArg (fun S => (cbM.view.loc (c : Thread nD τ) ↦[S]{fullShare} _ : sProp 𝕄)) cb_cover.symm))
  iexact H

/-! ## Closing the cells -/

/-- Every transfer cell of a device, past its one round, closes: its counter at zero is the device's again. -/
theorem close_cells (K : Dev nD × Fin 25 → ℕ) (c : Dev nD) :
    iprop(records m K ∗ bigSep Finset.univ fun i : Fin 24 => atPos ER (dcell c i) 1 ∅ 0)
      ⊢ (|={Set.univ}=> bigSep Finset.univ fun i : Fin 24 => semVal (dcell c i) 0 : sProp 𝕄) := by
  refine (BI.bigSep_with_persistent (R := records m K) (Ψ := fun i : Fin 24 => iprop(|={Set.univ}=> semVal (dcell c i) 0)) fun i _ => ?_).trans (bigSep_fupd _ _)
  iintro ⟨#HR, Hat⟩
  iapply (Rounds.cell_close ER (ringRd m) (κ := K (c, i.succ)) (Set.mem_univ _) (fun h => h) (R := 1) (duties_later m (dcell c i)))
  isplitr; · iapply (inv_dma m K c i); iexact HR
  iexact Hat

end Cert.KernelProof

end
-- ==== Proof.Bits.Part1.lean ====
/-
  The entry handshake: a device signals both neighbours' barrier semaphore, handing each the windows of its own buffers
  that neighbour will copy into, and waits for the two units of its own, receiving the neighbours' windows it copies into.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 1600000 in
theorem part1_spec (K : Dev nD × Fin 25 → ℕ) (c : Dev nD) (W : Waits sig Unit)
    (Kt : (Σ' (d0 : Dev nD) (v2 : BitVec 32) (v13 : BitVec 32), BitVec 32) → sProp 𝕄) :
    iprop(records m K ∗ levAts L lv ∗ owes (c : Thread nD τ) (O₀ c) W
        ∗ dutyTok ER (barCell (prv c)) 0 false ∗ dutyTok ER (barCell (nxt c)) 0 true
        ∗ barPayR (F := F) (prv c) ∗ barPayL (F := F) (nxt c)
        ∗ cred (tallyAt (barCell c) () 2) ∗ atPos ER (barCell c) 0 ∅ 0
        ∗ (∀ v2 v13 v24, ((∃ W', owes (c : Thread nD τ) (Ofrom c 0) W') ∗ barPayR (F := F) c ∗ barPayL (F := F) c ∗ atPos ER (barCell c) 1 ∅ 0) -∗ Kt ⟨c, v2, v13, v24⟩))
      ⊢ wp frame (wpE (defs₀ (F := F)) 𝒱₀ (c : Thread nD τ) none) Set.univ (k0_part1 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10) Kt := by
  rw [k0_part1_eq_skeleton]; unfold k0_part1_skel
  simp only [semSignalWord, semWaitWord, Prog.lift, Prog.bind_op, Prog.bind_ret, Prog.pure_eq_ret, wp_deviceId]
  iintro ⟨#HR, #Hlev, HO, HtP, HtN, HgP, HgN, Hc, Hat, Hk⟩
  simp only [dev1_eq c, dev2_eq c]
  -- the first signal, to the left neighbour: duty `false` of its barrier cell
  iapply (Rounds.wp_signal 𝒱₀ ER (ringRd m) (c : Thread nD τ) none (dst := (prv c : Thread nD τ)) (κ := K (prv c, 0))
      (d := false) (by rw [duties_bar]; exact Finset.mem_univ _) ((amount_bar m (prv c) false).trans (by decide)) () (O₁ c) rfl)
    $$ [HO HtP HgP]
  · isplitr; · iapply (inv_bar m K (prv c)); iexact HR
    isplitl [HO]; · iexact HO
    isplitl [HtP]; · iexact HtP
    isplitl [HgP]; · rw [payload_bar_false]; iexact HgP
    iapply (reached_bar m K (prv c)); iexact HR
  iintro HO
  unfold O₁
  -- the second, to the right neighbour: duty `true` of its barrier cell
  iapply (Rounds.wp_signal 𝒱₀ ER (ringRd m) (c : Thread nD τ) none (dst := (nxt c : Thread nD τ)) (κ := K (nxt c, 0))
      (d := true) (by rw [duties_bar]; exact Finset.mem_univ _) ((amount_bar m (nxt c) true).trans (by decide)) () (Ofrom c 0) rfl)
    $$ [HO HtN HgN]
  · isplitr; · iapply (inv_bar m K (nxt c)); iexact HR
    isplitl [HO]; · iexact HO
    isplitl [HtN]; · iexact HtN
    isplitl [HgN]; · rw [payload_bar_true]; iexact HgN
    iapply (reached_bar m K (nxt c)); iexact HR
  iintro HO
  -- the wait for both neighbours' units, owing the twelve copies: every receive cell lies above the barrier cell
  iapply (Rounds.wp_wait_rest_token 𝒱₀ ER (ringRd m) (c : Thread nD τ) none (κ := K (c, 0))
      (wpE_semWait_eq 𝒱₀ (c : Thread nD τ) none Set.univ) (Set.mem_univ _) () (O := Ofrom c 0) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_from c (.reg barS) 0 (pay_above_0 c)); iexact Hlev
    iexact Hat
  iintro ⟨HO, Hat, -, Hpay⟩
  ihave Hp := (Entails.of_eq (rest_bar m c)) $$ Hpay
  icases Hp with ⟨HgR, HgL⟩
  rw [wp_ret]; imodintro
  iapply Hk
  isplitl [HO]; · iexists _; iexact HO
  isplitl [HgR]; · iexact HgR
  isplitl [HgL]; · iexact HgL
  iexact Hat

end Cert.KernelProof

end
-- ==== Proof.Bits.Part2.lean ====
/-
  The device rounds its three argument blocks into scratch buffers and forms the first matrix product for the chunk two
  devices away.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 1600000 in
theorem part2_spec (c : Dev nD) (v2 : BitVec 32)
    (Kt : (Σ' (v52 : BitVec 32) (v57 : FVec F S192x1536 .f32), F .f32) → sProp 𝕄) :
    iprop(bufAt c cc0_stg0_0 (Xin m c) ∗ bufAt c cc0_stg1_0 (W1in m c) ∗ bufAt c cc0_stg2_0 (W2in m c)
        ∗ (∃ f, bufAt (F := F) c cc0_scratch4 f) ∗ (∃ f, bufAt (F := F) c cc0_scratch5 f) ∗ (∃ f, bufAt (F := F) c cc0_scratch6 f)
        ∗ (∀ v52, (bufAt c cc0_stg0_0 (Xin m c) ∗ bufAt c cc0_stg1_0 (W1in m c) ∗ bufAt c cc0_stg2_0 (W2in m c)
              ∗ bufAt c cc0_scratch4 (k0_pay1 (Xin m c)) ∗ bufAt c cc0_scratch5 (k0_pay2 (W1in m c)) ∗ bufAt c cc0_scratch6 (k0_pay4 (W2in m c)))
            -∗ Kt ⟨v52, k0_pay3 (xrows (Xin m) c (opp c)) (k0_pay2 (W1in m c)), Scalar.ofBits .f32 0x00000000#32⟩))
      ⊢ wp frame (wpE (defs₀ (F := F)) 𝒱₀ (c : Thread nD τ) none) Set.univ (k0_part2 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2) Kt := by
  rw [k0_part2_eq_skeleton]; unfold k0_part2_skel
  simp only [Prog.lift, Prog.bind_op, Prog.bind_ret, Prog.pure_eq_ret]
  iintro ⟨Hx, Hw1, Hw2, ⟨%f4, Hxb⟩, ⟨%f5, Hw1b⟩, ⟨%f6, Hw2b⟩, Hk⟩
  -- x, rounded into its scratch buffer
  iapply (wp_load_eq (c : Thread nD τ) (mr := xM) (Finset.subset_univ _) (Xin m c) (xM_readAt _)) $$ Hx; iintro Hx
  iapply (wp_load 𝒱₀ (c : Thread nD τ) none Set.univ (m := xbM) (Finset.subset_univ _)) $$ Hxb; iintro Hxb
  iapply (wp_store_eq (c : Thread nD τ) (mr := xbM) (r := (Rect.unit (s := S768x768) ![0, 0] S768x768.size inb_S768x768_S768x768_0_0)) (Finset.subset_univ _) (k0_pay1 (Xin m c)) (xbM_write _ _)) $$ Hxb; iintro Hxb
  -- W1 likewise
  iapply (wp_load_eq (c : Thread nD τ) (mr := w1M) (Finset.subset_univ _) (W1in m c) (w1M_readAt _)) $$ Hw1; iintro Hw1
  iapply (wp_load 𝒱₀ (c : Thread nD τ) none Set.univ (m := w1bM) (Finset.subset_univ _)) $$ Hw1b; iintro Hw1b
  iapply (wp_store_eq (c : Thread nD τ) (mr := w1bM) (r := (Rect.unit (s := S768x1536) ![0, 0] S768x1536.size inb_S768x1536_S768x1536_0_0)) (Finset.subset_univ _) (k0_pay2 (W1in m c)) (w1bM_write _ _)) $$ Hw1b; iintro Hw1b
  -- the rows of the chunk two devices away, and the rounded W1
  iapply (wp_load_eq (c : Thread nD τ) (mr := xbM) (Finset.subset_univ _) (xrows (Xin m) c (opp c)) (xrows_opp (Xin m) c)) $$ Hxb; iintro Hxb
  iapply (wp_load_eq (c : Thread nD τ) (mr := w1bM) (Finset.subset_univ _) (k0_pay2 (W1in m c)) (w1bM_readAt _)) $$ Hw1b; iintro Hw1b
  -- W2, rounded
  iapply (wp_load_eq (c : Thread nD τ) (mr := w2M) (Finset.subset_univ _) (W2in m c) (w2M_readAt _)) $$ Hw2; iintro Hw2
  iapply (wp_load 𝒱₀ (c : Thread nD τ) none Set.univ (m := w2bM) (Finset.subset_univ _)) $$ Hw2b; iintro Hw2b
  iapply (wp_store_eq (c : Thread nD τ) (mr := w2bM) (r := (Rect.unit (s := S1536x768) ![0, 0] S1536x768.size inb_S1536x768_S1536x768_0_0)) (Finset.subset_univ _) (k0_pay4 (W2in m c)) (w2bM_write _ _)) $$ Hw2b; iintro Hw2b
  rw [wp_ret]; imodintro
  iapply Hk
  isplitl [Hx]; · iexact Hx
  isplitl [Hw1]; · iexact Hw1
  isplitl [Hw2]; · iexact Hw2
  isplitl [Hxb]; · iexact Hxb
  isplitl [Hw1b]; · iexact Hw1b
  iexact Hw2b

end Cert.KernelProof

end
-- ==== Proof.Bits.Part3.lean ====
/-
  The partial product for the chunk two devices away goes into slot 0 of the send buffer, and its two halves leave: the
  lower to the left neighbour's relay slot 0, the upper to the right neighbour's relay slot 1.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part3_spec (K : Dev nD × Fin 25 → ℕ) (c : Dev nD) (v13 v24 : BitVec 32)
    (Kt : BitVec 32 → sProp 𝕄) :
    iprop(records m K ∗ bufAt c cc0_scratch6 (k0_pay4 (W2in m c))
        ∗ (∃ f, (sbM.view.loc (c : Thread nD τ) ↦[sb00.view.set ∪ sb01.view.set]{fullShare} f : sProp 𝕄))
        ∗ hole (F := F) (prv c) rl0 ∗ hole (F := F) (nxt c) rl1
        ∗ (∃ W, owes (c : Thread nD τ) (Ofrom c 0) W)
        ∗ dutyTok ER (dcell c 0) 0 false ∗ dutyTok ER (dcell c 1) 0 false
        ∗ dutyTok ER (dcell (prv c) 10) 0 false ∗ dutyTok ER (dcell (nxt c) 11) 0 false
        ∗ (∀ v93, (bufAt c cc0_scratch6 (k0_pay4 (W2in m c)) ∗ (∃ W, owes (c : Thread nD τ) (Ofrom c 2) W)
              ∗ cred (tallyAt (dcell c 0) () N) ∗ cred (tallyAt (dcell c 1) () N)) -∗ Kt v93))
      ⊢ wp frame (wpE (defs₀ (F := F)) 𝒱₀ (c : Thread nD τ) none) Set.univ
          (k0_part3 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v13 v24 (k0_pay3 (xrows (Xin m) c (opp c)) (k0_pay2 (W1in m c))) (Scalar.ofBits .f32 0x00000000#32)) Kt := by
  rw [k0_part3_eq_skeleton]; unfold k0_part3_skel
  simp only [Prog.lift, Prog.bind_op, Prog.bind_ret, Prog.pure_eq_ret]
  unfold hole
  iintro ⟨#HR, Hw2b, ⟨%f0, Hsb⟩, ⟨%fL, HhL⟩, ⟨%fR, HhR⟩, ⟨%W, HO⟩, Ht0, Ht1, HtL, HtR, Hk⟩
  iapply (wp_load_eq (c : Thread nD τ) (mr := w2bM) (Finset.subset_univ _) (k0_pay4 (W2in m c)) (w2bM_readAt _)) $$ Hw2b; iintro Hw2b
  -- slot 0 of the send buffer: read (the value is not used), then overwritten by the partial product
  iapply (wp_load 𝒱₀ (c : Thread nD τ) none Set.univ (m := sbM) sb_load0_sub) $$ Hsb; iintro Hsb
  iapply (wp_store 𝒱₀ (c : Thread nD τ) none Set.univ (m := sbM) (r := (Rect.unit (s := S3x192x768) ![0, 0, 0] S1x192x768.size inb_S3x192x768_S1x192x768_0_0_0)) (Mk := Finset.univ) sb_store0_sub) $$ Hsb; iintro Hsb
  ihave Hsb' := (pointsTo_union disj_sb00_sb01).1 $$ Hsb
  icases Hsb' with ⟨Hs0, Hs1⟩
  -- the lower half to the left neighbour
  iapply (wp_copy m K c (prv c) _ (dev3_eq c) 0 10 _ _ rfl rfl fullShare (half0 (PART c (opp c))) _ fL (Ofrom c 1) W rfl
      (sb00_read_store _ _) rfl (by show slot _ _ _ _ = slot _ _ _ _; rw [nxt_prv, prv_prv])) $$ [Hs0 HhL HO Ht0 HtL]
  · isplitr; · iexact HR
    isplitl [Hs0]; · iexact Hs0
    isplitl [HhL]; · iexact HhL
    isplitl [HO]; · iexact HO
    isplitl [Ht0]; · iexact Ht0
    iexact HtL
  iintro ⟨Hc0, HO⟩
  -- the upper half to the right neighbour
  iapply (wp_copy m K c (nxt c) _ (dev4_eq c) 1 11 _ _ rfl rfl fullShare (half1 (PART c (opp c))) _ fR (Ofrom c 2) W rfl
      (sb01_read_store _ _) rfl (by show slot _ _ _ _ = slot _ _ _ _; rw [prv_nxt, nxt_nxt])) $$ [Hs1 HhR HO Ht1 HtR]
  · isplitr; · iexact HR
    isplitl [Hs1]; · iexact Hs1
    isplitl [HhR]; · iexact HhR
    isplitl [HO]; · iexact HO
    isplitl [Ht1]; · iexact Ht1
    iexact HtR
  iintro ⟨Hc1, HO⟩
  rw [wp_ret]; imodintro
  iapply Hk
  isplitl [Hw2b]; · iexact Hw2b
  isplitl [HO]; · iexists W; iexact HO
  isplitl [Hc0]; · iexact Hc0
  iexact Hc1

end Cert.KernelProof

end
-- ==== Proof.Bits.Part4.lean ====
/-
  The partial product for the right neighbour's chunk goes into slot 1 of the send buffer; its lower half leaves for the
  right neighbour's receive slot 0; the first matrix product for the left neighbour's chunk is formed.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part4_spec (K : Dev nD × Fin 25 → ℕ) (c : Dev nD) (v13 v24 v93 : BitVec 32)
    (Kt : FVec F S192x1536 .bf16 → sProp 𝕄) :
    iprop(records m K ∗ bufAt c cc0_scratch4 (k0_pay1 (Xin m c)) ∗ bufAt c cc0_scratch5 (k0_pay2 (W1in m c)) ∗ bufAt c cc0_scratch6 (k0_pay4 (W2in m c))
        ∗ (∃ f, (sbM.view.loc (c : Thread nD τ) ↦[sb10.view.set ∪ sb11.view.set]{fullShare} f : sProp 𝕄))
        ∗ hole (F := F) (nxt c) rs0
        ∗ (∃ W, owes (c : Thread nD τ) (Ofrom c 2) W)
        ∗ dutyTok ER (dcell c 2) 0 false ∗ dutyTok ER (dcell (nxt c) 6) 0 false
        ∗ ((bufAt c cc0_scratch4 (k0_pay1 (Xin m c)) ∗ bufAt c cc0_scratch5 (k0_pay2 (W1in m c)) ∗ bufAt c cc0_scratch6 (k0_pay4 (W2in m c))
              ∗ slot c sb11 fullShare (half1 (PART c (nxt c)))
              ∗ (∃ W, owes (c : Thread nD τ) (Ofrom c 3) W) ∗ cred (tallyAt (dcell c 2) () N))
            -∗ Kt (k0_pay7 (xrows (Xin m) c (prv c)) (k0_pay2 (W1in m c)))))
      ⊢ wp frame (wpE (defs₀ (F := F)) 𝒱₀ (c : Thread nD τ) none) Set.univ
          (k0_part4 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v13 v24 v93) Kt := by
  rw [k0_part4_eq_skeleton]; unfold k0_part4_skel
  simp only [Prog.lift, Prog.bind_op, Prog.bind_ret, Prog.pure_eq_ret]
  unfold hole
  iintro ⟨#HR, Hxb, Hw1b, Hw2b, ⟨%f0, Hsb⟩, ⟨%fR, HhR⟩, ⟨%W, HO⟩, Ht2, HtR, Hk⟩
  iapply (wp_load_eq (c : Thread nD τ) (mr := xbM) (Finset.subset_univ _) (xrows (Xin m) c (nxt c)) (xrows_nxt (Xin m) c)) $$ Hxb; iintro Hxb
  iapply (wp_load_eq (c : Thread nD τ) (mr := w1bM) (Finset.subset_univ _) (k0_pay2 (W1in m c)) (w1bM_readAt _)) $$ Hw1b; iintro Hw1b
  iapply (wp_load_eq (c : Thread nD τ) (mr := w2bM) (Finset.subset_univ _) (k0_pay4 (W2in m c)) (w2bM_readAt _)) $$ Hw2b; iintro Hw2b
  -- slot 1 of the send buffer: read (not used), then overwritten by the partial product for the right neighbour's chunk
  iapply (wp_load 𝒱₀ (c : Thread nD τ) none Set.univ (m := sbM) sb_load1_sub) $$ Hsb; iintro Hsb
  iapply (wp_store 𝒱₀ (c : Thread nD τ) none Set.univ (m := sbM) (r := (Rect.unit (s := S3x192x768) ![1, 0, 0] S1x192x768.size inb_S3x192x768_S1x192x768_1_0_0)) (Mk := Finset.univ) sb_store1_sub) $$ Hsb; iintro Hsb
  ihave Hsb' := (pointsTo_union disj_sb10_sb11).1 $$ Hsb
  icases Hsb' with ⟨Hs0, Hs1⟩
  -- the lower half to the right neighbour
  iapply (wp_copy m K c (nxt c) _ (dev5_eq c) 2 6 _ _ rfl rfl fullShare (half0 (PART c (nxt c))) _ fR (Ofrom c 3) W rfl
      (sb10_read_store _ _) rfl (by show slot _ _ _ _ = slot _ _ _ _; rw [prv_nxt])) $$ [Hs0 HhR HO Ht2 HtR]
  · isplitr; · iexact HR
    isplitl [Hs0]; · iexact Hs0
    isplitl [HhR]; · iexact HhR
    isplitl [HO]; · iexact HO
    isplitl [Ht2]; · iexact Ht2
    iexact HtR
  iintro ⟨Hc2, HO⟩
  -- the rows of the left neighbour's chunk
  iapply (wp_load_eq (c : Thread nD τ) (mr := xbM) (Finset.subset_univ _) (xrows (Xin m) c (prv c)) (xrows_prv (Xin m) c)) $$ Hxb; iintro Hxb
  iapply (wp_load_eq (c : Thread nD τ) (mr := w1bM) (Finset.subset_univ _) (k0_pay2 (W1in m c)) (w1bM_readAt _)) $$ Hw1b; iintro Hw1b
  rw [wp_ret]; imodintro
  iapply Hk
  isplitl [Hxb]; · iexact Hxb
  isplitl [Hw1b]; · iexact Hw1b
  isplitl [Hw2b]; · iexact Hw2b
  isplitl [Hs1]
  · unfold slot
    iexists ((sbM.access (Rect.unit (s := S3x192x768) ![1, 0, 0] S1x192x768.size inb_S3x192x768_S1x192x768_1_0_0)).write (Elt F) f0 (k0_pay6 (xrows (Xin m) c (nxt c)) (k0_pay2 (W1in m c)) (k0_pay4 (W2in m c))) Finset.univ)
    isplitr; · (ipureintro; exact sb11_read_store f0 _)
    iexact Hs1
  isplitl [HO]; · iexists _; iexact HO
  iexact Hc2

end Cert.KernelProof

end
-- ==== Proof.Bits.Part5.lean ====
/-
  The partial product for the left neighbour's chunk goes into slot 2 of the send buffer; its upper half leaves for the
  left neighbour's receive slot 2; the device then waits for the upper half its left neighbour sent into relay slot 1 and
  reads the upper half of slot 1, which it will add to it.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part5_spec (K : Dev nD × Fin 25 → ℕ) (c : Dev nD) (v2 v24 : BitVec 32)
    (Kt : FVec F S96x768 .bf16 → sProp 𝕄) :
    iprop(records m K ∗ levAts L lv ∗ bufAt c cc0_scratch6 (k0_pay4 (W2in m c))
        ∗ (∃ f, (sbM.view.loc (c : Thread nD τ) ↦[sb20.view.set ∪ sb21.view.set]{fullShare} f : sProp 𝕄))
        ∗ hole (F := F) (prv c) rs2
        ∗ (∃ W, owes (c : Thread nD τ) (Ofrom c 3) W)
        ∗ dutyTok ER (dcell c 4) 0 false ∗ dutyTok ER (dcell (prv c) 8) 0 false
        ∗ cred (tallyAt (dcell c 11) () N) ∗ atPos ER (dcell c 11) 0 ∅ 0
        ∗ slot c sb11 fullShare (half1 (PART c (nxt c)))
        ∗ ((bufAt c cc0_scratch6 (k0_pay4 (W2in m c)) ∗ slot c sb20 fullShare (half0 (PART c (prv c)))
              ∗ (∃ W, owes (c : Thread nD τ) (Ofrom c 4) W) ∗ cred (tallyAt (dcell c 4) () N) ∗ atPos ER (dcell c 11) 1 ∅ 0
              ∗ slot c rl1 fullShare (half1 (PART (prv c) (nxt c))) ∗ slot c sb11 fullShare (half1 (PART c (nxt c))))
            -∗ Kt (half1 (PART c (nxt c)))))
      ⊢ wp frame (wpE (defs₀ (F := F)) 𝒱₀ (c : Thread nD τ) none) Set.univ
          (k0_part5 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v24 (k0_pay7 (xrows (Xin m) c (prv c)) (k0_pay2 (W1in m c)))) Kt := by
  rw [k0_part5_eq_skeleton]; unfold k0_part5_skel
  simp only [Prog.lift, Prog.bind_op, Prog.bind_ret, Prog.pure_eq_ret]
  unfold slot hole
  iintro ⟨#HR, #Hlev, Hw2b, ⟨%f0, Hsb⟩, ⟨%fL, HhL⟩, ⟨%W, HO⟩, Ht4, HtL, Hc11, Hat11, ⟨%f11, %hf11, Hs11⟩, Hk⟩
  iapply (wp_load_eq (c : Thread nD τ) (mr := w2bM) (Finset.subset_univ _) (k0_pay4 (W2in m c)) (w2bM_readAt _)) $$ Hw2b; iintro Hw2b
  -- slot 2 of the send buffer: read (not used), then overwritten by the partial product for the left neighbour's chunk
  iapply (wp_load 𝒱₀ (c : Thread nD τ) none Set.univ (m := sbM) sb_load2_sub) $$ Hsb; iintro Hsb
  iapply (wp_store 𝒱₀ (c : Thread nD τ) none Set.univ (m := sbM) (r := (Rect.unit (s := S3x192x768) ![2, 0, 0] S1x192x768.size inb_S3x192x768_S1x192x768_2_0_0)) (Mk := Finset.univ) sb_store2_sub) $$ Hsb; iintro Hsb
  ihave Hsb' := (pointsTo_union disj_sb20_sb21).1 $$ Hsb
  icases Hsb' with ⟨Hs0, Hs1⟩
  -- the upper half to the left neighbour
  iapply (wp_copy m K c (prv c) _ (dev6_eq c) 4 8 _ _ rfl rfl fullShare (half1 (PART c (prv c))) _ fL (Ofrom c 4) W rfl
      (sb21_read_store _ _) rfl (by show slot _ _ _ _ = slot _ _ _ _; rw [nxt_prv])) $$ [Hs1 HhL HO Ht4 HtL]
  · isplitr; · iexact HR
    isplitl [Hs1]; · iexact Hs1
    isplitl [HhL]; · iexact HhL
    isplitl [HO]; · iexact HO
    isplitl [Ht4]; · iexact Ht4
    iexact HtL
  iintro ⟨Hc4, HO⟩
  -- the wait for the landing in relay slot 1
  iapply (wp_await m K c 11 _ rfl (dst := rl1) (Ofrom c 4) W rfl) $$ [Hc11 HO Hat11]
  · isplitr; · iexact HR
    isplitl [Hc11]; · iexact Hc11
    isplitl [HO]; · iexact HO
    isplitr; · iapply (mayWait_from c (.dma (dsem 11)) 4 (pay_above_4 c)); iexact Hlev
    iexact Hat11
  iintro ⟨HO, Hat11, Hrl1⟩
  simp only [dmaPay]; unfold slot
  -- the upper half of slot 1
  iapply (wp_load 𝒱₀ (c : Thread nD τ) none Set.univ (m := sbM) sb11_load_sub) $$ Hs11; iintro Hs11
  rw [show k0_pay9 (F := F) (sbM.view.readAt (Elt F) (Rect.unit (s := S3x192x768) ![1, 96, 0] S1x96x768.size inb_S3x192x768_S1x96x768_1_96_0).toLoadRect f11) = half1 (PART c (nxt c)) from (sb11_load f11).trans hf11, wp_ret]; imodintro
  iapply Hk
  isplitl [Hw2b]; · iexact Hw2b
  isplitl [Hs0]
  · iexists ((sbM.access (Rect.unit (s := S3x192x768) ![2, 0, 0] S1x192x768.size inb_S3x192x768_S1x192x768_2_0_0)).write (Elt F) f0 (k0_pay8 (k0_pay7 (xrows (Xin m) c (prv c)) (k0_pay2 (W1in m c))) (k0_pay4 (W2in m c))) Finset.univ)
    isplitr; · (ipureintro; exact sb20_read_store f0 _)
    iexact Hs0
  isplitl [HO]; · iexists _; iexact HO
  isplitl [Hc4]; · iexact Hc4
  isplitl [Hat11]; · iexact Hat11
  isplitl [Hrl1]; · iexact Hrl1
  iexists f11; isplitr; · (ipureintro; exact hf11)
  iexact Hs11

end Cert.KernelProof

end
-- ==== Proof.Bits.Part6.lean ====
/-
  The device adds the upper half it received in relay slot 1 to the upper half of its own partial product for the right
  neighbour's chunk and sends the sum on to the right neighbour's receive slot 3; it then waits for the lower half its right
  neighbour sent into relay slot 0 and reads the two lower halves it will add next.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part6_spec (K : Dev nD × Fin 25 → ℕ) (c : Dev nD) (v2 v13 : BitVec 32)
    (Kt : (Σ' (v176 : FVec F S96x768 .bf16), Vec F S1x96x768 .bf16) → sProp 𝕄) :
    iprop(records m K ∗ levAts L lv
        ∗ slot c rl1 fullShare (half1 (PART (prv c) (nxt c)))
        ∗ (∃ f, (cbM.view.loc (c : Thread nD τ) ↦[cb0.view.set]{fullShare} f : sProp 𝕄))
        ∗ hole (F := F) (nxt c) rs3
        ∗ (∃ W, owes (c : Thread nD τ) (Ofrom c 4) W)
        ∗ dutyTok ER (dcell c 3) 0 false ∗ dutyTok ER (dcell (nxt c) 9) 0 false
        ∗ cred (tallyAt (dcell c 10) () N) ∗ atPos ER (dcell c 10) 0 ∅ 0
        ∗ slot c sb20 fullShare (half0 (PART c (prv c)))
        ∗ (∀ Lr : Vec F S1x96x768 .bf16, ⌜shapeCast S96x768 Lr shapeCasts_S1x96x768_S96x768 = half0 (PART (nxt c) (prv c))⌝ -∗
            (slot c rl1 fullShare (half1 (PART (prv c) (nxt c)))
              ∗ (∃ W, owes (c : Thread nD τ) (Ofrom c 5) W) ∗ cred (tallyAt (dcell c 3) () N) ∗ atPos ER (dcell c 10) 1 ∅ 0
              ∗ slot c rl0 fullShare (half0 (PART (nxt c) (prv c))) ∗ slot c sb20 fullShare (half0 (PART c (prv c))))
            -∗ Kt ⟨half0 (PART c (prv c)), Lr⟩))
      ⊢ wp frame (wpE (defs₀ (F := F)) 𝒱₀ (c : Thread nD τ) none) Set.univ
          (k0_part6 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v13 (half1 (PART c (nxt c)))) Kt := by
  rw [k0_part6_eq_skeleton]; unfold k0_part6_skel
  simp only [Prog.lift, Prog.bind_op, Prog.bind_ret, Prog.pure_eq_ret]
  unfold slot hole
  iintro ⟨#HR, #Hlev, ⟨%f1, %hf1, Hrl1⟩, ⟨%fc, Hcb⟩, ⟨%fR, HhR⟩, ⟨%W, HO⟩, Ht3, HtR, Hc10, Hat10, ⟨%f20, %hf20, Hs20⟩, Hk⟩
  -- the received upper half, and the slot the sum goes into (read first: not used)
  iapply (wp_load 𝒱₀ (c : Thread nD τ) none Set.univ (m := rlM) rl1_load_sub) $$ Hrl1; iintro Hrl1
  iapply (wp_load 𝒱₀ (c : Thread nD τ) none Set.univ (m := cbM) cb0_load_sub) $$ Hcb; iintro Hcb
  iapply (wp_store 𝒱₀ (c : Thread nD τ) none Set.univ (m := cbM) (r := (Rect.unit (s := S2x96x768) ![0, 0, 0] S1x96x768.size inb_S2x96x768_S1x96x768_0_0_0)) (Mk := Finset.univ) cb0_store_sub) $$ Hcb; iintro Hcb
  -- the sum to the right neighbour
  iapply (wp_copy m K c (nxt c) _ (dev7_eq c) 3 9 _ _ rfl rfl fullShare (COMB0 c) _ fR (Ofrom c 5) W rfl
      ((cb0_read_store _ _).trans (by unfold comb0; rw [← hf1, ← rl1_load f1])) rfl
      (by show slot _ _ _ _ = slot _ _ _ _; rw [prv_nxt])) $$ [Hcb HhR HO Ht3 HtR]
  · isplitr; · iexact HR
    isplitl [Hcb]; · iexact Hcb
    isplitl [HhR]; · iexact HhR
    isplitl [HO]; · iexact HO
    isplitl [Ht3]; · iexact Ht3
    iexact HtR
  iintro ⟨Hc3, HO⟩
  -- the wait for the landing in relay slot 0
  iapply (wp_await m K c 10 _ rfl (dst := rl0) (Ofrom c 5) W rfl) $$ [Hc10 HO Hat10]
  · isplitr; · iexact HR
    isplitl [Hc10]; · iexact Hc10
    isplitl [HO]; · iexact HO
    isplitr; · iapply (mayWait_from c (.dma (dsem 10)) 5 (pay_above_5 c)); iexact Hlev
    iexact Hat10
  iintro ⟨HO, Hat10, Hrl0⟩
  -- the lower half of slot 2 and the received lower half
  iapply (wp_load 𝒱₀ (c : Thread nD τ) none Set.univ (m := sbM) sb20_load_sub) $$ Hs20; iintro Hs20
  ihave Hrl0 := (Entails.of_eq (show dmaPay m c (10 : Fin 24).val = slot c rl0 fullShare (half0 (PART (nxt c) (prv c))) from rfl)) $$ Hrl0
  unfold slot
  icases Hrl0 with ⟨%f0, %hf0, Hrl0⟩
  iapply (wp_load 𝒱₀ (c : Thread nD τ) none Set.univ (m := rlM) rl0_load_sub) $$ Hrl0; iintro Hrl0
  rw [show k0_pay11 (F := F) (sbM.view.readAt (Elt F) (Rect.unit (s := S3x192x768) ![2, 0, 0] S1x96x768.size inb_S3x192x768_S1x96x768_2_0_0).toLoadRect f20) = half0 (PART c (prv c)) from (sb20_load f20).trans hf20, wp_ret]; imodintro
  iapply Hk $$ %_ [] [Hrl1 HO Hc3 Hat10 Hrl0 Hs20]
  · ipureintro; exact (rl0_load f0).trans hf0
  isplitl [Hrl1]; · iexists f1; isplitr; · (ipureintro; exact hf1)
                    iexact Hrl1
  isplitl [HO]; · iexists _; iexact HO
  isplitl [Hc3]; · iexact Hc3
  isplitl [Hat10]; · iexact Hat10
  isplitl [Hrl0]; · iexists f0; isplitr; · (ipureintro; exact hf0)
                    iexact Hrl0
  iexists f20; isplitr; · (ipureintro; exact hf20)
  iexact Hs20

end Cert.KernelProof

end
-- ==== Proof.Bits.Part7.lean ====
/-
  The device adds the lower half it received in relay slot 0 to the lower half of its own partial product for the left
  neighbour's chunk and sends the sum on to the left neighbour's receive slot 1; it then forms the partial product for its
  own chunk.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part7_spec (K : Dev nD × Fin 25 → ℕ) (c : Dev nD) (v2 v24 : BitVec 32) (Lr : Vec F S1x96x768 .bf16)
    (hLr : shapeCast S96x768 Lr shapeCasts_S1x96x768_S96x768 = half0 (PART (nxt c) (prv c)))
    (Kt : FVec F S192x768 .f32 → sProp 𝕄) :
    iprop(records m K
        ∗ (∃ f, (cbM.view.loc (c : Thread nD τ) ↦[cb1.view.set]{fullShare} f : sProp 𝕄))
        ∗ hole (F := F) (prv c) rs1
        ∗ (∃ W, owes (c : Thread nD τ) (Ofrom c 5) W)
        ∗ dutyTok ER (dcell c 5) 0 false ∗ dutyTok ER (dcell (prv c) 7) 0 false
        ∗ bufAt c cc0_scratch4 (k0_pay1 (Xin m c)) ∗ bufAt c cc0_scratch5 (k0_pay2 (W1in m c)) ∗ bufAt c cc0_scratch6 (k0_pay4 (W2in m c))
        ∗ ((bufAt c cc0_scratch4 (k0_pay1 (Xin m c)) ∗ bufAt c cc0_scratch5 (k0_pay2 (W1in m c)) ∗ bufAt c cc0_scratch6 (k0_pay4 (W2in m c))
              ∗ (∃ W, owes (c : Thread nD τ) (Ofrom c 6) W) ∗ cred (tallyAt (dcell c 5) () N))
            -∗ Kt (OWN c)))
      ⊢ wp frame (wpE (defs₀ (F := F)) 𝒱₀ (c : Thread nD τ) none) Set.univ
          (k0_part7 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v24 (half0 (PART c (prv c))) Lr) Kt := by
  rw [k0_part7_eq_skeleton]; unfold k0_part7_skel
  simp only [Prog.lift, Prog.bind_op, Prog.bind_ret, Prog.pure_eq_ret]
  unfold hole
  iintro ⟨#HR, ⟨%fc, Hcb⟩, ⟨%fL, HhL⟩, ⟨%W, HO⟩, Ht5, HtL, Hxb, Hw1b, Hw2b, Hk⟩
  -- the slot the sum goes into (read first: not used), then the sum
  iapply (wp_load 𝒱₀ (c : Thread nD τ) none Set.univ (m := cbM) cb1_load_sub) $$ Hcb; iintro Hcb
  iapply (wp_store 𝒱₀ (c : Thread nD τ) none Set.univ (m := cbM) (r := (Rect.unit (s := S2x96x768) ![1, 0, 0] S1x96x768.size inb_S2x96x768_S1x96x768_1_0_0)) (Mk := Finset.univ) cb1_store_sub) $$ Hcb; iintro Hcb
  -- the sum to the left neighbour
  iapply (wp_copy m K c (prv c) _ (dev8_eq c) 5 7 _ _ rfl rfl fullShare (COMB1 c) _ fL (Ofrom c 6) W rfl
      ((cb1_read_store _ _).trans (by unfold comb1; rw [← hLr])) rfl
      (by show slot _ _ _ _ = slot _ _ _ _; rw [nxt_prv])) $$ [Hcb HhL HO Ht5 HtL]
  · isplitr; · iexact HR
    isplitl [Hcb]; · iexact Hcb
    isplitl [HhL]; · iexact HhL
    isplitl [HO]; · iexact HO
    isplitl [Ht5]; · iexact Ht5
    iexact HtL
  iintro ⟨Hc5, HO⟩
  -- the device's own chunk
  iapply (wp_load_eq (c : Thread nD τ) (mr := xbM) (Finset.subset_univ _) (xrows (Xin m) c c) (xrows_own (Xin m) c)) $$ Hxb; iintro Hxb
  iapply (wp_load_eq (c : Thread nD τ) (mr := w1bM) (Finset.subset_univ _) (k0_pay2 (W1in m c)) (w1bM_readAt _)) $$ Hw1b; iintro Hw1b
  iapply (wp_load_eq (c : Thread nD τ) (mr := w2bM) (Finset.subset_univ _) (k0_pay4 (W2in m c)) (w2bM_readAt _)) $$ Hw2b; iintro Hw2b
  rw [show k0_pay13 (F := F) (xrows (Xin m) c c) (k0_pay2 (W1in m c)) (k0_pay4 (W2in m c)) = OWN c from rfl, wp_ret]; imodintro
  iapply Hk
  isplitl [Hxb]; · iexact Hxb
  isplitl [Hw1b]; · iexact Hw1b
  isplitl [Hw2b]; · iexact Hw2b
  isplitl [HO]; · iexists _; iexact HO
  iexact Hc5

end Cert.KernelProof

end
-- ==== Proof.Bits.GeomOut.lean ====
/-
  The rows of the result buffer as the program spells them. The program names a half-chunk window of the `[768, 768]`
  result by an offset computed from the device number; in closed form that offset is `(192 k + 96 j, 0)`, the rows of
  half `j` of chunk `k`. Slices, index sets, loads and stores through rectangles of the same sizes at equal offsets are
  equal, so every fact about the block `(k, j)` holds of the program's spelling of it.
-/
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.OutAll

noncomputable section

namespace Cert.KernelProof

open Cert.Kernel Cert.Kernel.Gen Cert.Kernel.Vals

open Idealize.ShloMosaic
open Idealize.ShloMosaic.TcCoe
open Idealize.ShloMosaic.ValueIdx (ix2)

variable {F : FTy → Type} [FloatOps F]

/-! ## Equal offsets, equal accesses -/

section Congr
variable {s : Shape} {e : EltTy} (M : Memref sig .tc .vmem s e) {off off' size : Fin s.rank → Nat}

theorem set_slice_unit_congr (h : off = off') (p : ∀ a, off a + size a ≤ s.size a) (p' : ∀ a, off' a + size a ≤ s.size a) (hs hs') :
    (M.slice (Rect.unit off size p) hs).view.set = (M.slice (Rect.unit off' size p') hs').view.set := by
  subst h; rfl

theorem read_slice_unit_congr (h : off = off') (p : ∀ a, off a + size a ≤ s.size a) (p' : ∀ a, off' a + size a ≤ s.size a) (hs hs')
    (f : M.view.ty.Contents (Elt F)) :
    (M.slice (Rect.unit off size p) hs).view.read (Elt F) f = (M.slice (Rect.unit off' size p') hs').view.read (Elt F) f := by
  subst h; rfl

theorem loadset_unit_congr (h : off = off') (p : ∀ a, off a + size a ≤ s.size a) (p' : ∀ a, off' a + size a ≤ s.size a) :
    (Rect.unit (s := s) off size p).toLoadRect.set = (Rect.unit (s := s) off' size p').toLoadRect.set := by
  subst h; rfl

theorem write_unit_congr (h : off = off') (p : ∀ a, off a + size a ≤ s.size a) (p' : ∀ a, off' a + size a ≤ s.size a)
    (f : M.view.ty.Contents (Elt F)) (w : (⟨s.rank, size⟩ : Shape).Idx → Elt F e) :
    (M.access (Rect.unit off size p)).write (Elt F) f w Finset.univ = (M.access (Rect.unit off' size p')).write (Elt F) f w Finset.univ := by
  subst h; rfl

end Congr

/-! ## The program's windows of the result are the blocks -/

theorem oS_off5 (c : Dev nD) (j : Fin 2) :
    oM.slice (Rect.unit (s := S768x768) (k0_off5 c (BitVec.ofNat 32 (96 * j.val))) S96x768.size (k0_off5_inb c j)) (fun _ => rfl) = oS c j :=
  Memref.slice_unit_congr oM (k0_off5_eq c j) _ _ _ _
/-- Own rows, lower half; -/
theorem oS_off5_0 (c : Dev nD) :
    oM.slice (Rect.unit (s := S768x768) (k0_off5 c 0#32) S96x768.size (k0_off5_inb c 0)) (fun _ => rfl) = oS c 0 := oS_off5 c 0
/-- upper half; -/
theorem oS_off5_1 (c : Dev nD) :
    oM.slice (Rect.unit (s := S768x768) (k0_off5 c 96#32) S96x768.size (k0_off5_inb c 1)) (fun _ => rfl) = oS c 1 := oS_off5 c 1
/-- the right neighbour's upper half; -/
theorem oS_off6 (c : Dev nD) :
    oM.slice (Rect.unit (s := S768x768) (k0_off6 c 1#32 96#32) S96x768.size (k0_off6_inb c 0 1)) (fun _ => rfl) = oS (nxt c) 1 :=
  Memref.slice_unit_congr oM (off6_eq c 0 1) _ _ _ _
/-- the left neighbour's lower half. -/
theorem oS_off7 (c : Dev nD) :
    oM.slice (Rect.unit (s := S768x768) (k0_off7 c 0#32) S96x768.size (k0_off7_inb c 0)) (fun _ => rfl) = oS (prv c) 0 :=
  Memref.slice_unit_congr oM (off7_eq c 0) _ _ _ _

/-- The same of their index sets, -/
theorem oSet_off5_0 (c : Dev nD) :
    (oM.slice (Rect.unit (s := S768x768) (k0_off5 c 0#32) S96x768.size (k0_off5_inb c 0)) (fun _ => rfl)).view.set = (oS c 0).view.set :=
  set_slice_unit_congr oM (k0_off5_eq c 0) _ _ _ _
theorem oSet_off5_1 (c : Dev nD) :
    (oM.slice (Rect.unit (s := S768x768) (k0_off5 c 96#32) S96x768.size (k0_off5_inb c 1)) (fun _ => rfl)).view.set = (oS c 1).view.set :=
  set_slice_unit_congr oM (k0_off5_eq c 1) _ _ _ _
theorem oSet_off6 (c : Dev nD) :
    (oM.slice (Rect.unit (s := S768x768) (k0_off6 c 1#32 96#32) S96x768.size (k0_off6_inb c 0 1)) (fun _ => rfl)).view.set = (oS (nxt c) 1).view.set :=
  set_slice_unit_congr oM (off6_eq c 0 1) _ _ _ _
theorem oSet_off7 (c : Dev nD) :
    (oM.slice (Rect.unit (s := S768x768) (k0_off7 c 0#32) S96x768.size (k0_off7_inb c 0)) (fun _ => rfl)).view.set = (oS (prv c) 0).view.set :=
  set_slice_unit_congr oM (off7_eq c 0) _ _ _ _

/-- and of what they read. -/
theorem oRead_off5_0 (c : Dev nD) (f : oM.view.ty.Contents (Elt F)) :
    (oM.slice (Rect.unit (s := S768x768) (k0_off5 c 0#32) S96x768.size (k0_off5_inb c 0)) (fun _ => rfl)).view.read (Elt F) f = (oS c 0).view.read (Elt F) f :=
  read_slice_unit_congr oM (k0_off5_eq c 0) _ _ _ _ f
theorem oRead_off5_1 (c : Dev nD) (f : oM.view.ty.Contents (Elt F)) :
    (oM.slice (Rect.unit (s := S768x768) (k0_off5 c 96#32) S96x768.size (k0_off5_inb c 1)) (fun _ => rfl)).view.read (Elt F) f = (oS c 1).view.read (Elt F) f :=
  read_slice_unit_congr oM (k0_off5_eq c 1) _ _ _ _ f
theorem oRead_off6 (c : Dev nD) (f : oM.view.ty.Contents (Elt F)) :
    (oM.slice (Rect.unit (s := S768x768) (k0_off6 c 1#32 96#32) S96x768.size (k0_off6_inb c 0 1)) (fun _ => rfl)).view.read (Elt F) f = (oS (nxt c) 1).view.read (Elt F) f :=
  read_slice_unit_congr oM (off6_eq c 0 1) _ _ _ _ f
theorem oRead_off7 (c : Dev nD) (f : oM.view.ty.Contents (Elt F)) :
    (oM.slice (Rect.unit (s := S768x768) (k0_off7 c 0#32) S96x768.size (k0_off7_inb c 0)) (fun _ => rfl)).view.read (Elt F) f = (oS (prv c) 0).view.read (Elt F) f :=
  read_slice_unit_congr oM (off7_eq c 0) _ _ _ _ f

/-! ## Loads and stores of a device's own rows, at the program's spelling of the offset -/

theorem oS_load_sub4 (c : Dev nD) (j : Fin 2) :
    oM.view.setOn (Rect.unit (s := S768x768) (k0_off4 c (BitVec.ofNat 32 (96 * j.val))) S96x768.size (k0_off4_inb c j)).toLoadRect.set ⊆ (oS c j).view.set := by
  rw [loadset_unit_congr (k0_off4_eq c j) (k0_off4_inb c j) (orow_inb c j)]
  exact oS_load_sub c j
theorem oS_store_sub4 (c : Dev nD) (j : Fin 2) :
    (oM.access (Rect.unit (s := S768x768) (k0_off4 c (BitVec.ofNat 32 (96 * j.val))) S96x768.size (k0_off4_inb c j))).setOn Finset.univ ⊆ (oS c j).view.set :=
  subset_of_eq (set_slice_unit_congr oM (k0_off4_eq c j) (k0_off4_inb c j) (orow_inb c j) (fun _ => rfl) (fun _ => rfl))
theorem oS_read_store4 (c : Dev nD) (j : Fin 2) (f : oM.view.ty.Contents (Elt F)) (w : FVec F S96x768 .bf16) :
    (oS c j).view.read (Elt F) ((oM.access (Rect.unit (s := S768x768) (k0_off4 c (BitVec.ofNat 32 (96 * j.val))) S96x768.size (k0_off4_inb c j))).write (Elt F) f w Finset.univ) = w :=
  (congrArg ((oS c j).view.read (Elt F)) (write_unit_congr oM (k0_off4_eq c j) (k0_off4_inb c j) (orow_inb c j) f w)).trans (oS_read_store c j f w)

theorem oS_load_sub4_0 (c : Dev nD) :
    oM.view.setOn (Rect.unit (s := S768x768) (k0_off4 c 0#32) S96x768.size (k0_off4_inb c 0)).toLoadRect.set ⊆ (oS c 0).view.set := oS_load_sub4 c 0
theorem oS_load_sub4_1 (c : Dev nD) :
    oM.view.setOn (Rect.unit (s := S768x768) (k0_off4 c 96#32) S96x768.size (k0_off4_inb c 1)).toLoadRect.set ⊆ (oS c 1).view.set := oS_load_sub4 c 1
theorem oS_store_sub4_0 (c : Dev nD) :
    (oM.access (Rect.unit (s := S768x768) (k0_off4 c 0#32) S96x768.size (k0_off4_inb c 0))).setOn Finset.univ ⊆ (oS c 0).view.set := oS_store_sub4 c 0
theorem oS_store_sub4_1 (c : Dev nD) :
    (oM.access (Rect.unit (s := S768x768) (k0_off4 c 96#32) S96x768.size (k0_off4_inb c 1))).setOn Finset.univ ⊆ (oS c 1).view.set := oS_store_sub4 c 1
theorem oS_read_store4_0 (c : Dev nD) (f : oM.view.ty.Contents (Elt F)) (w : FVec F S96x768 .bf16) :
    (oS c 0).view.read (Elt F) ((oM.access (Rect.unit (s := S768x768) (k0_off4 c 0#32) S96x768.size (k0_off4_inb c 0))).write (Elt F) f w Finset.univ) = w :=
  oS_read_store4 c 0 f w
theorem oS_read_store4_1 (c : Dev nD) (f : oM.view.ty.Contents (Elt F)) (w : FVec F S96x768 .bf16) :
    (oS c 1).view.read (Elt F) ((oM.access (Rect.unit (s := S768x768) (k0_off4 c 96#32) S96x768.size (k0_off4_inb c 1))).write (Elt F) f w Finset.univ) = w :=
  oS_read_store4 c 1 f w

end Cert.KernelProof

end
-- ==== Proof.Bits.Part8.lean ====
/-
  The device waits for the two landings that complete the lower half of its own chunk, adds them to the lower half of its
  own partial product and stores the finished half-chunk in its rows of the result.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local
import proofs.«900459_g7700000000000460_dist_mlp2_tp_i_m768_h1536_out768_v7x_i4_f32_1_alg».proof.Proof.Bits.GeomOut

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part8_spec (K : Dev nD × Fin 25 → ℕ) (c : Dev nD) (v2 : BitVec 32)
    (Kt : PUnit → sProp 𝕄) :
    iprop(records m K ∗ levAts L lv
        ∗ (∃ W, owes (c : Thread nD τ) (Ofrom c 6) W) ∗ cred (tallyAt (dcell c 6) () N) ∗ atPos ER (dcell c 6) 0 ∅ 0 ∗ cred (tallyAt (dcell c 7) () N) ∗ atPos ER (dcell c 7) 0 ∅ 0
        ∗ (∃ f, (oM.view.loc (c : Thread nD τ) ↦[(oS c 0).view.set]{fullShare} f : sProp 𝕄))
        ∗ (((∃ W, owes (c : Thread nD τ) (Ofrom c 6) W) ∗ atPos ER (dcell c 6) 1 ∅ 0 ∗ atPos ER (dcell c 7) 1 ∅ 0
              ∗ slot c rs0 fullShare (half0 (PART (prv c) c)) ∗ slot c rs1 fullShare (COMB1 (nxt c))
              ∗ slot c (oS c 0) fullShare (OUTH c 0))
            -∗ Kt ⟨⟩))
      ⊢ wp frame (wpE (defs₀ (F := F)) 𝒱₀ (c : Thread nD τ) none) Set.univ
          (k0_part8 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 (OWN c)) Kt := by
  rw [k0_part8_eq_skeleton]; unfold k0_part8_skel
  simp only [Prog.lift, Prog.bind_op, Prog.bind_ret, Prog.pure_eq_ret]
  iintro ⟨#HR, #Hlev, ⟨%W, HO⟩, Hc6, Hat6, Hc7, Hat7, ⟨%fo, Ho⟩, Hk⟩
  -- the two landings: the left neighbour's lower half, and the right neighbour's pre-added lower halves
  iapply (wp_await m K c 6 _ rfl (dst := rs0) (Ofrom c 6) W rfl) $$ [Hc6 HO Hat6]
  · isplitr; · iexact HR
    isplitl [Hc6]; · iexact Hc6
    isplitl [HO]; · iexact HO
    isplitr; · iapply (mayWait_from c (.dma (dsem 6)) 6 (fun g hg => ⟨(pay_above_6 c g hg).1, Nat.lt_of_succ_lt (pay_above_6 c g hg).2⟩)); iexact Hlev
    iexact Hat6
  iintro ⟨HO, Hat6, Hrs0⟩
  iapply (wp_await m K c 7 _ rfl (dst := rs1) (Ofrom c 6) _ rfl) $$ [Hc7 HO Hat7]
  · isplitr; · iexact HR
    isplitl [Hc7]; · iexact Hc7
    isplitl [HO]; · iexact HO
    isplitr; · iapply (mayWait_from c (.dma (dsem 7)) 6 (pay_above_6 c)); iexact Hlev
    iexact Hat7
  iintro ⟨HO, Hat7, Hrs1⟩
  ihave Hrs0' := (Entails.of_eq (show dmaPay m c (6 : Fin 24).val = slot c rs0 fullShare (half0 (PART (prv c) c)) from rfl)) $$ Hrs0
  ihave Hrs1' := (Entails.of_eq (show dmaPay m c (7 : Fin 24).val = slot c rs1 fullShare (COMB1 (nxt c)) from rfl)) $$ Hrs1
  unfold slot
  icases Hrs0' with ⟨%f0, %hf0, Hrs0⟩
  icases Hrs1' with ⟨%f1, %hf1, Hrs1⟩
  -- the two received half-chunks, then the device's own rows (read first: not used) and the store of the sum
  iapply (wp_load 𝒱₀ (c : Thread nD τ) none Set.univ (m := rsM) rs0_load_sub) $$ Hrs0; iintro Hrs0
  iapply (wp_load 𝒱₀ (c : Thread nD τ) none Set.univ (m := rsM) rs1_load_sub) $$ Hrs1; iintro Hrs1
  iapply (wp_load 𝒱₀ (c : Thread nD τ) none Set.univ (m := oM) (oS_load_sub4_0 c)) $$ Ho; iintro Ho
  iapply (wp_store 𝒱₀ (c : Thread nD τ) none Set.univ (m := oM) (r := (Rect.unit (s := S768x768) (k0_off4 c 0#32) S96x768.size (k0_off4_inb c 0))) (Mk := Finset.univ) (oS_store_sub4_0 c)) $$ Ho; iintro Ho
  rw [wp_ret]; imodintro
  iapply Hk
  isplitl [HO]; · iexists _; iexact HO
  isplitl [Hat6]; · iexact Hat6
  isplitl [Hat7]; · iexact Hat7
  isplitl [Hrs0]; · iexists f0; isplitr; · (ipureintro; exact hf0)
                    iexact Hrs0
  isplitl [Hrs1]; · iexists f1; isplitr; · (ipureintro; exact hf1)
                    iexact Hrs1
  iexists ((oM.access (Rect.unit (s := S768x768) (k0_off4 c 0#32) S96x768.size (k0_off4_inb c 0))).write (Elt F) fo
    (k0_pay14 (OWN c) (rsM.view.readAt (Elt F) (Rect.unit (s := S4x96x768) ![0, 0, 0] S1x96x768.size inb_S4x96x768_S1x96x768_0_0_0).toLoadRect f0) (rsM.view.readAt (Elt F) (Rect.unit (s := S4x96x768) ![1, 0, 0] S1x96x768.size inb_S4x96x768_S1x96x768_1_0_0).toLoadRect f1)) Finset.univ)
  isplitr
  · ipureintro
    refine (oS_read_store4_0 c _ _).trans ?_
    rw [pay14_eq, rs0_load f0, rs1_load f1, hf0, hf1]
    rfl
  iexact Ho

end Cert.KernelProof

end
-- ==== Proof.Bits.Part9.lean ====
/-
  The finished lower half of the device's own chunk leaves for both neighbours (the source held in two half shares); the
  device then waits for the landing in receive slot 2.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local
import proofs.«900459_g7700000000000460_dist_mlp2_tp_i_m768_h1536_out768_v7x_i4_f32_1_alg».proof.Proof.Bits.GeomOut

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part9_spec (K : Dev nD × Fin 25 → ℕ) (c : Dev nD) (v2 v13 v24 : BitVec 32)
    (Kt : PUnit → sProp 𝕄) :
    iprop(records m K ∗ levAts L lv
        ∗ slot c (oS c 0) fullShare (OUTH c 0) ∗ hole (F := F) (nxt c) (oS c 0) ∗ hole (F := F) (prv c) (oS c 0)
        ∗ (∃ W, owes (c : Thread nD τ) (Ofrom c 6) W) ∗ dutyTok ER (dcell c 12) 0 false ∗ dutyTok ER (dcell c 14) 0 false ∗ dutyTok ER (dcell (nxt c) 20) 0 false ∗ dutyTok ER (dcell (prv c) 18) 0 false
        ∗ cred (tallyAt (dcell c 8) () N) ∗ atPos ER (dcell c 8) 0 ∅ 0
        ∗ (((∃ W, owes (c : Thread nD τ) (Ofrom c 8) W) ∗ cred (tallyAt (dcell c 12) () N) ∗ cred (tallyAt (dcell c 14) () N) ∗ atPos ER (dcell c 8) 1 ∅ 0
              ∗ slot c rs2 fullShare (half1 (PART (nxt c) c)))
            -∗ Kt ⟨⟩))
      ⊢ wp frame (wpE (defs₀ (F := F)) 𝒱₀ (c : Thread nD τ) none) Set.univ
          (k0_part9 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v13 v24) Kt := by
  rw [k0_part9_eq_skeleton]; unfold k0_part9_skel
  simp only [Prog.lift, Prog.bind_op, Prog.bind_ret, Prog.pure_eq_ret]
  -- the device's own lower half in the program's spelling
  rw [← oS_off5_0 c]
  unfold slot hole
  iintro ⟨#HR, #Hlev, ⟨%fs, %hfs, Hs⟩, ⟨%fR, HhR⟩, ⟨%fL, HhL⟩, ⟨%W, HO⟩, Ht12, Ht14, HtR, HtL, Hc8, Hat8, Hk⟩
  -- the finished lower half is lent twice, a half share to each copy
  ihave Hs := (pointsTo_share (PosShare.mem_left_op_right fullShare)).1 $$ Hs
  icases Hs with ⟨HsL, HsR⟩
  -- to the right neighbour
  iapply (wp_copy m K c (nxt c) _ (dev9_eq c) 12 20 _ _ rfl rfl fullShare.left (OUTH c 0) fs fR (Ofrom c 7) W rfl hfs
      (by show slot c (oS c 0) _ _ = _; rw [oS_off5_0 c])
      (by show slot (nxt c) (oS (prv (nxt c)) 0) _ (OUTH (prv (nxt c)) 0) = _; rw [prv_nxt, oS_off5_0 c])) $$ [HsL HhR HO Ht12 HtR]
  · isplitr; · iexact HR
    isplitl [HsL]; · iexact HsL
    isplitl [HhR]; · iexact HhR
    isplitl [HO]; · iexact HO
    isplitl [Ht12]; · iexact Ht12
    iexact HtR
  iintro ⟨Hc12, HO⟩
  -- to the left neighbour
  iapply (wp_copy m K c (prv c) _ (dev10_eq c) 14 18 _ _ rfl rfl fullShare.right (OUTH c 0) fs fL (Ofrom c 8) W rfl hfs
      (by show slot c (oS c 0) _ _ = _; rw [oS_off5_0 c])
      (by show slot (prv c) (oS (nxt (prv c)) 0) _ (OUTH (nxt (prv c)) 0) = _; rw [nxt_prv, oS_off5_0 c])) $$ [HsR HhL HO Ht14 HtL]
  · isplitr; · iexact HR
    isplitl [HsR]; · iexact HsR
    isplitl [HhL]; · iexact HhL
    isplitl [HO]; · iexact HO
    isplitl [Ht14]; · iexact Ht14
    iexact HtL
  iintro ⟨Hc14, HO⟩
  -- the wait for the right neighbour's partial of the upper half
  iapply (wp_await m K c 8 _ rfl (dst := rs2) (Ofrom c 8) W rfl) $$ [Hc8 HO Hat8]
  · isplitr; · iexact HR
    isplitl [Hc8]; · iexact Hc8
    isplitl [HO]; · iexact HO
    isplitr
    · iapply (mayWait_from c (.dma (dsem 8)) 8 fun g hg =>
        ⟨(pay_above_8 c g hg).1, (show 6 < lvl g.2 from Nat.lt_of_succ_lt (pay_above_8 c g hg).2)⟩)
      iexact Hlev
    iexact Hat8
  iintro ⟨HO, Hat8, Hp8⟩
  ihave Hp8 := (Entails.of_eq (show dmaPay m c (8 : Fin 24).val = slot c rs2 fullShare (half1 (PART (nxt c) c)) from rfl)) $$ Hp8
  unfold slot
  rw [wp_ret]; imodintro
  iapply Hk
  isplitl [HO]; · iexists _; iexact HO
  isplitl [Hc12]; · iexact Hc12
  isplitl [Hc14]; · iexact Hc14
  isplitl [Hat8]; · iexact Hat8
  iexact Hp8

end Cert.KernelProof

end
-- ==== Proof.Bits.Part10.lean ====
/-
  The device waits for the landing in receive slot 3, adds receive slots 2 and 3 to the upper half of its own partial
  product and stores the finished half-chunk in its rows of the result.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local
import proofs.«900459_g7700000000000460_dist_mlp2_tp_i_m768_h1536_out768_v7x_i4_f32_1_alg».proof.Proof.Bits.GeomOut

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part10_spec (K : Dev nD × Fin 25 → ℕ) (c : Dev nD) (v2 v13 : BitVec 32)
    (Kt : PUnit → sProp 𝕄) :
    iprop(records m K ∗ levAts L lv
        ∗ (∃ W, owes (c : Thread nD τ) (Ofrom c 8) W) ∗ cred (tallyAt (dcell c 9) () N) ∗ atPos ER (dcell c 9) 0 ∅ 0
        ∗ slot c rs2 fullShare (half1 (PART (nxt c) c))
        ∗ (∃ f, (oM.view.loc (c : Thread nD τ) ↦[(oS c 1).view.set]{fullShare} f : sProp 𝕄))
        ∗ (((∃ W, owes (c : Thread nD τ) (Ofrom c 8) W) ∗ atPos ER (dcell c 9) 1 ∅ 0
              ∗ slot c rs2 fullShare (half1 (PART (nxt c) c)) ∗ slot c rs3 fullShare (COMB0 (prv c))
              ∗ slot c (oS c 1) fullShare (OUTH c 1))
            -∗ Kt ⟨⟩))
      ⊢ wp frame (wpE (defs₀ (F := F)) 𝒱₀ (c : Thread nD τ) none) Set.univ
          (k0_part10 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v13 (OWN c)) Kt := by
  rw [k0_part10_eq_skeleton]; unfold k0_part10_skel
  simp only [Prog.lift, Prog.bind_op, Prog.bind_ret, Prog.pure_eq_ret]
  unfold slot
  iintro ⟨#HR, #Hlev, ⟨%W, HO⟩, Hc9, Hat9, ⟨%f2, %hf2, Hrs2⟩, ⟨%fo, Ho⟩, Hk⟩
  -- the wait for the pair the left neighbour pre-added
  iapply (wp_await m K c 9 _ rfl (dst := rs3) (Ofrom c 8) W rfl) $$ [Hc9 HO Hat9]
  · isplitr; · iexact HR
    isplitl [Hc9]; · iexact Hc9
    isplitl [HO]; · iexact HO
    isplitr; · iapply (mayWait_from c (.dma (dsem 9)) 8 (pay_above_8 c)); iexact Hlev
    iexact Hat9
  iintro ⟨HO, Hat9, Hp9⟩
  ihave Hp9 := (Entails.of_eq (show dmaPay m c (9 : Fin 24).val = slot c rs3 fullShare (COMB0 (prv c)) from rfl)) $$ Hp9
  unfold slot
  icases Hp9 with ⟨%f3, %hf3, Hrs3⟩
  -- the two received half-chunks, the device's own upper rows (read first: not used), and the sum stored there
  iapply (wp_load 𝒱₀ (c : Thread nD τ) none Set.univ (m := rsM) rs2_load_sub) $$ Hrs2; iintro Hrs2
  iapply (wp_load 𝒱₀ (c : Thread nD τ) none Set.univ (m := rsM) rs3_load_sub) $$ Hrs3; iintro Hrs3
  iapply (wp_load 𝒱₀ (c : Thread nD τ) none Set.univ (m := oM) (oS_load_sub4_1 c)) $$ Ho; iintro Ho
  iapply (wp_store 𝒱₀ (c : Thread nD τ) none Set.univ (m := oM) (r := (Rect.unit (s := S768x768) (k0_off4 c 96#32) S96x768.size (k0_off4_inb c 1))) (Mk := Finset.univ) (oS_store_sub4_1 c)) $$ Ho; iintro Ho
  rw [wp_ret]; imodintro
  iapply Hk
  isplitl [HO]; · iexists _; iexact HO
  isplitl [Hat9]; · iexact Hat9
  isplitl [Hrs2]; · iexists f2; isplitr; · (ipureintro; exact hf2)
                    iexact Hrs2
  isplitl [Hrs3]; · iexists f3; isplitr; · (ipureintro; exact hf3)
                    iexact Hrs3
  iexists ((oM.access (Rect.unit (s := S768x768) (k0_off4 c 96#32) S96x768.size (k0_off4_inb c 1))).write (Elt F) fo
    (k0_pay15 (OWN c) (rsM.view.readAt (Elt F) (Rect.unit (s := S4x96x768) ![2, 0, 0] S1x96x768.size inb_S4x96x768_S1x96x768_2_0_0).toLoadRect f2) (rsM.view.readAt (Elt F) (Rect.unit (s := S4x96x768) ![3, 0, 0] S1x96x768.size inb_S4x96x768_S1x96x768_3_0_0).toLoadRect f3)) Finset.univ)
  isplitr
  · ipureintro
    refine (oS_read_store4_1 c _ _).trans ?_
    rw [pay15_eq, rs2_load f2, rs3_load f3, hf2, hf3]
    rfl
  iexact Ho

end Cert.KernelProof

end
-- ==== Proof.Bits.Part11.lean ====
/-
  The finished upper half of the device's own chunk leaves for both neighbours; the device then waits for the right
  neighbour's upper half to land in its rows of the result.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local
import proofs.«900459_g7700000000000460_dist_mlp2_tp_i_m768_h1536_out768_v7x_i4_f32_1_alg».proof.Proof.Bits.GeomOut

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part11_spec (K : Dev nD × Fin 25 → ℕ) (c : Dev nD) (v2 v13 v24 : BitVec 32)
    (Kt : PUnit → sProp 𝕄) :
    iprop(records m K ∗ levAts L lv
        ∗ slot c (oS c 1) fullShare (OUTH c 1) ∗ hole (F := F) (nxt c) (oS c 1) ∗ hole (F := F) (prv c) (oS c 1)
        ∗ (∃ W, owes (c : Thread nD τ) (Ofrom c 8) W) ∗ dutyTok ER (dcell c 13) 0 false ∗ dutyTok ER (dcell c 15) 0 false ∗ dutyTok ER (dcell (nxt c) 21) 0 false ∗ dutyTok ER (dcell (prv c) 19) 0 false
        ∗ cred (tallyAt (dcell c 19) () N) ∗ atPos ER (dcell c 19) 0 ∅ 0
        ∗ (((∃ W, owes (c : Thread nD τ) (Ofrom c 10) W) ∗ cred (tallyAt (dcell c 13) () N) ∗ cred (tallyAt (dcell c 15) () N) ∗ atPos ER (dcell c 19) 1 ∅ 0
              ∗ slot c (oS (nxt c) 1) fullShare (OUTH (nxt c) 1))
            -∗ Kt ⟨⟩))
      ⊢ wp frame (wpE (defs₀ (F := F)) 𝒱₀ (c : Thread nD τ) none) Set.univ
          (k0_part11 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v13 v24) Kt := by
  rw [k0_part11_eq_skeleton]; unfold k0_part11_skel
  simp only [Prog.lift, Prog.bind_op, Prog.bind_ret, Prog.pure_eq_ret]
  -- the device's own upper half in the program's spelling
  rw [← oS_off5_1 c]
  unfold slot hole
  iintro ⟨#HR, #Hlev, ⟨%fs, %hfs, Hs⟩, ⟨%fR, HhR⟩, ⟨%fL, HhL⟩, ⟨%W, HO⟩, Ht13, Ht15, HtR, HtL, Hc19, Hat19, Hk⟩
  -- the finished upper half is lent twice, a half share to each copy
  ihave Hs := (pointsTo_share (PosShare.mem_left_op_right fullShare)).1 $$ Hs
  icases Hs with ⟨HsL, HsR⟩
  -- to the right neighbour
  iapply (wp_copy m K c (nxt c) _ (dev11_eq c) 13 21 _ _ rfl rfl fullShare.left (OUTH c 1) fs fR (Ofrom c 9) W rfl hfs
      (by show slot c (oS c 1) _ _ = _; rw [oS_off5_1 c])
      (by show slot (nxt c) (oS (prv (nxt c)) 1) _ (OUTH (prv (nxt c)) 1) = _; rw [prv_nxt, oS_off5_1 c])) $$ [HsL HhR HO Ht13 HtR]
  · isplitr; · iexact HR
    isplitl [HsL]; · iexact HsL
    isplitl [HhR]; · iexact HhR
    isplitl [HO]; · iexact HO
    isplitl [Ht13]; · iexact Ht13
    iexact HtR
  iintro ⟨Hc13, HO⟩
  -- to the left neighbour
  iapply (wp_copy m K c (prv c) _ (dev12_eq c) 15 19 _ _ rfl rfl fullShare.right (OUTH c 1) fs fL (Ofrom c 10) W rfl hfs
      (by show slot c (oS c 1) _ _ = _; rw [oS_off5_1 c])
      (by show slot (prv c) (oS (nxt (prv c)) 1) _ (OUTH (nxt (prv c)) 1) = _; rw [nxt_prv, oS_off5_1 c])) $$ [HsR HhL HO Ht15 HtL]
  · isplitr; · iexact HR
    isplitl [HsR]; · iexact HsR
    isplitl [HhL]; · iexact HhL
    isplitl [HO]; · iexact HO
    isplitl [Ht15]; · iexact Ht15
    iexact HtL
  iintro ⟨Hc15, HO⟩
  -- the wait for the right neighbour's upper half
  iapply (wp_await m K c 19 _ rfl (dst := (oM.slice (Rect.unit (s := S768x768) (k0_off6 c 1#32 96#32) S96x768.size (k0_off6_inb c 0 1)) (fun _ => rfl))) (Ofrom c 10) W rfl) $$ [Hc19 HO Hat19]
  · isplitr; · iexact HR
    isplitl [Hc19]; · iexact Hc19
    isplitl [HO]; · iexact HO
    isplitr; · iapply (mayWait_from c (.dma (dsem 19)) 10 (pay_above_10 c)); iexact Hlev
    iexact Hat19
  iintro ⟨HO, Hat19, Hp19⟩
  ihave Hp19 := (Entails.of_eq (show dmaPay m c (19 : Fin 24).val = slot c (oS (nxt c) 1) fullShare (OUTH (nxt c) 1) from rfl)) $$ Hp19
  unfold slot
  rw [wp_ret]; imodintro
  iapply Hk
  isplitl [HO]; · iexists _; iexact HO
  isplitl [Hc13]; · iexact Hc13
  isplitl [Hc15]; · iexact Hc15
  isplitl [Hat19]; · iexact Hat19
  iexact Hp19

end Cert.KernelProof

end
-- ==== Proof.Bits.Part12.lean ====
/-
  The right neighbour's upper half is forwarded to the left neighbour; the device waits for the left neighbour's lower half
  and forwards it to the right neighbour.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local
import proofs.«900459_g7700000000000460_dist_mlp2_tp_i_m768_h1536_out768_v7x_i4_f32_1_alg».proof.Proof.Bits.GeomOut

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part12_spec (K : Dev nD × Fin 25 → ℕ) (c : Dev nD) (v2 v13 v24 v52 : BitVec 32)
    (Kt : (Σ' (v357 : BitVec 32), BitVec 32) → sProp 𝕄) :
    iprop(records m K ∗ levAts L lv
        ∗ slot c (oS (nxt c) 1) fullShare (OUTH (nxt c) 1) ∗ hole (F := F) (prv c) (oS (nxt c) 1) ∗ hole (F := F) (nxt c) (oS (prv c) 0)
        ∗ (∃ W, owes (c : Thread nD τ) (Ofrom c 10) W) ∗ dutyTok ER (dcell c 16) 0 false ∗ dutyTok ER (dcell c 17) 0 false ∗ dutyTok ER (dcell (prv c) 23) 0 false ∗ dutyTok ER (dcell (nxt c) 22) 0 false
        ∗ cred (tallyAt (dcell c 20) () N) ∗ atPos ER (dcell c 20) 0 ∅ 0
        ∗ (∀ v357 w, ((∃ W, owes (c : Thread nD τ) (Ofrom c 12) W) ∗ cred (tallyAt (dcell c 16) () N) ∗ cred (tallyAt (dcell c 17) () N) ∗ atPos ER (dcell c 20) 1 ∅ 0)
            -∗ Kt ⟨v357, w⟩))
      ⊢ wp frame (wpE (defs₀ (F := F)) 𝒱₀ (c : Thread nD τ) none) Set.univ
          (k0_part12 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v13 v24 v52) Kt := by
  rw [k0_part12_eq_skeleton]; unfold k0_part12_skel
  simp only [Prog.lift, Prog.bind_op, Prog.bind_ret, Prog.pure_eq_ret]
  -- the windows in the program's spelling
  rw [← oS_off6 c, ← oS_off7 c]
  unfold slot hole
  iintro ⟨#HR, #Hlev, ⟨%fs, %hfs, Hs⟩, ⟨%fL, HhL⟩, ⟨%fR, HhR⟩, ⟨%W, HO⟩, Ht16, Ht17, HtL, HtR, Hc20, Hat20, Hk⟩
  -- the right neighbour's upper half, forwarded to the left neighbour
  iapply (wp_copy m K c (prv c) _ (dev13_eq c) 16 23 _ _ rfl rfl fullShare (OUTH (nxt c) 1) fs fL (Ofrom c 11) W rfl hfs
      (by show slot c (oS (nxt c) 1) _ _ = _; rw [oS_off6 c])
      (by show slot (prv c) (oS (opp (prv c)) 1) _ (OUTH (opp (prv c)) 1) = _; rw [opp_prv, oS_off6 c])) $$ [Hs HhL HO Ht16 HtL]
  · isplitr; · iexact HR
    isplitl [Hs]; · iexact Hs
    isplitl [HhL]; · iexact HhL
    isplitl [HO]; · iexact HO
    isplitl [Ht16]; · iexact Ht16
    iexact HtL
  iintro ⟨Hc16, HO⟩
  -- the wait for the left neighbour's lower half
  iapply (wp_await m K c 20 _ rfl (dst := (oM.slice (Rect.unit (s := S768x768) (k0_off7 c 0#32) S96x768.size (k0_off7_inb c 0)) (fun _ => rfl))) (Ofrom c 11) W rfl) $$ [Hc20 HO Hat20]
  · isplitr; · iexact HR
    isplitl [Hc20]; · iexact Hc20
    isplitl [HO]; · iexact HO
    isplitr; · iapply (mayWait_from c (.dma (dsem 20)) 11 (pay_above_11 c)); iexact Hlev
    iexact Hat20
  iintro ⟨HO, Hat20, Hp20⟩
  ihave Hp20 := (Entails.of_eq (show dmaPay m c (20 : Fin 24).val = slot c (oM.slice (Rect.unit (s := S768x768) (k0_off7 c 0#32) S96x768.size (k0_off7_inb c 0)) (fun _ => rfl)) fullShare (OUTH (prv c) 0) from by
    show slot c (oS (prv c) 0) _ _ = _; rw [oS_off7 c])) $$ Hp20
  unfold slot
  icases Hp20 with ⟨%f0, %hf0, Hp20⟩
  -- forwarded to the right neighbour
  iapply (wp_copy m K c (nxt c) _ (dev14_eq c) 17 22 _ _ rfl rfl fullShare (OUTH (prv c) 0) f0 fR (Ofrom c 12) _ rfl hf0
      (by show slot c (oS (prv c) 0) _ _ = _; rw [oS_off7 c])
      (by show slot (nxt c) (oS (opp (nxt c)) 0) _ (OUTH (opp (nxt c)) 0) = _; rw [opp_nxt, oS_off7 c])) $$ [Hp20 HhR HO Ht17 HtR]
  · isplitr; · iexact HR
    isplitl [Hp20]; · iexact Hp20
    isplitl [HhR]; · iexact HhR
    isplitl [HO]; · iexact HO
    isplitl [Ht17]; · iexact Ht17
    iexact HtR
  iintro ⟨Hc17, HO⟩
  rw [wp_ret]; imodintro
  iapply Hk
  isplitl [HO]; · iexists _; iexact HO
  isplitl [Hc16]; · iexact Hc16
  isplitl [Hc17]; · iexact Hc17
  iexact Hat20

end Cert.KernelProof

end
-- ==== Proof.Bits.Part13.lean ====
/-
  The last four landings of the final exchange: the right neighbour's lower half, the left neighbour's upper half and the two
  halves of the chunk two devices away.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part13_spec (K : Dev nD × Fin 25 → ℕ) (c : Dev nD) (v2 v357 w : BitVec 32)
    (Kt : PUnit → sProp 𝕄) :
    iprop(records m K ∗ levAts L lv ∗ (∃ W, owes (c : Thread nD τ) (Ofrom c 12) W)
        ∗ cred (tallyAt (dcell c 18) () N) ∗ atPos ER (dcell c 18) 0 ∅ 0
        ∗ cred (tallyAt (dcell c 21) () N) ∗ atPos ER (dcell c 21) 0 ∅ 0
        ∗ cred (tallyAt (dcell c 22) () N) ∗ atPos ER (dcell c 22) 0 ∅ 0
        ∗ cred (tallyAt (dcell c 23) () N) ∗ atPos ER (dcell c 23) 0 ∅ 0
        ∗ (((∃ W, owes (c : Thread nD τ) (Ofrom c 12) W)
              ∗ atPos ER (dcell c 18) 1 ∅ 0 ∗ dmaPay m c 18
              ∗ atPos ER (dcell c 21) 1 ∅ 0 ∗ dmaPay m c 21
              ∗ atPos ER (dcell c 22) 1 ∅ 0 ∗ dmaPay m c 22
              ∗ atPos ER (dcell c 23) 1 ∅ 0 ∗ dmaPay m c 23)
            -∗ Kt ⟨⟩))
      ⊢ wp frame (wpE (defs₀ (F := F)) 𝒱₀ (c : Thread nD τ) none) Set.univ
          (k0_part13 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c v2 v357 w) Kt := by
  rw [k0_part13_eq_skeleton]; unfold k0_part13_skel
  simp only [Prog.lift, Prog.bind_op, Prog.bind_ret, Prog.pure_eq_ret]
  iintro ⟨#HR, #Hlev, ⟨%W, HO⟩, Hc18, Hat18, Hc21, Hat21, Hc22, Hat22, Hc23, Hat23, Hk⟩
  iapply (wp_await m K c 18 _ rfl (dst := (oM.slice (Rect.unit (s := S768x768) (k0_off6 c 1#32 0#32) S96x768.size (k0_off6_inb c 0 0)) (fun _ => rfl))) (Ofrom c 12) _ rfl) $$ [Hc18 HO Hat18]
  · isplitr; · iexact HR
    isplitl [Hc18]; · iexact Hc18
    isplitl [HO]; · iexact HO
    isplitr; · iapply (mayWait_from c (.dma (dsem 18)) 12 (pay_above_12 c _)); iexact Hlev
    iexact Hat18
  iintro ⟨HO, Hat18, Hp18⟩
  iapply (wp_await m K c 21 _ rfl (dst := (oM.slice (Rect.unit (s := S768x768) (k0_off7 c 96#32) S96x768.size (k0_off7_inb c 1)) (fun _ => rfl))) (Ofrom c 12) _ rfl) $$ [Hc21 HO Hat21]
  · isplitr; · iexact HR
    isplitl [Hc21]; · iexact Hc21
    isplitl [HO]; · iexact HO
    isplitr; · iapply (mayWait_from c (.dma (dsem 21)) 12 (pay_above_12 c _)); iexact Hlev
    iexact Hat21
  iintro ⟨HO, Hat21, Hp21⟩
  iapply (wp_await m K c 22 _ rfl (dst := (oM.slice (Rect.unit (s := S768x768) (k0_off6 c 2#32 0#32) S96x768.size (k0_off6_inb c 1 0)) (fun _ => rfl))) (Ofrom c 12) _ rfl) $$ [Hc22 HO Hat22]
  · isplitr; · iexact HR
    isplitl [Hc22]; · iexact Hc22
    isplitl [HO]; · iexact HO
    isplitr; · iapply (mayWait_from c (.dma (dsem 22)) 12 (pay_above_12 c _)); iexact Hlev
    iexact Hat22
  iintro ⟨HO, Hat22, Hp22⟩
  iapply (wp_await m K c 23 _ rfl (dst := (oM.slice (Rect.unit (s := S768x768) (k0_off6 c 2#32 96#32) S96x768.size (k0_off6_inb c 1 1)) (fun _ => rfl))) (Ofrom c 12) _ rfl) $$ [Hc23 HO Hat23]
  · isplitr; · iexact HR
    isplitl [Hc23]; · iexact Hc23
    isplitl [HO]; · iexact HO
    isplitr; · iapply (mayWait_from c (.dma (dsem 23)) 12 (pay_above_12 c _)); iexact Hlev
    iexact Hat23
  iintro ⟨HO, Hat23, Hp23⟩
  rw [wp_ret]; imodintro
  iapply Hk
  isplitl [HO]; · iexists _; iexact HO
  isplitl [Hat18]; · iexact Hat18
  isplitl [Hp18]; · iexact Hp18
  isplitl [Hat21]; · iexact Hat21
  isplitl [Hp21]; · iexact Hp21
  isplitl [Hat22]; · iexact Hat22
  isplitl [Hp22]; · iexact Hp22
  isplitl [Hat23]; · iexact Hat23
  iexact Hp23

end Cert.KernelProof

end
-- ==== Proof.Bits.Part14.lean ====
/-
  The device waits for four of its copies of the reduction to have left: the sources come back.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part14_spec (K : Dev nD × Fin 25 → ℕ) (c : Dev nD)
    (Kt : PUnit → sProp 𝕄) :
    iprop(records m K ∗ levAts L lv ∗ (∃ W, owes (c : Thread nD τ) (Ofrom c 12) W)
        ∗ cred (tallyAt (dcell c 0) () N) ∗ atPos ER (dcell c 0) 0 ∅ 0
        ∗ cred (tallyAt (dcell c 1) () N) ∗ atPos ER (dcell c 1) 0 ∅ 0
        ∗ cred (tallyAt (dcell c 2) () N) ∗ atPos ER (dcell c 2) 0 ∅ 0
        ∗ cred (tallyAt (dcell c 4) () N) ∗ atPos ER (dcell c 4) 0 ∅ 0
        ∗ (((∃ W, owes (c : Thread nD τ) (Ofrom c 12) W)
              ∗ atPos ER (dcell c 0) 1 ∅ 0 ∗ dmaPay m c 0
              ∗ atPos ER (dcell c 1) 1 ∅ 0 ∗ dmaPay m c 1
              ∗ atPos ER (dcell c 2) 1 ∅ 0 ∗ dmaPay m c 2
              ∗ atPos ER (dcell c 4) 1 ∅ 0 ∗ dmaPay m c 4)
            -∗ Kt ⟨⟩))
      ⊢ wp frame (wpE (defs₀ (F := F)) 𝒱₀ (c : Thread nD τ) none) Set.univ
          (k0_part14 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10) Kt := by
  rw [k0_part14_eq_skeleton]; unfold k0_part14_skel
  simp only [Prog.lift, Prog.bind_op, Prog.bind_ret, Prog.pure_eq_ret]
  iintro ⟨#HR, #Hlev, ⟨%W, HO⟩, Hc0, Hat0, Hc1, Hat1, Hc2, Hat2, Hc4, Hat4, Hk⟩
  iapply (wp_await m K c 0 _ rfl (dst := sb00) (Ofrom c 12) _ rfl) $$ [Hc0 HO Hat0]
  · isplitr; · iexact HR
    isplitl [Hc0]; · iexact Hc0
    isplitl [HO]; · iexact HO
    isplitr; · iapply (mayWait_from c (.dma (dsem 0)) 12 (pay_above_12 c _)); iexact Hlev
    iexact Hat0
  iintro ⟨HO, Hat0, Hp0⟩
  iapply (wp_await m K c 1 _ rfl (dst := sb01) (Ofrom c 12) _ rfl) $$ [Hc1 HO Hat1]
  · isplitr; · iexact HR
    isplitl [Hc1]; · iexact Hc1
    isplitl [HO]; · iexact HO
    isplitr; · iapply (mayWait_from c (.dma (dsem 1)) 12 (pay_above_12 c _)); iexact Hlev
    iexact Hat1
  iintro ⟨HO, Hat1, Hp1⟩
  iapply (wp_await m K c 2 _ rfl (dst := sb10) (Ofrom c 12) _ rfl) $$ [Hc2 HO Hat2]
  · isplitr; · iexact HR
    isplitl [Hc2]; · iexact Hc2
    isplitl [HO]; · iexact HO
    isplitr; · iapply (mayWait_from c (.dma (dsem 2)) 12 (pay_above_12 c _)); iexact Hlev
    iexact Hat2
  iintro ⟨HO, Hat2, Hp2⟩
  iapply (wp_await m K c 4 _ rfl (dst := sb21) (Ofrom c 12) _ rfl) $$ [Hc4 HO Hat4]
  · isplitr; · iexact HR
    isplitl [Hc4]; · iexact Hc4
    isplitl [HO]; · iexact HO
    isplitr; · iapply (mayWait_from c (.dma (dsem 4)) 12 (pay_above_12 c _)); iexact Hlev
    iexact Hat4
  iintro ⟨HO, Hat4, Hp4⟩
  rw [wp_ret]; imodintro
  iapply Hk
  isplitl [HO]; · iexists _; iexact HO
  isplitl [Hat0]; · iexact Hat0
  isplitl [Hp0]; · iexact Hp0
  isplitl [Hat1]; · iexact Hat1
  isplitl [Hp1]; · iexact Hp1
  isplitl [Hat2]; · iexact Hat2
  isplitl [Hp2]; · iexact Hp2
  isplitl [Hat4]; · iexact Hat4
  iexact Hp4

end Cert.KernelProof

end
-- ==== Proof.Bits.Part15.lean ====
/-
  The device waits for five more of its copies to have left: the sources come back.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Local

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

set_option maxHeartbeats 3200000 in
theorem part15_spec (K : Dev nD × Fin 25 → ℕ) (c : Dev nD)
    (Kt : PUnit → sProp 𝕄) :
    iprop(records m K ∗ levAts L lv ∗ (∃ W, owes (c : Thread nD τ) (Ofrom c 12) W)
        ∗ cred (tallyAt (dcell c 3) () N) ∗ atPos ER (dcell c 3) 0 ∅ 0
        ∗ cred (tallyAt (dcell c 5) () N) ∗ atPos ER (dcell c 5) 0 ∅ 0
        ∗ cred (tallyAt (dcell c 12) () N) ∗ atPos ER (dcell c 12) 0 ∅ 0
        ∗ cred (tallyAt (dcell c 14) () N) ∗ atPos ER (dcell c 14) 0 ∅ 0
        ∗ cred (tallyAt (dcell c 13) () N) ∗ atPos ER (dcell c 13) 0 ∅ 0
        ∗ (((∃ W, owes (c : Thread nD τ) (Ofrom c 12) W)
              ∗ atPos ER (dcell c 3) 1 ∅ 0 ∗ dmaPay m c 3
              ∗ atPos ER (dcell c 5) 1 ∅ 0 ∗ dmaPay m c 5
              ∗ atPos ER (dcell c 12) 1 ∅ 0 ∗ dmaPay m c 12
              ∗ atPos ER (dcell c 14) 1 ∅ 0 ∗ dmaPay m c 14
              ∗ atPos ER (dcell c 13) 1 ∅ 0 ∗ dmaPay m c 13)
            -∗ Kt ⟨⟩))
      ⊢ wp frame (wpE (defs₀ (F := F)) 𝒱₀ (c : Thread nD τ) none) Set.univ
          (k0_part15 (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10 c) Kt := by
  rw [k0_part15_eq_skeleton]; unfold k0_part15_skel
  simp only [Prog.lift, Prog.bind_op, Prog.bind_ret, Prog.pure_eq_ret]
  iintro ⟨#HR, #Hlev, ⟨%W, HO⟩, Hc3, Hat3, Hc5, Hat5, Hc12, Hat12, Hc14, Hat14, Hc13, Hat13, Hk⟩
  iapply (wp_await m K c 3 _ rfl (dst := cb0) (Ofrom c 12) _ rfl) $$ [Hc3 HO Hat3]
  · isplitr; · iexact HR
    isplitl [Hc3]; · iexact Hc3
    isplitl [HO]; · iexact HO
    isplitr; · iapply (mayWait_from c (.dma (dsem 3)) 12 (pay_above_12 c _)); iexact Hlev
    iexact Hat3
  iintro ⟨HO, Hat3, Hp3⟩
  iapply (wp_await m K c 5 _ rfl (dst := cb1) (Ofrom c 12) _ rfl) $$ [Hc5 HO Hat5]
  · isplitr; · iexact HR
    isplitl [Hc5]; · iexact Hc5
    isplitl [HO]; · iexact HO
    isplitr; · iapply (mayWait_from c (.dma (dsem 5)) 12 (pay_above_12 c _)); iexact Hlev
    iexact Hat5
  iintro ⟨HO, Hat5, Hp5⟩
  iapply (wp_await m K c 12 _ rfl (dst := (oM.slice (Rect.unit (s := S768x768) (k0_off5 c 0#32) S96x768.size (k0_off5_inb c 0)) (fun _ => rfl))) (Ofrom c 12) _ rfl) $$ [Hc12 HO Hat12]
  · isplitr; · iexact HR
    isplitl [Hc12]; · iexact Hc12
    isplitl [HO]; · iexact HO
    isplitr; · iapply (mayWait_from c (.dma (dsem 12)) 12 (pay_above_12 c _)); iexact Hlev
    iexact Hat12
  iintro ⟨HO, Hat12, Hp12⟩
  iapply (wp_await m K c 14 _ rfl (dst := (oM.slice (Rect.unit (s := S768x768) (k0_off5 c 0#32) S96x768.size (k0_off5_inb c 0)) (fun _ => rfl))) (Ofrom c 12) _ rfl) $$ [Hc14 HO Hat14]
  · isplitr; · iexact HR
    isplitl [Hc14]; · iexact Hc14
    isplitl [HO]; · iexact HO
    isplitr; · iapply (mayWait_from c (.dma (dsem 14)) 12 (pay_above_12 c _)); iexact Hlev
    iexact Hat14
  iintro ⟨HO, Hat14, Hp14⟩
  iapply (wp_await m K c 13 _ rfl (dst := (oM.slice (Rect.unit (s := S768x768) (k0_off5 c 96#32) S96x768.size (k0_off5_inb c 1)) (fun _ => rfl))) (Ofrom c 12) _ rfl) $$ [Hc13 HO Hat13]
  · isplitr; · iexact HR
    isplitl [Hc13]; · iexact Hc13
    isplitl [HO]; · iexact HO
    isplitr; · iapply (mayWait_from c (.dma (dsem 13)) 12 (pay_above_12 c _)); iexact Hlev
    iexact Hat13
  iintro ⟨HO, Hat13, Hp13⟩
  rw [wp_ret]; imodintro
  iapply Hk
  isplitl [HO]; · iexists _; iexact HO
  isplitl [Hat3]; · iexact Hat3
  isplitl [Hp3]; · iexact Hp3
  isplitl [Hat5]; · iexact Hat5
  isplitl [Hp5]; · iexact Hp5
  isplitl [Hat12]; · iexact Hat12
  isplitl [Hp12]; · iexact Hp12
  isplitl [Hat14]; · iexact Hat14
  isplitl [Hp14]; · iexact Hp14
  isplitl [Hat13]; · iexact Hat13
  iexact Hp13

end Cert.KernelProof

end
-- ==== Proof.Bits.Body.lean ====
/-
  One device's kernel, run from the state the launch deals it to the state the pipeline takes back: the buffers are cut into
  the windows that change hands, the sixteen parts of the body run in order, the windows are joined again and the transfer
  cells closed.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Bits.Geom
import proofs.«900459_g7700000000000460_dist_mlp2_tp_i_m768_h1536_out768_v7x_i4_f32_1_alg».proof.Proof.Bits.Join
import proofs.«900459_g7700000000000460_dist_mlp2_tp_i_m768_h1536_out768_v7x_i4_f32_1_alg».proof.Proof.Bits.Part1
import proofs.«900459_g7700000000000460_dist_mlp2_tp_i_m768_h1536_out768_v7x_i4_f32_1_alg».proof.Proof.Bits.Part2
import proofs.«900459_g7700000000000460_dist_mlp2_tp_i_m768_h1536_out768_v7x_i4_f32_1_alg».proof.Proof.Bits.Part3
import proofs.«900459_g7700000000000460_dist_mlp2_tp_i_m768_h1536_out768_v7x_i4_f32_1_alg».proof.Proof.Bits.Part4
import proofs.«900459_g7700000000000460_dist_mlp2_tp_i_m768_h1536_out768_v7x_i4_f32_1_alg».proof.Proof.Bits.Part5
import proofs.«900459_g7700000000000460_dist_mlp2_tp_i_m768_h1536_out768_v7x_i4_f32_1_alg».proof.Proof.Bits.Part6
import proofs.«900459_g7700000000000460_dist_mlp2_tp_i_m768_h1536_out768_v7x_i4_f32_1_alg».proof.Proof.Bits.Part7
import proofs.«900459_g7700000000000460_dist_mlp2_tp_i_m768_h1536_out768_v7x_i4_f32_1_alg».proof.Proof.Bits.Part8
import proofs.«900459_g7700000000000460_dist_mlp2_tp_i_m768_h1536_out768_v7x_i4_f32_1_alg».proof.Proof.Bits.Part9
import proofs.«900459_g7700000000000460_dist_mlp2_tp_i_m768_h1536_out768_v7x_i4_f32_1_alg».proof.Proof.Bits.Part10
import proofs.«900459_g7700000000000460_dist_mlp2_tp_i_m768_h1536_out768_v7x_i4_f32_1_alg».proof.Proof.Bits.Part11
import proofs.«900459_g7700000000000460_dist_mlp2_tp_i_m768_h1536_out768_v7x_i4_f32_1_alg».proof.Proof.Bits.Part12
import proofs.«900459_g7700000000000460_dist_mlp2_tp_i_m768_h1536_out768_v7x_i4_f32_1_alg».proof.Proof.Bits.Part13
import proofs.«900459_g7700000000000460_dist_mlp2_tp_i_m768_h1536_out768_v7x_i4_f32_1_alg».proof.Proof.Bits.Part14
import proofs.«900459_g7700000000000460_dist_mlp2_tp_i_m768_h1536_out768_v7x_i4_f32_1_alg».proof.Proof.Bits.Part15

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "PART" => part (Xin m) (W1in m) (W2in m)
local notation "OUTH" => outHalf (Xin m) (W1in m) (W2in m)
local notation "COMB0" => comb0 (Xin m) (W1in m) (W2in m)
local notation "COMB1" => comb1 (Xin m) (W1in m) (W2in m)
local notation "OWN" => own (Xin m) (W1in m) (W2in m)
local notation "WP" => wp frame (wpE (defs₀ (F := F)) 𝒱₀ _ none) Set.univ

variable (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 :=
  iprop(Φ₁ (F := F) c ∗ (dats m ρ 0 c).owesAt () t0_0.succ
    ∗ stg c cc0_stg0_0 (Xin m c) ∗ stg c cc0_stg1_0 (W1in m c) ∗ stg c cc0_stg2_0 (W2in m c) ∗ stg c cc0_stg3_0 (outV m))

omit [FloatOps F] in
theorem barPayR_prv (c : Dev nD) : barPayR (F := F) (prv c)
    = iprop(hole c rl1 ∗ hole c rs0 ∗ hole c rs3 ∗ hole c (oS (prv c) 0) ∗ hole c (oS (prv c) 1) ∗ hole c (oS (opp c) 0)) := by
  unfold barPayR; rw [nxt_prv, prv_prv]
omit [FloatOps F] in
theorem barPayL_nxt (c : Dev nD) : barPayL (F := F) (nxt c)
    = iprop(hole c rl0 ∗ hole c rs2 ∗ hole c rs1 ∗ hole c (oS (nxt c) 0) ∗ hole c (oS (nxt c) 1) ∗ hole c (oS (opp c) 1)) := by
  unfold barPayL; rw [prv_nxt, nxt_nxt]

set_option maxHeartbeats 12800000 in
set_option maxRecDepth 16384 in
theorem sound_body (K : Dev nD × Fin 25 → ℕ) (c : Dev nD) :
    iprop(ghost m K c ∗ cred (tallyAt (barCell c) () 2) ∗ recvCreds (F := F) c ∗ levAts L lv ∗ Pipeline.scopedRest cfg0.spec c
        ∗ (dats m ρ 0 c).owesAt () t0_0.castSucc
        ∗ bufAt c cc0_stg0_0 (Xin m c) ∗ bufAt c cc0_stg1_0 (W1in m c) ∗ bufAt c cc0_stg2_0 (W2in m c) ∗ (∃ f, bufAt (F := F) c cc0_stg3_0 f))
      ⊢ wp frame (wpE (defs₀ (F := F)) 𝒱₀ (c : Thread nD τ) none) Set.univ (cc0_body (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10) (fun _ => bodyPost m ρ c) := by
  rw [cc0_body_eq_skeleton]; unfold cc0_body_skel
  simp only [wp_bind]
  unfold ghost positions payToks
  rw [fin24, sendToks_eq, payToksL_eq, recvCreds_eq, scopedRest0_eq]
  iintro ⟨⟨#HR, ⟨HatB, Hat0, Hat1, Hat2, Hat3, Hat4, Hat5, Hat6, Hat7, Hat8, Hat9, Hat10, Hat11, Hat12, Hat13, Hat14, Hat15, Hat16, Hat17, Hat18, Hat19, Hat20, Hat21, Hat22, Hat23⟩, HtBP, HtBN, ⟨Hts0, Hts1, Hts2, Hts3, Hts4, Hts5, Hts12, Hts13, Hts14, Hts15, Hts16, Hts17⟩,
      ⟨Htr10p, Htr11n, Htr6n, Htr8p, Htr9n, Htr7p, Htr20n, Htr18p, Htr21n, Htr19p, Htr23p, Htr22n⟩⟩, HcB,
    ⟨Hc6, Hc7, Hc8, Hc9, Hc10, Hc11, Hc18, Hc19, Hc20, Hc21, Hc22, Hc23⟩, #Hlev,
    ⟨⟨%fs0, Hsc0⟩, ⟨%fs1, Hsc1⟩, ⟨%fs2, Hsc2⟩, ⟨%fs3, Hsc3⟩, Hsc4, Hsc5, Hsc6⟩, Ho, Hx, Hw1, Hw2, ⟨%f3, Hout⟩⟩
  unfold Dat.owesAt Pipeline.owesWithin
  icases Ho with ⟨%W, %hW, HO⟩
  rw [show (dats m ρ 0 c).owed t0_0.castSucc = O₀ c from rfl]
  -- the buffers cut into the windows that change hands
  ihave Hrs := (split_rs c fs1) $$ Hsc1
  icases Hrs with ⟨Hrs0, Hrs1, Hrs2, Hrs3⟩
  ihave Hrl := (split_rl c fs2) $$ Hsc2
  icases Hrl with ⟨Hrl0, Hrl1⟩
  ihave Hcb := (split_cb c fs3) $$ Hsc3
  icases Hcb with ⟨Hcb0, Hcb1⟩
  ihave Hsb := (split_sb c fs0) $$ Hsc0
  icases Hsb with ⟨Hsb0, Hsb1, Hsb2⟩
  ihave Ho8 := (split_out c f3) $$ Hout
  icases Ho8 with ⟨Ho_c0, Ho_c1, Ho_n0, Ho_n1, Ho_p0, Ho_p1, Ho_o0, Ho_o1⟩
  -- part 1: the handshake
  iapply (part1_spec m K c W _)
  isplitr; · iexact HR
  isplitr; · iexact Hlev
  isplitl [HO]; · iexact HO
  isplitl [HtBP]; · iexact HtBP
  isplitl [HtBN]; · iexact HtBN
  isplitl [Hrl1 Hrs0 Hrs3 Ho_p0 Ho_p1 Ho_o0]
  · rw [barPayR_prv]
    isplitl [Hrl1]; · iexact Hrl1
    isplitl [Hrs0]; · iexact Hrs0
    isplitl [Hrs3]; · iexact Hrs3
    isplitl [Ho_p0]; · iexact Ho_p0
    isplitl [Ho_p1]; · iexact Ho_p1
    iexact Ho_o0
  isplitl [Hrl0 Hrs2 Hrs1 Ho_n0 Ho_n1 Ho_o1]
  · rw [barPayL_nxt]
    isplitl [Hrl0]; · iexact Hrl0
    isplitl [Hrs2]; · iexact Hrs2
    isplitl [Hrs1]; · iexact Hrs1
    isplitl [Ho_n0]; · iexact Ho_n0
    isplitl [Ho_n1]; · iexact Ho_n1
    iexact Ho_o1
  isplitl [HcB]; · iexact HcB
  isplitl [HatB]; · iexact HatB
  iintro %v2 %v13 %v24 ⟨HO, HgR, HgL, HatB⟩
  unfold barPayR barPayL
  icases HgR with ⟨HnRl1, HnRs0, HnRs3, HnO0, HnO1, HnOp0⟩
  icases HgL with ⟨HpRl0, HpRs2, HpRs1, HpO0, HpO1, HpOn1⟩
  -- part 2
  iapply (part2_spec m c v2 _)
  isplitl [Hx]; · iexact Hx
  isplitl [Hw1]; · iexact Hw1
  isplitl [Hw2]; · iexact Hw2
  isplitl [Hsc4]; · iexact Hsc4
  isplitl [Hsc5]; · iexact Hsc5
  isplitl [Hsc6]; · iexact Hsc6
  iintro %v52 ⟨Hx, Hw1, Hw2, Hxb, Hw1b, Hw2b⟩
  -- part 3
  iapply (part3_spec m K c v13 v24 _)
  isplitr; · iexact HR
  isplitl [Hw2b]; · iexact Hw2b
  isplitl [Hsb0]; · iexact Hsb0
  isplitl [HpRl0]; · iexact HpRl0
  isplitl [HnRl1]; · iexact HnRl1
  isplitl [HO]; · iexact HO
  isplitl [Hts0]; · iexact Hts0
  isplitl [Hts1]; · iexact Hts1
  isplitl [Htr10p]; · iexact Htr10p
  isplitl [Htr11n]; · iexact Htr11n
  iintro %v93 ⟨Hw2b, HO, Hc0, Hc1⟩
  -- part 4
  iapply (part4_spec m K c v13 v24 v93 _)
  isplitr; · iexact HR
  isplitl [Hxb]; · iexact Hxb
  isplitl [Hw1b]; · iexact Hw1b
  isplitl [Hw2b]; · iexact Hw2b
  isplitl [Hsb1]; · iexact Hsb1
  isplitl [HnRs0]; · iexact HnRs0
  isplitl [HO]; · iexact HO
  isplitl [Hts2]; · iexact Hts2
  isplitl [Htr6n]; · iexact Htr6n
  iintro ⟨Hxb, Hw1b, Hw2b, Hs11, HO, Hc2⟩
  -- part 5
  iapply (part5_spec m K c v2 v24 _)
  isplitr; · iexact HR
  isplitr; · iexact Hlev
  isplitl [Hw2b]; · iexact Hw2b
  isplitl [Hsb2]; · iexact Hsb2
  isplitl [HpRs2]; · iexact HpRs2
  isplitl [HO]; · iexact HO
  isplitl [Hts4]; · iexact Hts4
  isplitl [Htr8p]; · iexact Htr8p
  isplitl [Hc11]; · iexact Hc11
  isplitl [Hat11]; · iexact Hat11
  isplitl [Hs11]; · iexact Hs11
  iintro ⟨Hw2b, Hs20, HO, Hc4, Hat11, Hrl1v, Hs11⟩
  -- part 6
  iapply (part6_spec m K c v2 v13 _)
  isplitr; · iexact HR
  isplitr; · iexact Hlev
  isplitl [Hrl1v]; · iexact Hrl1v
  isplitl [Hcb0]; · iexact Hcb0
  isplitl [HnRs3]; · iexact HnRs3
  isplitl [HO]; · iexact HO
  isplitl [Hts3]; · iexact Hts3
  isplitl [Htr9n]; · iexact Htr9n
  isplitl [Hc10]; · iexact Hc10
  isplitl [Hat10]; · iexact Hat10
  isplitl [Hs20]; · iexact Hs20
  iintro %Lr %hLr ⟨Hrl1v, HO, Hc3, Hat10, Hrl0v, Hs20⟩
  -- part 7
  iapply (part7_spec m K c v2 v24 Lr hLr _)
  isplitr; · iexact HR
  isplitl [Hcb1]; · iexact Hcb1
  isplitl [HpRs1]; · iexact HpRs1
  isplitl [HO]; · iexact HO
  isplitl [Hts5]; · iexact Hts5
  isplitl [Htr7p]; · iexact Htr7p
  isplitl [Hxb]; · iexact Hxb
  isplitl [Hw1b]; · iexact Hw1b
  isplitl [Hw2b]; · iexact Hw2b
  iintro ⟨Hxb, Hw1b, Hw2b, HO, Hc5⟩
  -- part 8
  iapply (part8_spec m K c v2 _)
  isplitr; · iexact HR
  isplitr; · iexact Hlev
  isplitl [HO]; · iexact HO
  isplitl [Hc6]; · iexact Hc6
  isplitl [Hat6]; · iexact Hat6
  isplitl [Hc7]; · iexact Hc7
  isplitl [Hat7]; · iexact Hat7
  isplitl [Ho_c0]; · iexact Ho_c0
  iintro ⟨HO, Hat6, Hat7, Hrs0v, Hrs1v, HoC0⟩
  -- part 9
  iapply (part9_spec m K c v2 v13 v24 _)
  isplitr; · iexact HR
  isplitr; · iexact Hlev
  isplitl [HoC0]; · iexact HoC0
  isplitl [HnO0]; · iexact HnO0
  isplitl [HpO0]; · iexact HpO0
  isplitl [HO]; · iexact HO
  isplitl [Hts12]; · iexact Hts12
  isplitl [Hts14]; · iexact Hts14
  isplitl [Htr20n]; · iexact Htr20n
  isplitl [Htr18p]; · iexact Htr18p
  isplitl [Hc8]; · iexact Hc8
  isplitl [Hat8]; · iexact Hat8
  iintro ⟨HO, Hc12, Hc14, Hat8, Hrs2v⟩
  -- part 10
  iapply (part10_spec m K c v2 v13 _)
  isplitr; · iexact HR
  isplitr; · iexact Hlev
  isplitl [HO]; · iexact HO
  isplitl [Hc9]; · iexact Hc9
  isplitl [Hat9]; · iexact Hat9
  isplitl [Hrs2v]; · iexact Hrs2v
  isplitl [Ho_c1]; · iexact Ho_c1
  iintro ⟨HO, Hat9, Hrs2v, Hrs3v, HoC1⟩
  -- part 11
  iapply (part11_spec m K c v2 v13 v24 _)
  isplitr; · iexact HR
  isplitr; · iexact Hlev
  isplitl [HoC1]; · iexact HoC1
  isplitl [HnO1]; · iexact HnO1
  isplitl [HpO1]; · iexact HpO1
  isplitl [HO]; · iexact HO
  isplitl [Hts13]; · iexact Hts13
  isplitl [Hts15]; · iexact Hts15
  isplitl [Htr21n]; · iexact Htr21n
  isplitl [Htr19p]; · iexact Htr19p
  isplitl [Hc19]; · iexact Hc19
  isplitl [Hat19]; · iexact Hat19
  iintro ⟨HO, Hc13, Hc15, Hat19, HoN1⟩
  -- part 12
  iapply (part12_spec m K c v2 v13 v24 v52 _)
  isplitr; · iexact HR
  isplitr; · iexact Hlev
  isplitl [HoN1]; · iexact HoN1
  isplitl [HpOn1]; · iexact HpOn1
  isplitl [HnOp0]; · iexact HnOp0
  isplitl [HO]; · iexact HO
  isplitl [Hts16]; · iexact Hts16
  isplitl [Hts17]; · iexact Hts17
  isplitl [Htr23p]; · iexact Htr23p
  isplitl [Htr22n]; · iexact Htr22n
  isplitl [Hc20]; · iexact Hc20
  isplitl [Hat20]; · iexact Hat20
  iintro %v357 %w ⟨HO, Hc16, Hc17, Hat20⟩
  -- part 13
  iapply (part13_spec m K c v2 v357 w _)
  isplitr; · iexact HR
  isplitr; · iexact Hlev
  isplitl [HO]; · iexact HO
  isplitl [Hc18]; · iexact Hc18
  isplitl [Hat18]; · iexact Hat18
  isplitl [Hc21]; · iexact Hc21
  isplitl [Hat21]; · iexact Hat21
  isplitl [Hc22]; · iexact Hc22
  isplitl [Hat22]; · iexact Hat22
  isplitl [Hc23]; · iexact Hc23
  isplitl [Hat23]; · iexact Hat23
  iintro ⟨HO, Hat18, Hp18, Hat21, Hp21, Hat22, Hp22, Hat23, Hp23⟩
  -- part 14
  iapply (part14_spec m K c _)
  isplitr; · iexact HR
  isplitr; · iexact Hlev
  isplitl [HO]; · iexact HO
  isplitl [Hc0]; · iexact Hc0
  isplitl [Hat0]; · iexact Hat0
  isplitl [Hc1]; · iexact Hc1
  isplitl [Hat1]; · iexact Hat1
  isplitl [Hc2]; · iexact Hc2
  isplitl [Hat2]; · iexact Hat2
  isplitl [Hc4]; · iexact Hc4
  isplitl [Hat4]; · iexact Hat4
  iintro ⟨HO, Hat0, Hp0, Hat1, Hp1, Hat2, Hp2, Hat4, Hp4⟩
  -- part 15
  iapply (part15_spec m K c _)
  isplitr; · iexact HR
  isplitr; · iexact Hlev
  isplitl [HO]; · iexact HO
  isplitl [Hc3]; · iexact Hc3
  isplitl [Hat3]; · iexact Hat3
  isplitl [Hc5]; · iexact Hc5
  isplitl [Hat5]; · iexact Hat5
  isplitl [Hc12]; · iexact Hc12
  isplitl [Hat12]; · iexact Hat12
  isplitl [Hc14]; · iexact Hc14
  isplitl [Hat14]; · iexact Hat14
  isplitl [Hc13]; · iexact Hc13
  isplitl [Hat13]; · iexact Hat13
  iintro ⟨HO, Hat3, Hp3, Hat5, Hp5, Hat12, Hp12, Hat14, Hp14, Hat13, Hp13⟩
  -- the last three departures
  simp only [Prog.lift, Prog.bind_op, Prog.bind_ret, Prog.pure_eq_ret]
  icases HO with ⟨%W', HO⟩
  iapply (wp_await m K c 15 _ rfl (dst := (oM.slice (Rect.unit (s := S768x768) (k0_off5 c 96#32) S96x768.size (k0_off5_inb c 1)) (fun _ => rfl))) (Ofrom c 12) _ rfl) $$ [Hc15 HO Hat15]
  · isplitr; · iexact HR
    isplitl [Hc15]; · iexact Hc15
    isplitl [HO]; · iexact HO
    isplitr; · iapply (mayWait_from c (.dma (dsem 15)) 12 (pay_above_12 c _)); iexact Hlev
    iexact Hat15
  iintro ⟨HO, Hat15, Hp15⟩
  rw [wp_ret]; imodintro
  iapply (wp_await m K c 16 _ rfl (dst := (oM.slice (Rect.unit (s := S768x768) (k0_off6 c 1#32 96#32) S96x768.size (k0_off6_inb c 0 1)) (fun _ => rfl))) (Ofrom c 12) _ rfl) $$ [Hc16 HO Hat16]
  · isplitr; · iexact HR
    isplitl [Hc16]; · iexact Hc16
    isplitl [HO]; · iexact HO
    isplitr; · iapply (mayWait_from c (.dma (dsem 16)) 12 (pay_above_12 c _)); iexact Hlev
    iexact Hat16
  iintro ⟨HO, Hat16, Hp16⟩
  rw [wp_ret]; imodintro
  iapply (wp_await m K c 17 _ rfl (dst := (oM.slice (Rect.unit (s := S768x768) (k0_off7 c 0#32) S96x768.size (k0_off7_inb c 0)) (fun _ => rfl))) (Ofrom c 12) _ rfl) $$ [Hc17 HO Hat17]
  · isplitr; · iexact HR
    isplitl [Hc17]; · iexact Hc17
    isplitl [HO]; · iexact HO
    isplitr; · iapply (mayWait_from c (.dma (dsem 17)) 12 (pay_above_12 c _)); iexact Hlev
    iexact Hat17
  iintro ⟨HO, Hat17, Hp17⟩
  rw [wp_ret]; imodintro
  rw [wp_ret]
  -- the transfer cells closed
  imod (close_cells m K c) $$ [Hat0 Hat1 Hat2 Hat3 Hat4 Hat5 Hat6 Hat7 Hat8 Hat9 Hat10 Hat11 Hat12 Hat13 Hat14 Hat15 Hat16 Hat17 Hat18 Hat19 Hat20 Hat21 Hat22 Hat23] with Hz
  · isplitr; · iexact HR
    rw [fin24]
    isplitl [Hat0]; · iexact Hat0
    isplitl [Hat1]; · iexact Hat1
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hat8]; · iexact Hat8
    isplitl [Hat9]; · iexact Hat9
    isplitl [Hat10]; · iexact Hat10
    isplitl [Hat11]; · iexact Hat11
    isplitl [Hat12]; · iexact Hat12
    isplitl [Hat13]; · iexact Hat13
    isplitl [Hat14]; · iexact Hat14
    isplitl [Hat15]; · iexact Hat15
    isplitl [Hat16]; · iexact Hat16
    isplitl [Hat17]; · iexact Hat17
    isplitl [Hat18]; · iexact Hat18
    isplitl [Hat19]; · iexact Hat19
    isplitl [Hat20]; · iexact Hat20
    isplitl [Hat21]; · iexact Hat21
    isplitl [Hat22]; · iexact Hat22
    iexact Hat23
  imodintro
  -- what the landings handed back, by name
  ihave Hp0 := (Entails.of_eq (show dmaPay m c 0 = slot c sb00 fullShare (half0 (PART c (opp c))) from rfl)) $$ Hp0
  ihave Hp1 := (Entails.of_eq (show dmaPay m c 1 = slot c sb01 fullShare (half1 (PART c (opp c))) from rfl)) $$ Hp1
  ihave Hp2 := (Entails.of_eq (show dmaPay m c 2 = slot c sb10 fullShare (half0 (PART c (nxt c))) from rfl)) $$ Hp2
  ihave Hp3 := (Entails.of_eq (show dmaPay m c 3 = slot c cb0 fullShare (COMB0 c) from rfl)) $$ Hp3
  ihave Hp4 := (Entails.of_eq (show dmaPay m c 4 = slot c sb21 fullShare (half1 (PART c (prv c))) from rfl)) $$ Hp4
  ihave Hp5 := (Entails.of_eq (show dmaPay m c 5 = slot c cb1 fullShare (COMB1 c) from rfl)) $$ Hp5
  ihave Hp12 := (Entails.of_eq (show dmaPay m c 12 = slot c (oS c 0) fullShare.left (OUTH c 0) from rfl)) $$ Hp12
  ihave Hp13 := (Entails.of_eq (show dmaPay m c 13 = slot c (oS c 1) fullShare.left (OUTH c 1) from rfl)) $$ Hp13
  ihave Hp14 := (Entails.of_eq (show dmaPay m c 14 = slot c (oS c 0) fullShare.right (OUTH c 0) from rfl)) $$ Hp14
  ihave Hp15 := (Entails.of_eq (show dmaPay m c (15 : Fin 24).val = slot c (oS c 1) fullShare.right (OUTH c 1) from rfl)) $$ Hp15
  ihave Hp16 := (Entails.of_eq (show dmaPay m c (16 : Fin 24).val = slot c (oS (nxt c) 1) fullShare (OUTH (nxt c) 1) from rfl)) $$ Hp16
  ihave Hp17 := (Entails.of_eq (show dmaPay m c (17 : Fin 24).val = slot c (oS (prv c) 0) fullShare (OUTH (prv c) 0) from rfl)) $$ Hp17
  ihave Hp18 := (Entails.of_eq (show dmaPay m c 18 = slot c (oS (nxt c) 0) fullShare (OUTH (nxt c) 0) from rfl)) $$ Hp18
  ihave Hp21 := (Entails.of_eq (show dmaPay m c 21 = slot c (oS (prv c) 1) fullShare (OUTH (prv c) 1) from rfl)) $$ Hp21
  ihave Hp22 := (Entails.of_eq (show dmaPay m c 22 = slot c (oS (opp c) 0) fullShare (OUTH (opp c) 0) from rfl)) $$ Hp22
  ihave Hp23 := (Entails.of_eq (show dmaPay m c 23 = slot c (oS (opp c) 1) fullShare (OUTH (opp c) 1) from rfl)) $$ Hp23
  -- the result's eight half-chunks joined
  ihave HoC0 := (slot_halves c (oS c 0) (OUTH c 0)) $$ [Hp12 Hp14]
  · isplitl [Hp12]; · iexact Hp12
    iexact Hp14
  ihave HoC1 := (slot_halves c (oS c 1) (OUTH c 1)) $$ [Hp13 Hp15]
  · isplitl [Hp13]; · iexact Hp13
    iexact Hp15
  ihave Hout := (join_out c (OUTH)) $$ [HoC0 HoC1 Hp18 Hp16 Hp17 Hp21 Hp22 Hp23]
  · rw [out_blocks c]
    dsimp only
    isplitl [HoC0]; · iexact HoC0
    isplitl [HoC1]; · iexact HoC1
    isplitl [Hp18]; · iexact Hp18
    isplitl [Hp16]; · iexact Hp16
    isplitl [Hp17]; · iexact Hp17
    isplitl [Hp21]; · iexact Hp21
    isplitl [Hp22]; · iexact Hp22
    iexact Hp23
  -- the scratch buffers joined
  ihave Hs0 := (join_sb c _ _ _ _ _ _) $$ [Hp0 Hp1 Hp2 Hs11 Hs20 Hp4]
  · isplitl [Hp0]; · iexact Hp0
    isplitl [Hp1]; · iexact Hp1
    isplitl [Hp2]; · iexact Hp2
    isplitl [Hs11]; · iexact Hs11
    isplitl [Hs20]; · iexact Hs20
    iexact Hp4
  ihave Hs1 := (join_rs c _ _ _ _) $$ [Hrs0v Hrs1v Hrs2v Hrs3v]
  · isplitl [Hrs0v]; · iexact Hrs0v
    isplitl [Hrs1v]; · iexact Hrs1v
    isplitl [Hrs2v]; · iexact Hrs2v
    iexact Hrs3v
  ihave Hs2 := (join_rl c _ _) $$ [Hrl0v Hrl1v]
  · isplitl [Hrl0v]; · iexact Hrl0v
    iexact Hrl1v
  ihave Hs3 := (join_cb c _ _) $$ [Hp3 Hp5]
  · isplitl [Hp3]; · iexact Hp3
    iexact Hp5
  unfold bodyPost Φ₁ Dat.owesAt Pipeline.owesWithin
  rw [show (dats m ρ 0 c).owed t0_0.succ = 0 from rfl, scopedRest0_eq]
  isplitl [Hs0 Hs1 Hs2 Hs3 Hxb Hw1b Hw2b Hz]
  · isplitl [Hs0 Hs1 Hs2 Hs3 Hxb Hw1b Hw2b]
    · isplitl [Hs0]; · iexact Hs0
      isplitl [Hs1]; · iexact Hs1
      isplitl [Hs2]; · iexact Hs2
      isplitl [Hs3]; · iexact Hs3
      isplitl [Hxb]; · iexists _; iexact Hxb
      isplitl [Hw1b]; · iexists _; iexact Hw1b
      iexists _; iexact Hw2b
    iexact Hz
  isplitl [HO]
  · iexists (insert (SemLoc.dma (dsem 17), ()) (insert (SemLoc.dma (dsem 16), ()) (insert (SemLoc.dma (dsem 15), ()) W')))
    isplitr; · ipureintro; exact fun _ _ => Or.inl trivial
    iexact HO
  isplitl [Hx]; · iexists _; isplitr; · (ipureintro; rfl)
                  iexact Hx
  isplitl [Hw1]; · iexists _; isplitr; · (ipureintro; rfl)
                   iexact Hw1
  isplitl [Hw2]; · iexists _; isplitr; · (ipureintro; rfl)
                   iexact Hw2
  iexists _; isplitr; · (ipureintro; rfl)
  iexact Hout

omit [FloatOps F] in
theorem block_in0 (f : (main_arg0 : Ref sig .tc).ty.Contents (Elt F)) :
    ((cfg0.win 0).blk t0_0).view.read (Elt F) f = f :=
  Memref.read_access_unit_zero (Elt F) main_arg0 (off := fun a => (cfg0.win 0).index t0_0 a * (cfg0.win 0).size a)
    (funext fun a => Nat.zero_mul _) (fun a => Pipeline.Clip.inb ((cfg0.win 0).hclip (cfg0.grid.coords t0_0) a)) f
omit [FloatOps F] in
theorem block_in1 (f : (main_arg1 : Ref sig .tc).ty.Contents (Elt F)) :
    ((cfg0.win 1).blk t0_0).view.read (Elt F) f = f :=
  Memref.read_access_unit_zero (Elt F) main_arg1 (off := fun a => (cfg0.win 1).index t0_0 a * (cfg0.win 1).size a)
    (funext fun a => Nat.zero_mul _) (fun a => Pipeline.Clip.inb ((cfg0.win 1).hclip (cfg0.grid.coords t0_0) a)) f
omit [FloatOps F] in
theorem block_in2 (f : (main_arg2 : Ref sig .tc).ty.Contents (Elt F)) :
    ((cfg0.win 2).blk t0_0).view.read (Elt F) f = f :=
  Memref.read_access_unit_zero (Elt F) main_arg2 (off := fun a => (cfg0.win 2).index t0_0 a * (cfg0.win 2).size a)
    (funext fun a => Nat.zero_mul _) (fun a => Pipeline.Clip.inb ((cfg0.win 2).hclip (cfg0.grid.coords t0_0) a)) f

set_option maxRecDepth 4000 in
def bodyPre' (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

set_option maxRecDepth 8000 in
set_option maxHeartbeats 3200000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (F := F) xM (Memref.isWhole_whole _) w1M (Memref.isWhole_whole _) w2M (Memref.isWhole_whole _) oM (Memref.isWhole_whole _) sbM (Memref.isWhole_whole _) rsM (Memref.isWhole_whole _) rlM (Memref.isWhole_whole _) cbM (Memref.isWhole_whole _) xbM (Memref.isWhole_whole _) w1bM (Memref.isWhole_whole _) w2bM (Memref.isWhole_whole _) cc0_scratch7 cc0_scratch8 cc0_scratch9 cc0_scratch10) (fun _ => bodyPost m ρ c)
  unfold bodyPre' Φ₀ start
  iintro ⟨⟨⟨⟨%K, Hg⟩, HcB, Hrc, Hlev⟩, Hsr⟩, Ho, ⟨%d0, %g0, %hg0, Hx⟩, ⟨%d1, %g1, %hg1, Hw1⟩, ⟨%d2, %g2, %hg2, Hw2⟩, ⟨%d3, %g3, %hg3, Hout⟩⟩
  have hx : g0 = Xin m c := by
    rw [hg0]; unfold Dat.before; rw [if_pos (fetch0_0 t0_0)]
    exact (show (dats m ρ 0 c).fetched 0 t0_0 d0 = ((cfg0.win 0).blk t0_0).view.read (Elt F) ((dats m ρ 0 c).A 0) from rfl).trans (block_in0 _)
  have hw1 : g1 = W1in m c := by
    rw [hg1]; unfold Dat.before; rw [if_pos (fetch0_1 t0_0)]
    exact (show (dats m ρ 0 c).fetched 1 t0_0 d1 = ((cfg0.win 1).blk t0_0).view.read (Elt F) ((dats m ρ 0 c).A 1) from rfl).trans (block_in1 _)
  have hw2 : g2 = W2in m c := by
    rw [hg2]; unfold Dat.before; rw [if_pos (fetch0_2 t0_0)]
    exact (show (dats m ρ 0 c).fetched 2 t0_0 d2 = ((cfg0.win 2).blk t0_0).view.read (Elt F) ((dats m ρ 0 c).A 2) from rfl).trans (block_in2 _)
  subst hx hw1 hw2
  iapply (sound_body m ρ K c)
  isplitl [Hg]; · iexact Hg
  isplitl [HcB]; · iexact HcB
  isplitl [Hrc]; · iexact Hrc
  isplitl [Hlev]; · iexact Hlev
  isplitl [Hsr]; · iexact Hsr
  isplitl [Ho]; · iexact Ho
  isplitl [Hx]; · iexact Hx
  isplitl [Hw1]; · iexact Hw1
  isplitl [Hw2]; · iexact Hw2
  iexists g3; iexact Hout

/-- info: 'Cert.KernelProof.body_obligation' depends on axioms: [propext, Classical.choice, Quot.sound] -/
#guard_msgs in #print axioms body_obligation

end Cert.KernelProof

end
-- ==== Proof.Bits.Launch.lean ====
/-
  The launch of the kernel on the ring of four devices: the ghost state of the protocol dealt to the devices (every cell's
  invariant allocated under one update, each duty's token handed to the device that pays it, the credit for what the
  neighbours owe a device's cells), the side conditions of the pipeline's launch theorem, the run of the whole program
  from each device's body, and the arrays' contents after it.
-/
import proofs.«900459_g7700000000000460_dist_mlp2_tp_i_m768_h1536_out768_v7x_i4_f32_1_alg».proof.Proof.Bits.Ghost
import proofs.«900459_g7700000000000460_dist_mlp2_tp_i_m768_h1536_out768_v7x_i4_f32_1_alg».proof.Proof.Gen.Kernel.Frame

noncomputable section

namespace Cert.KernelProof

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's 24 transfer semaphores. -/
abbrev osem : Fin 24 → SemLoc sig := fun i => .dma (dsem i)

theorem ownSemFacts : Pipeline.OwnSemFacts cfg0.spec osem := by decide

theorem share_eq (c : Dev nD) (w : Fin cfg0.W) : (dats m ρ 0 c).share w = fullShare := by unfold Dat.share; split <;> rfl

/-! ## The cells and the tokens of the ring -/

omit [FloatOps F] in
theorem dsem_injective : Function.Injective dsem := fun i j h => Fin.ext (by
  have := congrArg Fin.val h; simp only at this; omega)

theorem kcell_injective : Function.Injective (kcell : Dev nD × Fin 25 → GSem nD τ sig) := by
  rintro ⟨c, k⟩ ⟨c', k'⟩ h
  have hd : ∀ (c : Dev nD) (k : Fin 25), (kcell (c, k)).1.1 = c := fun c k => by
    refine Fin.cases ?_ (fun i => ?_) k <;> rfl
  have h1 : c = c' := by
    have := congrArg (fun g : GSem nD τ sig => g.1.1) h
    rw [hd, hd] at this; exact this
  subst h1
  have h2 : (kcell (c, k)).2 = (kcell (c, k')).2 := congrArg Prod.snd h
  have : k = k' := by
    revert h2
    refine Fin.cases ?_ (fun i => ?_) k <;> refine Fin.cases ?_ (fun i' => ?_) k' <;> intro h2
    · rfl
    · exact absurd h2 (by intro h; cases h)
    · exact absurd h2 (by intro h; cases h)
    · exact congrArg Fin.succ (dsem_injective (SemLoc.dma.inj h2))
  subst this; rfl

def ringCells : Finset (GSem nD τ sig) := Finset.univ.map ⟨kcell, kcell_injective⟩

/-- A device's cells' duty tokens as minted: the barrier cell's `true`, then every cell's `false`. -/
abbrev tokOf (cj : Dev nD × Fin 26) : GSem nD τ sig × ℕ × Bool :=
  Fin.cases (barCell cj.1, 0, true) (fun k : Fin 25 => (kcell (cj.1, k), 0, false)) cj.2

theorem tokOf_injective : Function.Injective (tokOf : Dev nD × Fin 26 → GSem nD τ sig × ℕ × Bool) := by
  rintro ⟨c, j⟩ ⟨c', j'⟩ h
  revert h
  refine Fin.cases ?_ (fun k => ?_) j <;> refine Fin.cases ?_ (fun k' => ?_) j' <;> intro h
  · have h1 : c = c' := congrArg (fun x : GSem nD τ sig × ℕ × Bool => x.1.1.1) h
    subst h1; rfl
  · exact absurd (congrArg (fun x : GSem nD τ sig × ℕ × Bool => x.2.2) h) (show ¬(true = false) by decide)
  · exact absurd (congrArg (fun x : GSem nD τ sig × ℕ × Bool => x.2.2) h) (show ¬(false = true) by decide)
  · have := Prod.mk.inj (kcell_injective (congrArg (fun x : GSem nD τ sig × ℕ × Bool => x.1) h))
    have e1 : c = c' := this.1
    have e2 : k = k' := Fin.ext (congrArg Fin.val this.2)
    rw [e1, e2]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 true ∗ bigSep Finset.univ fun k : Fin 25 => dutyTok ER (kcell (c, k)) 0 false)

/-- What the launch element deals device `c`. -/
def G (c : Dev nD) : sProp 𝕄 :=
  iprop((bigSep Finset.univ fun k : Fin 25 => roundState ER (ringRd m) (kcell (c, k)) 0)
    ∗ (bigSep Finset.univ fun k : Fin 25 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
/-- A conjunction over `Fin (n + 1)`: the first, then the rest. -/
theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin_succ]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every device's cells allocated -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [unscopedSems0_eq, bigSep_fin_succ]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the ring -/

/-- One step round the ring. -/
def ringE : Dev nD ≃ Dev nD := ⟨nxt, prv, prv_nxt, nxt_prv⟩

omit [FloatOps F] in
theorem deal_nxt (Φ : Dev nD → sProp 𝕄) : bigSep Finset.univ Φ ⊢ bigSep Finset.univ fun c => Φ (nxt c) :=
  Entails.of_eq (bigSep_univ_equiv ringE Φ)
omit [FloatOps F] in
theorem deal_prv (Φ : Dev nD → sProp 𝕄) : bigSep Finset.univ Φ ⊢ bigSep Finset.univ fun c => Φ (prv c) :=
  Entails.of_eq (bigSep_univ_equiv ringE.symm Φ)

omit [FloatOps F] in
/-- A barrier cell's token `false` goes to the cell's right neighbour, its token `true` to the left one; a send cell's
    token stays; a receive cell's token goes to the neighbour whose copy pays it. -/
theorem toks_around : (bigSep Finset.univ fun c : Dev nD => (toks c : sProp 𝕄)) ⊢ bigSep Finset.univ fun c : Dev nD => payToks c := by
  have e (c : Dev nD) : (toks c : sProp 𝕄) = iprop(dutyTok ER (barCell c) 0 true ∗ dutyTok ER (barCell c) 0 false ∗ dutyTok ER (dcell c 0) 0 false ∗ dutyTok ER (dcell c 1) 0 false ∗ dutyTok ER (dcell c 2) 0 false ∗ dutyTok ER (dcell c 3) 0 false ∗ dutyTok ER (dcell c 4) 0 false ∗ dutyTok ER (dcell c 5) 0 false ∗ dutyTok ER (dcell c 6) 0 false ∗ dutyTok ER (dcell c 7) 0 false ∗ dutyTok ER (dcell c 8) 0 false ∗ dutyTok ER (dcell c 9) 0 false ∗ dutyTok ER (dcell c 10) 0 false ∗ dutyTok ER (dcell c 11) 0 false ∗ dutyTok ER (dcell c 12) 0 false ∗ dutyTok ER (dcell c 13) 0 false ∗ dutyTok ER (dcell c 14) 0 false ∗ dutyTok ER (dcell c 15) 0 false ∗ dutyTok ER (dcell c 16) 0 false ∗ dutyTok ER (dcell c 17) 0 false ∗ dutyTok ER (dcell c 18) 0 false ∗ dutyTok ER (dcell c 19) 0 false ∗ dutyTok ER (dcell c 20) 0 false ∗ dutyTok ER (dcell c 21) 0 false ∗ dutyTok ER (dcell c 22) 0 false ∗ dutyTok ER (dcell c 23) 0 false) := by
    unfold toks
    rw [bigSep_fin_succ, bigSep_univ_eq_bigSepL (List.finRange 24) (by decide) (by decide)]
    rfl
  have e' (c : Dev nD) : (payToks c : sProp 𝕄) = iprop(dutyTok ER (barCell (prv c)) 0 false ∗ dutyTok ER (barCell (nxt c)) 0 true ∗ (dutyTok ER (dcell c 0) 0 false ∗ dutyTok ER (dcell c 1) 0 false ∗ dutyTok ER (dcell c 2) 0 false ∗ dutyTok ER (dcell c 3) 0 false ∗ dutyTok ER (dcell c 4) 0 false ∗ dutyTok ER (dcell c 5) 0 false ∗ dutyTok ER (dcell c 12) 0 false ∗ dutyTok ER (dcell c 13) 0 false ∗ dutyTok ER (dcell c 14) 0 false ∗ dutyTok ER (dcell c 15) 0 false ∗ dutyTok ER (dcell c 16) 0 false ∗ dutyTok ER (dcell c 17) 0 false) ∗ (dutyTok ER (dcell (prv c) 10) 0 false ∗ dutyTok ER (dcell (nxt c) 11) 0 false ∗ dutyTok ER (dcell (nxt c) 6) 0 false ∗ dutyTok ER (dcell (prv c) 8) 0 false ∗ dutyTok ER (dcell (nxt c) 9) 0 false ∗ dutyTok ER (dcell (prv c) 7) 0 false ∗ dutyTok ER (dcell (nxt c) 20) 0 false ∗ dutyTok ER (dcell (prv c) 18) 0 false ∗ dutyTok ER (dcell (nxt c) 21) 0 false ∗ dutyTok ER (dcell (prv c) 19) 0 false ∗ dutyTok ER (dcell (prv c) 23) 0 false ∗ dutyTok ER (dcell (nxt c) 22) 0 false)) := rfl
  rw [bigSep_congr (s := Finset.univ) fun c _ => e c, bigSep_congr (s := Finset.univ) fun c _ => e' c]
  simp only [bigSep_sep']
  iintro ⟨HbT, HbF, H0, H1, H2, H3, H4, H5, H6, H7, H8, H9, H10, H11, H12, H13, H14, H15, H16, H17, H18, H19, H20, H21, H22, H23⟩
  isplitl [HbF]; · iapply (deal_prv fun d : Dev nD => (dutyTok ER (barCell d) 0 false : sProp 𝕄)); iexact HbF
  isplitl [HbT]; · iapply (deal_nxt fun d : Dev nD => (dutyTok ER (barCell d) 0 true : sProp 𝕄)); iexact HbT
  isplitl [H0 H1 H2 H3 H4 H5 H12 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H12]; · iexact H12
    isplitl [H13]; · iexact H13
    isplitl [H14]; · iexact H14
    isplitl [H15]; · iexact H15
    isplitl [H16]; · iexact H16
    iexact H17
  isplitl [H10]; · iapply (deal_prv fun d : Dev nD => (dutyTok ER (dcell d 10) 0 false : sProp 𝕄)); iexact H10
  isplitl [H11]; · iapply (deal_nxt fun d : Dev nD => (dutyTok ER (dcell d 11) 0 false : sProp 𝕄)); iexact H11
  isplitl [H6]; · iapply (deal_nxt fun d : Dev nD => (dutyTok ER (dcell d 6) 0 false : sProp 𝕄)); iexact H6
  isplitl [H8]; · iapply (deal_prv fun d : Dev nD => (dutyTok ER (dcell d 8) 0 false : sProp 𝕄)); iexact H8
  isplitl [H9]; · iapply (deal_nxt fun d : Dev nD => (dutyTok ER (dcell d 9) 0 false : sProp 𝕄)); iexact H9
  isplitl [H7]; · iapply (deal_prv fun d : Dev nD => (dutyTok ER (dcell d 7) 0 false : sProp 𝕄)); iexact H7
  isplitl [H20]; · iapply (deal_nxt fun d : Dev nD => (dutyTok ER (dcell d 20) 0 false : sProp 𝕄)); iexact H20
  isplitl [H18]; · iapply (deal_prv fun d : Dev nD => (dutyTok ER (dcell d 18) 0 false : sProp 𝕄)); iexact H18
  isplitl [H21]; · iapply (deal_nxt fun d : Dev nD => (dutyTok ER (dcell d 21) 0 false : sProp 𝕄)); iexact H21
  isplitl [H19]; · iapply (deal_prv fun d : Dev nD => (dutyTok ER (dcell d 19) 0 false : sProp 𝕄)); iexact H19
  isplitl [H23]; · iapply (deal_prv fun d : Dev nD => (dutyTok ER (dcell d 23) 0 false : sProp 𝕄)); iexact H23
  iapply (deal_nxt fun d : Dev nD => (dutyTok ER (dcell d 22) 0 false : sProp 𝕄)); iexact H22

/-! ## What each device starts from -/

omit [FloatOps F] in
theorem positions_eq (c : Dev nD) : (positions c : sProp 𝕄) = bigSep Finset.univ fun k : Fin 25 => atPos ER (kcell (c, k)) 0 ∅ 0 := by
  unfold positions; exact (bigSep_fin_succ (fun k : Fin 25 => (atPos ER (kcell (c, k)) 0 ∅ 0 : sProp 𝕄))).symm

theorem ghost_intro (K : Dev nD × Fin 25 → ℕ) (c : Dev nD) :
    iprop(records m K ∗ (bigSep Finset.univ fun k : Fin 25 => atPos ER (kcell (c, k)) 0 ∅ 0) ∗ payToks c) ⊢ G' m c := by
  unfold G' ghost
  rw [positions_eq]
  iintro ⟨#HR, Hp, Ht⟩
  iexists K
  isplitr; · iexact HR
  isplitl [Hp] <;> iassumption

omit [FloatOps F] in
theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (ringRd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (ringRd m) κ (kcell ck) : sProp 𝕄))) $$ HI
  icases HK with ⟨%K, #HI⟩
  ihave Htk := (toks_around (F := F)) $$ Htok
  iapply (bigSep_with_persistent' (R := records m K) fun c _ => ghost_intro m K c)
  isplitr
  · unfold records; isplitl; · iexact HI
    iexact HR
  · iapply (Entails.of_eq (bigSep_sep' Finset.univ (fun c : Dev nD => bigSep Finset.univ fun k : Fin 25 => (atPos ER (kcell (c, k)) 0 ∅ 0 : sProp 𝕄)) payToks).symm)
    isplitl [Hat]; · iexact Hat
    iexact Htk

/-- The global step: every device's own semaphores and barrier semaphore at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What a device owes at launch, term by term: its twelve copies (the last first), then the two barrier signals. -/
theorem O₀_eq : (O₀ : Dev nD → CellTallies nD τ sig Unit) = fun d =>
    (((((((((((((0 + tallyAt (dcell (nxt d) 22) () N) + tallyAt (dcell (prv d) 23) () N) + tallyAt (dcell (prv d) 19) () N) + tallyAt (dcell (nxt d) 21) () N) + tallyAt (dcell (prv d) 18) () N) + tallyAt (dcell (nxt d) 20) () N) + tallyAt (dcell (prv d) 7) () N) + tallyAt (dcell (nxt d) 9) () N) + tallyAt (dcell (prv d) 8) () N) + tallyAt (dcell (nxt d) 6) () N) + tallyAt (dcell (nxt d) 11) () N) + tallyAt (dcell (prv d) 10) () N) + tallyAt (barCell (nxt d)) () 1) + tallyAt (barCell (prv d)) () 1 := funext fun d => rfl

omit [FloatOps F] in
/-- What the others owe device `c`'s cells: two units on its barrier cell (one from each neighbour) and a half-chunk's
    credit on each of its twelve receive cells (from the neighbour whose copy pays it). -/
theorem creds (c : Dev nD) :
    (Pipeline.launchCred O₀ c : sProp 𝕄) ⊢ iprop(cred (tallyAt (barCell c) () 2) ∗ recvCreds c) := by
  have hbar : iprop(cred (tallyAt (barCell c) () 1) ∗ cred (tallyAt (barCell c) () 1)) ⊢ (cred (tallyAt (barCell c) () 2) : sProp 𝕄) := by
    rw [show (tallyAt (barCell c) () 2 : CellTallies nD τ sig Unit) = tallyAt (barCell c) () 1 + tallyAt (barCell c) () 1 from (tallyAt_add _ _ 1 1).symm]
    exact (cred_add _ _).2
  have e : (recvCreds c : sProp 𝕄) = iprop(cred (tallyAt (dcell c 6) () N) ∗ cred (tallyAt (dcell c 7) () N) ∗ cred (tallyAt (dcell c 8) () N) ∗ cred (tallyAt (dcell c 9) () N) ∗ cred (tallyAt (dcell c 10) () N) ∗ cred (tallyAt (dcell c 11) () N) ∗ cred (tallyAt (dcell c 18) () N) ∗ cred (tallyAt (dcell c 19) () N) ∗ cred (tallyAt (dcell c 20) () N) ∗ cred (tallyAt (dcell c 21) () N) ∗ cred (tallyAt (dcell c 22) () N) ∗ cred (tallyAt (dcell c 23) () N)) := rfl
  rw [O₀_eq, e]
  simp only [Pipeline.launchCred_add]
  iintro ⟨⟨⟨⟨⟨⟨⟨⟨⟨⟨⟨⟨⟨⟨Hz, H22⟩, H23⟩, H19⟩, H21⟩, H18⟩, H20⟩, H7⟩, H9⟩, H8⟩, H6⟩, H11⟩, H10⟩, HbN⟩, HbP⟩
  ihave CbN := (Pipeline.launchCred_tallyAt (Val := Elt F) (Name := ℕ) (U := UU) (Lvl := ℕ) (SemLoc.reg barS) nxt prv nxt_prv prv_nxt () 1 c) $$ HbN
  ihave CbP := (Pipeline.launchCred_tallyAt (Val := Elt F) (Name := ℕ) (U := UU) (Lvl := ℕ) (SemLoc.reg barS) prv nxt prv_nxt nxt_prv () 1 c) $$ HbP
  ihave C6 := (Pipeline.launchCred_tallyAt (Val := Elt F) (Name := ℕ) (U := UU) (Lvl := ℕ) (SemLoc.dma (dsem 6)) nxt prv nxt_prv prv_nxt () N c) $$ H6
  ihave C7 := (Pipeline.launchCred_tallyAt (Val := Elt F) (Name := ℕ) (U := UU) (Lvl := ℕ) (SemLoc.dma (dsem 7)) prv nxt prv_nxt nxt_prv () N c) $$ H7
  ihave C8 := (Pipeline.launchCred_tallyAt (Val := Elt F) (Name := ℕ) (U := UU) (Lvl := ℕ) (SemLoc.dma (dsem 8)) prv nxt prv_nxt nxt_prv () N c) $$ H8
  ihave C9 := (Pipeline.launchCred_tallyAt (Val := Elt F) (Name := ℕ) (U := UU) (Lvl := ℕ) (SemLoc.dma (dsem 9)) nxt prv nxt_prv prv_nxt () N c) $$ H9
  ihave C10 := (Pipeline.launchCred_tallyAt (Val := Elt F) (Name := ℕ) (U := UU) (Lvl := ℕ) (SemLoc.dma (dsem 10)) prv nxt prv_nxt nxt_prv () N c) $$ H10
  ihave C11 := (Pipeline.launchCred_tallyAt (Val := Elt F) (Name := ℕ) (U := UU) (Lvl := ℕ) (SemLoc.dma (dsem 11)) nxt prv nxt_prv prv_nxt () N c) $$ H11
  ihave C18 := (Pipeline.launchCred_tallyAt (Val := Elt F) (Name := ℕ) (U := UU) (Lvl := ℕ) (SemLoc.dma (dsem 18)) prv nxt prv_nxt nxt_prv () N c) $$ H18
  ihave C19 := (Pipeline.launchCred_tallyAt (Val := Elt F) (Name := ℕ) (U := UU) (Lvl := ℕ) (SemLoc.dma (dsem 19)) prv nxt prv_nxt nxt_prv () N c) $$ H19
  ihave C20 := (Pipeline.launchCred_tallyAt (Val := Elt F) (Name := ℕ) (U := UU) (Lvl := ℕ) (SemLoc.dma (dsem 20)) nxt prv nxt_prv prv_nxt () N c) $$ H20
  ihave C21 := (Pipeline.launchCred_tallyAt (Val := Elt F) (Name := ℕ) (U := UU) (Lvl := ℕ) (SemLoc.dma (dsem 21)) nxt prv nxt_prv prv_nxt () N c) $$ H21
  ihave C22 := (Pipeline.launchCred_tallyAt (Val := Elt F) (Name := ℕ) (U := UU) (Lvl := ℕ) (SemLoc.dma (dsem 22)) nxt prv nxt_prv prv_nxt () N c) $$ H22
  ihave C23 := (Pipeline.launchCred_tallyAt (Val := Elt F) (Name := ℕ) (U := UU) (Lvl := ℕ) (SemLoc.dma (dsem 23)) prv nxt prv_nxt nxt_prv () N c) $$ H23
  isplitl [CbN CbP]
  · iapply hbar; isplitl [CbN] <;> iassumption
  isplitl [C6]; · iexact C6
  isplitl [C7]; · iexact C7
  isplitl [C8]; · iexact C8
  isplitl [C9]; · iexact C9
  isplitl [C10]; · iexact C10
  isplitl [C11]; · iexact C11
  isplitl [C18]; · iexact C18
  isplitl [C19]; · iexact C19
  isplitl [C20]; · iexact C20
  isplitl [C21]; · iexact C21
  isplitl [C22]; · iexact C22
  iexact C23

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H2, HN⟩
  imodintro
  unfold start G'
  isplitl
  · isplitl [HG]; · iexact HG
    isplitl [H2]; · iexact H2
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl]
  unfold Φ₁ Pipeline.ownSems0
  iintro ⟨Hr, Hz⟩
  isplitr; · iempintro
  isplitl [Hz]; · iexact Hz
  iexact Hr

omit [FloatOps F] in
theorem lvl_recv : ∀ i ∈ recvIdx, 1 ≤ lvl (SemLoc.dma (dsem i) : SemLoc sig) := by decide

omit [FloatOps F] in
/-- Everything a device owes at launch sits at level 1 or above. -/
theorem owed_lvl (c : Dev nD) (g : GSem nD τ sig) (u : Unit) (h : 0 < O₀ c g u) : g.1.2 = .tc ∧ 1 ≤ lvl g.2 := by
  unfold O₀ O₁ at h
  rcases Pipeline.add_pos_cases h with h | h
  · rcases Pipeline.add_pos_cases h with h | h
    · have hm : g ∈ payCells c := owedL_pos h
      clear h
      unfold payCells at hm
      simp only [List.mem_cons, List.not_mem_nil, or_false] at hm
      rcases hm with rfl | rfl | rfl | rfl | rfl | rfl | rfl | rfl | rfl | rfl | rfl | rfl <;> exact ⟨rfl, lvl_recv _ (by decide)⟩
    · rw [tallyAt_apply] at h
      by_cases e : g = barCell (nxt c) ∧ u = ()
      · rw [e.1]; exact ⟨rfl, Nat.le_refl 1⟩
      · rw [if_neg e] at h; exact absurd h (Nat.lt_irrefl 0)
  · rw [tallyAt_apply] at h
    by_cases e : g = barCell (prv c) ∧ u = ()
    · rw [e.1]; exact ⟨rfl, Nat.le_refl 1⟩
    · rw [if_neg e] at h; exact absurd h (Nat.lt_irrefl 0)

theorem waits (c : Dev nD) : (levAts L lv : sProp 𝕄) ⊢ Pipeline.cellsWaits cfgs (dats m ρ) () 0 c :=
  Pipeline.cellsWaits_intro cfgs (dats m ρ) () 0 c fun w s t =>
    Pipeline.mayWait_of_levAts (by rw [L_tc]; exact Finset.mem_singleton_self _) fun g u hg => by
      have hs : lvl (SemLoc.dma (((cfgs 0).win w).sem s)) = 0 := by fin_cases w <;> fin_cases s <;> rfl
      rcases t with ⟨_ | _, ht⟩
      · have hm := owed_lvl c g u hg
        exact ⟨by unfold L; rw [if_pos hm.1]; exact Finset.mem_singleton_self _, by
          show lvl (SemLoc.dma (((cfgs 0).win w).sem s)) < lvl g.2
          rw [hs]; exact hm.2⟩
      · exact absurd hg (Nat.lt_irrefl 0)

/-! ## The run -/

/-- Every window's array ends at what the proof data say. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the compiled mesh of four devices, for any float values, from any memory with zero counters: given each device's
    body, every weakly fair execution of the program — the four kernels handshaking on the barrier semaphore, then
    copying half-chunks round the ring — terminates, and every final state has each window's array at the computed
    contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays after the run -/

/-- The result array after the one point: the write-back of the whole-array block puts what the body left in the staging
    buffer, the finished result, in place of what the array held. -/
theorem final_out (c : Dev nD) : (dats m ρ 0 c).arrAt 3 cfg0.N = outV m := by
  show (dats m ρ 0 c).arrAt 3 ((t0_0 : Fin cfg0.N).val + 1) = _
  rw [Dat.arrAt_succ, flush0_3, if_pos rfl]
  have h := View.read_write_univ (v := ((cfg0.win 3).blk t0_0).view) ((dats m ρ 0 c).arrAt 3 ↑t0_0) ((dats m ρ 0 c).flushed 3 t0_0)
  have h2 := Memref.read_access_unit_zero (Elt F) main_v1 (off := fun a => (cfg0.win 3).index t0_0 a * (cfg0.win 3).size a)
    (funext fun a => Nat.zero_mul _) (fun a => Pipeline.Clip.inb ((cfg0.win 3).hclip (cfg0.grid.coords t0_0) a))
    (View.write (Elt F) ((cfg0.win 3).blk t0_0).view ((dats m ρ 0 c).arrAt 3 ↑t0_0) ((dats m ρ 0 c).flushed 3 t0_0) Finset.univ)
  exact h2.symm.trans (h.trans rfl)

/-- The whole program's run with the arrays named: every device's result array ends as the finished result, its three
    argument arrays as launched. -/
theorem run_vals (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outV m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 3).trans (final_out m ρ c),
      (h c 0).trans ((dats m ρ 0 c).arrAt_in 0 rfl _),
      (h c 1).trans ((dats m ρ 0 c).arrAt_in 1 rfl _),
      (h c 2).trans ((dats m ρ 0 c).arrAt_in 2 rfl _)⟩) (run_main m ρ hbody)

/-- info: 'Cert.KernelProof.run_vals' depends on axioms: [propext, Classical.choice, Quot.sound] -/
#guard_msgs in #print axioms run_vals

end Cert.KernelProof

end
-- ==== Proof.lean ====
/-
  The five claims of the certificate.

  The kernel runs on a ring of four devices. Each device holds its own copy of `x`, one block of 1536 columns of `W1` and the
  matching block of rows of `W2`; for every chunk of 192 rows of `x` it forms the partial product `relu (x · W1_d) · W2_d`; the
  four partial products of a chunk are added on the chunk's own device — two of them pre-added by a neighbour on the way —, one
  half of 96 rows at a time, and the eight finished half-chunks are copied around the ring until every device holds the whole
  result. The devices first meet on the barrier semaphore (each signals both neighbours and waits for two units), then make twelve
  remote copies each; a wait is allowed only below everything the waiter still owes, which orders the waits and rules out a
  deadlock. Over the extended reals the sum over the four devices' blocks of the hidden axis is the reference's sum over the whole
  hidden axis, in any order of addition.

  The same argument, read at the word-level instance, gives the printed kernel's frame; the idealized kernel's frame and the value
  claim are its ideal instance; the reference's frame is its run read back; no operation was rewritten by the idealization.
-/
import proofs.«900459_g7700000000000460_dist_mlp2_tp_i_m768_h1536_out768_v7x_i4_f32_1_alg».proof.Defs
import proofs.«900459_g7700000000000460_dist_mlp2_tp_i_m768_h1536_out768_v7x_i4_f32_1_alg».proof.Proof.Gen.Kernel
import proofs.«900459_g7700000000000460_dist_mlp2_tp_i_m768_h1536_out768_v7x_i4_f32_1_alg».proof.Proof.Gen.KernelIdeal
import proofs.«900459_g7700000000000460_dist_mlp2_tp_i_m768_h1536_out768_v7x_i4_f32_1_alg».proof.Proof.Gen.ReferenceIdeal
import proofs.«900459_g7700000000000460_dist_mlp2_tp_i_m768_h1536_out768_v7x_i4_f32_1_alg».proof.Proof.Gen.Pre_finite_inputs_Kernel
import proofs.«900459_g7700000000000460_dist_mlp2_tp_i_m768_h1536_out768_v7x_i4_f32_1_alg».proof.Proof.Gen.Pre_finite_inputs_ReferenceIdeal
import proofs.«900459_g7700000000000460_dist_mlp2_tp_i_m768_h1536_out768_v7x_i4_f32_1_alg».proof.Proof.RefValue
import proofs.«900459_g7700000000000460_dist_mlp2_tp_i_m768_h1536_out768_v7x_i4_f32_1_alg».proof.Proof.Body
import proofs.«900459_g7700000000000460_dist_mlp2_tp_i_m768_h1536_out768_v7x_i4_f32_1_alg».proof.Proof.Launch
import proofs.«900459_g7700000000000460_dist_mlp2_tp_i_m768_h1536_out768_v7x_i4_f32_1_alg».proof.Proof.Final
import proofs.«900459_g7700000000000460_dist_mlp2_tp_i_m768_h1536_out768_v7x_i4_f32_1_alg».proof.Proof.Bits.Body
import proofs.«900459_g7700000000000460_dist_mlp2_tp_i_m768_h1536_out768_v7x_i4_f32_1_alg».proof.Proof.Bits.Launch
import Idealize.ShloMosaic.Adequacy
import Idealize.ShloMosaic.Init

noncomputable section

namespace Cert.Proof

open Idealize.ShloMosaic Idealize.SL.Sem

/-- The printed kernel, at the word level: it terminates on every fair schedule, faults nowhere, and leaves its three argument
    blocks as they were. -/
theorem frame_k : Cert.frame_Kernel := fun m ρ _ =>
  (θ_run (Cert.Kernel.defs (F := Bits)) _ _).mono (fun _ h c => (h c).2)
    (Cert.KernelProof.run_vals (F := Bits) m ρ (Cert.KernelProof.body_obligation m ρ))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k,
  Cert.Proof.Final.frame_ki (fun m ρ c => Cert.KernelIdealProof.body_obligation m ρ c),
  Cert.Proof.RefValue.frame_ri,
  Cert.Proof.Final.preserves,
  Cert.Proof.Final.algebraic (fun m ρ c => Cert.KernelIdealProof.body_obligation m ρ c)⟩

end Cert.Proof

end
